-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x64 : Shape := ⟨2, ![400000, 64]⟩
abbrev S16x128 : Shape := ⟨2, ![16, 128]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S16x128 : S_.BroadcastsInDim S16x128 (![] : Fin 0 → Fin S16x128.rank)
  reducesTo_S16x128_S_d0_1 : S16x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part7 {F : FTy → Type} [FloatOps F] (main_arg27 : FVec F S128x128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg23 : FVec F S128x128 .f32) (main_arg24 : FVec F S128 .f32) (main_arg25 : FVec F S128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x128 .f32) (main_arg1 : IVec S2x400000 32) (main_arg2 : FVec F S400000x64 .f32) (main_arg3 : FVec F S16x128 .f32) (main_arg4 : IVec S50000 32) (main_arg5 : FVec F S64x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128 .f32) (main_arg26 : FVec F S128 .f32) (main_arg27 : FVec F S128x128 .f32) (main_arg28 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg2
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x128 : Shape := ⟨2, ![50000, 128]⟩
abbrev S2x400000 : Shape := ⟨2, ![2, 400000]⟩
abbrev S400000x64 : Shape := ⟨2, ![400000, 64]⟩
abbrev S16x128 : Shape := ⟨2, ![16, 128]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S1x128 : Shape := ⟨2, ![1, 128]⟩
abbrev S400000x128 : Shape := ⟨2, ![400000, 128]⟩
abbrev S8000x64 : Shape := ⟨2, ![8000, 64]⟩
abbrev S8000x128 : Shape := ⟨2, ![8000, 128]⟩
abbrev S_ : Shape := ⟨0, ![]⟩
abbrev S400000x1 : Shape := ⟨2, ![400000, 1]⟩
abbrev S4000x128 : Shape := ⟨2, ![4000, 128]⟩
abbrev S16 : Shape := ⟨1, ![16]⟩
abbrev S50000x1 : Shape := ⟨2, ![50000, 1]⟩
abbrev S16x1 : Shape := ⟨2, ![16, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 230
  | .vmem => 38
  | .smem => 0
  | _ => 0

abbrev hbmTy0_0 (i : Nat) : BufTy := match i % 128 with
  | 0 => ⟨S50000x128, .f32⟩
  | 1 => ⟨S2x400000, .i32⟩
  | 2 => ⟨S400000x64, .f32⟩
  | 3 => ⟨S16x128, .f32⟩
  | 4 => ⟨S50000, .i32⟩
  | 5 => ⟨S64x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128x128, .f32⟩
  | 24 => ⟨S128, .f32⟩
  | 25 => ⟨S128, .f32⟩
  | 26 => ⟨S128, .f32⟩
  | 27 => ⟨S128x128, .f32⟩
  | 28 => ⟨S128, .f32⟩
  | 29 => ⟨S1x400000, .i32⟩
  | 30 => ⟨S400000, .i32⟩
  | 31 => ⟨S1x400000, .i32⟩
  | 32 => ⟨S400000, .i32⟩
  | 33 => ⟨S128x512, .f32⟩
  | 34 => ⟨S512, .f32⟩
  | 35 => ⟨S1x512, .f32⟩
  | 36 => ⟨S50000x512, .f32⟩
  | 37 => ⟨S50000x128, .f32⟩
  | 38 => ⟨S50000x128, .f32⟩
  | 39 => ⟨S50000x128, .f32⟩
  | 40 => ⟨S50000x128, .f32⟩
  | 41 => ⟨S1x128, .f32⟩
  | 42 => ⟨S1x128, .f32⟩
  | 43 => ⟨S400000x128, .f32⟩
  | 44 => ⟨S400000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x128, .f32⟩
  | 72 => ⟨S400000x128, .f32⟩
  | 73 => ⟨S400000x128, .f32⟩
  | 74 => ⟨S_, .f32⟩
  | 75 => ⟨S50000x128, .f32⟩
  | 76 => ⟨S400000x1, .i32⟩
  | 77 => ⟨S50000x128, .f32⟩
  | 78 => ⟨S50000x128, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000, .i32⟩
  | 88 => ⟨S_, .f32⟩
  | 89 => ⟨S50000, .f32⟩
  | 90 => ⟨S_, .f32⟩
  | 91 => ⟨S16, .f32⟩
  | 92 => ⟨S50000x1, .i32⟩
  | 93 => ⟨S16, .f32⟩
  | 94 => ⟨S_, .f32⟩
  | 95 => ⟨S16, .f32⟩
  | 96 => ⟨S16, .f32⟩
  | 97 => ⟨S_, .f32⟩
  | 98 => ⟨S16x128, .f32⟩
  | 99 => ⟨S50000x1, .i32⟩
  | 100 => ⟨S16x128, .f32⟩
  | 101 => ⟨S16x1, .f32⟩
  | 102 => ⟨S16x128, .f32⟩
  | 103 => ⟨S16x128, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S16x128, .f32⟩
  | 120 => ⟨S50000x1, .i32⟩
  | 121 => ⟨S16x128, .f32⟩
  | 122 => ⟨S16x1, .f32⟩
  | 123 => ⟨S16x128, .f32⟩
  | 124 => ⟨S16x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S16x128, .f32⟩
  | 2 => ⟨S16x128, .f32⟩
  | 3 => ⟨S16x128, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S400000, .f32⟩
  | 19 => ⟨S_, .f32⟩
  | 20 => ⟨S16, .f32⟩
  | 21 => ⟨S400000x1, .i32⟩
  | 22 => ⟨S16, .f32⟩
  | 23 => ⟨S_, .f32⟩
  | 24 => ⟨S16, .f32⟩
  | 25 => ⟨S16, .f32⟩
  | 26 => ⟨S_, .f32⟩
  | 27 => ⟨S16x128, .f32⟩
  | 28 => ⟨S400000x1, .i32⟩
  | 29 => ⟨S16x128, .f32⟩
  | 30 => ⟨S16x1, .f32⟩
  | 31 => ⟨S16x128, .f32⟩
  | 32 => ⟨S16x128, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S1x128, .f32⟩
  | 43 => ⟨S400000x128, .f32⟩
  | 44 => ⟨S400000x128, .f32⟩
  | 45 => ⟨S400000x128, .f32⟩
  | 46 => ⟨S400000x128, .f32⟩
  | 47 => ⟨S_, .f32⟩
  | 48 => ⟨S16x128, .f32⟩
  | 49 => ⟨S400000x1, .i32⟩
  | 50 => ⟨S16x128, .f32⟩
  | 51 => ⟨S16x1, .f32⟩
  | 52 => ⟨S16x128, .f32⟩
  | 53 => ⟨S16x128, .f32⟩
  | 54 => ⟨S1x128, .f32⟩
  | 55 => ⟨S400000x128, .f32⟩
  | 56 => ⟨S400000x128, .f32⟩
  | 57 => ⟨S_, .f32⟩
  | 58 => ⟨S16x128, .f32⟩
  | 59 => ⟨S16x128, .f32⟩
  | 60 => ⟨S16x128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S400000x128, .f32⟩
  | 71 => ⟨S1x128, .f32⟩
  | 72 => ⟨S400000x128, .f32⟩
  | 73 => ⟨S400000x128, .f32⟩
  | 74 => ⟨S_, .f32⟩
  | 75 => ⟨S50000x128, .f32⟩
  | 76 => ⟨S50000x128, .f32⟩
  | 77 => ⟨S_, .f32⟩
  | 78 => ⟨S400000x128, .f32⟩
  | 79 => ⟨S400000x128, .f32⟩
  | 80 => ⟨S_, .f32⟩
  | 81 => ⟨S16x128, .f32⟩
  | 82 => ⟨S16x128, .f32⟩
  | 83 => ⟨S16x128, .f32⟩
  | 84 => ⟨S1x128, .f32⟩
  | 85 => ⟨S16x128, .f32⟩
  | 86 => ⟨S16x128, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x128, .f32⟩
  | 96 => ⟨S400000x128, .f32⟩
  | 97 => ⟨S50000x128, .f32⟩
  | 98 => ⟨S1x128, .f32⟩
  | 99 => ⟨S1x128, .f32⟩
  | 100 => ⟨S1x128, .f32⟩
  | 101 => ⟨S400000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S8000x64, .f32⟩
  | .local _ .vmem, ⟨7, _⟩ => ⟨S8000x64, .f32⟩
  | .local _ .vmem, ⟨8, _⟩ => ⟨S64x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14_0 : Ref sig .tc := ⟨.hbm, 43, rfl⟩
abbrev main_v14_1 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_v22 : Ref sig .tc := ⟨.hbm, 55, rfl⟩
abbrev main_v23 : Ref sig .tc := ⟨.hbm, 56, rfl⟩
abbrev main_c_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_cst : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_5 : Ref sig .tc := ⟨.hbm, 79, rfl⟩
abbrev main_v41 : Ref sig .tc := ⟨.hbm, 80, rfl⟩
abbrev main_v42 : Ref sig .tc := ⟨.hbm, 81, rfl⟩
abbrev main_c_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_7 : Ref sig .tc := ⟨.hbm, 88, rfl⟩
abbrev main_v48 : Ref sig .tc := ⟨.hbm, 89, rfl⟩
abbrev main_cst_8 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_9 : Ref sig .tc := ⟨.hbm, 94, rfl⟩
abbrev main_v52 : Ref sig .tc := ⟨.hbm, 95, rfl⟩
abbrev main_v53 : Ref sig .tc := ⟨.hbm, 96, rfl⟩
abbrev main_cst_10 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_11 : Ref sig .tc := ⟨.hbm, 104, rfl⟩
abbrev main_v60 : Ref sig .tc := ⟨.hbm, 105, rfl⟩
abbrev main_v61 : Ref sig .tc := ⟨.hbm, 106, rfl⟩
abbrev main_c_12 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_13 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_14 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_15 : Ref sig .tc := ⟨.hbm, 132, rfl⟩
abbrev main_v84 : Ref sig .tc := ⟨.hbm, 133, rfl⟩
abbrev main_v85 : Ref sig .tc := ⟨.hbm, 134, rfl⟩
abbrev main_c_16 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_17 : Ref sig .tc := ⟨.hbm, 145, rfl⟩
abbrev main_v95 : Ref sig .tc := ⟨.hbm, 146, rfl⟩
abbrev main_cst_18 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_19 : Ref sig .tc := ⟨.hbm, 151, rfl⟩
abbrev main_v99 : Ref sig .tc := ⟨.hbm, 152, rfl⟩
abbrev main_v100 : Ref sig .tc := ⟨.hbm, 153, rfl⟩
abbrev main_cst_20 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_21 : Ref sig .tc := ⟨.hbm, 161, rfl⟩
abbrev main_v107 : Ref sig .tc := ⟨.hbm, 162, rfl⟩
abbrev main_v108 : Ref sig .tc := ⟨.hbm, 163, rfl⟩
abbrev main_c_22 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_23 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_24 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_25 : Ref sig .tc := ⟨.hbm, 189, rfl⟩
abbrev main_v131 : Ref sig .tc := ⟨.hbm, 190, rfl⟩
abbrev main_v132 : Ref sig .tc := ⟨.hbm, 191, rfl⟩
abbrev main_c_26 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_call0_cst : Ref sig .tc := ⟨.hbm, 202, rfl⟩
abbrev main_call0_v0 : Ref sig .tc := ⟨.hbm, 203, rfl⟩
abbrev main_v142 : Ref sig .tc := ⟨.hbm, 204, rfl⟩
abbrev main_call1_cst : Ref sig .tc := ⟨.hbm, 205, rfl⟩
abbrev main_call1_v0 : Ref sig .tc := ⟨.hbm, 206, rfl⟩
abbrev main_v143 : Ref sig .tc := ⟨.hbm, 207, rfl⟩
abbrev main_call2_cst : Ref sig .tc := ⟨.hbm, 208, rfl⟩
abbrev main_call2_v0 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_27 : Ref sig .tc := ⟨.hbm, 215, rfl⟩
abbrev main_v149 : Ref sig .tc := ⟨.hbm, 216, rfl⟩
abbrev main_v150 : Ref sig .tc := ⟨.hbm, 217, rfl⟩
abbrev main_c_28 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  bcast_S_S400000 : S_.BroadcastsInDim S400000 (![] : Fin 0 → Fin S400000.rank)
  bcast_S400000_S400000x1_0 : S400000.BroadcastsInDim S400000x1 (![0] : Fin 1 → Fin S400000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  bcast_S_S50000 : S_.BroadcastsInDim S50000 (![] : Fin 0 → Fin S50000.rank)
  bcast_S_S16 : S_.BroadcastsInDim S16 (![] : Fin 0 → Fin S16.rank)
  bcast_S50000_S50000x1_0 : S50000.BroadcastsInDim S50000x1 (![0] : Fin 1 → Fin S50000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1x128_S16x128_0_1 : S1x128.BroadcastsInDim S16x128 (![0, 1] : Fin 2 → Fin S16x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  dot_S2000x128_S128x512_S2000x512_1_0_0_1_n_n_wf : DotDims.WF S2000x128 S128x512 S2000x512 [1] [0] [0] [1] [] []
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S50000_S400000x1_S400000_n_0_n_n_0_1_1_wf : GatherDims.WF S50000 S400000x1 S400000 [] [0] [] [0] [] 1 ![1]
  scatter_S16_S50000x1_S50000_n_0_0_1_wf : ScatterDims.WF S16 S50000x1 S50000 [] [0] [0] 1
  scatter_S16x128_S50000x1_S50000x128_1_0_0_1_wf : ScatterDims.WF S16x128 S50000x1 S50000x128 [1] [0] [0] 1
  gather_S16x128_S50000x1_S50000x128_1_0_n_n_0_1_1128_wf : GatherDims.WF S16x128 S50000x1 S50000x128 [1] [0] [] [0] [] 1 ![1, 128]
  scatter_S16_S400000x1_S400000_n_0_0_1_wf : ScatterDims.WF S16 S400000x1 S400000 [] [0] [0] 1
  scatter_S16x128_S400000x1_S400000x128_1_0_0_1_wf : ScatterDims.WF S16x128 S400000x1 S400000x128 [1] [0] [0] 1
  gather_S16x128_S400000x1_S400000x128_1_0_n_n_0_1_1128_wf : GatherDims.WF S16x128 S400000x1 S400000x128 [1] [0] [] [0] [] 1 ![1, 128]
  dot_S16x128_S128x128_S16x128_1_0_0_1_n_n_wf : DotDims.WF S16x128 S128x128 S16x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S400000x64.size a
  hwx1_0 : ∀ i : grid1.Coords, EltTy.bits .f32 = 32 ∨ (Rect.block (s := S400000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S400000x128.size a
  hwx1_5 : ∀ i : grid1.Coords, EltTy.bits .f32 = 32 ∨ (Rect.block (s := S400000x128) S8000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S400000x128.size a
  hwx1_6 : ∀ i : grid1.Coords, EltTy.bits .f32 = 32 ∨ (Rect.block (s := S400000x128) S8000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S400000x128.size a
  hwx2_2 : ∀ i : grid2.Coords, EltTy.bits .f32 = 32 ∨ (Rect.block (s := S400000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S400000x128.size a
  hwx2_3 : ∀ i : grid2.Coords, EltTy.bits .f32 = 32 ∨ (Rect.block (s := S400000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S400000x128.size a
  hwx2_4 : ∀ i : grid2.Coords, EltTy.bits .f32 = 32 ∨ (Rect.block (s := S400000x128) S4000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S400000x128.size a
  hwx2_5 : ∀ i : grid2.Coords, EltTy.bits .f32 = 32 ∨ (Rect.block (s := S400000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S400000x128.size a
  hwx3_0 : ∀ i : grid3.Coords, EltTy.bits .f32 = 32 ∨ (Rect.block (s := S400000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S400000x128.size a
  hwx3_1 : ∀ i : grid3.Coords, EltTy.bits .f32 = 32 ∨ (Rect.block (s := S400000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S400000x128.size a
  hwx3_6 : ∀ i : grid3.Coords, EltTy.bits .f32 = 32 ∨ (Rect.block (s := S400000x128) S5000x128.size (cc3_transform_6 i) (hinb3_6 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def gather_S16x128_S50000x1_S50000x128_1_0_n_n_0_1_1128 : GatherDims S16x128 S50000x1 S50000x128 where
  offsetDims := [1]
  collapsedSliceDims := [0]
  operandBatchingDims := []
  startIndicesBatchingDims := []
  startIndexMap := [0]
  indexVectorDim := 1
  sliceSizes := ![1, 128]
  wf := gather_S16x128_S50000x1_S50000x128_1_0_n_n_0_1_1128_wf
def scatter_S16_S400000x1_S400000_n_0_0_1 : ScatterDims S16 S400000x1 S400000 where
  updateWindowDims := []
  insertedWindowDims := [0]
  scatterDimsToOperandDims := [0]
  indexVectorDim := 1
  wf := scatter_S16_S400000x1_S400000_n_0_0_1_wf
def scatter_S16x128_S400000x1_S400000x128_1_0_0_1 : ScatterDims S16x128 S400000x1 S400000x128 where
  updateWindowDims := [1]
  insertedWindowDims := [0]
  scatterDimsToOperandDims := [0]
  indexVectorDim := 1
  wf := scatter_S16x128_S400000x1_S400000x128_1_0_0_1_wf
def gather_S16x128_S400000x1_S400000x128_1_0_n_n_0_1_1128 : GatherDims S16x128 S400000x1 S400000x128 where
  offsetDims := [1]
  collapsedSliceDims := [0]
  operandBatchingDims := []
  startIndicesBatchingDims := []
  startIndexMap := [0]
  indexVectorDim := 1
  sliceSizes := ![1, 128]
  wf := gather_S16x128_S400000x1_S400000x128_1_0_n_n_0_1_1128_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S8000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14_1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36_0) S4000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_1) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v156) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14_0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v158) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v159) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg27) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v160) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v161) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x64 : Shape := ⟨2, ![400000, 64]⟩
abbrev S16x128 : Shape := ⟨2, ![16, 128]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S400000x128 : Shape := ⟨2, ![400000, 128]⟩
abbrev S1x128 : Shape := ⟨2, ![1, 128]⟩
abbrev S_ : Shape := ⟨0, ![]⟩
abbrev S400000x1 : Shape := ⟨2, ![400000, 1]⟩
abbrev S16 : Shape := ⟨1, ![16]⟩
abbrev S50000x1 : Shape := ⟨2, ![50000, 1]⟩
abbrev S16x1 : Shape := ⟨2, ![16, 1]⟩

abbrev nBuf : Space → Nat
  | .hbm => 290
  | .vmem => 0
  | .smem => 0
  | _ => 0

abbrev hbmTy0_0 (i : Nat) : BufTy := match i % 128 with
  | 0 => ⟨S50000x128, .f32⟩
  | 1 => ⟨S2x400000, .i32⟩
  | 2 => ⟨S400000x64, .f32⟩
  | 3 => ⟨S16x128, .f32⟩
  | 4 => ⟨S50000, .i32⟩
  | 5 => ⟨S64x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128x128, .f32⟩
  | 24 => ⟨S128, .f32⟩
  | 25 => ⟨S128, .f32⟩
  | 26 => ⟨S128, .f32⟩
  | 27 => ⟨S128x128, .f32⟩
  | 28 => ⟨S128, .f32⟩
  | 29 => ⟨S1x400000, .i32⟩
  | 30 => ⟨S400000, .i32⟩
  | 31 => ⟨S1x400000, .i32⟩
  | 32 => ⟨S400000, .i32⟩
  | 33 => ⟨S400000x128, .f32⟩
  | 34 => ⟨S1x128, .f32⟩
  | 35 => ⟨S400000x128, .f32⟩
  | 36 => ⟨S400000x128, .f32⟩
  | 37 => ⟨S400000x128, .f32⟩
  | 38 => ⟨S1x128, .f32⟩
  | 39 => ⟨S400000x128, .f32⟩
  | 40 => ⟨S400000x128, .f32⟩
  | 41 => ⟨S50000x128, .f32⟩
  | 42 => ⟨S1x128, .f32⟩
  | 43 => ⟨S50000x128, .f32⟩
  | 44 => ⟨S50000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S400000x128, .f32⟩
  | 55 => ⟨S50000x128, .f32⟩
  | 56 => ⟨S1x128, .f32⟩
  | 57 => ⟨S50000x128, .f32⟩
  | 58 => ⟨S50000x128, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S400000x128, .f32⟩
  | 69 => ⟨S400000x128, .f32⟩
  | 70 => ⟨S400000x128, .f32⟩
  | 71 => ⟨S_, .f32⟩
  | 72 => ⟨S400000x128, .f32⟩
  | 73 => ⟨S400000x128, .f32⟩
  | 74 => ⟨S_, .f32⟩
  | 75 => ⟨S400000x128, .f32⟩
  | 76 => ⟨S400000x128, .f32⟩
  | 77 => ⟨S50000x128, .f32⟩
  | 78 => ⟨S1x128, .f32⟩
  | 79 => ⟨S50000x128, .f32⟩
  | 80 => ⟨S50000x128, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x128, .f32⟩
  | 90 => ⟨S400000x128, .f32⟩
  | 91 => ⟨S_, .f32⟩
  | 92 => ⟨S50000x128, .f32⟩
  | 93 => ⟨S400000x1, .i32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S_, .f32⟩
  | 103 => ⟨S16, .f32⟩
  | 104 => ⟨S50000x1, .i32⟩
  | 105 => ⟨S16, .f32⟩
  | 106 => ⟨S_, .f32⟩
  | 107 => ⟨S16, .f32⟩
  | 108 => ⟨S16, .f32⟩
  | 109 => ⟨S_, .f32⟩
  | 110 => ⟨S16x128, .f32⟩
  | 111 => ⟨S50000x1, .i32⟩
  | 112 => ⟨S16x128, .f32⟩
  | 113 => ⟨S16x1, .f32⟩
  | 114 => ⟨S16x128, .f32⟩
  | 115 => ⟨S16x128, .f32⟩
  | 116 => ⟨S_, .i32⟩
  | 117 => ⟨S50000, .i32⟩
  | 118 => ⟨S50000, .i1⟩
  | 119 => ⟨S_, .i32⟩
  | 120 => ⟨S50000, .i32⟩
  | 121 => ⟨S50000, .i32⟩
  | 122 => ⟨S50000, .i32⟩
  | 123 => ⟨S50000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S16x128, .f32⟩
  | 4 => ⟨S50000x1, .i32⟩
  | 5 => ⟨S16x128, .f32⟩
  | 6 => ⟨S16x1, .f32⟩
  | 7 => ⟨S16x128, .f32⟩
  | 8 => ⟨S16x128, .f32⟩
  | 9 => ⟨S1x128, .f32⟩
  | 10 => ⟨S50000x128, .f32⟩
  | 11 => ⟨S50000x128, .f32⟩
  | 12 => ⟨S_, .f32⟩
  | 13 => ⟨S16x128, .f32⟩
  | 14 => ⟨S16x128, .f32⟩
  | 15 => ⟨S16x128, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000, .i32⟩
  | 38 => ⟨S_, .f32⟩
  | 39 => ⟨S400000, .f32⟩
  | 40 => ⟨S_, .f32⟩
  | 41 => ⟨S16, .f32⟩
  | 42 => ⟨S400000x1, .i32⟩
  | 43 => ⟨S16, .f32⟩
  | 44 => ⟨S_, .f32⟩
  | 45 => ⟨S16, .f32⟩
  | 46 => ⟨S16, .f32⟩
  | 47 => ⟨S_, .f32⟩
  | 48 => ⟨S16x128, .f32⟩
  | 49 => ⟨S400000x1, .i32⟩
  | 50 => ⟨S16x128, .f32⟩
  | 51 => ⟨S16x1, .f32⟩
  | 52 => ⟨S16x128, .f32⟩
  | 53 => ⟨S16x128, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S1x128, .f32⟩
  | 64 => ⟨S400000x128, .f32⟩
  | 65 => ⟨S400000x128, .f32⟩
  | 66 => ⟨S400000x128, .f32⟩
  | 67 => ⟨S400000x128, .f32⟩
  | 68 => ⟨S_, .f32⟩
  | 69 => ⟨S16x128, .f32⟩
  | 70 => ⟨S400000x1, .i32⟩
  | 71 => ⟨S16x128, .f32⟩
  | 72 => ⟨S16x1, .f32⟩
  | 73 => ⟨S16x128, .f32⟩
  | 74 => ⟨S16x128, .f32⟩
  | 75 => ⟨S1x128, .f32⟩
  | 76 => ⟨S400000x128, .f32⟩
  | 77 => ⟨S400000x128, .f32⟩
  | 78 => ⟨S_, .f32⟩
  | 79 => ⟨S16x128, .f32⟩
  | 80 => ⟨S16x128, .f32⟩
  | 81 => ⟨S16x128, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S400000x128, .f32⟩
  | 92 => ⟨S1x128, .f32⟩
  | 93 => ⟨S400000x128, .f32⟩
  | 94 => ⟨S400000x128, .f32⟩
  | 95 => ⟨S_, .f32⟩
  | 96 => ⟨S50000x128, .f32⟩
  | 97 => ⟨S50000x128, .f32⟩
  | 98 => ⟨S_, .f32⟩
  | 99 => ⟨S400000x128, .f32⟩
  | 100 => ⟨S400000x128, .f32⟩
  | 101 => ⟨S_, .f32⟩
  | 102 => ⟨S16x128, .f32⟩
  | 103 => ⟨S16x128, .f32⟩
  | 104 => ⟨S16x128, .f32⟩
  | 105 => ⟨S1x128, .f32⟩
  | 106 => ⟨S16x128, .f32⟩
  | 107 => ⟨S16x128, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x128, .f32⟩
  | 117 => ⟨S400000x128, .f32⟩
  | 118 => ⟨S50000x128, .f32⟩
  | 119 => ⟨S_, .f32⟩
  | 120 => ⟨S400000, .f32⟩
  | 121 => ⟨S400000x1, .f32⟩
  | 122 => ⟨S_, .f32⟩
  | 123 => ⟨S400000x1, .f32⟩
  | 124 => ⟨S400000x1, .f32⟩
  | 125 => ⟨S400000x128, .f32⟩
  | 126 => ⟨S400000x128, .f32⟩
  | 127 => ⟨S400000x128, .f32⟩
  | _ => ⟨S50000x128, .f32⟩

abbrev hbmTy0_2 (i : Nat) : BufTy := match i % 128 with
  | 0 => ⟨S_, .f32⟩
  | 1 => ⟨S400000, .f32⟩
  | 2 => ⟨S400000x1, .f32⟩
  | 3 => ⟨S_, .f32⟩
  | 4 => ⟨S400000x1, .f32⟩
  | 5 => ⟨S400000x1, .f32⟩
  | 6 => ⟨S400000x128, .f32⟩
  | 7 => ⟨S400000x128, .f32⟩
  | 8 => ⟨S_, .f32⟩
  | 9 => ⟨S400000x1, .f32⟩
  | 10 => ⟨S400000x1, .f32⟩
  | 11 => ⟨S400000x1, .f32⟩
  | 12 => ⟨S400000x128, .f32⟩
  | 13 => ⟨S400000x128, .f32⟩
  | 14 => ⟨S1x128, .f32⟩
  | 15 => ⟨S400000x128, .f32⟩
  | 16 => ⟨S400000x128, .f32⟩
  | 17 => ⟨S1x128, .f32⟩
  | 18 => ⟨S400000x128, .f32⟩
  | 19 => ⟨S400000x128, .f32⟩
  | 20 => ⟨S400000x128, .f32⟩
  | 21 => ⟨S400000x128, .f32⟩
  | 22 => ⟨S_, .f32⟩
  | 23 => ⟨S400000x128, .f32⟩
  | 24 => ⟨S400000x128, .f32⟩
  | 25 => ⟨S_, .f32⟩
  | 26 => ⟨S400000x128, .f32⟩
  | 27 => ⟨S400000x128, .f32⟩
  | 28 => ⟨S400000x128, .f32⟩
  | 29 => ⟨S400000x128, .f32⟩
  | 30 => ⟨S400000x128, .f32⟩
  | 31 => ⟨S1x128, .f32⟩
  | 32 => ⟨S400000x128, .f32⟩
  | 33 => ⟨S400000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_1 : Ref sig .tc := ⟨.hbm, 59, rfl⟩
abbrev main_v28 : Ref sig .tc := ⟨.hbm, 60, rfl⟩
abbrev main_v29 : Ref sig .tc := ⟨.hbm, 61, rfl⟩
abbrev main_c_2 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst : Ref sig .tc := ⟨.hbm, 71, rfl⟩
abbrev main_v38 : Ref sig .tc := ⟨.hbm, 72, rfl⟩
abbrev main_v39 : Ref sig .tc := ⟨.hbm, 73, rfl⟩
abbrev main_cst_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_4 : Ref sig .tc := ⟨.hbm, 81, rfl⟩
abbrev main_v46 : Ref sig .tc := ⟨.hbm, 82, rfl⟩
abbrev main_v47 : Ref sig .tc := ⟨.hbm, 83, rfl⟩
abbrev main_c_5 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_7 : Ref sig .tc := ⟨.hbm, 100, rfl⟩
abbrev main_v62 : Ref sig .tc := ⟨.hbm, 101, rfl⟩
abbrev main_cst_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_11 : Ref sig .tc := ⟨.hbm, 116, rfl⟩
abbrev main_v74 : Ref sig .tc := ⟨.hbm, 117, rfl⟩
abbrev main_v75 : Ref sig .tc := ⟨.hbm, 118, rfl⟩
abbrev main_c_12 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_13 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_14 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_15 : Ref sig .tc := ⟨.hbm, 144, rfl⟩
abbrev main_v98 : Ref sig .tc := ⟨.hbm, 145, rfl⟩
abbrev main_v99 : Ref sig .tc := ⟨.hbm, 146, rfl⟩
abbrev main_c_16 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_17 : Ref sig .tc := ⟨.hbm, 157, rfl⟩
abbrev main_v109 : Ref sig .tc := ⟨.hbm, 158, rfl⟩
abbrev main_v110 : Ref sig .tc := ⟨.hbm, 159, rfl⟩
abbrev main_c_18 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_19 : Ref sig .tc := ⟨.hbm, 166, rfl⟩
abbrev main_v116 : Ref sig .tc := ⟨.hbm, 167, rfl⟩
abbrev main_cst_20 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_21 : Ref sig .tc := ⟨.hbm, 172, rfl⟩
abbrev main_v120 : Ref sig .tc := ⟨.hbm, 173, rfl⟩
abbrev main_v121 : Ref sig .tc := ⟨.hbm, 174, rfl⟩
abbrev main_cst_22 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_23 : Ref sig .tc := ⟨.hbm, 182, rfl⟩
abbrev main_v128 : Ref sig .tc := ⟨.hbm, 183, rfl⟩
abbrev main_v129 : Ref sig .tc := ⟨.hbm, 184, rfl⟩
abbrev main_c_24 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_26 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_27 : Ref sig .tc := ⟨.hbm, 210, rfl⟩
abbrev main_v152 : Ref sig .tc := ⟨.hbm, 211, rfl⟩
abbrev main_v153 : Ref sig .tc := ⟨.hbm, 212, rfl⟩
abbrev main_c_28 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_call0_cst : Ref sig .tc := ⟨.hbm, 223, rfl⟩
abbrev main_call0_v0 : Ref sig .tc := ⟨.hbm, 224, rfl⟩
abbrev main_v163 : Ref sig .tc := ⟨.hbm, 225, rfl⟩
abbrev main_call1_cst : Ref sig .tc := ⟨.hbm, 226, rfl⟩
abbrev main_call1_v0 : Ref sig .tc := ⟨.hbm, 227, rfl⟩
abbrev main_v164 : Ref sig .tc := ⟨.hbm, 228, rfl⟩
abbrev main_call2_cst : Ref sig .tc := ⟨.hbm, 229, rfl⟩
abbrev main_call2_v0 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_c_29 : Ref sig .tc := ⟨.hbm, 236, rfl⟩
abbrev main_v170 : Ref sig .tc := ⟨.hbm, 237, rfl⟩
abbrev main_v171 : Ref sig .tc := ⟨.hbm, 238, rfl⟩
abbrev main_c_30 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_31 : Ref sig .tc := ⟨.hbm, 247, rfl⟩
abbrev main_v179 : Ref sig .tc := ⟨.hbm, 248, rfl⟩
abbrev main_v180 : Ref sig .tc := ⟨.hbm, 249, rfl⟩
abbrev main_cst_32 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_33 : Ref sig .tc := ⟨.hbm, 256, rfl⟩
abbrev main_v186 : Ref sig .tc := ⟨.hbm, 257, rfl⟩
abbrev main_v187 : Ref sig .tc := ⟨.hbm, 258, rfl⟩
abbrev main_cst_34 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_cst_35 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_call3_v0 : Ref sig .tc := ⟨.hbm, 276, rfl⟩
abbrev main_call3_v1 : Ref sig .tc := ⟨.hbm, 277, rfl⟩
abbrev main_call3_cst : Ref sig .tc := ⟨.hbm, 278, rfl⟩
abbrev main_call3_v2 : Ref sig .tc := ⟨.hbm, 279, rfl⟩
abbrev main_call3_v3 : Ref sig .tc := ⟨.hbm, 280, rfl⟩
abbrev main_call3_cst_0 : Ref sig .tc := ⟨.hbm, 281, rfl⟩
abbrev main_call3_v4 : Ref sig .tc := ⟨.hbm, 282, rfl⟩
abbrev main_call3_v5 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x128 : S_.BroadcastsInDim S400000x128 (![] : Fin 0 → Fin S400000x128.rank)
  bcast_S_S50000x128 : S_.BroadcastsInDim S50000x128 (![] : Fin 0 → Fin S50000x128.rank)
  bcast_S_S50000 : S_.BroadcastsInDim S50000 (![] : Fin 0 → Fin S50000.rank)
  bcast_S_S16 : S_.BroadcastsInDim S16 (![] : Fin 0 → Fin S16.rank)
  bcast_S50000_S50000x1_0 : S50000.BroadcastsInDim S50000x1 (![0] : Fin 1 → Fin S50000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  dot_S400000x64_S64x128_S400000x128_1_0_0_1_n_n_wf : DotDims.WF S400000x64 S64x128 S400000x128 [1] [0] [0] [1] [] []
  dot_S400000x128_S128x128_S400000x128_1_0_0_1_n_n_wf : DotDims.WF S400000x128 S128x128 S400000x128 [1] [0] [0] [1] [] []
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S16_S50000x1_S50000_n_0_0_1_wf : ScatterDims.WF S16 S50000x1 S50000 [] [0] [0] 1
  scatter_S16x128_S50000x1_S50000x128_1_0_0_1_wf : ScatterDims.WF S16x128 S50000x1 S50000x128 [1] [0] [0] 1
  gather_S16x128_S50000x1_S50000x128_1_0_n_n_0_1_1128_wf : GatherDims.WF S16x128 S50000x1 S50000x128 [1] [0] [] [0] [] 1 ![1, 128]
  gather_S50000_S400000x1_S400000_n_0_n_n_0_1_1_wf : GatherDims.WF S50000 S400000x1 S400000 [] [0] [] [0] [] 1 ![1]
  scatter_S16_S400000x1_S400000_n_0_0_1_wf : ScatterDims.WF S16 S400000x1 S400000 [] [0] [0] 1
  scatter_S16x128_S400000x1_S400000x128_1_0_0_1_wf : ScatterDims.WF S16x128 S400000x1 S400000x128 [1] [0] [0] 1
  gather_S16x128_S400000x1_S400000x128_1_0_n_n_0_1_1128_wf : GatherDims.WF S16x128 S400000x1 S400000x128 [1] [0] [] [0] [] 1 ![1, 128]
  dot_S16x128_S128x128_S16x128_1_0_0_1_n_n_wf : DotDims.WF S16x128 S128x128 S16x128 [1] [0] [0] [1] [] []

variable [Facts₀]

def dot_S400000x64_S64x128_S400000x128_1_0_0_1_n_n : DotDims S400000x64 S64x128 S400000x128 where
  lhsContracting := [1]
  rhsContracting := [0]
  lhsNonContracting := [0]
  rhsNonContracting := [1]
  lhsBatch := []
  rhsBatch := []
  wf := dot_S400000x64_S64x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def gather_S16x128_S50000x1_S50000x128_1_0_n_n_0_1_1128 : GatherDims S16x128 S50000x1 S50000x128 where
  offsetDims := [1]
  collapsedSliceDims := [0]
  operandBatchingDims := []
  startIndicesBatchingDims := []
  startIndexMap := [0]
  indexVectorDim := 1
  sliceSizes := ![1, 128]
  wf := gather_S16x128_S50000x1_S50000x128_1_0_n_n_0_1_1128_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def scatter_S16_S400000x1_S400000_n_0_0_1 : ScatterDims S16 S400000x1 S400000 where
  updateWindowDims := []
  insertedWindowDims := [0]
  scatterDimsToOperandDims := [0]
  indexVectorDim := 1
  wf := scatter_S16_S400000x1_S400000_n_0_0_1_wf
def scatter_S16x128_S400000x1_S400000x128_1_0_0_1 : ScatterDims S16x128 S400000x1 S400000x128 where
  updateWindowDims := [1]
  insertedWindowDims := [0]
  scatterDimsToOperandDims := [0]
  indexVectorDim := 1
  wf := scatter_S16x128_S400000x1_S400000x128_1_0_0_1_wf
def gather_S16x128_S400000x1_S400000x128_1_0_n_n_0_1_1128 : GatherDims S16x128 S400000x1 S400000x128 where
  offsetDims := [1]
  collapsedSliceDims := [0]
  operandBatchingDims := []
  startIndicesBatchingDims := []
  startIndexMap := [0]
  indexVectorDim := 1
  sliceSizes := ![1, 128]
  wf := gather_S16x128_S400000x1_S400000x128_1_0_n_n_0_1_1128_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

class Facts : Prop extends Facts₀ where

variable [Facts]
-- ==== Proof.RefRunA.lean ====
/-
What the reference's 261 host operations leave, from any contents: at the buffer of its first result (the node features:
the input plus the rectified, per-graph normalised aggregate) the last stage of the arguments' contents, computed operation by
operation along the fold of results and equal to the stage by unfolding the stages' definitions; and at the buffer of any reference
no operation writes (the arguments') what was there.
-/
import proofs.«174758_j6468220748546_1_alg».proof.Proof.RefOps
import proofs.«174758_j6468220748546_1_alg».proof.Proof.RefRead
import Idealize.ShloMosaic.Lib.StableHlo.Run
import Idealize.ShloMosaic.Lib.Pipeline.RegionsLoop
import Idealize.ShloMosaic.Lib.Tactic

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.ShloMosaic.Tactic Idealize.SL.Sem Idealize.ShloMosaic.StableHlo

/-- A line of operations that write, in order, exactly the buffers of the references `W` leaves the buffer of any other reference as it was. -/
theorem after_of_writes_eq {F : FTy → Type} [FloatOps F] {W : List (Ref sig .tc)} (l : List (HloOp τ sig (Elt F))) (V : Valuation τ sig (Elt F))
    (h : l.map (fun op => op.writes) = W.map fun y => ({Proc.devRef (τ := τ) .tc y} : Finset (DevRef τ sig)))
    {r : Ref sig .tc} (hr : r ∉ W) : StableHlo.after l V (Proc.devRef .tc r) = V (Proc.devRef .tc r) :=
  StableHlo.after_of_forall_not_mem l V fun op hop hb => by
    have hm : op.writes ∈ W.map fun y => ({Proc.devRef (τ := τ) .tc y} : Finset (DevRef τ sig)) :=
      h ▸ List.mem_map.mpr ⟨op, hop, rfl⟩
    obtain ⟨y, hy, e⟩ := List.mem_map.mp hm
    rw [← e, Finset.mem_singleton] at hb
    exact hr (Proc.devRef_injective _ hb ▸ hy)

/-- The references whose buffers the 261 operations write, in order. -/
abbrev ops_wr : List (Ref sig .tc) :=
  [main_v0, main_v1, main_v2, main_v3, main_v4, main_v5, main_v6, main_v7, main_v8, main_v9, main_v10, main_v11, main_v12, main_v13, main_v14, main_v15, main_c, main_v16, main_v17, main_c_0, main_v18, main_v19, main_v20, main_v21, main_v22, main_v23, main_v24, main_v25, main_v26, main_v27, main_c_1, main_v28, main_v29, main_c_2, main_v30, main_v31, main_v32, main_v33, main_v34, main_v35, main_v36, main_v37, main_cst, main_v38, main_v39, main_cst_3, main_v40, main_v41, main_v42, main_v43, main_v44, main_v45, main_c_4, main_v46, main_v47, main_c_5, main_v48, main_v49, main_v50, main_v51, main_v52, main_v53, main_cst_6, main_v54, main_v55, main_v56, main_v57, main_v58, main_v59, main_v60, main_v61, main_cst_7, main_v62, main_cst_8, main_v63, main_v64, main_v65, main_cst_9, main_v66, main_v67, main_cst_10, main_v68, main_v69, main_v70, main_v71, main_v72, main_v73, main_c_11, main_v74, main_v75, main_c_12, main_v76, main_v77, main_v78, main_v79, main_v80, main_v81, main_v82, main_v83, main_v84, main_v85, main_cst_13, main_v86, main_v87, main_v88, main_v89, main_v90, main_v91, main_v92, main_v93, main_v94, main_cst_14, main_v95, main_v96, main_v97, main_c_15, main_v98, main_v99, main_c_16, main_v100, main_v101, main_v102, main_v103, main_v104, main_v105, main_v106, main_v107, main_v108, main_c_17, main_v109, main_v110, main_c_18, main_v111, main_v112, main_v113, main_v114, main_v115, main_cst_19, main_v116, main_cst_20, main_v117, main_v118, main_v119, main_cst_21, main_v120, main_v121, main_cst_22, main_v122, main_v123, main_v124, main_v125, main_v126, main_v127, main_c_23, main_v128, main_v129, main_c_24, main_v130, main_v131, main_v132, main_v133, main_v134, main_v135, main_v136, main_v137, main_v138, main_v139, main_cst_25, main_v140, main_v141, main_v142, main_v143, main_v144, main_v145, main_v146, main_v147, main_v148, main_cst_26, main_v149, main_v150, main_v151, main_c_27, main_v152, main_v153, main_c_28, main_v154, main_v155, main_v156, main_v157, main_v158, main_v159, main_v160, main_v161, main_v162, main_call0_cst, main_call0_v0, main_v163, main_call1_cst, main_call1_v0, main_v164, main_call2_cst, main_call2_v0, main_v165, main_v166, main_v167, main_v168, main_v169, main_c_29, main_v170, main_v171, main_c_30, main_v172, main_v173, main_v174, main_v175, main_v176, main_v177, main_v178, main_cst_31, main_v179, main_v180, main_cst_32, main_v181, main_v182, main_v183, main_v184, main_v185, main_cst_33, main_v186, main_v187, main_cst_34, main_v188, main_v189, main_v190, main_v191, main_cst_35, main_v192, main_v193, main_v194, main_v195, main_v196, main_v197, main_v198, main_v199, main_v200, main_v201, main_v202, main_call3_v0, main_call3_v1, main_call3_cst, main_call3_v2, main_call3_v3, main_call3_cst_0, main_call3_v4, main_call3_v5, main_v203, main_v204, main_v205, main_v206, main_v207, main_v208]
set_option maxHeartbeats 0 in
theorem ops_writes {F : FTy → Type} [FloatOps F] : ((ops : List (HloOp τ sig (Elt F))).map fun op => op.writes)
    = ops_wr.map fun y => ({Proc.devRef (τ := τ) .tc y} : Finset (DevRef τ sig)) := by
  chain_rfl

set_option maxHeartbeats 0 in
/-- From any contents, after the reference's operations the buffer `main_v178` holds the stage `val_main_v178` of the arguments' contents. -/
theorem after_main_v178 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal))
    (h0 : V (Proc.devRef .tc main_arg0) = x0)
    (h1 : V (Proc.devRef .tc main_arg1) = x1)
    (h2 : V (Proc.devRef .tc main_arg2) = x2)
    (h4 : V (Proc.devRef .tc main_arg4) = x4)
    (h5 : V (Proc.devRef .tc main_arg5) = x5)
    (h6 : V (Proc.devRef .tc main_arg6) = x6)
    (h7 : V (Proc.devRef .tc main_arg7) = x7)
    (h8 : V (Proc.devRef .tc main_arg8) = x8)
    (h9 : V (Proc.devRef .tc main_arg9) = x9)
    (h10 : V (Proc.devRef .tc main_arg10) = x10)
    (h11 : V (Proc.devRef .tc main_arg11) = x11)
    (h12 : V (Proc.devRef .tc main_arg12) = x12)
    (h13 : V (Proc.devRef .tc main_arg13) = x13)
    (h14 : V (Proc.devRef .tc main_arg14) = x14)
    (h15 : V (Proc.devRef .tc main_arg15) = x15)
    (h16 : V (Proc.devRef .tc main_arg16) = x16)
    (h17 : V (Proc.devRef .tc main_arg17) = x17)
    (h18 : V (Proc.devRef .tc main_arg18) = x18)
    (h19 : V (Proc.devRef .tc main_arg19) = x19)
    : StableHlo.after (ops (F := Ideal)) V (Proc.devRef .tc main_v178) = val_main_v178 (F := Ideal) x0 x1 x2 x4 x5 x6 x7 x8 x9 x10 x11 x12 x13 x14 x15 x16 x17 x18 x19 := by
  after_results_simp
  simp only [h0, h1, h2, h4, h5, h6, h7, h8, h9, h10, h11, h12, h13, h14, h15, h16, h17, h18, h19]
  rfl

end Cert.ReferenceIdeal.RunH

end
-- ==== Proof.RefRunB.lean ====
/-
What the reference's 261 host operations leave, from any contents, at the buffer of its second result (the edge features:
the noise projection plus the linear map of the silu of the layer-normalised, time-shifted, per-graph normalised gate
pre-activation, plus its bias): the last stage of the arguments' contents, computed operation by operation along the fold of
results and equal to the stage by unfolding the stages' definitions.
-/
import proofs.«174758_j6468220748546_1_alg».proof.Proof.RefOps
import proofs.«174758_j6468220748546_1_alg».proof.Proof.RefRead
import Idealize.ShloMosaic.Lib.StableHlo.Run
import Idealize.ShloMosaic.Lib.Pipeline.RegionsLoop
import Idealize.ShloMosaic.Lib.Tactic

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.ShloMosaic.Tactic Idealize.SL.Sem Idealize.ShloMosaic.StableHlo

set_option maxHeartbeats 0 in
/-- From any contents, after the reference's operations the buffer `main_v208` holds the stage `val_main_v208` of the arguments' contents. -/
theorem after_main_v208 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 : (⟨S16x128, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (h5 : V (Proc.devRef .tc main_arg5) = x5)
    (h6 : V (Proc.devRef .tc main_arg6) = x6)
    (h7 : V (Proc.devRef .tc main_arg7) = x7)
    (h8 : V (Proc.devRef .tc main_arg8) = x8)
    (h9 : V (Proc.devRef .tc main_arg9) = x9)
    (h10 : V (Proc.devRef .tc main_arg10) = x10)
    (h11 : V (Proc.devRef .tc main_arg11) = x11)
    (h12 : V (Proc.devRef .tc main_arg12) = x12)
    (h20 : V (Proc.devRef .tc main_arg20) = x20)
    (h21 : V (Proc.devRef .tc main_arg21) = x21)
    (h22 : V (Proc.devRef .tc main_arg22) = x22)
    (h23 : V (Proc.devRef .tc main_arg23) = x23)
    (h24 : V (Proc.devRef .tc main_arg24) = x24)
    (h25 : V (Proc.devRef .tc main_arg25) = x25)
    (h26 : V (Proc.devRef .tc main_arg26) = x26)
    (h27 : V (Proc.devRef .tc main_arg27) = x27)
    (h28 : V (Proc.devRef .tc main_arg28) = x28)
    : StableHlo.after (ops (F := Ideal)) V (Proc.devRef .tc main_v208) = val_main_v208 (F := Ideal) x0 x1 x2 x3 x4 x5 x6 x7 x8 x9 x10 x11 x12 x20 x21 x22 x23 x24 x25 x26 x27 x28 := by
  after_results_simp
  simp only [h0, h1, h2, h3, h4, h5, h6, h7, h8, h9, h10, h11, h12, h20, h21, h22, h23, h24, h25, h26, h27, h28]
  rfl

end Cert.ReferenceIdeal.RunH

end
-- ==== Proof.RefRun.lean ====
/-
The reference's run: from any memory with zero counters every weakly fair execution of its 261 host operations terminates,
nothing faulting, with the two results at their LAST STAGES of the arguments' launch contents and the arguments unchanged:
the library's run of a line of operations ends every buffer at the fold of the operations' results from the launch contents,
and the fold is read at the two results' buffers and at the arguments' by the two preceding modules.
-/
import proofs.«174758_j6468220748546_1_alg».proof.Proof.RefRunA
import proofs.«174758_j6468220748546_1_alg».proof.Proof.RefRunB

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.ShloMosaic.Tactic Idealize.SL.Sem Idealize.ShloMosaic.StableHlo

/-- The run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = val_main_v178 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v208) = val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v178).trans (after_main_v178 _ _ _ _ _ _ _ _ _ _ _ _ _ _ _ _ _ _ _ _ rfl rfl rfl rfl rfl rfl rfl rfl rfl rfl rfl rfl rfl rfl rfl rfl rfl rfl rfl),
      (h c main_v208).trans (after_main_v208 _ _ _ _ _ _ _ _ _ _ _ _ _ _ _ _ _ _ _ _ _ _ _ rfl rfl rfl rfl rfl rfl rfl rfl rfl rfl rfl rfl rfl rfl rfl rfl rfl rfl rfl rfl rfl rfl),
      (h c main_arg0).trans (after_of_writes_eq ops _ ops_writes (by decide)),
      (h c main_arg1).trans (after_of_writes_eq ops _ ops_writes (by decide)),
      (h c main_arg2).trans (after_of_writes_eq ops _ ops_writes (by decide)),
      (h c main_arg3).trans (after_of_writes_eq ops _ ops_writes (by decide)),
      (h c main_arg4).trans (after_of_writes_eq ops _ ops_writes (by decide)),
      (h c main_arg5).trans (after_of_writes_eq ops _ ops_writes (by decide)),
      (h c main_arg6).trans (after_of_writes_eq ops _ ops_writes (by decide)),
      (h c main_arg7).trans (after_of_writes_eq ops _ ops_writes (by decide)),
      (h c main_arg8).trans (after_of_writes_eq ops _ ops_writes (by decide)),
      (h c main_arg9).trans (after_of_writes_eq ops _ ops_writes (by decide)),
      (h c main_arg10).trans (after_of_writes_eq ops _ ops_writes (by decide)),
      (h c main_arg11).trans (after_of_writes_eq ops _ ops_writes (by decide)),
      (h c main_arg12).trans (after_of_writes_eq ops _ ops_writes (by decide)),
      (h c main_arg13).trans (after_of_writes_eq ops _ ops_writes (by decide)),
      (h c main_arg14).trans (after_of_writes_eq ops _ ops_writes (by decide)),
      (h c main_arg15).trans (after_of_writes_eq ops _ ops_writes (by decide)),
      (h c main_arg16).trans (after_of_writes_eq ops _ ops_writes (by decide)),
      (h c main_arg17).trans (after_of_writes_eq ops _ ops_writes (by decide)),
      (h c main_arg18).trans (after_of_writes_eq ops _ ops_writes (by decide)),
      (h c main_arg19).trans (after_of_writes_eq ops _ ops_writes (by decide)),
      (h c main_arg20).trans (after_of_writes_eq ops _ ops_writes (by decide)),
      (h c main_arg21).trans (after_of_writes_eq ops _ ops_writes (by decide)),
      (h c main_arg22).trans (after_of_writes_eq ops _ ops_writes (by decide)),
      (h c main_arg23).trans (after_of_writes_eq ops _ ops_writes (by decide)),
      (h c main_arg24).trans (after_of_writes_eq ops _ ops_writes (by decide)),
      (h c main_arg25).trans (after_of_writes_eq ops _ ops_writes (by decide)),
      (h c main_arg26).trans (after_of_writes_eq ops _ ops_writes (by decide)),
      (h c main_arg27).trans (after_of_writes_eq ops _ ops_writes (by decide)),
      (h c main_arg28).trans (after_of_writes_eq ops _ ops_writes (by decide))⟩)
    (run_seq scopedRefs_eq scopedSems_eq defs main (fun _ => ops) main_eq (fun _ => ops_sub) m ρ)

end Cert.ReferenceIdeal.RunH

end
-- ==== Proof.K.D0.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the node projection, `features · [Wq | Wr | Wu | Wv] + bias`, 25 points of 2000 rows

## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (2000 rows of the node features): its current staging buffer holds its block at every point, whether the
    pipeline fetched it there or not (where it did not, the block index has not moved), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole 128 × 512 weight matrix, the same block at every point): its current staging buffer holds its block at every point, whether the
    pipeline fetched it there or not (where it did not, the block index has not moved), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole 1 × 512 bias row, the same block at every point): its current staging buffer holds its block at every point, whether the
    pipeline fetched it there or not (where it did not, the block index has not moved), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

/-! ## What the body leaves in the output window's buffer -/

/-- The projected rows: the one store of the body, the matrix product of the feature block with the weights plus the
    bias row, as a single piece covering the 2000 × 512 buffer. -/
def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

/-- The one store is the whole buffer, so it covers it. -/
theorem cover0_3 (p0 : Vec F S2000x512 .f32) (y : S2000x512.Idx) :
    ∃ pc ∈ ([⟨r0_3, p0⟩] : List (View.Piece (Elt F) S2000x512 .f32)), y ∈ pc.1.set :=
  View.cover_of_tiled [⟨r0_3, p0⟩] S2000x512.size (by rfl) y

/-! ## The proof data -/

/-- Region 0 on core `c`: the arrays as the region finds them; after the body at point `t` each input's buffer
    still holds its block and the output's holds the projection of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Fr

end
-- ==== Proof.K.D1.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the edge projections, `nme = noise · We + be` then `ep = nme · Wp + bp`, 50 points of 8000 rows

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (8000 rows of the edge noise): its current staging buffer holds its block at every point, whether the
    pipeline fetched it there or not (where it did not, the block index has not moved), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole 64 × 128 first weight matrix, the same block at every point): its current staging buffer holds its block at every point, whether the
    pipeline fetched it there or not (where it did not, the block index has not moved), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole 1 × 128 first bias row, the same block at every point): its current staging buffer holds its block at every point, whether the
    pipeline fetched it there or not (where it did not, the block index has not moved), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the whole 128 × 128 second weight matrix, the same block at every point): its current staging buffer holds its block at every point, whether the
    pipeline fetched it there or not (where it did not, the block index has not moved), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the whole 1 × 128 second bias row, the same block at every point): its current staging buffer holds its block at every point, whether the
    pipeline fetched it there or not (where it did not, the block index has not moved), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S8000x64 := Rect.unit (s := S8000x64) ![0, 0] S8000x64.size inb_S8000x64_S8000x64_0_0
abbrev r1_1 : Rect S64x128 := Rect.unit (s := S64x128) ![0, 0] S64x128.size inb_S64x128_S64x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S8000x128 := Rect.unit (s := S8000x128) ![0, 0] S8000x128.size inb_S8000x128_S8000x128_0_0

/-! ## What the body leaves in each output window's buffer -/

/-- The first projection `nme`: the one store into window 5, the noise block times the first weights plus the first
    bias row, as a single piece covering the 8000 × 128 buffer. -/
def out1_5 (x0 : Vec F S8000x64 .f32) (x1 : Vec F S64x128 .f32) (x2 : Vec F S1x128 .f32) : Vec F S8000x128 .f32 :=
  View.canon [⟨r1_4, k1_pay1 (View.ld x0 r1_0) (View.ld x1 r1_1) (View.ld x2 r1_2)⟩]

/-- The second projection `ep`: the one store into window 6, the first projection (recomputed from the same loads)
    times the second weights plus the second bias row, as a single piece covering the 8000 × 128 buffer. -/
def out1_6 (x0 : Vec F S8000x64 .f32) (x1 : Vec F S64x128 .f32) (x2 : Vec F S1x128 .f32) (x3 : Vec F S128x128 .f32) (x4 : Vec F S1x128 .f32) :
    Vec F S8000x128 .f32 :=
  View.canon [⟨r1_4, k1_pay2 (View.ld x0 r1_0) (View.ld x1 r1_1) (View.ld x2 r1_2) (View.ld x3 r1_3) (View.ld x4 r1_2)⟩]

/-- The one store into window 5 is the whole buffer, so it covers it. -/
theorem cover1_5 (p0 : Vec F S8000x128 .f32) (y : S8000x128.Idx) :
    ∃ pc ∈ ([⟨r1_4, p0⟩] : List (View.Piece (Elt F) S8000x128 .f32)), y ∈ pc.1.set :=
  View.cover_of_tiled [⟨r1_4, p0⟩] S8000x128.size (by rfl) y

/-- The one store into window 6 is the whole buffer, so it covers it. -/
theorem cover1_6 (p0 : Vec F S8000x128 .f32) (y : S8000x128.Idx) :
    ∃ pc ∈ ([⟨r1_4, p0⟩] : List (View.Piece (Elt F) S8000x128 .f32)), y ∈ pc.1.set :=
  View.cover_of_tiled [⟨r1_4, p0⟩] S8000x128.size (by rfl) y

/-! ## The proof data -/

/-- Region 1 on core `c`: the arrays as the region finds them; after the body at point `t` each input's buffer
    still holds its block, window 5's holds the first projection of the input blocks and window 6's the second; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Fr

end
-- ==== Proof.K.D2.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the edge gate, one block of 4000 edge rows per grid point

Four input windows (the projected edge features and the three gathered node projections, all 4000x128 blocks)
and two output windows: the sum of the first three, and the fourth times the logistic of that sum. -/

/-- The block of window `w` at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over the entry arrays whose
    body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole 4000x128 buffer. -/
abbrev r2_0 : Rect S4000x128 := Rect.unit (s := S4000x128) ![0, 0] S4000x128.size inb_S4000x128_S4000x128_0_0

/-- Output window 4 after the body: the sum of the three addends' blocks, as one piece. -/
def out2_4 (x0 : Vec F S4000x128 .f32) (x1 : Vec F S4000x128 .f32) (x2 : Vec F S4000x128 .f32) : Vec F S4000x128 .f32 :=
  View.canon [⟨r2_0, k2_pay1 (View.ld x0 r2_0) (View.ld x1 r2_0) (View.ld x2 r2_0)⟩]

/-- Output window 5 after the body: the gated value, as one piece. -/
def out2_5 (x0 : Vec F S4000x128 .f32) (x1 : Vec F S4000x128 .f32) (x2 : Vec F S4000x128 .f32) (x3 : Vec F S4000x128 .f32) : Vec F S4000x128 .f32 :=
  View.canon [⟨r2_0, k2_pay2 (View.ld x0 r2_0) (View.ld x1 r2_0) (View.ld x2 r2_0) (View.ld x3 r2_0)⟩]

/-- A single whole-buffer piece covers the buffer. -/
theorem cover2_4 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

theorem cover2_5 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-- The proof data of region 2 on core `c`: arrays as found on entry; after the body each input buffer still holds
    its block and each output buffer the body's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.Kernel.Fr

end
-- ==== Proof.K.D3.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the output layer, one block of 5000 node rows per grid point

Input windows: the aggregated messages and the residual (5000x128 blocks), the layer-norm scale and shift
(1x128), the output weight (128x128) and the output bias (1x128), the last four whole at every point. One output
window (5000x128): residual plus the matrix product of the activated normalised rows, plus the bias. -/

/-- The block of window `w` at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a window whose block
    index never moves is fetched once and keeps its contents), for any proof data over the entry arrays whose body
    leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body touches: each buffer whole. -/
abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

/-- Output window 6 after the body, as one piece: the residual plus the product, then the broadcast bias. -/
def out3_6 (x0 : Vec F S5000x128 .f32) (x1 : Vec F S5000x128 .f32) (x2 : Vec F S1x128 .f32) (x3 : Vec F S1x128 .f32)
    (x4 : Vec F S128x128 .f32) (x5 : Vec F S1x128 .f32) : Vec F S5000x128 .f32 :=
  View.canon [⟨r3_0, k3_pay1 (k3_pay2 (View.ld x0 r3_0) (View.ld x2 r3_1) (View.ld x3 r3_1) (View.ld x4 r3_2) (View.ld x1 r3_0))
    (k3_pay3 (View.ld x5 r3_1))⟩]

/-- A single whole-buffer piece covers the buffer. -/
theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The proof data of region 3 on core `c`: arrays as found on entry; after the body each input buffer still holds
    its block and the output buffer the body's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

end Cert.Kernel.Fr

end
-- ==== Proof.K.Fold.lean ====
import proofs.«174758_j6468220748546_1_alg».proof.Proof.K.D0
import proofs.«174758_j6468220748546_1_alg».proof.Proof.K.D1
import proofs.«174758_j6468220748546_1_alg».proof.Proof.K.D2
import proofs.«174758_j6468220748546_1_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

A stretch of host operations rewrites the buffers it computes; a region leaves its windows' arrays at what its
write-backs fold to and every other buffer as it found it. -/

/-- Core `c`'s buffers at launch. -/
abbrev W0 : Dev nD → Valuation τ sig (Elt F) := fun c b => (s₀ m ρ).mem ((c : Dev nD), b)
/-- After the first stretch (the slices of the edge index, the concatenated projection weights and bias): region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the four column slices of the node projection, two bias reshapes): region 1's entry. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the three gathers along the edge index): region 2's entry. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the long stretch (the scatter-add aggregation and the two graph normalizations). -/
abbrev W7 : Dev nD → Valuation τ sig (Elt F) := fun c => StableHlo.after hostOps3 (W6 m ρ c)
/-- After the first rectifier call. -/
abbrev W8 : Dev nD → Valuation τ sig (Elt F) := fun c => StableHlo.after hostOps3_1 (W7 m ρ c)
/-- After the second rectifier call. -/
abbrev W9 : Dev nD → Valuation τ sig (Elt F) := fun c => StableHlo.after hostOps3_2 (W8 m ρ c)
/-- After the third rectifier call. -/
abbrev W10 : Dev nD → Valuation τ sig (Elt F) := fun c => StableHlo.after hostOps3_3 (W9 m ρ c)
/-- After the last stretch (the global projection gathered to the edges, the residual sums, three reshapes): region 3's entry. -/
abbrev W11 : Dev nD → Valuation τ sig (Elt F) := fun c => StableHlo.after hostOps3_4 (W10 m ρ c)
/-- The same read at the TensorCore's references (what region 3's proof data take). -/
abbrev V11 : (c : Dev nD) → (b : Ref sig .tc) → Buf (Elt F) ((c : Thread nD τ).loc b) := fun c b => W11 m ρ c b

/-- At region 3's exit: its arrays at what the pipeline leaves (inputs as entered, each output's write-backs folded),
    every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves, and every other buffer what it held at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

end Cert.Kernel.Fr

end
-- ==== Proof.K.B0.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import proofs.«174758_j6468220748546_1_alg».proof.Proof.K.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the body of the node projection run once, then at every point -/

/-! ## The body's triple -/

set_option maxHeartbeats 1000000 in
/-- The kernel body on whole staging buffers, the inputs' at read contents and the outputs' at anything, runs to
    the continuation holding the inputs' as they were and each output's at its stated function of the inputs'. -/
theorem sound_kernel0 (c : Dev nD) (E : Set ℕ) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.B1.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import proofs.«174758_j6468220748546_1_alg».proof.Proof.K.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the body of the two edge projections run once, then at every point -/

/-! ## The body's triple -/

set_option maxHeartbeats 1000000 in
/-- The kernel body on whole staging buffers, the inputs' at read contents and the outputs' at anything, runs to
    the continuation holding the inputs' as they were and each output's at its stated function of the inputs'. -/
theorem sound_kernel1 (c : Dev nD) (E : Set ℕ) (i : grid1.Coords) (arg1 : Memref sig .tc .vmem S8000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S8000x128 .f32) (harg7 : arg7.IsWhole)
    (x0 : Vec F S8000x64 .f32) (x1 : Vec F S64x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2) ∗ owns (c : Thread nD τ) arg7 fullShare (out1_6 x0 x1 x2 x3 x4)) -∗ K ⟨⟩))
      ⊢ wp frame (wpE (defs₀ (F := F)) Variants.none c none) E (cc1__edge_proj_kernel i arg1 harg1 arg2 harg2 arg3 harg3 arg4 harg4 arg5 harg5 arg6 harg6 arg7 harg7) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.B2.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import proofs.«174758_j6468220748546_1_alg».proof.Proof.K.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body's triple and the obligation at a generic grid point -/

set_option maxHeartbeats 1000000 in
/-- The body on whole staging buffers, the inputs holding `x_w` and the outputs anything, runs to a state where the
    inputs are as they were and each output holds the body's value of the inputs. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S4000x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__edge_elem_kernel i arg1 harg1 arg2 harg2 arg3 harg3 arg4 harg4 arg5 harg5 arg6 harg6) K := by
  simp only [cc2__edge_elem_kernel_eq_skeleton]; unfold cc2__edge_elem_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover2_4 _)
  iexists _; isplitr
  swap; · iexact H5
  ipureintro
  try dsimp only
  exact View.read_writes_eq_canon _ _ _ (cover2_5 _)

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple above applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorem, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.B3.lean ====
import proofs.«174758_j6468220748546_1_alg».proof.Proof.Gen.Kernel.Launch
import proofs.«174758_j6468220748546_1_alg».proof.Proof.Gen.Kernel.Skeleton
import proofs.«174758_j6468220748546_1_alg».proof.Proof.Gen.Kernel.Points
import proofs.«174758_j6468220748546_1_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body's triple and the obligation at a generic grid point -/

set_option maxHeartbeats 1000000 in
/-- The body on whole staging buffers, the inputs holding `x_w` and the outputs anything, runs to a state where the
    inputs are as they were and each output holds the body's value of the inputs. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__out_layer_kernel i arg1 harg1 arg2 harg2 arg3 harg3 arg4 harg4 arg5 harg5 arg6 harg6 arg7 harg7) K := by
  simp only [cc3__out_layer_kernel_eq_skeleton]; unfold cc3__out_layer_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover3_6 _)

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the triple above applies; the invariant and
    what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorem, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Run.lean ====
import proofs.«174758_j6468220748546_1_alg».proof.Proof.K.Fold
import proofs.«174758_j6468220748546_1_alg».proof.Proof.K.B0
import proofs.«174758_j6468220748546_1_alg».proof.Proof.K.B1
import proofs.«174758_j6468220748546_1_alg».proof.Proof.K.B2
import proofs.«174758_j6468220748546_1_alg».proof.Proof.K.B3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its twelve segments from the launch to the return

Eight stretches of host operations and four kernel regions, each entered from the thread state the one before it left:
every unscoped buffer at the boundary's contents (the fold `W0 … W12`), the generator register at some state, nothing owed. -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it leaves those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Operations that each allocate the same (empty) set of buffers as a list: none allocates. -/
theorem fresh_of_map_eq (ops : List (HloOp τ sig (Elt F)))
    (h : ops.map (fun op => op.fresh) = ops.map fun _ => (∅ : Finset (DevRef τ sig))) : ops.Forall fun op => op.fresh = ∅ :=
  List.forall_iff_forall_mem.mpr fun op hop => List.map_inj_left.mp h op hop
/-- No operation of `hostOps0` allocates a buffer. -/
theorem hostOps0_fresh : (hostOps0 : List (HloOp τ sig (Elt F))).Forall fun op => op.fresh = ∅ :=
  fresh_of_map_eq _ (by chain_rfl)
/-- No operation of `hostOps1` allocates a buffer. -/
theorem hostOps1_fresh : (hostOps1 : List (HloOp τ sig (Elt F))).Forall fun op => op.fresh = ∅ :=
  fresh_of_map_eq _ (by chain_rfl)
/-- No operation of `hostOps2` allocates a buffer. -/
theorem hostOps2_fresh : (hostOps2 : List (HloOp τ sig (Elt F))).Forall fun op => op.fresh = ∅ :=
  fresh_of_map_eq _ (by chain_rfl)
/-- No operation of `hostOps3` allocates a buffer. -/
theorem hostOps3_fresh : (hostOps3 : List (HloOp τ sig (Elt F))).Forall fun op => op.fresh = ∅ :=
  fresh_of_map_eq _ (by chain_rfl)
/-- No operation of `hostOps3_1` allocates a buffer. -/
theorem hostOps3_1_fresh : (hostOps3_1 : List (HloOp τ sig (Elt F))).Forall fun op => op.fresh = ∅ :=
  fresh_of_map_eq _ (by chain_rfl)
/-- No operation of `hostOps3_2` allocates a buffer. -/
theorem hostOps3_2_fresh : (hostOps3_2 : List (HloOp τ sig (Elt F))).Forall fun op => op.fresh = ∅ :=
  fresh_of_map_eq _ (by chain_rfl)
/-- No operation of `hostOps3_3` allocates a buffer. -/
theorem hostOps3_3_fresh : (hostOps3_3 : List (HloOp τ sig (Elt F))).Forall fun op => op.fresh = ∅ :=
  fresh_of_map_eq _ (by chain_rfl)
/-- No operation of `hostOps3_4` allocates a buffer. -/
theorem hostOps3_4_fresh : (hostOps3_4 : List (HloOp τ sig (Elt F))).Forall fun op => op.fresh = ∅ :=
  fresh_of_map_eq _ (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the generator
    register at some state. -/
abbrev Tₙ (c : Dev nD) : sProp 𝕄 := iprop(StableHlo.held (c : Thread nD τ) (Pipeline.ucRefs τ sig) (W12 m ρ c) ∗ ∃ r, prngReg c r)

/-! ## The regions as segments -/

-- the library's lemmas over a pinned configuration unify with the printed one only when unification may unfold
-- plain definitions in a metavariable's type
set_option backward.isDefEq.respectTransparency.types false in
/-- Region 0 over the thread state: entered from every unscoped buffer at `W1`, left at `W2`. Its arrays are split
    out of the unscoped buffers on entry and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 1 over the thread state: entered from every unscoped buffer at `W3`, left at `W4`. Its arrays are split
    out of the unscoped buffers on entry and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 2 over the thread state: entered from every unscoped buffer at `W5`, left at `W6`. Its arrays are split
    out of the unscoped buffers on entry and put back at the exit contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 3 over the thread state: entered from every unscoped buffer at `W11`, left at `W12`. Its arrays are split
    out of the unscoped buffers on entry and put back at the exit contents; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every unscoped buffer of every core ends at the last boundary's contents `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Fr

end
-- ==== Proof.K.Args.lean ====
import proofs.«174758_j6468220748546_1_alg».proof.Proof.K.Fold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument's buffer (each writes the one buffer of its own result), and a region either reads an
argument through an input window, whose array it leaves as found, or does not touch it. So the fold of buffer contents, read
at an argument's buffer, walks back boundary by boundary to the launch memory. -/

/-- A stretch whose operations write, in order, exactly the buffers of the references `W` leaves the buffer of any other
    reference as it was. -/
theorem after_of_writes_eq {W : List (Ref sig .tc)} (ops : List (HloOp τ sig (Elt F))) (V : Valuation τ sig (Elt F))
    (h : ops.map (fun op => op.writes) = W.map fun y => ({Proc.devRef (τ := τ) .tc y} : Finset (DevRef τ sig)))
    {r : Ref sig .tc} (hr : r ∉ W) : StableHlo.after ops V (Proc.devRef .tc r) = V (Proc.devRef .tc r) :=
  StableHlo.after_of_forall_not_mem ops V fun op hop hb => by
    have hm : op.writes ∈ W.map fun y => ({Proc.devRef (τ := τ) .tc y} : Finset (DevRef τ sig)) :=
      h ▸ List.mem_map.mpr ⟨op, hop, rfl⟩
    obtain ⟨y, hy, e⟩ := List.mem_map.mp hm
    rw [← e, Finset.mem_singleton] at hb
    exact hr (Proc.devRef_injective _ hb ▸ hy)

/-- The references whose buffers the 7 operations of `hostOps0` write, in order. -/
abbrev hostOps0_wr : List (Ref sig .tc) :=
  [main_v0, main_v1, main_v2, main_v3, main_v4, main_v5, main_v6]
theorem hostOps0_writes : ((hostOps0 : List (HloOp τ sig (Elt F))).map fun op => op.writes)
    = hostOps0_wr.map fun y => ({Proc.devRef (τ := τ) .tc y} : Finset (DevRef τ sig)) := by
  chain_rfl

/-- The references whose buffers the 6 operations of `hostOps1` write, in order. -/
abbrev hostOps1_wr : List (Ref sig .tc) :=
  [main_v8, main_v9, main_v10, main_v11, main_v12, main_v13]
theorem hostOps1_writes : ((hostOps1 : List (HloOp τ sig (Elt F))).map fun op => op.writes)
    = hostOps1_wr.map fun y => ({Proc.devRef (τ := τ) .tc y} : Finset (DevRef τ sig)) := by
  chain_rfl

/-- The references whose buffers the 27 operations of `hostOps2` write, in order. -/
abbrev hostOps2_wr : List (Ref sig .tc) :=
  [main_c, main_v15, main_v16, main_c_0, main_v17, main_v18, main_v19, main_v20, main_v21, main_c_1, main_v22, main_v23, main_c_2, main_v24, main_v25, main_v26, main_v27, main_v28, main_c_3, main_v29, main_v30, main_c_4, main_v31, main_v32, main_v33, main_v34, main_v35]
theorem hostOps2_writes : ((hostOps2 : List (HloOp τ sig (Elt F))).map fun op => op.writes)
    = hostOps2_wr.map fun y => ({Proc.devRef (τ := τ) .tc y} : Finset (DevRef τ sig)) := by
  chain_rfl

/-- The references whose buffers the 128 operations of `hostOps3` write, in order. -/
abbrev hostOps3_wr : List (Ref sig .tc) :=
  [main_cst, main_v37, main_v38, main_v39, main_v40, main_c_5, main_v41, main_v42, main_c_6, main_v43, main_v44, main_v45, main_v46, main_v47, main_cst_7, main_v48, main_cst_8, main_v49, main_v50, main_v51, main_cst_9, main_v52, main_v53, main_cst_10, main_v54, main_v55, main_v56, main_v57, main_v58, main_v59, main_c_11, main_v60, main_v61, main_c_12, main_v62, main_v63, main_v64, main_v65, main_v66, main_v67, main_v68, main_v69, main_v70, main_v71, main_cst_13, main_v72, main_v73, main_v74, main_v75, main_v76, main_v77, main_v78, main_v79, main_v80, main_cst_14, main_v81, main_v82, main_v83, main_c_15, main_v84, main_v85, main_c_16, main_v86, main_v87, main_v88, main_v89, main_v90, main_v91, main_v92, main_v93, main_v94, main_cst_17, main_v95, main_cst_18, main_v96, main_v97, main_v98, main_cst_19, main_v99, main_v100, main_cst_20, main_v101, main_v102, main_v103, main_v104, main_v105, main_v106, main_c_21, main_v107, main_v108, main_c_22, main_v109, main_v110, main_v111, main_v112, main_v113, main_v114, main_v115, main_v116, main_v117, main_v118, main_cst_23, main_v119, main_v120, main_v121, main_v122, main_v123, main_v124, main_v125, main_v126, main_v127, main_cst_24, main_v128, main_v129, main_v130, main_c_25, main_v131, main_v132, main_c_26, main_v133, main_v134, main_v135, main_v136, main_v137, main_v138, main_v139, main_v140, main_v141]
theorem hostOps3_writes : ((hostOps3 : List (HloOp τ sig (Elt F))).map fun op => op.writes)
    = hostOps3_wr.map fun y => ({Proc.devRef (τ := τ) .tc y} : Finset (DevRef τ sig)) := by
  chain_rfl

/-- The references whose buffers the 3 operations of `hostOps3_1` write, in order. -/
abbrev hostOps3_1_wr : List (Ref sig .tc) :=
  [main_call0_cst, main_call0_v0, main_v142]
theorem hostOps3_1_writes : ((hostOps3_1 : List (HloOp τ sig (Elt F))).map fun op => op.writes)
    = hostOps3_1_wr.map fun y => ({Proc.devRef (τ := τ) .tc y} : Finset (DevRef τ sig)) := by
  chain_rfl

/-- The references whose buffers the 3 operations of `hostOps3_2` write, in order. -/
abbrev hostOps3_2_wr : List (Ref sig .tc) :=
  [main_call1_cst, main_call1_v0, main_v143]
theorem hostOps3_2_writes : ((hostOps3_2 : List (HloOp τ sig (Elt F))).map fun op => op.writes)
    = hostOps3_2_wr.map fun y => ({Proc.devRef (τ := τ) .tc y} : Finset (DevRef τ sig)) := by
  chain_rfl

/-- The references whose buffers the 3 operations of `hostOps3_3` write, in order. -/
abbrev hostOps3_3_wr : List (Ref sig .tc) :=
  [main_call2_cst, main_call2_v0, main_v144]
theorem hostOps3_3_writes : ((hostOps3_3 : List (HloOp τ sig (Elt F))).map fun op => op.writes)
    = hostOps3_3_wr.map fun y => ({Proc.devRef (τ := τ) .tc y} : Finset (DevRef τ sig)) := by
  chain_rfl

/-- The references whose buffers the 18 operations of `hostOps3_4` write, in order. -/
abbrev hostOps3_4_wr : List (Ref sig .tc) :=
  [main_v145, main_v146, main_v147, main_v148, main_c_27, main_v149, main_v150, main_c_28, main_v151, main_v152, main_v153, main_v154, main_v155, main_v156, main_v157, main_v158, main_v159, main_v160]
theorem hostOps3_4_writes : ((hostOps3_4 : List (HloOp τ sig (Elt F))).map fun op => op.writes)
    = hostOps3_4_wr.map fun y => ({Proc.devRef (τ := τ) .tc y} : Finset (DevRef τ sig)) := by
  chain_rfl

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := after_of_writes_eq hostOps3_4 _ hostOps3_4_writes (by decide)
    _ = W9 m ρ c (Proc.devRef .tc main_arg0) := after_of_writes_eq hostOps3_3 _ hostOps3_3_writes (by decide)
    _ = W8 m ρ c (Proc.devRef .tc main_arg0) := after_of_writes_eq hostOps3_2 _ hostOps3_2_writes (by decide)
    _ = W7 m ρ c (Proc.devRef .tc main_arg0) := after_of_writes_eq hostOps3_1 _ hostOps3_1_writes (by decide)
    _ = W6 m ρ c (Proc.devRef .tc main_arg0) := after_of_writes_eq hostOps3 _ hostOps3_writes (by decide)
    _ = W5 m ρ c (Proc.devRef .tc main_arg0) := W6_of_ne m ρ c main_arg0 (by decide)
    _ = W4 m ρ c (Proc.devRef .tc main_arg0) := after_of_writes_eq hostOps2 _ hostOps2_writes (by decide)
    _ = W3 m ρ c (Proc.devRef .tc main_arg0) := W4_of_ne m ρ c main_arg0 (by decide)
    _ = W2 m ρ c (Proc.devRef .tc main_arg0) := after_of_writes_eq hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_of_writes_eq hostOps0 _ hostOps0_writes (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := after_of_writes_eq hostOps3_4 _ hostOps3_4_writes (by decide)
    _ = W9 m ρ c (Proc.devRef .tc main_arg1) := after_of_writes_eq hostOps3_3 _ hostOps3_3_writes (by decide)
    _ = W8 m ρ c (Proc.devRef .tc main_arg1) := after_of_writes_eq hostOps3_2 _ hostOps3_2_writes (by decide)
    _ = W7 m ρ c (Proc.devRef .tc main_arg1) := after_of_writes_eq hostOps3_1 _ hostOps3_1_writes (by decide)
    _ = W6 m ρ c (Proc.devRef .tc main_arg1) := after_of_writes_eq hostOps3 _ hostOps3_writes (by decide)
    _ = W5 m ρ c (Proc.devRef .tc main_arg1) := W6_of_ne m ρ c main_arg1 (by decide)
    _ = W4 m ρ c (Proc.devRef .tc main_arg1) := after_of_writes_eq hostOps2 _ hostOps2_writes (by decide)
    _ = W3 m ρ c (Proc.devRef .tc main_arg1) := W4_of_ne m ρ c main_arg1 (by decide)
    _ = W2 m ρ c (Proc.devRef .tc main_arg1) := after_of_writes_eq hostOps1 _ hostOps1_writes (by decide)
    _ = W1 m ρ c (Proc.devRef .tc main_arg1) := W2_of_ne m ρ c main_arg1 (by decide)
    _ = W0 m ρ c (Proc.devRef .tc main_arg1) := after_of_writes_eq hostOps0 _ hostOps0_writes (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := after_of_writes_eq hostOps3_4 _ hostOps3_4_writes (by decide)
    _ = W9 m ρ c (Proc.devRef .tc main_arg2) := after_of_writes_eq hostOps3_3 _ hostOps3_3_writes (by decide)
    _ = W8 m ρ c (Proc.devRef .tc main_arg2) := after_of_writes_eq hostOps3_2 _ hostOps3_2_writes (by decide)
    _ = W7 m ρ c (Proc.devRef .tc main_arg2) := after_of_writes_eq hostOps3_1 _ hostOps3_1_writes (by decide)
    _ = W6 m ρ c (Proc.devRef .tc main_arg2) := after_of_writes_eq hostOps3 _ hostOps3_writes (by decide)
    _ = W5 m ρ c (Proc.devRef .tc main_arg2) := W6_of_ne m ρ c main_arg2 (by decide)
    _ = W4 m ρ c (Proc.devRef .tc main_arg2) := after_of_writes_eq hostOps2 _ hostOps2_writes (by decide)
    _ = W3 m ρ c (Proc.devRef .tc main_arg2) := (W4_arr m ρ c 0).trans (((dat1 (V3 m ρ) c).arrAt_in 0 rfl _).trans (A_eq1 (V3 m ρ) c 0))
    _ = W2 m ρ c (Proc.devRef .tc main_arg2) := after_of_writes_eq hostOps1 _ hostOps1_writes (by decide)
    _ = W1 m ρ c (Proc.devRef .tc main_arg2) := W2_of_ne m ρ c main_arg2 (by decide)
    _ = W0 m ρ c (Proc.devRef .tc main_arg2) := after_of_writes_eq hostOps0 _ hostOps0_writes (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := after_of_writes_eq hostOps3_4 _ hostOps3_4_writes (by decide)
    _ = W9 m ρ c (Proc.devRef .tc main_arg3) := after_of_writes_eq hostOps3_3 _ hostOps3_3_writes (by decide)
    _ = W8 m ρ c (Proc.devRef .tc main_arg3) := after_of_writes_eq hostOps3_2 _ hostOps3_2_writes (by decide)
    _ = W7 m ρ c (Proc.devRef .tc main_arg3) := after_of_writes_eq hostOps3_1 _ hostOps3_1_writes (by decide)
    _ = W6 m ρ c (Proc.devRef .tc main_arg3) := after_of_writes_eq hostOps3 _ hostOps3_writes (by decide)
    _ = W5 m ρ c (Proc.devRef .tc main_arg3) := W6_of_ne m ρ c main_arg3 (by decide)
    _ = W4 m ρ c (Proc.devRef .tc main_arg3) := after_of_writes_eq hostOps2 _ hostOps2_writes (by decide)
    _ = W3 m ρ c (Proc.devRef .tc main_arg3) := W4_of_ne m ρ c main_arg3 (by decide)
    _ = W2 m ρ c (Proc.devRef .tc main_arg3) := after_of_writes_eq hostOps1 _ hostOps1_writes (by decide)
    _ = W1 m ρ c (Proc.devRef .tc main_arg3) := W2_of_ne m ρ c main_arg3 (by decide)
    _ = W0 m ρ c (Proc.devRef .tc main_arg3) := after_of_writes_eq hostOps0 _ hostOps0_writes (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := after_of_writes_eq hostOps3_4 _ hostOps3_4_writes (by decide)
    _ = W9 m ρ c (Proc.devRef .tc main_arg4) := after_of_writes_eq hostOps3_3 _ hostOps3_3_writes (by decide)
    _ = W8 m ρ c (Proc.devRef .tc main_arg4) := after_of_writes_eq hostOps3_2 _ hostOps3_2_writes (by decide)
    _ = W7 m ρ c (Proc.devRef .tc main_arg4) := after_of_writes_eq hostOps3_1 _ hostOps3_1_writes (by decide)
    _ = W6 m ρ c (Proc.devRef .tc main_arg4) := after_of_writes_eq hostOps3 _ hostOps3_writes (by decide)
    _ = W5 m ρ c (Proc.devRef .tc main_arg4) := W6_of_ne m ρ c main_arg4 (by decide)
    _ = W4 m ρ c (Proc.devRef .tc main_arg4) := after_of_writes_eq hostOps2 _ hostOps2_writes (by decide)
    _ = W3 m ρ c (Proc.devRef .tc main_arg4) := W4_of_ne m ρ c main_arg4 (by decide)
    _ = W2 m ρ c (Proc.devRef .tc main_arg4) := after_of_writes_eq hostOps1 _ hostOps1_writes (by decide)
    _ = W1 m ρ c (Proc.devRef .tc main_arg4) := W2_of_ne m ρ c main_arg4 (by decide)
    _ = W0 m ρ c (Proc.devRef .tc main_arg4) := after_of_writes_eq hostOps0 _ hostOps0_writes (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := after_of_writes_eq hostOps3_4 _ hostOps3_4_writes (by decide)
    _ = W9 m ρ c (Proc.devRef .tc main_arg5) := after_of_writes_eq hostOps3_3 _ hostOps3_3_writes (by decide)
    _ = W8 m ρ c (Proc.devRef .tc main_arg5) := after_of_writes_eq hostOps3_2 _ hostOps3_2_writes (by decide)
    _ = W7 m ρ c (Proc.devRef .tc main_arg5) := after_of_writes_eq hostOps3_1 _ hostOps3_1_writes (by decide)
    _ = W6 m ρ c (Proc.devRef .tc main_arg5) := after_of_writes_eq hostOps3 _ hostOps3_writes (by decide)
    _ = W5 m ρ c (Proc.devRef .tc main_arg5) := W6_of_ne m ρ c main_arg5 (by decide)
    _ = W4 m ρ c (Proc.devRef .tc main_arg5) := after_of_writes_eq hostOps2 _ hostOps2_writes (by decide)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := after_of_writes_eq hostOps1 _ hostOps1_writes (by decide)
    _ = W1 m ρ c (Proc.devRef .tc main_arg5) := W2_of_ne m ρ c main_arg5 (by decide)
    _ = W0 m ρ c (Proc.devRef .tc main_arg5) := after_of_writes_eq hostOps0 _ hostOps0_writes (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := after_of_writes_eq hostOps3_4 _ hostOps3_4_writes (by decide)
    _ = W9 m ρ c (Proc.devRef .tc main_arg6) := after_of_writes_eq hostOps3_3 _ hostOps3_3_writes (by decide)
    _ = W8 m ρ c (Proc.devRef .tc main_arg6) := after_of_writes_eq hostOps3_2 _ hostOps3_2_writes (by decide)
    _ = W7 m ρ c (Proc.devRef .tc main_arg6) := after_of_writes_eq hostOps3_1 _ hostOps3_1_writes (by decide)
    _ = W6 m ρ c (Proc.devRef .tc main_arg6) := after_of_writes_eq hostOps3 _ hostOps3_writes (by decide)
    _ = W5 m ρ c (Proc.devRef .tc main_arg6) := W6_of_ne m ρ c main_arg6 (by decide)
    _ = W4 m ρ c (Proc.devRef .tc main_arg6) := after_of_writes_eq hostOps2 _ hostOps2_writes (by decide)
    _ = W3 m ρ c (Proc.devRef .tc main_arg6) := W4_of_ne m ρ c main_arg6 (by decide)
    _ = W2 m ρ c (Proc.devRef .tc main_arg6) := after_of_writes_eq hostOps1 _ hostOps1_writes (by decide)
    _ = W1 m ρ c (Proc.devRef .tc main_arg6) := W2_of_ne m ρ c main_arg6 (by decide)
    _ = W0 m ρ c (Proc.devRef .tc main_arg6) := after_of_writes_eq hostOps0 _ hostOps0_writes (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := after_of_writes_eq hostOps3_4 _ hostOps3_4_writes (by decide)
    _ = W9 m ρ c (Proc.devRef .tc main_arg7) := after_of_writes_eq hostOps3_3 _ hostOps3_3_writes (by decide)
    _ = W8 m ρ c (Proc.devRef .tc main_arg7) := after_of_writes_eq hostOps3_2 _ hostOps3_2_writes (by decide)
    _ = W7 m ρ c (Proc.devRef .tc main_arg7) := after_of_writes_eq hostOps3_1 _ hostOps3_1_writes (by decide)
    _ = W6 m ρ c (Proc.devRef .tc main_arg7) := after_of_writes_eq hostOps3 _ hostOps3_writes (by decide)
    _ = W5 m ρ c (Proc.devRef .tc main_arg7) := W6_of_ne m ρ c main_arg7 (by decide)
    _ = W4 m ρ c (Proc.devRef .tc main_arg7) := after_of_writes_eq hostOps2 _ hostOps2_writes (by decide)
    _ = W3 m ρ c (Proc.devRef .tc main_arg7) := (W4_arr m ρ c 3).trans (((dat1 (V3 m ρ) c).arrAt_in 3 rfl _).trans (A_eq1 (V3 m ρ) c 3))
    _ = W2 m ρ c (Proc.devRef .tc main_arg7) := after_of_writes_eq hostOps1 _ hostOps1_writes (by decide)
    _ = W1 m ρ c (Proc.devRef .tc main_arg7) := W2_of_ne m ρ c main_arg7 (by decide)
    _ = W0 m ρ c (Proc.devRef .tc main_arg7) := after_of_writes_eq hostOps0 _ hostOps0_writes (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := after_of_writes_eq hostOps3_4 _ hostOps3_4_writes (by decide)
    _ = W9 m ρ c (Proc.devRef .tc main_arg8) := after_of_writes_eq hostOps3_3 _ hostOps3_3_writes (by decide)
    _ = W8 m ρ c (Proc.devRef .tc main_arg8) := after_of_writes_eq hostOps3_2 _ hostOps3_2_writes (by decide)
    _ = W7 m ρ c (Proc.devRef .tc main_arg8) := after_of_writes_eq hostOps3_1 _ hostOps3_1_writes (by decide)
    _ = W6 m ρ c (Proc.devRef .tc main_arg8) := after_of_writes_eq hostOps3 _ hostOps3_writes (by decide)
    _ = W5 m ρ c (Proc.devRef .tc main_arg8) := W6_of_ne m ρ c main_arg8 (by decide)
    _ = W4 m ρ c (Proc.devRef .tc main_arg8) := after_of_writes_eq hostOps2 _ hostOps2_writes (by decide)
    _ = W3 m ρ c (Proc.devRef .tc main_arg8) := W4_of_ne m ρ c main_arg8 (by decide)
    _ = W2 m ρ c (Proc.devRef .tc main_arg8) := after_of_writes_eq hostOps1 _ hostOps1_writes (by decide)
    _ = W1 m ρ c (Proc.devRef .tc main_arg8) := W2_of_ne m ρ c main_arg8 (by decide)
    _ = W0 m ρ c (Proc.devRef .tc main_arg8) := after_of_writes_eq hostOps0 _ hostOps0_writes (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := after_of_writes_eq hostOps3_4 _ hostOps3_4_writes (by decide)
    _ = W9 m ρ c (Proc.devRef .tc main_arg9) := after_of_writes_eq hostOps3_3 _ hostOps3_3_writes (by decide)
    _ = W8 m ρ c (Proc.devRef .tc main_arg9) := after_of_writes_eq hostOps3_2 _ hostOps3_2_writes (by decide)
    _ = W7 m ρ c (Proc.devRef .tc main_arg9) := after_of_writes_eq hostOps3_1 _ hostOps3_1_writes (by decide)
    _ = W6 m ρ c (Proc.devRef .tc main_arg9) := after_of_writes_eq hostOps3 _ hostOps3_writes (by decide)
    _ = W5 m ρ c (Proc.devRef .tc main_arg9) := W6_of_ne m ρ c main_arg9 (by decide)
    _ = W4 m ρ c (Proc.devRef .tc main_arg9) := after_of_writes_eq hostOps2 _ hostOps2_writes (by decide)
    _ = W3 m ρ c (Proc.devRef .tc main_arg9) := W4_of_ne m ρ c main_arg9 (by decide)
    _ = W2 m ρ c (Proc.devRef .tc main_arg9) := after_of_writes_eq hostOps1 _ hostOps1_writes (by decide)
    _ = W1 m ρ c (Proc.devRef .tc main_arg9) := W2_of_ne m ρ c main_arg9 (by decide)
    _ = W0 m ρ c (Proc.devRef .tc main_arg9) := after_of_writes_eq hostOps0 _ hostOps0_writes (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := after_of_writes_eq hostOps3_4 _ hostOps3_4_writes (by decide)
    _ = W9 m ρ c (Proc.devRef .tc main_arg10) := after_of_writes_eq hostOps3_3 _ hostOps3_3_writes (by decide)
    _ = W8 m ρ c (Proc.devRef .tc main_arg10) := after_of_writes_eq hostOps3_2 _ hostOps3_2_writes (by decide)
    _ = W7 m ρ c (Proc.devRef .tc main_arg10) := after_of_writes_eq hostOps3_1 _ hostOps3_1_writes (by decide)
    _ = W6 m ρ c (Proc.devRef .tc main_arg10) := after_of_writes_eq hostOps3 _ hostOps3_writes (by decide)
    _ = W5 m ρ c (Proc.devRef .tc main_arg10) := W6_of_ne m ρ c main_arg10 (by decide)
    _ = W4 m ρ c (Proc.devRef .tc main_arg10) := after_of_writes_eq hostOps2 _ hostOps2_writes (by decide)
    _ = W3 m ρ c (Proc.devRef .tc main_arg10) := W4_of_ne m ρ c main_arg10 (by decide)
    _ = W2 m ρ c (Proc.devRef .tc main_arg10) := after_of_writes_eq hostOps1 _ hostOps1_writes (by decide)
    _ = W1 m ρ c (Proc.devRef .tc main_arg10) := W2_of_ne m ρ c main_arg10 (by decide)
    _ = W0 m ρ c (Proc.devRef .tc main_arg10) := after_of_writes_eq hostOps0 _ hostOps0_writes (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := after_of_writes_eq hostOps3_4 _ hostOps3_4_writes (by decide)
    _ = W9 m ρ c (Proc.devRef .tc main_arg11) := after_of_writes_eq hostOps3_3 _ hostOps3_3_writes (by decide)
    _ = W8 m ρ c (Proc.devRef .tc main_arg11) := after_of_writes_eq hostOps3_2 _ hostOps3_2_writes (by decide)
    _ = W7 m ρ c (Proc.devRef .tc main_arg11) := after_of_writes_eq hostOps3_1 _ hostOps3_1_writes (by decide)
    _ = W6 m ρ c (Proc.devRef .tc main_arg11) := after_of_writes_eq hostOps3 _ hostOps3_writes (by decide)
    _ = W5 m ρ c (Proc.devRef .tc main_arg11) := W6_of_ne m ρ c main_arg11 (by decide)
    _ = W4 m ρ c (Proc.devRef .tc main_arg11) := after_of_writes_eq hostOps2 _ hostOps2_writes (by decide)
    _ = W3 m ρ c (Proc.devRef .tc main_arg11) := W4_of_ne m ρ c main_arg11 (by decide)
    _ = W2 m ρ c (Proc.devRef .tc main_arg11) := after_of_writes_eq hostOps1 _ hostOps1_writes (by decide)
    _ = W1 m ρ c (Proc.devRef .tc main_arg11) := W2_of_ne m ρ c main_arg11 (by decide)
    _ = W0 m ρ c (Proc.devRef .tc main_arg11) := after_of_writes_eq hostOps0 _ hostOps0_writes (by decide)
    _ = m ((c : Thread nD τ).loc main_arg11) := rfl

theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := after_of_writes_eq hostOps3_4 _ hostOps3_4_writes (by decide)
    _ = W9 m ρ c (Proc.devRef .tc main_arg12) := after_of_writes_eq hostOps3_3 _ hostOps3_3_writes (by decide)
    _ = W8 m ρ c (Proc.devRef .tc main_arg12) := after_of_writes_eq hostOps3_2 _ hostOps3_2_writes (by decide)
    _ = W7 m ρ c (Proc.devRef .tc main_arg12) := after_of_writes_eq hostOps3_1 _ hostOps3_1_writes (by decide)
    _ = W6 m ρ c (Proc.devRef .tc main_arg12) := after_of_writes_eq hostOps3 _ hostOps3_writes (by decide)
    _ = W5 m ρ c (Proc.devRef .tc main_arg12) := W6_of_ne m ρ c main_arg12 (by decide)
    _ = W4 m ρ c (Proc.devRef .tc main_arg12) := after_of_writes_eq hostOps2 _ hostOps2_writes (by decide)
    _ = W3 m ρ c (Proc.devRef .tc main_arg12) := W4_of_ne m ρ c main_arg12 (by decide)
    _ = W2 m ρ c (Proc.devRef .tc main_arg12) := after_of_writes_eq hostOps1 _ hostOps1_writes (by decide)
    _ = W1 m ρ c (Proc.devRef .tc main_arg12) := W2_of_ne m ρ c main_arg12 (by decide)
    _ = W0 m ρ c (Proc.devRef .tc main_arg12) := after_of_writes_eq hostOps0 _ hostOps0_writes (by decide)
    _ = m ((c : Thread nD τ).loc main_arg12) := rfl

theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := after_of_writes_eq hostOps3_4 _ hostOps3_4_writes (by decide)
    _ = W9 m ρ c (Proc.devRef .tc main_arg13) := after_of_writes_eq hostOps3_3 _ hostOps3_3_writes (by decide)
    _ = W8 m ρ c (Proc.devRef .tc main_arg13) := after_of_writes_eq hostOps3_2 _ hostOps3_2_writes (by decide)
    _ = W7 m ρ c (Proc.devRef .tc main_arg13) := after_of_writes_eq hostOps3_1 _ hostOps3_1_writes (by decide)
    _ = W6 m ρ c (Proc.devRef .tc main_arg13) := after_of_writes_eq hostOps3 _ hostOps3_writes (by decide)
    _ = W5 m ρ c (Proc.devRef .tc main_arg13) := W6_of_ne m ρ c main_arg13 (by decide)
    _ = W4 m ρ c (Proc.devRef .tc main_arg13) := after_of_writes_eq hostOps2 _ hostOps2_writes (by decide)
    _ = W3 m ρ c (Proc.devRef .tc main_arg13) := W4_of_ne m ρ c main_arg13 (by decide)
    _ = W2 m ρ c (Proc.devRef .tc main_arg13) := after_of_writes_eq hostOps1 _ hostOps1_writes (by decide)
    _ = W1 m ρ c (Proc.devRef .tc main_arg13) := W2_of_ne m ρ c main_arg13 (by decide)
    _ = W0 m ρ c (Proc.devRef .tc main_arg13) := after_of_writes_eq hostOps0 _ hostOps0_writes (by decide)
    _ = m ((c : Thread nD τ).loc main_arg13) := rfl

theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := after_of_writes_eq hostOps3_4 _ hostOps3_4_writes (by decide)
    _ = W9 m ρ c (Proc.devRef .tc main_arg14) := after_of_writes_eq hostOps3_3 _ hostOps3_3_writes (by decide)
    _ = W8 m ρ c (Proc.devRef .tc main_arg14) := after_of_writes_eq hostOps3_2 _ hostOps3_2_writes (by decide)
    _ = W7 m ρ c (Proc.devRef .tc main_arg14) := after_of_writes_eq hostOps3_1 _ hostOps3_1_writes (by decide)
    _ = W6 m ρ c (Proc.devRef .tc main_arg14) := after_of_writes_eq hostOps3 _ hostOps3_writes (by decide)
    _ = W5 m ρ c (Proc.devRef .tc main_arg14) := W6_of_ne m ρ c main_arg14 (by decide)
    _ = W4 m ρ c (Proc.devRef .tc main_arg14) := after_of_writes_eq hostOps2 _ hostOps2_writes (by decide)
    _ = W3 m ρ c (Proc.devRef .tc main_arg14) := W4_of_ne m ρ c main_arg14 (by decide)
    _ = W2 m ρ c (Proc.devRef .tc main_arg14) := after_of_writes_eq hostOps1 _ hostOps1_writes (by decide)
    _ = W1 m ρ c (Proc.devRef .tc main_arg14) := W2_of_ne m ρ c main_arg14 (by decide)
    _ = W0 m ρ c (Proc.devRef .tc main_arg14) := after_of_writes_eq hostOps0 _ hostOps0_writes (by decide)
    _ = m ((c : Thread nD τ).loc main_arg14) := rfl

theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := after_of_writes_eq hostOps3_4 _ hostOps3_4_writes (by decide)
    _ = W9 m ρ c (Proc.devRef .tc main_arg15) := after_of_writes_eq hostOps3_3 _ hostOps3_3_writes (by decide)
    _ = W8 m ρ c (Proc.devRef .tc main_arg15) := after_of_writes_eq hostOps3_2 _ hostOps3_2_writes (by decide)
    _ = W7 m ρ c (Proc.devRef .tc main_arg15) := after_of_writes_eq hostOps3_1 _ hostOps3_1_writes (by decide)
    _ = W6 m ρ c (Proc.devRef .tc main_arg15) := after_of_writes_eq hostOps3 _ hostOps3_writes (by decide)
    _ = W5 m ρ c (Proc.devRef .tc main_arg15) := W6_of_ne m ρ c main_arg15 (by decide)
    _ = W4 m ρ c (Proc.devRef .tc main_arg15) := after_of_writes_eq hostOps2 _ hostOps2_writes (by decide)
    _ = W3 m ρ c (Proc.devRef .tc main_arg15) := W4_of_ne m ρ c main_arg15 (by decide)
    _ = W2 m ρ c (Proc.devRef .tc main_arg15) := after_of_writes_eq hostOps1 _ hostOps1_writes (by decide)
    _ = W1 m ρ c (Proc.devRef .tc main_arg15) := W2_of_ne m ρ c main_arg15 (by decide)
    _ = W0 m ρ c (Proc.devRef .tc main_arg15) := after_of_writes_eq hostOps0 _ hostOps0_writes (by decide)
    _ = m ((c : Thread nD τ).loc main_arg15) := rfl

theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := after_of_writes_eq hostOps3_4 _ hostOps3_4_writes (by decide)
    _ = W9 m ρ c (Proc.devRef .tc main_arg16) := after_of_writes_eq hostOps3_3 _ hostOps3_3_writes (by decide)
    _ = W8 m ρ c (Proc.devRef .tc main_arg16) := after_of_writes_eq hostOps3_2 _ hostOps3_2_writes (by decide)
    _ = W7 m ρ c (Proc.devRef .tc main_arg16) := after_of_writes_eq hostOps3_1 _ hostOps3_1_writes (by decide)
    _ = W6 m ρ c (Proc.devRef .tc main_arg16) := after_of_writes_eq hostOps3 _ hostOps3_writes (by decide)
    _ = W5 m ρ c (Proc.devRef .tc main_arg16) := W6_of_ne m ρ c main_arg16 (by decide)
    _ = W4 m ρ c (Proc.devRef .tc main_arg16) := after_of_writes_eq hostOps2 _ hostOps2_writes (by decide)
    _ = W3 m ρ c (Proc.devRef .tc main_arg16) := W4_of_ne m ρ c main_arg16 (by decide)
    _ = W2 m ρ c (Proc.devRef .tc main_arg16) := after_of_writes_eq hostOps1 _ hostOps1_writes (by decide)
    _ = W1 m ρ c (Proc.devRef .tc main_arg16) := W2_of_ne m ρ c main_arg16 (by decide)
    _ = W0 m ρ c (Proc.devRef .tc main_arg16) := after_of_writes_eq hostOps0 _ hostOps0_writes (by decide)
    _ = m ((c : Thread nD τ).loc main_arg16) := rfl

theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := after_of_writes_eq hostOps3_4 _ hostOps3_4_writes (by decide)
    _ = W9 m ρ c (Proc.devRef .tc main_arg17) := after_of_writes_eq hostOps3_3 _ hostOps3_3_writes (by decide)
    _ = W8 m ρ c (Proc.devRef .tc main_arg17) := after_of_writes_eq hostOps3_2 _ hostOps3_2_writes (by decide)
    _ = W7 m ρ c (Proc.devRef .tc main_arg17) := after_of_writes_eq hostOps3_1 _ hostOps3_1_writes (by decide)
    _ = W6 m ρ c (Proc.devRef .tc main_arg17) := after_of_writes_eq hostOps3 _ hostOps3_writes (by decide)
    _ = W5 m ρ c (Proc.devRef .tc main_arg17) := W6_of_ne m ρ c main_arg17 (by decide)
    _ = W4 m ρ c (Proc.devRef .tc main_arg17) := after_of_writes_eq hostOps2 _ hostOps2_writes (by decide)
    _ = W3 m ρ c (Proc.devRef .tc main_arg17) := W4_of_ne m ρ c main_arg17 (by decide)
    _ = W2 m ρ c (Proc.devRef .tc main_arg17) := after_of_writes_eq hostOps1 _ hostOps1_writes (by decide)
    _ = W1 m ρ c (Proc.devRef .tc main_arg17) := W2_of_ne m ρ c main_arg17 (by decide)
    _ = W0 m ρ c (Proc.devRef .tc main_arg17) := after_of_writes_eq hostOps0 _ hostOps0_writes (by decide)
    _ = m ((c : Thread nD τ).loc main_arg17) := rfl

theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of_ne m ρ c main_arg18 (by decide)
    _ = W10 m ρ c (Proc.devRef .tc main_arg18) := after_of_writes_eq hostOps3_4 _ hostOps3_4_writes (by decide)
    _ = W9 m ρ c (Proc.devRef .tc main_arg18) := after_of_writes_eq hostOps3_3 _ hostOps3_3_writes (by decide)
    _ = W8 m ρ c (Proc.devRef .tc main_arg18) := after_of_writes_eq hostOps3_2 _ hostOps3_2_writes (by decide)
    _ = W7 m ρ c (Proc.devRef .tc main_arg18) := after_of_writes_eq hostOps3_1 _ hostOps3_1_writes (by decide)
    _ = W6 m ρ c (Proc.devRef .tc main_arg18) := after_of_writes_eq hostOps3 _ hostOps3_writes (by decide)
    _ = W5 m ρ c (Proc.devRef .tc main_arg18) := W6_of_ne m ρ c main_arg18 (by decide)
    _ = W4 m ρ c (Proc.devRef .tc main_arg18) := after_of_writes_eq hostOps2 _ hostOps2_writes (by decide)
    _ = W3 m ρ c (Proc.devRef .tc main_arg18) := W4_of_ne m ρ c main_arg18 (by decide)
    _ = W2 m ρ c (Proc.devRef .tc main_arg18) := after_of_writes_eq hostOps1 _ hostOps1_writes (by decide)
    _ = W1 m ρ c (Proc.devRef .tc main_arg18) := W2_of_ne m ρ c main_arg18 (by decide)
    _ = W0 m ρ c (Proc.devRef .tc main_arg18) := after_of_writes_eq hostOps0 _ hostOps0_writes (by decide)
    _ = m ((c : Thread nD τ).loc main_arg18) := rfl

theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of_ne m ρ c main_arg19 (by decide)
    _ = W10 m ρ c (Proc.devRef .tc main_arg19) := after_of_writes_eq hostOps3_4 _ hostOps3_4_writes (by decide)
    _ = W9 m ρ c (Proc.devRef .tc main_arg19) := after_of_writes_eq hostOps3_3 _ hostOps3_3_writes (by decide)
    _ = W8 m ρ c (Proc.devRef .tc main_arg19) := after_of_writes_eq hostOps3_2 _ hostOps3_2_writes (by decide)
    _ = W7 m ρ c (Proc.devRef .tc main_arg19) := after_of_writes_eq hostOps3_1 _ hostOps3_1_writes (by decide)
    _ = W6 m ρ c (Proc.devRef .tc main_arg19) := after_of_writes_eq hostOps3 _ hostOps3_writes (by decide)
    _ = W5 m ρ c (Proc.devRef .tc main_arg19) := W6_of_ne m ρ c main_arg19 (by decide)
    _ = W4 m ρ c (Proc.devRef .tc main_arg19) := after_of_writes_eq hostOps2 _ hostOps2_writes (by decide)
    _ = W3 m ρ c (Proc.devRef .tc main_arg19) := W4_of_ne m ρ c main_arg19 (by decide)
    _ = W2 m ρ c (Proc.devRef .tc main_arg19) := after_of_writes_eq hostOps1 _ hostOps1_writes (by decide)
    _ = W1 m ρ c (Proc.devRef .tc main_arg19) := W2_of_ne m ρ c main_arg19 (by decide)
    _ = W0 m ρ c (Proc.devRef .tc main_arg19) := after_of_writes_eq hostOps0 _ hostOps0_writes (by decide)
    _ = m ((c : Thread nD τ).loc main_arg19) := rfl

theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := after_of_writes_eq hostOps3_4 _ hostOps3_4_writes (by decide)
    _ = W9 m ρ c (Proc.devRef .tc main_arg20) := after_of_writes_eq hostOps3_3 _ hostOps3_3_writes (by decide)
    _ = W8 m ρ c (Proc.devRef .tc main_arg20) := after_of_writes_eq hostOps3_2 _ hostOps3_2_writes (by decide)
    _ = W7 m ρ c (Proc.devRef .tc main_arg20) := after_of_writes_eq hostOps3_1 _ hostOps3_1_writes (by decide)
    _ = W6 m ρ c (Proc.devRef .tc main_arg20) := after_of_writes_eq hostOps3 _ hostOps3_writes (by decide)
    _ = W5 m ρ c (Proc.devRef .tc main_arg20) := W6_of_ne m ρ c main_arg20 (by decide)
    _ = W4 m ρ c (Proc.devRef .tc main_arg20) := after_of_writes_eq hostOps2 _ hostOps2_writes (by decide)
    _ = W3 m ρ c (Proc.devRef .tc main_arg20) := W4_of_ne m ρ c main_arg20 (by decide)
    _ = W2 m ρ c (Proc.devRef .tc main_arg20) := after_of_writes_eq hostOps1 _ hostOps1_writes (by decide)
    _ = W1 m ρ c (Proc.devRef .tc main_arg20) := W2_of_ne m ρ c main_arg20 (by decide)
    _ = W0 m ρ c (Proc.devRef .tc main_arg20) := after_of_writes_eq hostOps0 _ hostOps0_writes (by decide)
    _ = m ((c : Thread nD τ).loc main_arg20) := rfl

theorem W12_main_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of_ne m ρ c main_arg21 (by decide)
    _ = W10 m ρ c (Proc.devRef .tc main_arg21) := after_of_writes_eq hostOps3_4 _ hostOps3_4_writes (by decide)
    _ = W9 m ρ c (Proc.devRef .tc main_arg21) := after_of_writes_eq hostOps3_3 _ hostOps3_3_writes (by decide)
    _ = W8 m ρ c (Proc.devRef .tc main_arg21) := after_of_writes_eq hostOps3_2 _ hostOps3_2_writes (by decide)
    _ = W7 m ρ c (Proc.devRef .tc main_arg21) := after_of_writes_eq hostOps3_1 _ hostOps3_1_writes (by decide)
    _ = W6 m ρ c (Proc.devRef .tc main_arg21) := after_of_writes_eq hostOps3 _ hostOps3_writes (by decide)
    _ = W5 m ρ c (Proc.devRef .tc main_arg21) := W6_of_ne m ρ c main_arg21 (by decide)
    _ = W4 m ρ c (Proc.devRef .tc main_arg21) := after_of_writes_eq hostOps2 _ hostOps2_writes (by decide)
    _ = W3 m ρ c (Proc.devRef .tc main_arg21) := W4_of_ne m ρ c main_arg21 (by decide)
    _ = W2 m ρ c (Proc.devRef .tc main_arg21) := after_of_writes_eq hostOps1 _ hostOps1_writes (by decide)
    _ = W1 m ρ c (Proc.devRef .tc main_arg21) := W2_of_ne m ρ c main_arg21 (by decide)
    _ = W0 m ρ c (Proc.devRef .tc main_arg21) := after_of_writes_eq hostOps0 _ hostOps0_writes (by decide)
    _ = m ((c : Thread nD τ).loc main_arg21) := rfl

theorem W12_main_arg22 (c : Dev nD) : W12 m ρ c (Proc.devRef .tc main_arg22) = m ((c : Thread nD τ).loc main_arg22) :=
  calc W12 m ρ c (Proc.devRef .tc main_arg22)
    _ = W11 m ρ c (Proc.devRef .tc main_arg22) := W12_of_ne m ρ c main_arg22 (by decide)
    _ = W10 m ρ c (Proc.devRef .tc main_arg22) := after_of_writes_eq hostOps3_4 _ hostOps3_4_writes (by decide)
    _ = W9 m ρ c (Proc.devRef .tc main_arg22) := after_of_writes_eq hostOps3_3 _ hostOps3_3_writes (by decide)
    _ = W8 m ρ c (Proc.devRef .tc main_arg22) := after_of_writes_eq hostOps3_2 _ hostOps3_2_writes (by decide)
    _ = W7 m ρ c (Proc.devRef .tc main_arg22) := after_of_writes_eq hostOps3_1 _ hostOps3_1_writes (by decide)
    _ = W6 m ρ c (Proc.devRef .tc main_arg22) := after_of_writes_eq hostOps3 _ hostOps3_writes (by decide)
    _ = W5 m ρ c (Proc.devRef .tc main_arg22) := W6_of_ne m ρ c main_arg22 (by decide)
    _ = W4 m ρ c (Proc.devRef .tc main_arg22) := after_of_writes_eq hostOps2 _ hostOps2_writes (by decide)
    _ = W3 m ρ c (Proc.devRef .tc main_arg22) := W4_of_ne m ρ c main_arg22 (by decide)
    _ = W2 m ρ c (Proc.devRef .tc main_arg22) := after_of_writes_eq hostOps1 _ hostOps1_writes (by decide)
    _ = W1 m ρ c (Proc.devRef .tc main_arg22) := W2_of_ne m ρ c main_arg22 (by decide)
    _ = W0 m ρ c (Proc.devRef .tc main_arg22) := after_of_writes_eq hostOps0 _ hostOps0_writes (by decide)
    _ = m ((c : Thread nD τ).loc main_arg22) := rfl

theorem W12_main_arg23 (c : Dev nD) : W12 m ρ c (Proc.devRef .tc main_arg23) = m ((c : Thread nD τ).loc main_arg23) :=
  calc W12 m ρ c (Proc.devRef .tc main_arg23)
    _ = W11 m ρ c (Proc.devRef .tc main_arg23) := W12_of_ne m ρ c main_arg23 (by decide)
    _ = W10 m ρ c (Proc.devRef .tc main_arg23) := after_of_writes_eq hostOps3_4 _ hostOps3_4_writes (by decide)
    _ = W9 m ρ c (Proc.devRef .tc main_arg23) := after_of_writes_eq hostOps3_3 _ hostOps3_3_writes (by decide)
    _ = W8 m ρ c (Proc.devRef .tc main_arg23) := after_of_writes_eq hostOps3_2 _ hostOps3_2_writes (by decide)
    _ = W7 m ρ c (Proc.devRef .tc main_arg23) := after_of_writes_eq hostOps3_1 _ hostOps3_1_writes (by decide)
    _ = W6 m ρ c (Proc.devRef .tc main_arg23) := after_of_writes_eq hostOps3 _ hostOps3_writes (by decide)
    _ = W5 m ρ c (Proc.devRef .tc main_arg23) := W6_of_ne m ρ c main_arg23 (by decide)
    _ = W4 m ρ c (Proc.devRef .tc main_arg23) := after_of_writes_eq hostOps2 _ hostOps2_writes (by decide)
    _ = W3 m ρ c (Proc.devRef .tc main_arg23) := W4_of_ne m ρ c main_arg23 (by decide)
    _ = W2 m ρ c (Proc.devRef .tc main_arg23) := after_of_writes_eq hostOps1 _ hostOps1_writes (by decide)
    _ = W1 m ρ c (Proc.devRef .tc main_arg23) := W2_of_ne m ρ c main_arg23 (by decide)
    _ = W0 m ρ c (Proc.devRef .tc main_arg23) := after_of_writes_eq hostOps0 _ hostOps0_writes (by decide)
    _ = m ((c : Thread nD τ).loc main_arg23) := rfl

theorem W12_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := after_of_writes_eq hostOps3_4 _ hostOps3_4_writes (by decide)
    _ = W9 m ρ c (Proc.devRef .tc main_arg24) := after_of_writes_eq hostOps3_3 _ hostOps3_3_writes (by decide)
    _ = W8 m ρ c (Proc.devRef .tc main_arg24) := after_of_writes_eq hostOps3_2 _ hostOps3_2_writes (by decide)
    _ = W7 m ρ c (Proc.devRef .tc main_arg24) := after_of_writes_eq hostOps3_1 _ hostOps3_1_writes (by decide)
    _ = W6 m ρ c (Proc.devRef .tc main_arg24) := after_of_writes_eq hostOps3 _ hostOps3_writes (by decide)
    _ = W5 m ρ c (Proc.devRef .tc main_arg24) := W6_of_ne m ρ c main_arg24 (by decide)
    _ = W4 m ρ c (Proc.devRef .tc main_arg24) := after_of_writes_eq hostOps2 _ hostOps2_writes (by decide)
    _ = W3 m ρ c (Proc.devRef .tc main_arg24) := W4_of_ne m ρ c main_arg24 (by decide)
    _ = W2 m ρ c (Proc.devRef .tc main_arg24) := after_of_writes_eq hostOps1 _ hostOps1_writes (by decide)
    _ = W1 m ρ c (Proc.devRef .tc main_arg24) := W2_of_ne m ρ c main_arg24 (by decide)
    _ = W0 m ρ c (Proc.devRef .tc main_arg24) := after_of_writes_eq hostOps0 _ hostOps0_writes (by decide)
    _ = m ((c : Thread nD τ).loc main_arg24) := rfl

theorem W12_main_arg25 (c : Dev nD) : W12 m ρ c (Proc.devRef .tc main_arg25) = m ((c : Thread nD τ).loc main_arg25) :=
  calc W12 m ρ c (Proc.devRef .tc main_arg25)
    _ = W11 m ρ c (Proc.devRef .tc main_arg25) := W12_of_ne m ρ c main_arg25 (by decide)
    _ = W10 m ρ c (Proc.devRef .tc main_arg25) := after_of_writes_eq hostOps3_4 _ hostOps3_4_writes (by decide)
    _ = W9 m ρ c (Proc.devRef .tc main_arg25) := after_of_writes_eq hostOps3_3 _ hostOps3_3_writes (by decide)
    _ = W8 m ρ c (Proc.devRef .tc main_arg25) := after_of_writes_eq hostOps3_2 _ hostOps3_2_writes (by decide)
    _ = W7 m ρ c (Proc.devRef .tc main_arg25) := after_of_writes_eq hostOps3_1 _ hostOps3_1_writes (by decide)
    _ = W6 m ρ c (Proc.devRef .tc main_arg25) := after_of_writes_eq hostOps3 _ hostOps3_writes (by decide)
    _ = W5 m ρ c (Proc.devRef .tc main_arg25) := W6_of_ne m ρ c main_arg25 (by decide)
    _ = W4 m ρ c (Proc.devRef .tc main_arg25) := after_of_writes_eq hostOps2 _ hostOps2_writes (by decide)
    _ = W3 m ρ c (Proc.devRef .tc main_arg25) := W4_of_ne m ρ c main_arg25 (by decide)
    _ = W2 m ρ c (Proc.devRef .tc main_arg25) := after_of_writes_eq hostOps1 _ hostOps1_writes (by decide)
    _ = W1 m ρ c (Proc.devRef .tc main_arg25) := W2_of_ne m ρ c main_arg25 (by decide)
    _ = W0 m ρ c (Proc.devRef .tc main_arg25) := after_of_writes_eq hostOps0 _ hostOps0_writes (by decide)
    _ = m ((c : Thread nD τ).loc main_arg25) := rfl

theorem W12_main_arg26 (c : Dev nD) : W12 m ρ c (Proc.devRef .tc main_arg26) = m ((c : Thread nD τ).loc main_arg26) :=
  calc W12 m ρ c (Proc.devRef .tc main_arg26)
    _ = W11 m ρ c (Proc.devRef .tc main_arg26) := W12_of_ne m ρ c main_arg26 (by decide)
    _ = W10 m ρ c (Proc.devRef .tc main_arg26) := after_of_writes_eq hostOps3_4 _ hostOps3_4_writes (by decide)
    _ = W9 m ρ c (Proc.devRef .tc main_arg26) := after_of_writes_eq hostOps3_3 _ hostOps3_3_writes (by decide)
    _ = W8 m ρ c (Proc.devRef .tc main_arg26) := after_of_writes_eq hostOps3_2 _ hostOps3_2_writes (by decide)
    _ = W7 m ρ c (Proc.devRef .tc main_arg26) := after_of_writes_eq hostOps3_1 _ hostOps3_1_writes (by decide)
    _ = W6 m ρ c (Proc.devRef .tc main_arg26) := after_of_writes_eq hostOps3 _ hostOps3_writes (by decide)
    _ = W5 m ρ c (Proc.devRef .tc main_arg26) := W6_of_ne m ρ c main_arg26 (by decide)
    _ = W4 m ρ c (Proc.devRef .tc main_arg26) := after_of_writes_eq hostOps2 _ hostOps2_writes (by decide)
    _ = W3 m ρ c (Proc.devRef .tc main_arg26) := W4_of_ne m ρ c main_arg26 (by decide)
    _ = W2 m ρ c (Proc.devRef .tc main_arg26) := after_of_writes_eq hostOps1 _ hostOps1_writes (by decide)
    _ = W1 m ρ c (Proc.devRef .tc main_arg26) := W2_of_ne m ρ c main_arg26 (by decide)
    _ = W0 m ρ c (Proc.devRef .tc main_arg26) := after_of_writes_eq hostOps0 _ hostOps0_writes (by decide)
    _ = m ((c : Thread nD τ).loc main_arg26) := rfl

theorem W12_main_arg27 (c : Dev nD) : W12 m ρ c (Proc.devRef .tc main_arg27) = m ((c : Thread nD τ).loc main_arg27) :=
  calc W12 m ρ c (Proc.devRef .tc main_arg27)
    _ = W11 m ρ c (Proc.devRef .tc main_arg27) := (W12_arr m ρ c 4).trans (((dat3 (V11 m ρ) c).arrAt_in 4 rfl _).trans (A_eq3 (V11 m ρ) c 4))
    _ = W10 m ρ c (Proc.devRef .tc main_arg27) := after_of_writes_eq hostOps3_4 _ hostOps3_4_writes (by decide)
    _ = W9 m ρ c (Proc.devRef .tc main_arg27) := after_of_writes_eq hostOps3_3 _ hostOps3_3_writes (by decide)
    _ = W8 m ρ c (Proc.devRef .tc main_arg27) := after_of_writes_eq hostOps3_2 _ hostOps3_2_writes (by decide)
    _ = W7 m ρ c (Proc.devRef .tc main_arg27) := after_of_writes_eq hostOps3_1 _ hostOps3_1_writes (by decide)
    _ = W6 m ρ c (Proc.devRef .tc main_arg27) := after_of_writes_eq hostOps3 _ hostOps3_writes (by decide)
    _ = W5 m ρ c (Proc.devRef .tc main_arg27) := W6_of_ne m ρ c main_arg27 (by decide)
    _ = W4 m ρ c (Proc.devRef .tc main_arg27) := after_of_writes_eq hostOps2 _ hostOps2_writes (by decide)
    _ = W3 m ρ c (Proc.devRef .tc main_arg27) := W4_of_ne m ρ c main_arg27 (by decide)
    _ = W2 m ρ c (Proc.devRef .tc main_arg27) := after_of_writes_eq hostOps1 _ hostOps1_writes (by decide)
    _ = W1 m ρ c (Proc.devRef .tc main_arg27) := W2_of_ne m ρ c main_arg27 (by decide)
    _ = W0 m ρ c (Proc.devRef .tc main_arg27) := after_of_writes_eq hostOps0 _ hostOps0_writes (by decide)
    _ = m ((c : Thread nD τ).loc main_arg27) := rfl

theorem W12_main_arg28 (c : Dev nD) : W12 m ρ c (Proc.devRef .tc main_arg28) = m ((c : Thread nD τ).loc main_arg28) :=
  calc W12 m ρ c (Proc.devRef .tc main_arg28)
    _ = W11 m ρ c (Proc.devRef .tc main_arg28) := W12_of_ne m ρ c main_arg28 (by decide)
    _ = W10 m ρ c (Proc.devRef .tc main_arg28) := after_of_writes_eq hostOps3_4 _ hostOps3_4_writes (by decide)
    _ = W9 m ρ c (Proc.devRef .tc main_arg28) := after_of_writes_eq hostOps3_3 _ hostOps3_3_writes (by decide)
    _ = W8 m ρ c (Proc.devRef .tc main_arg28) := after_of_writes_eq hostOps3_2 _ hostOps3_2_writes (by decide)
    _ = W7 m ρ c (Proc.devRef .tc main_arg28) := after_of_writes_eq hostOps3_1 _ hostOps3_1_writes (by decide)
    _ = W6 m ρ c (Proc.devRef .tc main_arg28) := after_of_writes_eq hostOps3 _ hostOps3_writes (by decide)
    _ = W5 m ρ c (Proc.devRef .tc main_arg28) := W6_of_ne m ρ c main_arg28 (by decide)
    _ = W4 m ρ c (Proc.devRef .tc main_arg28) := after_of_writes_eq hostOps2 _ hostOps2_writes (by decide)
    _ = W3 m ρ c (Proc.devRef .tc main_arg28) := W4_of_ne m ρ c main_arg28 (by decide)
    _ = W2 m ρ c (Proc.devRef .tc main_arg28) := after_of_writes_eq hostOps1 _ hostOps1_writes (by decide)
    _ = W1 m ρ c (Proc.devRef .tc main_arg28) := W2_of_ne m ρ c main_arg28 (by decide)
    _ = W0 m ρ c (Proc.devRef .tc main_arg28) := after_of_writes_eq hostOps0 _ hostOps0_writes (by decide)
    _ = m ((c : Thread nD τ).loc main_arg28) := rfl

end Cert.Kernel.Fr

end
-- ==== Proof.K.Frame.lean ====
import proofs.«174758_j6468220748546_1_alg».proof.Proof.K.Run
import proofs.«174758_j6468220748546_1_alg».proof.Proof.K.Args

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of @main: every argument array ends as launched -/

/-- At the compiled mesh, from any memory with zero counters, every weakly fair execution of @main on the TensorCores
    terminates, nothing faulting, and every final state has the 29 argument arrays as launched: the run leaves every
    unscoped buffer at the last boundary's contents, and those contents, read at an argument, are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c),
      (h c _ (mem_uc main_arg14 (by decide))).trans (W12_main_arg14 m ρ c),
      (h c _ (mem_uc main_arg15 (by decide))).trans (W12_main_arg15 m ρ c),
      (h c _ (mem_uc main_arg16 (by decide))).trans (W12_main_arg16 m ρ c),
      (h c _ (mem_uc main_arg17 (by decide))).trans (W12_main_arg17 m ρ c),
      (h c _ (mem_uc main_arg18 (by decide))).trans (W12_main_arg18 m ρ c),
      (h c _ (mem_uc main_arg19 (by decide))).trans (W12_main_arg19 m ρ c),
      (h c _ (mem_uc main_arg20 (by decide))).trans (W12_main_arg20 m ρ c),
      (h c _ (mem_uc main_arg21 (by decide))).trans (W12_main_arg21 m ρ c),
      (h c _ (mem_uc main_arg22 (by decide))).trans (W12_main_arg22 m ρ c),
      (h c _ (mem_uc main_arg23 (by decide))).trans (W12_main_arg23 m ρ c),
      (h c _ (mem_uc main_arg24 (by decide))).trans (W12_main_arg24 m ρ c),
      (h c _ (mem_uc main_arg25 (by decide))).trans (W12_main_arg25 m ρ c),
      (h c _ (mem_uc main_arg26 (by decide))).trans (W12_main_arg26 m ρ c),
      (h c _ (mem_uc main_arg27 (by decide))).trans (W12_main_arg27 m ρ c),
      (h c _ (mem_uc main_arg28 (by decide))).trans (W12_main_arg28 m ρ c)⟩) (run_main m ρ)

end Cert.Kernel.Fr

end
-- ==== Proof.KI.D0.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the node projection, `features · [Wq | Wr | Wu | Wv] + bias`, 25 points of 2000 rows

## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (2000 rows of the node features): its current staging buffer holds its block at every point, whether the
    pipeline fetched it there or not (where it did not, the block index has not moved), for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole 128 × 512 weight matrix, the same block at every point): its current staging buffer holds its block at every point, whether the
    pipeline fetched it there or not (where it did not, the block index has not moved), for any proof data whose
    array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole 1 × 512 bias row, the same block at every point): its current staging buffer holds its block at every point, whether the
    pipeline fetched it there or not (where it did not, the block index has not moved), for any proof data whose
    array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

/-! ## What the body leaves in the output window's buffer -/

/-- The projected rows: the one store of the body, the matrix product of the feature block with the weights plus the
    bias row, as a single piece covering the 2000 × 512 buffer. -/
def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

/-- The one store is the whole buffer, so it covers it. -/
theorem cover0_3 (p0 : Vec F S2000x512 .f32) (y : S2000x512.Idx) :
    ∃ pc ∈ ([⟨r0_3, p0⟩] : List (View.Piece (Elt F) S2000x512 .f32)), y ∈ pc.1.set :=
  View.cover_of_tiled [⟨r0_3, p0⟩] S2000x512.size (by rfl) y

/-! ## The proof data -/

/-- Region 0 on core `c`: the arrays as the region finds them; after the body at point `t` each input's buffer
    still holds its block and the output's holds the projection of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Fr

end
-- ==== Proof.KI.D1.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the edge projections, `nme = noise · We + be` then `ep = nme · Wp + bp`, 50 points of 8000 rows

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (8000 rows of the edge noise): its current staging buffer holds its block at every point, whether the
    pipeline fetched it there or not (where it did not, the block index has not moved), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole 64 × 128 first weight matrix, the same block at every point): its current staging buffer holds its block at every point, whether the
    pipeline fetched it there or not (where it did not, the block index has not moved), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole 1 × 128 first bias row, the same block at every point): its current staging buffer holds its block at every point, whether the
    pipeline fetched it there or not (where it did not, the block index has not moved), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the whole 128 × 128 second weight matrix, the same block at every point): its current staging buffer holds its block at every point, whether the
    pipeline fetched it there or not (where it did not, the block index has not moved), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the whole 1 × 128 second bias row, the same block at every point): its current staging buffer holds its block at every point, whether the
    pipeline fetched it there or not (where it did not, the block index has not moved), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S8000x64 := Rect.unit (s := S8000x64) ![0, 0] S8000x64.size inb_S8000x64_S8000x64_0_0
abbrev r1_1 : Rect S64x128 := Rect.unit (s := S64x128) ![0, 0] S64x128.size inb_S64x128_S64x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S8000x128 := Rect.unit (s := S8000x128) ![0, 0] S8000x128.size inb_S8000x128_S8000x128_0_0

/-! ## What the body leaves in each output window's buffer -/

/-- The first projection `nme`: the one store into window 5, the noise block times the first weights plus the first
    bias row, as a single piece covering the 8000 × 128 buffer. -/
def out1_5 (x0 : Vec F S8000x64 .f32) (x1 : Vec F S64x128 .f32) (x2 : Vec F S1x128 .f32) : Vec F S8000x128 .f32 :=
  View.canon [⟨r1_4, k1_pay1 (View.ld x0 r1_0) (View.ld x1 r1_1) (View.ld x2 r1_2)⟩]

/-- The second projection `ep`: the one store into window 6, the first projection (recomputed from the same loads)
    times the second weights plus the second bias row, as a single piece covering the 8000 × 128 buffer. -/
def out1_6 (x0 : Vec F S8000x64 .f32) (x1 : Vec F S64x128 .f32) (x2 : Vec F S1x128 .f32) (x3 : Vec F S128x128 .f32) (x4 : Vec F S1x128 .f32) :
    Vec F S8000x128 .f32 :=
  View.canon [⟨r1_4, k1_pay2 (View.ld x0 r1_0) (View.ld x1 r1_1) (View.ld x2 r1_2) (View.ld x3 r1_3) (View.ld x4 r1_2)⟩]

/-- The one store into window 5 is the whole buffer, so it covers it. -/
theorem cover1_5 (p0 : Vec F S8000x128 .f32) (y : S8000x128.Idx) :
    ∃ pc ∈ ([⟨r1_4, p0⟩] : List (View.Piece (Elt F) S8000x128 .f32)), y ∈ pc.1.set :=
  View.cover_of_tiled [⟨r1_4, p0⟩] S8000x128.size (by rfl) y

/-- The one store into window 6 is the whole buffer, so it covers it. -/
theorem cover1_6 (p0 : Vec F S8000x128 .f32) (y : S8000x128.Idx) :
    ∃ pc ∈ ([⟨r1_4, p0⟩] : List (View.Piece (Elt F) S8000x128 .f32)), y ∈ pc.1.set :=
  View.cover_of_tiled [⟨r1_4, p0⟩] S8000x128.size (by rfl) y

/-! ## The proof data -/

/-- Region 1 on core `c`: the arrays as the region finds them; after the body at point `t` each input's buffer
    still holds its block, window 5's holds the first projection of the input blocks and window 6's the second; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Fr

end
-- ==== Proof.KI.D2.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the edge gate, one block of 4000 edge rows per grid point

Four input windows (the projected edge features and the three gathered node projections, all 4000x128 blocks)
and two output windows: the sum of the first three, and the fourth times the logistic of that sum. -/

/-- The block of window `w` at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, for any proof data over the entry arrays whose
    body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole 4000x128 buffer. -/
abbrev r2_0 : Rect S4000x128 := Rect.unit (s := S4000x128) ![0, 0] S4000x128.size inb_S4000x128_S4000x128_0_0

/-- Output window 4 after the body: the sum of the three addends' blocks, as one piece. -/
def out2_4 (x0 : Vec F S4000x128 .f32) (x1 : Vec F S4000x128 .f32) (x2 : Vec F S4000x128 .f32) : Vec F S4000x128 .f32 :=
  View.canon [⟨r2_0, k2_pay1 (View.ld x0 r2_0) (View.ld x1 r2_0) (View.ld x2 r2_0)⟩]

/-- Output window 5 after the body: the gated value, as one piece. -/
def out2_5 (x0 : Vec F S4000x128 .f32) (x1 : Vec F S4000x128 .f32) (x2 : Vec F S4000x128 .f32) (x3 : Vec F S4000x128 .f32) : Vec F S4000x128 .f32 :=
  View.canon [⟨r2_0, k2_pay2 (View.ld x0 r2_0) (View.ld x1 r2_0) (View.ld x2 r2_0) (View.ld x3 r2_0)⟩]

/-- A single whole-buffer piece covers the buffer. -/
theorem cover2_4 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

theorem cover2_5 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-- The proof data of region 2 on core `c`: arrays as found on entry; after the body each input buffer still holds
    its block and each output buffer the body's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.KernelIdeal.Fr

end
-- ==== Proof.KI.D3.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the output layer, one block of 5000 node rows per grid point

Input windows: the aggregated messages and the residual (5000x128 blocks), the layer-norm scale and shift
(1x128), the output weight (128x128) and the output bias (1x128), the last four whole at every point. One output
window (5000x128): residual plus the matrix product of the activated normalised rows, plus the bias. -/

/-- The block of window `w` at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a window whose block
    index never moves is fetched once and keeps its contents), for any proof data over the entry arrays whose body
    leaves that block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body touches: each buffer whole. -/
abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

/-- Output window 6 after the body, as one piece: the residual plus the product, then the broadcast bias. -/
def out3_6 (x0 : Vec F S5000x128 .f32) (x1 : Vec F S5000x128 .f32) (x2 : Vec F S1x128 .f32) (x3 : Vec F S1x128 .f32)
    (x4 : Vec F S128x128 .f32) (x5 : Vec F S1x128 .f32) : Vec F S5000x128 .f32 :=
  View.canon [⟨r3_0, k3_pay1 (k3_pay2 (View.ld x0 r3_0) (View.ld x2 r3_1) (View.ld x3 r3_1) (View.ld x4 r3_2) (View.ld x1 r3_0))
    (k3_pay3 (View.ld x5 r3_1))⟩]

/-- A single whole-buffer piece covers the buffer. -/
theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The proof data of region 3 on core `c`: arrays as found on entry; after the body each input buffer still holds
    its block and the output buffer the body's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

end Cert.KernelIdeal.Fr

end
-- ==== Proof.KI.Fold.lean ====
import proofs.«174758_j6468220748546_1_alg».proof.Proof.KI.D0
import proofs.«174758_j6468220748546_1_alg».proof.Proof.KI.D1
import proofs.«174758_j6468220748546_1_alg».proof.Proof.KI.D2
import proofs.«174758_j6468220748546_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

A stretch of host operations rewrites the buffers it computes; a region leaves its windows' arrays at what its
write-backs fold to and every other buffer as it found it. -/

/-- Core `c`'s buffers at launch. -/
abbrev W0 : Dev nD → Valuation τ sig (Elt F) := fun c b => (s₀ m ρ).mem ((c : Dev nD), b)
/-- After the first stretch (the slices of the edge index, the concatenated projection weights and bias): region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (inputs as entered, each output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the four column slices of the node projection, two bias reshapes): region 1's entry. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the three gathers along the edge index): region 2's entry. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the long stretch (the scatter-add aggregation and the two graph normalizations). -/
abbrev W7 : Dev nD → Valuation τ sig (Elt F) := fun c => StableHlo.after hostOps3 (W6 m ρ c)
/-- After the first rectifier call. -/
abbrev W8 : Dev nD → Valuation τ sig (Elt F) := fun c => StableHlo.after hostOps3_1 (W7 m ρ c)
/-- After the second rectifier call. -/
abbrev W9 : Dev nD → Valuation τ sig (Elt F) := fun c => StableHlo.after hostOps3_2 (W8 m ρ c)
/-- After the third rectifier call. -/
abbrev W10 : Dev nD → Valuation τ sig (Elt F) := fun c => StableHlo.after hostOps3_3 (W9 m ρ c)
/-- After the last stretch (the global projection gathered to the edges, the residual sums, three reshapes): region 3's entry. -/
abbrev W11 : Dev nD → Valuation τ sig (Elt F) := fun c => StableHlo.after hostOps3_4 (W10 m ρ c)
/-- The same read at the TensorCore's references (what region 3's proof data take). -/
abbrev V11 : (c : Dev nD) → (b : Ref sig .tc) → Buf (Elt F) ((c : Thread nD τ).loc b) := fun c b => W11 m ρ c b

/-- At region 3's exit: its arrays at what the pipeline leaves (inputs as entered, each output's write-backs folded),
    every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves, and every other buffer what it held at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

end Cert.KernelIdeal.Fr

end
-- ==== Proof.KI.B0.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import proofs.«174758_j6468220748546_1_alg».proof.Proof.KI.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the body of the node projection run once, then at every point -/

/-! ## The body's triple -/

set_option maxHeartbeats 1000000 in
/-- The kernel body on whole staging buffers, the inputs' at read contents and the outputs' at anything, runs to
    the continuation holding the inputs' as they were and each output's at its stated function of the inputs'. -/
theorem sound_kernel0 (c : Dev nD) (E : Set ℕ) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.B1.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import proofs.«174758_j6468220748546_1_alg».proof.Proof.KI.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows: the elaborator recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the body of the two edge projections run once, then at every point -/

/-! ## The body's triple -/

set_option maxHeartbeats 1000000 in
/-- The kernel body on whole staging buffers, the inputs' at read contents and the outputs' at anything, runs to
    the continuation holding the inputs' as they were and each output's at its stated function of the inputs'. -/
theorem sound_kernel1 (c : Dev nD) (E : Set ℕ) (i : grid1.Coords) (arg1 : Memref sig .tc .vmem S8000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S8000x128 .f32) (harg6 : arg6.IsWhole) (arg7 : Memref sig .tc .vmem S8000x128 .f32) (harg7 : arg7.IsWhole)
    (x0 : Vec F S8000x64 .f32) (x1 : Vec F S64x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2) ∗ owns (c : Thread nD τ) arg7 fullShare (out1_6 x0 x1 x2 x3 x4)) -∗ K ⟨⟩))
      ⊢ wp frame (wpE (defs₀ (F := F)) Variants.none c none) E (cc1__edge_proj_kernel i arg1 harg1 arg2 harg2 arg3 harg3 arg4 harg4 arg5 harg5 arg6 harg6 arg7 harg7) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.B2.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import proofs.«174758_j6468220748546_1_alg».proof.Proof.KI.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body's triple and the obligation at a generic grid point -/

set_option maxHeartbeats 1000000 in
/-- The body on whole staging buffers, the inputs holding `x_w` and the outputs anything, runs to a state where the
    inputs are as they were and each output holds the body's value of the inputs. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole) (arg5 : Memref sig .tc .vmem S4000x128 .f32) (harg5 : arg5.IsWhole) (arg6 : Memref sig .tc .vmem S4000x128 .f32) (harg6 : arg6.IsWhole)
    (x0 : Vec F S4000x128 .f32) (x1 : Vec F S4000x128 .f32) (x2 : Vec F S4000x128 .f32) (x3 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__edge_elem_kernel i arg1 harg1 arg2 harg2 arg3 harg3 arg4 harg4 arg5 harg5 arg6 harg6) K := by
  simp only [cc2__edge_elem_kernel_eq_skeleton]; unfold cc2__edge_elem_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover2_4 _)
  iexists _; isplitr
  swap; · iexact H5
  ipureintro
  try dsimp only
  exact View.read_writes_eq_canon _ _ _ (cover2_5 _)

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple above applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorem, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.B3.lean ====
import proofs.«174758_j6468220748546_1_alg».proof.Proof.Gen.KernelIdeal.Launch
import proofs.«174758_j6468220748546_1_alg».proof.Proof.Gen.KernelIdeal.Skeleton
import proofs.«174758_j6468220748546_1_alg».proof.Proof.Gen.KernelIdeal.Points
import proofs.«174758_j6468220748546_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body's triple and the obligation at a generic grid point -/

set_option maxHeartbeats 1000000 in
/-- The body on whole staging buffers, the inputs holding `x_w` and the outputs anything, runs to a state where the
    inputs are as they were and each output holds the body's value of the inputs. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__out_layer_kernel i arg1 harg1 arg2 harg2 arg3 harg3 arg4 harg4 arg5 harg5 arg6 harg6 arg7 harg7) K := by
  simp only [cc3__out_layer_kernel_eq_skeleton]; unfold cc3__out_layer_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover3_6 _)

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so the triple above applies; the invariant and
    what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorem, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
import proofs.«174758_j6468220748546_1_alg».proof.Proof.KI.Fold
import proofs.«174758_j6468220748546_1_alg».proof.Proof.KI.B0
import proofs.«174758_j6468220748546_1_alg».proof.Proof.KI.B1
import proofs.«174758_j6468220748546_1_alg».proof.Proof.KI.B2
import proofs.«174758_j6468220748546_1_alg».proof.Proof.KI.B3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its twelve segments from the launch to the return

Eight stretches of host operations and four kernel regions, each entered from the thread state the one before it left:
every unscoped buffer at the boundary's contents (the fold `W0 … W12`), the generator register at some state, nothing owed. -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it leaves those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Operations that each allocate the same (empty) set of buffers as a list: none allocates. -/
theorem fresh_of_map_eq (ops : List (HloOp τ sig (Elt F)))
    (h : ops.map (fun op => op.fresh) = ops.map fun _ => (∅ : Finset (DevRef τ sig))) : ops.Forall fun op => op.fresh = ∅ :=
  List.forall_iff_forall_mem.mpr fun op hop => List.map_inj_left.mp h op hop
/-- No operation of `hostOps0` allocates a buffer. -/
theorem hostOps0_fresh : (hostOps0 : List (HloOp τ sig (Elt F))).Forall fun op => op.fresh = ∅ :=
  fresh_of_map_eq _ (by chain_rfl)
/-- No operation of `hostOps1` allocates a buffer. -/
theorem hostOps1_fresh : (hostOps1 : List (HloOp τ sig (Elt F))).Forall fun op => op.fresh = ∅ :=
  fresh_of_map_eq _ (by chain_rfl)
/-- No operation of `hostOps2` allocates a buffer. -/
theorem hostOps2_fresh : (hostOps2 : List (HloOp τ sig (Elt F))).Forall fun op => op.fresh = ∅ :=
  fresh_of_map_eq _ (by chain_rfl)
/-- No operation of `hostOps3` allocates a buffer. -/
theorem hostOps3_fresh : (hostOps3 : List (HloOp τ sig (Elt F))).Forall fun op => op.fresh = ∅ :=
  fresh_of_map_eq _ (by chain_rfl)
/-- No operation of `hostOps3_1` allocates a buffer. -/
theorem hostOps3_1_fresh : (hostOps3_1 : List (HloOp τ sig (Elt F))).Forall fun op => op.fresh = ∅ :=
  fresh_of_map_eq _ (by chain_rfl)
/-- No operation of `hostOps3_2` allocates a buffer. -/
theorem hostOps3_2_fresh : (hostOps3_2 : List (HloOp τ sig (Elt F))).Forall fun op => op.fresh = ∅ :=
  fresh_of_map_eq _ (by chain_rfl)
/-- No operation of `hostOps3_3` allocates a buffer. -/
theorem hostOps3_3_fresh : (hostOps3_3 : List (HloOp τ sig (Elt F))).Forall fun op => op.fresh = ∅ :=
  fresh_of_map_eq _ (by chain_rfl)
/-- No operation of `hostOps3_4` allocates a buffer. -/
theorem hostOps3_4_fresh : (hostOps3_4 : List (HloOp τ sig (Elt F))).Forall fun op => op.fresh = ∅ :=
  fresh_of_map_eq _ (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the generator
    register at some state. -/
abbrev Tₙ (c : Dev nD) : sProp 𝕄 := iprop(StableHlo.held (c : Thread nD τ) (Pipeline.ucRefs τ sig) (W12 m ρ c) ∗ ∃ r, prngReg c r)

/-! ## The regions as segments -/

-- the library's lemmas over a pinned configuration unify with the printed one only when unification may unfold
-- plain definitions in a metavariable's type
set_option backward.isDefEq.respectTransparency.types false in
/-- Region 0 over the thread state: entered from every unscoped buffer at `W1`, left at `W2`. Its arrays are split
    out of the unscoped buffers on entry and put back at the exit contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 1 over the thread state: entered from every unscoped buffer at `W3`, left at `W4`. Its arrays are split
    out of the unscoped buffers on entry and put back at the exit contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 2 over the thread state: entered from every unscoped buffer at `W5`, left at `W6`. Its arrays are split
    out of the unscoped buffers on entry and put back at the exit contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify with the printed one only when unification may unfold
-- plain definitions in a metavariable's type
set_option backward.isDefEq.respectTransparency.types false in
/-- Region 3 over the thread state: entered from every unscoped buffer at `W11`, left at `W12`. Its arrays are split
    out of the unscoped buffers on entry and put back at the exit contents; the generator register goes into the
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every unscoped buffer of every core ends at the last boundary's contents `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Fr

end
-- ==== Proof.KI.Args.lean ====
import proofs.«174758_j6468220748546_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument's buffer (each writes the one buffer of its own result), and a region either reads an
argument through an input window, whose array it leaves as found, or does not touch it. So the fold of buffer contents, read
at an argument's buffer, walks back boundary by boundary to the launch memory. -/

/-- A stretch whose operations write, in order, exactly the buffers of the references `W` leaves the buffer of any other
    reference as it was. -/
theorem after_of_writes_eq {W : List (Ref sig .tc)} (ops : List (HloOp τ sig (Elt F))) (V : Valuation τ sig (Elt F))
    (h : ops.map (fun op => op.writes) = W.map fun y => ({Proc.devRef (τ := τ) .tc y} : Finset (DevRef τ sig)))
    {r : Ref sig .tc} (hr : r ∉ W) : StableHlo.after ops V (Proc.devRef .tc r) = V (Proc.devRef .tc r) :=
  StableHlo.after_of_forall_not_mem ops V fun op hop hb => by
    have hm : op.writes ∈ W.map fun y => ({Proc.devRef (τ := τ) .tc y} : Finset (DevRef τ sig)) :=
      h ▸ List.mem_map.mpr ⟨op, hop, rfl⟩
    obtain ⟨y, hy, e⟩ := List.mem_map.mp hm
    rw [← e, Finset.mem_singleton] at hb
    exact hr (Proc.devRef_injective _ hb ▸ hy)

/-- The references whose buffers the 7 operations of `hostOps0` write, in order. -/
abbrev hostOps0_wr : List (Ref sig .tc) :=
  [main_v0, main_v1, main_v2, main_v3, main_v4, main_v5, main_v6]
theorem hostOps0_writes : ((hostOps0 : List (HloOp τ sig (Elt F))).map fun op => op.writes)
    = hostOps0_wr.map fun y => ({Proc.devRef (τ := τ) .tc y} : Finset (DevRef τ sig)) := by
  chain_rfl

/-- The references whose buffers the 6 operations of `hostOps1` write, in order. -/
abbrev hostOps1_wr : List (Ref sig .tc) :=
  [main_v8, main_v9, main_v10, main_v11, main_v12, main_v13]
theorem hostOps1_writes : ((hostOps1 : List (HloOp τ sig (Elt F))).map fun op => op.writes)
    = hostOps1_wr.map fun y => ({Proc.devRef (τ := τ) .tc y} : Finset (DevRef τ sig)) := by
  chain_rfl

/-- The references whose buffers the 27 operations of `hostOps2` write, in order. -/
abbrev hostOps2_wr : List (Ref sig .tc) :=
  [main_c, main_v15, main_v16, main_c_0, main_v17, main_v18, main_v19, main_v20, main_v21, main_c_1, main_v22, main_v23, main_c_2, main_v24, main_v25, main_v26, main_v27, main_v28, main_c_3, main_v29, main_v30, main_c_4, main_v31, main_v32, main_v33, main_v34, main_v35]
theorem hostOps2_writes : ((hostOps2 : List (HloOp τ sig (Elt F))).map fun op => op.writes)
    = hostOps2_wr.map fun y => ({Proc.devRef (τ := τ) .tc y} : Finset (DevRef τ sig)) := by
  chain_rfl

/-- The references whose buffers the 128 operations of `hostOps3` write, in order. -/
abbrev hostOps3_wr : List (Ref sig .tc) :=
  [main_cst, main_v37, main_v38, main_v39, main_v40, main_c_5, main_v41, main_v42, main_c_6, main_v43, main_v44, main_v45, main_v46, main_v47, main_cst_7, main_v48, main_cst_8, main_v49, main_v50, main_v51, main_cst_9, main_v52, main_v53, main_cst_10, main_v54, main_v55, main_v56, main_v57, main_v58, main_v59, main_c_11, main_v60, main_v61, main_c_12, main_v62, main_v63, main_v64, main_v65, main_v66, main_v67, main_v68, main_v69, main_v70, main_v71, main_cst_13, main_v72, main_v73, main_v74, main_v75, main_v76, main_v77, main_v78, main_v79, main_v80, main_cst_14, main_v81, main_v82, main_v83, main_c_15, main_v84, main_v85, main_c_16, main_v86, main_v87, main_v88, main_v89, main_v90, main_v91, main_v92, main_v93, main_v94, main_cst_17, main_v95, main_cst_18, main_v96, main_v97, main_v98, main_cst_19, main_v99, main_v100, main_cst_20, main_v101, main_v102, main_v103, main_v104, main_v105, main_v106, main_c_21, main_v107, main_v108, main_c_22, main_v109, main_v110, main_v111, main_v112, main_v113, main_v114, main_v115, main_v116, main_v117, main_v118, main_cst_23, main_v119, main_v120, main_v121, main_v122, main_v123, main_v124, main_v125, main_v126, main_v127, main_cst_24, main_v128, main_v129, main_v130, main_c_25, main_v131, main_v132, main_c_26, main_v133, main_v134, main_v135, main_v136, main_v137, main_v138, main_v139, main_v140, main_v141]
theorem hostOps3_writes : ((hostOps3 : List (HloOp τ sig (Elt F))).map fun op => op.writes)
    = hostOps3_wr.map fun y => ({Proc.devRef (τ := τ) .tc y} : Finset (DevRef τ sig)) := by
  chain_rfl

/-- The references whose buffers the 3 operations of `hostOps3_1` write, in order. -/
abbrev hostOps3_1_wr : List (Ref sig .tc) :=
  [main_call0_cst, main_call0_v0, main_v142]
theorem hostOps3_1_writes : ((hostOps3_1 : List (HloOp τ sig (Elt F))).map fun op => op.writes)
    = hostOps3_1_wr.map fun y => ({Proc.devRef (τ := τ) .tc y} : Finset (DevRef τ sig)) := by
  chain_rfl

/-- The references whose buffers the 3 operations of `hostOps3_2` write, in order. -/
abbrev hostOps3_2_wr : List (Ref sig .tc) :=
  [main_call1_cst, main_call1_v0, main_v143]
theorem hostOps3_2_writes : ((hostOps3_2 : List (HloOp τ sig (Elt F))).map fun op => op.writes)
    = hostOps3_2_wr.map fun y => ({Proc.devRef (τ := τ) .tc y} : Finset (DevRef τ sig)) := by
  chain_rfl

/-- The references whose buffers the 3 operations of `hostOps3_3` write, in order. -/
abbrev hostOps3_3_wr : List (Ref sig .tc) :=
  [main_call2_cst, main_call2_v0, main_v144]
theorem hostOps3_3_writes : ((hostOps3_3 : List (HloOp τ sig (Elt F))).map fun op => op.writes)
    = hostOps3_3_wr.map fun y => ({Proc.devRef (τ := τ) .tc y} : Finset (DevRef τ sig)) := by
  chain_rfl

/-- The references whose buffers the 18 operations of `hostOps3_4` write, in order. -/
abbrev hostOps3_4_wr : List (Ref sig .tc) :=
  [main_v145, main_v146, main_v147, main_v148, main_c_27, main_v149, main_v150, main_c_28, main_v151, main_v152, main_v153, main_v154, main_v155, main_v156, main_v157, main_v158, main_v159, main_v160]
theorem hostOps3_4_writes : ((hostOps3_4 : List (HloOp τ sig (Elt F))).map fun op => op.writes)
    = hostOps3_4_wr.map fun y => ({Proc.devRef (τ := τ) .tc y} : Finset (DevRef τ sig)) := by
  chain_rfl

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := after_of_writes_eq hostOps3_4 _ hostOps3_4_writes (by decide)
    _ = W9 m ρ c (Proc.devRef .tc main_arg0) := after_of_writes_eq hostOps3_3 _ hostOps3_3_writes (by decide)
    _ = W8 m ρ c (Proc.devRef .tc main_arg0) := after_of_writes_eq hostOps3_2 _ hostOps3_2_writes (by decide)
    _ = W7 m ρ c (Proc.devRef .tc main_arg0) := after_of_writes_eq hostOps3_1 _ hostOps3_1_writes (by decide)
    _ = W6 m ρ c (Proc.devRef .tc main_arg0) := after_of_writes_eq hostOps3 _ hostOps3_writes (by decide)
    _ = W5 m ρ c (Proc.devRef .tc main_arg0) := W6_of_ne m ρ c main_arg0 (by decide)
    _ = W4 m ρ c (Proc.devRef .tc main_arg0) := after_of_writes_eq hostOps2 _ hostOps2_writes (by decide)
    _ = W3 m ρ c (Proc.devRef .tc main_arg0) := W4_of_ne m ρ c main_arg0 (by decide)
    _ = W2 m ρ c (Proc.devRef .tc main_arg0) := after_of_writes_eq hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_of_writes_eq hostOps0 _ hostOps0_writes (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := after_of_writes_eq hostOps3_4 _ hostOps3_4_writes (by decide)
    _ = W9 m ρ c (Proc.devRef .tc main_arg1) := after_of_writes_eq hostOps3_3 _ hostOps3_3_writes (by decide)
    _ = W8 m ρ c (Proc.devRef .tc main_arg1) := after_of_writes_eq hostOps3_2 _ hostOps3_2_writes (by decide)
    _ = W7 m ρ c (Proc.devRef .tc main_arg1) := after_of_writes_eq hostOps3_1 _ hostOps3_1_writes (by decide)
    _ = W6 m ρ c (Proc.devRef .tc main_arg1) := after_of_writes_eq hostOps3 _ hostOps3_writes (by decide)
    _ = W5 m ρ c (Proc.devRef .tc main_arg1) := W6_of_ne m ρ c main_arg1 (by decide)
    _ = W4 m ρ c (Proc.devRef .tc main_arg1) := after_of_writes_eq hostOps2 _ hostOps2_writes (by decide)
    _ = W3 m ρ c (Proc.devRef .tc main_arg1) := W4_of_ne m ρ c main_arg1 (by decide)
    _ = W2 m ρ c (Proc.devRef .tc main_arg1) := after_of_writes_eq hostOps1 _ hostOps1_writes (by decide)
    _ = W1 m ρ c (Proc.devRef .tc main_arg1) := W2_of_ne m ρ c main_arg1 (by decide)
    _ = W0 m ρ c (Proc.devRef .tc main_arg1) := after_of_writes_eq hostOps0 _ hostOps0_writes (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := after_of_writes_eq hostOps3_4 _ hostOps3_4_writes (by decide)
    _ = W9 m ρ c (Proc.devRef .tc main_arg2) := after_of_writes_eq hostOps3_3 _ hostOps3_3_writes (by decide)
    _ = W8 m ρ c (Proc.devRef .tc main_arg2) := after_of_writes_eq hostOps3_2 _ hostOps3_2_writes (by decide)
    _ = W7 m ρ c (Proc.devRef .tc main_arg2) := after_of_writes_eq hostOps3_1 _ hostOps3_1_writes (by decide)
    _ = W6 m ρ c (Proc.devRef .tc main_arg2) := after_of_writes_eq hostOps3 _ hostOps3_writes (by decide)
    _ = W5 m ρ c (Proc.devRef .tc main_arg2) := W6_of_ne m ρ c main_arg2 (by decide)
    _ = W4 m ρ c (Proc.devRef .tc main_arg2) := after_of_writes_eq hostOps2 _ hostOps2_writes (by decide)
    _ = W3 m ρ c (Proc.devRef .tc main_arg2) := (W4_arr m ρ c 0).trans (((dat1 (V3 m ρ) c).arrAt_in 0 rfl _).trans (A_eq1 (V3 m ρ) c 0))
    _ = W2 m ρ c (Proc.devRef .tc main_arg2) := after_of_writes_eq hostOps1 _ hostOps1_writes (by decide)
    _ = W1 m ρ c (Proc.devRef .tc main_arg2) := W2_of_ne m ρ c main_arg2 (by decide)
    _ = W0 m ρ c (Proc.devRef .tc main_arg2) := after_of_writes_eq hostOps0 _ hostOps0_writes (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := after_of_writes_eq hostOps3_4 _ hostOps3_4_writes (by decide)
    _ = W9 m ρ c (Proc.devRef .tc main_arg3) := after_of_writes_eq hostOps3_3 _ hostOps3_3_writes (by decide)
    _ = W8 m ρ c (Proc.devRef .tc main_arg3) := after_of_writes_eq hostOps3_2 _ hostOps3_2_writes (by decide)
    _ = W7 m ρ c (Proc.devRef .tc main_arg3) := after_of_writes_eq hostOps3_1 _ hostOps3_1_writes (by decide)
    _ = W6 m ρ c (Proc.devRef .tc main_arg3) := after_of_writes_eq hostOps3 _ hostOps3_writes (by decide)
    _ = W5 m ρ c (Proc.devRef .tc main_arg3) := W6_of_ne m ρ c main_arg3 (by decide)
    _ = W4 m ρ c (Proc.devRef .tc main_arg3) := after_of_writes_eq hostOps2 _ hostOps2_writes (by decide)
    _ = W3 m ρ c (Proc.devRef .tc main_arg3) := W4_of_ne m ρ c main_arg3 (by decide)
    _ = W2 m ρ c (Proc.devRef .tc main_arg3) := after_of_writes_eq hostOps1 _ hostOps1_writes (by decide)
    _ = W1 m ρ c (Proc.devRef .tc main_arg3) := W2_of_ne m ρ c main_arg3 (by decide)
    _ = W0 m ρ c (Proc.devRef .tc main_arg3) := after_of_writes_eq hostOps0 _ hostOps0_writes (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := after_of_writes_eq hostOps3_4 _ hostOps3_4_writes (by decide)
    _ = W9 m ρ c (Proc.devRef .tc main_arg4) := after_of_writes_eq hostOps3_3 _ hostOps3_3_writes (by decide)
    _ = W8 m ρ c (Proc.devRef .tc main_arg4) := after_of_writes_eq hostOps3_2 _ hostOps3_2_writes (by decide)
    _ = W7 m ρ c (Proc.devRef .tc main_arg4) := after_of_writes_eq hostOps3_1 _ hostOps3_1_writes (by decide)
    _ = W6 m ρ c (Proc.devRef .tc main_arg4) := after_of_writes_eq hostOps3 _ hostOps3_writes (by decide)
    _ = W5 m ρ c (Proc.devRef .tc main_arg4) := W6_of_ne m ρ c main_arg4 (by decide)
    _ = W4 m ρ c (Proc.devRef .tc main_arg4) := after_of_writes_eq hostOps2 _ hostOps2_writes (by decide)
    _ = W3 m ρ c (Proc.devRef .tc main_arg4) := W4_of_ne m ρ c main_arg4 (by decide)
    _ = W2 m ρ c (Proc.devRef .tc main_arg4) := after_of_writes_eq hostOps1 _ hostOps1_writes (by decide)
    _ = W1 m ρ c (Proc.devRef .tc main_arg4) := W2_of_ne m ρ c main_arg4 (by decide)
    _ = W0 m ρ c (Proc.devRef .tc main_arg4) := after_of_writes_eq hostOps0 _ hostOps0_writes (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := after_of_writes_eq hostOps3_4 _ hostOps3_4_writes (by decide)
    _ = W9 m ρ c (Proc.devRef .tc main_arg5) := after_of_writes_eq hostOps3_3 _ hostOps3_3_writes (by decide)
    _ = W8 m ρ c (Proc.devRef .tc main_arg5) := after_of_writes_eq hostOps3_2 _ hostOps3_2_writes (by decide)
    _ = W7 m ρ c (Proc.devRef .tc main_arg5) := after_of_writes_eq hostOps3_1 _ hostOps3_1_writes (by decide)
    _ = W6 m ρ c (Proc.devRef .tc main_arg5) := after_of_writes_eq hostOps3 _ hostOps3_writes (by decide)
    _ = W5 m ρ c (Proc.devRef .tc main_arg5) := W6_of_ne m ρ c main_arg5 (by decide)
    _ = W4 m ρ c (Proc.devRef .tc main_arg5) := after_of_writes_eq hostOps2 _ hostOps2_writes (by decide)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := after_of_writes_eq hostOps1 _ hostOps1_writes (by decide)
    _ = W1 m ρ c (Proc.devRef .tc main_arg5) := W2_of_ne m ρ c main_arg5 (by decide)
    _ = W0 m ρ c (Proc.devRef .tc main_arg5) := after_of_writes_eq hostOps0 _ hostOps0_writes (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := after_of_writes_eq hostOps3_4 _ hostOps3_4_writes (by decide)
    _ = W9 m ρ c (Proc.devRef .tc main_arg6) := after_of_writes_eq hostOps3_3 _ hostOps3_3_writes (by decide)
    _ = W8 m ρ c (Proc.devRef .tc main_arg6) := after_of_writes_eq hostOps3_2 _ hostOps3_2_writes (by decide)
    _ = W7 m ρ c (Proc.devRef .tc main_arg6) := after_of_writes_eq hostOps3_1 _ hostOps3_1_writes (by decide)
    _ = W6 m ρ c (Proc.devRef .tc main_arg6) := after_of_writes_eq hostOps3 _ hostOps3_writes (by decide)
    _ = W5 m ρ c (Proc.devRef .tc main_arg6) := W6_of_ne m ρ c main_arg6 (by decide)
    _ = W4 m ρ c (Proc.devRef .tc main_arg6) := after_of_writes_eq hostOps2 _ hostOps2_writes (by decide)
    _ = W3 m ρ c (Proc.devRef .tc main_arg6) := W4_of_ne m ρ c main_arg6 (by decide)
    _ = W2 m ρ c (Proc.devRef .tc main_arg6) := after_of_writes_eq hostOps1 _ hostOps1_writes (by decide)
    _ = W1 m ρ c (Proc.devRef .tc main_arg6) := W2_of_ne m ρ c main_arg6 (by decide)
    _ = W0 m ρ c (Proc.devRef .tc main_arg6) := after_of_writes_eq hostOps0 _ hostOps0_writes (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := after_of_writes_eq hostOps3_4 _ hostOps3_4_writes (by decide)
    _ = W9 m ρ c (Proc.devRef .tc main_arg7) := after_of_writes_eq hostOps3_3 _ hostOps3_3_writes (by decide)
    _ = W8 m ρ c (Proc.devRef .tc main_arg7) := after_of_writes_eq hostOps3_2 _ hostOps3_2_writes (by decide)
    _ = W7 m ρ c (Proc.devRef .tc main_arg7) := after_of_writes_eq hostOps3_1 _ hostOps3_1_writes (by decide)
    _ = W6 m ρ c (Proc.devRef .tc main_arg7) := after_of_writes_eq hostOps3 _ hostOps3_writes (by decide)
    _ = W5 m ρ c (Proc.devRef .tc main_arg7) := W6_of_ne m ρ c main_arg7 (by decide)
    _ = W4 m ρ c (Proc.devRef .tc main_arg7) := after_of_writes_eq hostOps2 _ hostOps2_writes (by decide)
    _ = W3 m ρ c (Proc.devRef .tc main_arg7) := (W4_arr m ρ c 3).trans (((dat1 (V3 m ρ) c).arrAt_in 3 rfl _).trans (A_eq1 (V3 m ρ) c 3))
    _ = W2 m ρ c (Proc.devRef .tc main_arg7) := after_of_writes_eq hostOps1 _ hostOps1_writes (by decide)
    _ = W1 m ρ c (Proc.devRef .tc main_arg7) := W2_of_ne m ρ c main_arg7 (by decide)
    _ = W0 m ρ c (Proc.devRef .tc main_arg7) := after_of_writes_eq hostOps0 _ hostOps0_writes (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := after_of_writes_eq hostOps3_4 _ hostOps3_4_writes (by decide)
    _ = W9 m ρ c (Proc.devRef .tc main_arg8) := after_of_writes_eq hostOps3_3 _ hostOps3_3_writes (by decide)
    _ = W8 m ρ c (Proc.devRef .tc main_arg8) := after_of_writes_eq hostOps3_2 _ hostOps3_2_writes (by decide)
    _ = W7 m ρ c (Proc.devRef .tc main_arg8) := after_of_writes_eq hostOps3_1 _ hostOps3_1_writes (by decide)
    _ = W6 m ρ c (Proc.devRef .tc main_arg8) := after_of_writes_eq hostOps3 _ hostOps3_writes (by decide)
    _ = W5 m ρ c (Proc.devRef .tc main_arg8) := W6_of_ne m ρ c main_arg8 (by decide)
    _ = W4 m ρ c (Proc.devRef .tc main_arg8) := after_of_writes_eq hostOps2 _ hostOps2_writes (by decide)
    _ = W3 m ρ c (Proc.devRef .tc main_arg8) := W4_of_ne m ρ c main_arg8 (by decide)
    _ = W2 m ρ c (Proc.devRef .tc main_arg8) := after_of_writes_eq hostOps1 _ hostOps1_writes (by decide)
    _ = W1 m ρ c (Proc.devRef .tc main_arg8) := W2_of_ne m ρ c main_arg8 (by decide)
    _ = W0 m ρ c (Proc.devRef .tc main_arg8) := after_of_writes_eq hostOps0 _ hostOps0_writes (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := after_of_writes_eq hostOps3_4 _ hostOps3_4_writes (by decide)
    _ = W9 m ρ c (Proc.devRef .tc main_arg9) := after_of_writes_eq hostOps3_3 _ hostOps3_3_writes (by decide)
    _ = W8 m ρ c (Proc.devRef .tc main_arg9) := after_of_writes_eq hostOps3_2 _ hostOps3_2_writes (by decide)
    _ = W7 m ρ c (Proc.devRef .tc main_arg9) := after_of_writes_eq hostOps3_1 _ hostOps3_1_writes (by decide)
    _ = W6 m ρ c (Proc.devRef .tc main_arg9) := after_of_writes_eq hostOps3 _ hostOps3_writes (by decide)
    _ = W5 m ρ c (Proc.devRef .tc main_arg9) := W6_of_ne m ρ c main_arg9 (by decide)
    _ = W4 m ρ c (Proc.devRef .tc main_arg9) := after_of_writes_eq hostOps2 _ hostOps2_writes (by decide)
    _ = W3 m ρ c (Proc.devRef .tc main_arg9) := W4_of_ne m ρ c main_arg9 (by decide)
    _ = W2 m ρ c (Proc.devRef .tc main_arg9) := after_of_writes_eq hostOps1 _ hostOps1_writes (by decide)
    _ = W1 m ρ c (Proc.devRef .tc main_arg9) := W2_of_ne m ρ c main_arg9 (by decide)
    _ = W0 m ρ c (Proc.devRef .tc main_arg9) := after_of_writes_eq hostOps0 _ hostOps0_writes (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := after_of_writes_eq hostOps3_4 _ hostOps3_4_writes (by decide)
    _ = W9 m ρ c (Proc.devRef .tc main_arg10) := after_of_writes_eq hostOps3_3 _ hostOps3_3_writes (by decide)
    _ = W8 m ρ c (Proc.devRef .tc main_arg10) := after_of_writes_eq hostOps3_2 _ hostOps3_2_writes (by decide)
    _ = W7 m ρ c (Proc.devRef .tc main_arg10) := after_of_writes_eq hostOps3_1 _ hostOps3_1_writes (by decide)
    _ = W6 m ρ c (Proc.devRef .tc main_arg10) := after_of_writes_eq hostOps3 _ hostOps3_writes (by decide)
    _ = W5 m ρ c (Proc.devRef .tc main_arg10) := W6_of_ne m ρ c main_arg10 (by decide)
    _ = W4 m ρ c (Proc.devRef .tc main_arg10) := after_of_writes_eq hostOps2 _ hostOps2_writes (by decide)
    _ = W3 m ρ c (Proc.devRef .tc main_arg10) := W4_of_ne m ρ c main_arg10 (by decide)
    _ = W2 m ρ c (Proc.devRef .tc main_arg10) := after_of_writes_eq hostOps1 _ hostOps1_writes (by decide)
    _ = W1 m ρ c (Proc.devRef .tc main_arg10) := W2_of_ne m ρ c main_arg10 (by decide)
    _ = W0 m ρ c (Proc.devRef .tc main_arg10) := after_of_writes_eq hostOps0 _ hostOps0_writes (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := after_of_writes_eq hostOps3_4 _ hostOps3_4_writes (by decide)
    _ = W9 m ρ c (Proc.devRef .tc main_arg11) := after_of_writes_eq hostOps3_3 _ hostOps3_3_writes (by decide)
    _ = W8 m ρ c (Proc.devRef .tc main_arg11) := after_of_writes_eq hostOps3_2 _ hostOps3_2_writes (by decide)
    _ = W7 m ρ c (Proc.devRef .tc main_arg11) := after_of_writes_eq hostOps3_1 _ hostOps3_1_writes (by decide)
    _ = W6 m ρ c (Proc.devRef .tc main_arg11) := after_of_writes_eq hostOps3 _ hostOps3_writes (by decide)
    _ = W5 m ρ c (Proc.devRef .tc main_arg11) := W6_of_ne m ρ c main_arg11 (by decide)
    _ = W4 m ρ c (Proc.devRef .tc main_arg11) := after_of_writes_eq hostOps2 _ hostOps2_writes (by decide)
    _ = W3 m ρ c (Proc.devRef .tc main_arg11) := W4_of_ne m ρ c main_arg11 (by decide)
    _ = W2 m ρ c (Proc.devRef .tc main_arg11) := after_of_writes_eq hostOps1 _ hostOps1_writes (by decide)
    _ = W1 m ρ c (Proc.devRef .tc main_arg11) := W2_of_ne m ρ c main_arg11 (by decide)
    _ = W0 m ρ c (Proc.devRef .tc main_arg11) := after_of_writes_eq hostOps0 _ hostOps0_writes (by decide)
    _ = m ((c : Thread nD τ).loc main_arg11) := rfl

theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := after_of_writes_eq hostOps3_4 _ hostOps3_4_writes (by decide)
    _ = W9 m ρ c (Proc.devRef .tc main_arg12) := after_of_writes_eq hostOps3_3 _ hostOps3_3_writes (by decide)
    _ = W8 m ρ c (Proc.devRef .tc main_arg12) := after_of_writes_eq hostOps3_2 _ hostOps3_2_writes (by decide)
    _ = W7 m ρ c (Proc.devRef .tc main_arg12) := after_of_writes_eq hostOps3_1 _ hostOps3_1_writes (by decide)
    _ = W6 m ρ c (Proc.devRef .tc main_arg12) := after_of_writes_eq hostOps3 _ hostOps3_writes (by decide)
    _ = W5 m ρ c (Proc.devRef .tc main_arg12) := W6_of_ne m ρ c main_arg12 (by decide)
    _ = W4 m ρ c (Proc.devRef .tc main_arg12) := after_of_writes_eq hostOps2 _ hostOps2_writes (by decide)
    _ = W3 m ρ c (Proc.devRef .tc main_arg12) := W4_of_ne m ρ c main_arg12 (by decide)
    _ = W2 m ρ c (Proc.devRef .tc main_arg12) := after_of_writes_eq hostOps1 _ hostOps1_writes (by decide)
    _ = W1 m ρ c (Proc.devRef .tc main_arg12) := W2_of_ne m ρ c main_arg12 (by decide)
    _ = W0 m ρ c (Proc.devRef .tc main_arg12) := after_of_writes_eq hostOps0 _ hostOps0_writes (by decide)
    _ = m ((c : Thread nD τ).loc main_arg12) := rfl

theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := after_of_writes_eq hostOps3_4 _ hostOps3_4_writes (by decide)
    _ = W9 m ρ c (Proc.devRef .tc main_arg13) := after_of_writes_eq hostOps3_3 _ hostOps3_3_writes (by decide)
    _ = W8 m ρ c (Proc.devRef .tc main_arg13) := after_of_writes_eq hostOps3_2 _ hostOps3_2_writes (by decide)
    _ = W7 m ρ c (Proc.devRef .tc main_arg13) := after_of_writes_eq hostOps3_1 _ hostOps3_1_writes (by decide)
    _ = W6 m ρ c (Proc.devRef .tc main_arg13) := after_of_writes_eq hostOps3 _ hostOps3_writes (by decide)
    _ = W5 m ρ c (Proc.devRef .tc main_arg13) := W6_of_ne m ρ c main_arg13 (by decide)
    _ = W4 m ρ c (Proc.devRef .tc main_arg13) := after_of_writes_eq hostOps2 _ hostOps2_writes (by decide)
    _ = W3 m ρ c (Proc.devRef .tc main_arg13) := W4_of_ne m ρ c main_arg13 (by decide)
    _ = W2 m ρ c (Proc.devRef .tc main_arg13) := after_of_writes_eq hostOps1 _ hostOps1_writes (by decide)
    _ = W1 m ρ c (Proc.devRef .tc main_arg13) := W2_of_ne m ρ c main_arg13 (by decide)
    _ = W0 m ρ c (Proc.devRef .tc main_arg13) := after_of_writes_eq hostOps0 _ hostOps0_writes (by decide)
    _ = m ((c : Thread nD τ).loc main_arg13) := rfl

theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := after_of_writes_eq hostOps3_4 _ hostOps3_4_writes (by decide)
    _ = W9 m ρ c (Proc.devRef .tc main_arg14) := after_of_writes_eq hostOps3_3 _ hostOps3_3_writes (by decide)
    _ = W8 m ρ c (Proc.devRef .tc main_arg14) := after_of_writes_eq hostOps3_2 _ hostOps3_2_writes (by decide)
    _ = W7 m ρ c (Proc.devRef .tc main_arg14) := after_of_writes_eq hostOps3_1 _ hostOps3_1_writes (by decide)
    _ = W6 m ρ c (Proc.devRef .tc main_arg14) := after_of_writes_eq hostOps3 _ hostOps3_writes (by decide)
    _ = W5 m ρ c (Proc.devRef .tc main_arg14) := W6_of_ne m ρ c main_arg14 (by decide)
    _ = W4 m ρ c (Proc.devRef .tc main_arg14) := after_of_writes_eq hostOps2 _ hostOps2_writes (by decide)
    _ = W3 m ρ c (Proc.devRef .tc main_arg14) := W4_of_ne m ρ c main_arg14 (by decide)
    _ = W2 m ρ c (Proc.devRef .tc main_arg14) := after_of_writes_eq hostOps1 _ hostOps1_writes (by decide)
    _ = W1 m ρ c (Proc.devRef .tc main_arg14) := W2_of_ne m ρ c main_arg14 (by decide)
    _ = W0 m ρ c (Proc.devRef .tc main_arg14) := after_of_writes_eq hostOps0 _ hostOps0_writes (by decide)
    _ = m ((c : Thread nD τ).loc main_arg14) := rfl

theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := after_of_writes_eq hostOps3_4 _ hostOps3_4_writes (by decide)
    _ = W9 m ρ c (Proc.devRef .tc main_arg15) := after_of_writes_eq hostOps3_3 _ hostOps3_3_writes (by decide)
    _ = W8 m ρ c (Proc.devRef .tc main_arg15) := after_of_writes_eq hostOps3_2 _ hostOps3_2_writes (by decide)
    _ = W7 m ρ c (Proc.devRef .tc main_arg15) := after_of_writes_eq hostOps3_1 _ hostOps3_1_writes (by decide)
    _ = W6 m ρ c (Proc.devRef .tc main_arg15) := after_of_writes_eq hostOps3 _ hostOps3_writes (by decide)
    _ = W5 m ρ c (Proc.devRef .tc main_arg15) := W6_of_ne m ρ c main_arg15 (by decide)
    _ = W4 m ρ c (Proc.devRef .tc main_arg15) := after_of_writes_eq hostOps2 _ hostOps2_writes (by decide)
    _ = W3 m ρ c (Proc.devRef .tc main_arg15) := W4_of_ne m ρ c main_arg15 (by decide)
    _ = W2 m ρ c (Proc.devRef .tc main_arg15) := after_of_writes_eq hostOps1 _ hostOps1_writes (by decide)
    _ = W1 m ρ c (Proc.devRef .tc main_arg15) := W2_of_ne m ρ c main_arg15 (by decide)
    _ = W0 m ρ c (Proc.devRef .tc main_arg15) := after_of_writes_eq hostOps0 _ hostOps0_writes (by decide)
    _ = m ((c : Thread nD τ).loc main_arg15) := rfl

theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := after_of_writes_eq hostOps3_4 _ hostOps3_4_writes (by decide)
    _ = W9 m ρ c (Proc.devRef .tc main_arg16) := after_of_writes_eq hostOps3_3 _ hostOps3_3_writes (by decide)
    _ = W8 m ρ c (Proc.devRef .tc main_arg16) := after_of_writes_eq hostOps3_2 _ hostOps3_2_writes (by decide)
    _ = W7 m ρ c (Proc.devRef .tc main_arg16) := after_of_writes_eq hostOps3_1 _ hostOps3_1_writes (by decide)
    _ = W6 m ρ c (Proc.devRef .tc main_arg16) := after_of_writes_eq hostOps3 _ hostOps3_writes (by decide)
    _ = W5 m ρ c (Proc.devRef .tc main_arg16) := W6_of_ne m ρ c main_arg16 (by decide)
    _ = W4 m ρ c (Proc.devRef .tc main_arg16) := after_of_writes_eq hostOps2 _ hostOps2_writes (by decide)
    _ = W3 m ρ c (Proc.devRef .tc main_arg16) := W4_of_ne m ρ c main_arg16 (by decide)
    _ = W2 m ρ c (Proc.devRef .tc main_arg16) := after_of_writes_eq hostOps1 _ hostOps1_writes (by decide)
    _ = W1 m ρ c (Proc.devRef .tc main_arg16) := W2_of_ne m ρ c main_arg16 (by decide)
    _ = W0 m ρ c (Proc.devRef .tc main_arg16) := after_of_writes_eq hostOps0 _ hostOps0_writes (by decide)
    _ = m ((c : Thread nD τ).loc main_arg16) := rfl

theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := after_of_writes_eq hostOps3_4 _ hostOps3_4_writes (by decide)
    _ = W9 m ρ c (Proc.devRef .tc main_arg17) := after_of_writes_eq hostOps3_3 _ hostOps3_3_writes (by decide)
    _ = W8 m ρ c (Proc.devRef .tc main_arg17) := after_of_writes_eq hostOps3_2 _ hostOps3_2_writes (by decide)
    _ = W7 m ρ c (Proc.devRef .tc main_arg17) := after_of_writes_eq hostOps3_1 _ hostOps3_1_writes (by decide)
    _ = W6 m ρ c (Proc.devRef .tc main_arg17) := after_of_writes_eq hostOps3 _ hostOps3_writes (by decide)
    _ = W5 m ρ c (Proc.devRef .tc main_arg17) := W6_of_ne m ρ c main_arg17 (by decide)
    _ = W4 m ρ c (Proc.devRef .tc main_arg17) := after_of_writes_eq hostOps2 _ hostOps2_writes (by decide)
    _ = W3 m ρ c (Proc.devRef .tc main_arg17) := W4_of_ne m ρ c main_arg17 (by decide)
    _ = W2 m ρ c (Proc.devRef .tc main_arg17) := after_of_writes_eq hostOps1 _ hostOps1_writes (by decide)
    _ = W1 m ρ c (Proc.devRef .tc main_arg17) := W2_of_ne m ρ c main_arg17 (by decide)
    _ = W0 m ρ c (Proc.devRef .tc main_arg17) := after_of_writes_eq hostOps0 _ hostOps0_writes (by decide)
    _ = m ((c : Thread nD τ).loc main_arg17) := rfl

theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of_ne m ρ c main_arg18 (by decide)
    _ = W10 m ρ c (Proc.devRef .tc main_arg18) := after_of_writes_eq hostOps3_4 _ hostOps3_4_writes (by decide)
    _ = W9 m ρ c (Proc.devRef .tc main_arg18) := after_of_writes_eq hostOps3_3 _ hostOps3_3_writes (by decide)
    _ = W8 m ρ c (Proc.devRef .tc main_arg18) := after_of_writes_eq hostOps3_2 _ hostOps3_2_writes (by decide)
    _ = W7 m ρ c (Proc.devRef .tc main_arg18) := after_of_writes_eq hostOps3_1 _ hostOps3_1_writes (by decide)
    _ = W6 m ρ c (Proc.devRef .tc main_arg18) := after_of_writes_eq hostOps3 _ hostOps3_writes (by decide)
    _ = W5 m ρ c (Proc.devRef .tc main_arg18) := W6_of_ne m ρ c main_arg18 (by decide)
    _ = W4 m ρ c (Proc.devRef .tc main_arg18) := after_of_writes_eq hostOps2 _ hostOps2_writes (by decide)
    _ = W3 m ρ c (Proc.devRef .tc main_arg18) := W4_of_ne m ρ c main_arg18 (by decide)
    _ = W2 m ρ c (Proc.devRef .tc main_arg18) := after_of_writes_eq hostOps1 _ hostOps1_writes (by decide)
    _ = W1 m ρ c (Proc.devRef .tc main_arg18) := W2_of_ne m ρ c main_arg18 (by decide)
    _ = W0 m ρ c (Proc.devRef .tc main_arg18) := after_of_writes_eq hostOps0 _ hostOps0_writes (by decide)
    _ = m ((c : Thread nD τ).loc main_arg18) := rfl

theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of_ne m ρ c main_arg19 (by decide)
    _ = W10 m ρ c (Proc.devRef .tc main_arg19) := after_of_writes_eq hostOps3_4 _ hostOps3_4_writes (by decide)
    _ = W9 m ρ c (Proc.devRef .tc main_arg19) := after_of_writes_eq hostOps3_3 _ hostOps3_3_writes (by decide)
    _ = W8 m ρ c (Proc.devRef .tc main_arg19) := after_of_writes_eq hostOps3_2 _ hostOps3_2_writes (by decide)
    _ = W7 m ρ c (Proc.devRef .tc main_arg19) := after_of_writes_eq hostOps3_1 _ hostOps3_1_writes (by decide)
    _ = W6 m ρ c (Proc.devRef .tc main_arg19) := after_of_writes_eq hostOps3 _ hostOps3_writes (by decide)
    _ = W5 m ρ c (Proc.devRef .tc main_arg19) := W6_of_ne m ρ c main_arg19 (by decide)
    _ = W4 m ρ c (Proc.devRef .tc main_arg19) := after_of_writes_eq hostOps2 _ hostOps2_writes (by decide)
    _ = W3 m ρ c (Proc.devRef .tc main_arg19) := W4_of_ne m ρ c main_arg19 (by decide)
    _ = W2 m ρ c (Proc.devRef .tc main_arg19) := after_of_writes_eq hostOps1 _ hostOps1_writes (by decide)
    _ = W1 m ρ c (Proc.devRef .tc main_arg19) := W2_of_ne m ρ c main_arg19 (by decide)
    _ = W0 m ρ c (Proc.devRef .tc main_arg19) := after_of_writes_eq hostOps0 _ hostOps0_writes (by decide)
    _ = m ((c : Thread nD τ).loc main_arg19) := rfl

theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := after_of_writes_eq hostOps3_4 _ hostOps3_4_writes (by decide)
    _ = W9 m ρ c (Proc.devRef .tc main_arg20) := after_of_writes_eq hostOps3_3 _ hostOps3_3_writes (by decide)
    _ = W8 m ρ c (Proc.devRef .tc main_arg20) := after_of_writes_eq hostOps3_2 _ hostOps3_2_writes (by decide)
    _ = W7 m ρ c (Proc.devRef .tc main_arg20) := after_of_writes_eq hostOps3_1 _ hostOps3_1_writes (by decide)
    _ = W6 m ρ c (Proc.devRef .tc main_arg20) := after_of_writes_eq hostOps3 _ hostOps3_writes (by decide)
    _ = W5 m ρ c (Proc.devRef .tc main_arg20) := W6_of_ne m ρ c main_arg20 (by decide)
    _ = W4 m ρ c (Proc.devRef .tc main_arg20) := after_of_writes_eq hostOps2 _ hostOps2_writes (by decide)
    _ = W3 m ρ c (Proc.devRef .tc main_arg20) := W4_of_ne m ρ c main_arg20 (by decide)
    _ = W2 m ρ c (Proc.devRef .tc main_arg20) := after_of_writes_eq hostOps1 _ hostOps1_writes (by decide)
    _ = W1 m ρ c (Proc.devRef .tc main_arg20) := W2_of_ne m ρ c main_arg20 (by decide)
    _ = W0 m ρ c (Proc.devRef .tc main_arg20) := after_of_writes_eq hostOps0 _ hostOps0_writes (by decide)
    _ = m ((c : Thread nD τ).loc main_arg20) := rfl

theorem W12_main_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of_ne m ρ c main_arg21 (by decide)
    _ = W10 m ρ c (Proc.devRef .tc main_arg21) := after_of_writes_eq hostOps3_4 _ hostOps3_4_writes (by decide)
    _ = W9 m ρ c (Proc.devRef .tc main_arg21) := after_of_writes_eq hostOps3_3 _ hostOps3_3_writes (by decide)
    _ = W8 m ρ c (Proc.devRef .tc main_arg21) := after_of_writes_eq hostOps3_2 _ hostOps3_2_writes (by decide)
    _ = W7 m ρ c (Proc.devRef .tc main_arg21) := after_of_writes_eq hostOps3_1 _ hostOps3_1_writes (by decide)
    _ = W6 m ρ c (Proc.devRef .tc main_arg21) := after_of_writes_eq hostOps3 _ hostOps3_writes (by decide)
    _ = W5 m ρ c (Proc.devRef .tc main_arg21) := W6_of_ne m ρ c main_arg21 (by decide)
    _ = W4 m ρ c (Proc.devRef .tc main_arg21) := after_of_writes_eq hostOps2 _ hostOps2_writes (by decide)
    _ = W3 m ρ c (Proc.devRef .tc main_arg21) := W4_of_ne m ρ c main_arg21 (by decide)
    _ = W2 m ρ c (Proc.devRef .tc main_arg21) := after_of_writes_eq hostOps1 _ hostOps1_writes (by decide)
    _ = W1 m ρ c (Proc.devRef .tc main_arg21) := W2_of_ne m ρ c main_arg21 (by decide)
    _ = W0 m ρ c (Proc.devRef .tc main_arg21) := after_of_writes_eq hostOps0 _ hostOps0_writes (by decide)
    _ = m ((c : Thread nD τ).loc main_arg21) := rfl

theorem W12_main_arg22 (c : Dev nD) : W12 m ρ c (Proc.devRef .tc main_arg22) = m ((c : Thread nD τ).loc main_arg22) :=
  calc W12 m ρ c (Proc.devRef .tc main_arg22)
    _ = W11 m ρ c (Proc.devRef .tc main_arg22) := W12_of_ne m ρ c main_arg22 (by decide)
    _ = W10 m ρ c (Proc.devRef .tc main_arg22) := after_of_writes_eq hostOps3_4 _ hostOps3_4_writes (by decide)
    _ = W9 m ρ c (Proc.devRef .tc main_arg22) := after_of_writes_eq hostOps3_3 _ hostOps3_3_writes (by decide)
    _ = W8 m ρ c (Proc.devRef .tc main_arg22) := after_of_writes_eq hostOps3_2 _ hostOps3_2_writes (by decide)
    _ = W7 m ρ c (Proc.devRef .tc main_arg22) := after_of_writes_eq hostOps3_1 _ hostOps3_1_writes (by decide)
    _ = W6 m ρ c (Proc.devRef .tc main_arg22) := after_of_writes_eq hostOps3 _ hostOps3_writes (by decide)
    _ = W5 m ρ c (Proc.devRef .tc main_arg22) := W6_of_ne m ρ c main_arg22 (by decide)
    _ = W4 m ρ c (Proc.devRef .tc main_arg22) := after_of_writes_eq hostOps2 _ hostOps2_writes (by decide)
    _ = W3 m ρ c (Proc.devRef .tc main_arg22) := W4_of_ne m ρ c main_arg22 (by decide)
    _ = W2 m ρ c (Proc.devRef .tc main_arg22) := after_of_writes_eq hostOps1 _ hostOps1_writes (by decide)
    _ = W1 m ρ c (Proc.devRef .tc main_arg22) := W2_of_ne m ρ c main_arg22 (by decide)
    _ = W0 m ρ c (Proc.devRef .tc main_arg22) := after_of_writes_eq hostOps0 _ hostOps0_writes (by decide)
    _ = m ((c : Thread nD τ).loc main_arg22) := rfl

theorem W12_main_arg23 (c : Dev nD) : W12 m ρ c (Proc.devRef .tc main_arg23) = m ((c : Thread nD τ).loc main_arg23) :=
  calc W12 m ρ c (Proc.devRef .tc main_arg23)
    _ = W11 m ρ c (Proc.devRef .tc main_arg23) := W12_of_ne m ρ c main_arg23 (by decide)
    _ = W10 m ρ c (Proc.devRef .tc main_arg23) := after_of_writes_eq hostOps3_4 _ hostOps3_4_writes (by decide)
    _ = W9 m ρ c (Proc.devRef .tc main_arg23) := after_of_writes_eq hostOps3_3 _ hostOps3_3_writes (by decide)
    _ = W8 m ρ c (Proc.devRef .tc main_arg23) := after_of_writes_eq hostOps3_2 _ hostOps3_2_writes (by decide)
    _ = W7 m ρ c (Proc.devRef .tc main_arg23) := after_of_writes_eq hostOps3_1 _ hostOps3_1_writes (by decide)
    _ = W6 m ρ c (Proc.devRef .tc main_arg23) := after_of_writes_eq hostOps3 _ hostOps3_writes (by decide)
    _ = W5 m ρ c (Proc.devRef .tc main_arg23) := W6_of_ne m ρ c main_arg23 (by decide)
    _ = W4 m ρ c (Proc.devRef .tc main_arg23) := after_of_writes_eq hostOps2 _ hostOps2_writes (by decide)
    _ = W3 m ρ c (Proc.devRef .tc main_arg23) := W4_of_ne m ρ c main_arg23 (by decide)
    _ = W2 m ρ c (Proc.devRef .tc main_arg23) := after_of_writes_eq hostOps1 _ hostOps1_writes (by decide)
    _ = W1 m ρ c (Proc.devRef .tc main_arg23) := W2_of_ne m ρ c main_arg23 (by decide)
    _ = W0 m ρ c (Proc.devRef .tc main_arg23) := after_of_writes_eq hostOps0 _ hostOps0_writes (by decide)
    _ = m ((c : Thread nD τ).loc main_arg23) := rfl

theorem W12_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := after_of_writes_eq hostOps3_4 _ hostOps3_4_writes (by decide)
    _ = W9 m ρ c (Proc.devRef .tc main_arg24) := after_of_writes_eq hostOps3_3 _ hostOps3_3_writes (by decide)
    _ = W8 m ρ c (Proc.devRef .tc main_arg24) := after_of_writes_eq hostOps3_2 _ hostOps3_2_writes (by decide)
    _ = W7 m ρ c (Proc.devRef .tc main_arg24) := after_of_writes_eq hostOps3_1 _ hostOps3_1_writes (by decide)
    _ = W6 m ρ c (Proc.devRef .tc main_arg24) := after_of_writes_eq hostOps3 _ hostOps3_writes (by decide)
    _ = W5 m ρ c (Proc.devRef .tc main_arg24) := W6_of_ne m ρ c main_arg24 (by decide)
    _ = W4 m ρ c (Proc.devRef .tc main_arg24) := after_of_writes_eq hostOps2 _ hostOps2_writes (by decide)
    _ = W3 m ρ c (Proc.devRef .tc main_arg24) := W4_of_ne m ρ c main_arg24 (by decide)
    _ = W2 m ρ c (Proc.devRef .tc main_arg24) := after_of_writes_eq hostOps1 _ hostOps1_writes (by decide)
    _ = W1 m ρ c (Proc.devRef .tc main_arg24) := W2_of_ne m ρ c main_arg24 (by decide)
    _ = W0 m ρ c (Proc.devRef .tc main_arg24) := after_of_writes_eq hostOps0 _ hostOps0_writes (by decide)
    _ = m ((c : Thread nD τ).loc main_arg24) := rfl

theorem W12_main_arg25 (c : Dev nD) : W12 m ρ c (Proc.devRef .tc main_arg25) = m ((c : Thread nD τ).loc main_arg25) :=
  calc W12 m ρ c (Proc.devRef .tc main_arg25)
    _ = W11 m ρ c (Proc.devRef .tc main_arg25) := W12_of_ne m ρ c main_arg25 (by decide)
    _ = W10 m ρ c (Proc.devRef .tc main_arg25) := after_of_writes_eq hostOps3_4 _ hostOps3_4_writes (by decide)
    _ = W9 m ρ c (Proc.devRef .tc main_arg25) := after_of_writes_eq hostOps3_3 _ hostOps3_3_writes (by decide)
    _ = W8 m ρ c (Proc.devRef .tc main_arg25) := after_of_writes_eq hostOps3_2 _ hostOps3_2_writes (by decide)
    _ = W7 m ρ c (Proc.devRef .tc main_arg25) := after_of_writes_eq hostOps3_1 _ hostOps3_1_writes (by decide)
    _ = W6 m ρ c (Proc.devRef .tc main_arg25) := after_of_writes_eq hostOps3 _ hostOps3_writes (by decide)
    _ = W5 m ρ c (Proc.devRef .tc main_arg25) := W6_of_ne m ρ c main_arg25 (by decide)
    _ = W4 m ρ c (Proc.devRef .tc main_arg25) := after_of_writes_eq hostOps2 _ hostOps2_writes (by decide)
    _ = W3 m ρ c (Proc.devRef .tc main_arg25) := W4_of_ne m ρ c main_arg25 (by decide)
    _ = W2 m ρ c (Proc.devRef .tc main_arg25) := after_of_writes_eq hostOps1 _ hostOps1_writes (by decide)
    _ = W1 m ρ c (Proc.devRef .tc main_arg25) := W2_of_ne m ρ c main_arg25 (by decide)
    _ = W0 m ρ c (Proc.devRef .tc main_arg25) := after_of_writes_eq hostOps0 _ hostOps0_writes (by decide)
    _ = m ((c : Thread nD τ).loc main_arg25) := rfl

theorem W12_main_arg26 (c : Dev nD) : W12 m ρ c (Proc.devRef .tc main_arg26) = m ((c : Thread nD τ).loc main_arg26) :=
  calc W12 m ρ c (Proc.devRef .tc main_arg26)
    _ = W11 m ρ c (Proc.devRef .tc main_arg26) := W12_of_ne m ρ c main_arg26 (by decide)
    _ = W10 m ρ c (Proc.devRef .tc main_arg26) := after_of_writes_eq hostOps3_4 _ hostOps3_4_writes (by decide)
    _ = W9 m ρ c (Proc.devRef .tc main_arg26) := after_of_writes_eq hostOps3_3 _ hostOps3_3_writes (by decide)
    _ = W8 m ρ c (Proc.devRef .tc main_arg26) := after_of_writes_eq hostOps3_2 _ hostOps3_2_writes (by decide)
    _ = W7 m ρ c (Proc.devRef .tc main_arg26) := after_of_writes_eq hostOps3_1 _ hostOps3_1_writes (by decide)
    _ = W6 m ρ c (Proc.devRef .tc main_arg26) := after_of_writes_eq hostOps3 _ hostOps3_writes (by decide)
    _ = W5 m ρ c (Proc.devRef .tc main_arg26) := W6_of_ne m ρ c main_arg26 (by decide)
    _ = W4 m ρ c (Proc.devRef .tc main_arg26) := after_of_writes_eq hostOps2 _ hostOps2_writes (by decide)
    _ = W3 m ρ c (Proc.devRef .tc main_arg26) := W4_of_ne m ρ c main_arg26 (by decide)
    _ = W2 m ρ c (Proc.devRef .tc main_arg26) := after_of_writes_eq hostOps1 _ hostOps1_writes (by decide)
    _ = W1 m ρ c (Proc.devRef .tc main_arg26) := W2_of_ne m ρ c main_arg26 (by decide)
    _ = W0 m ρ c (Proc.devRef .tc main_arg26) := after_of_writes_eq hostOps0 _ hostOps0_writes (by decide)
    _ = m ((c : Thread nD τ).loc main_arg26) := rfl

theorem W12_main_arg27 (c : Dev nD) : W12 m ρ c (Proc.devRef .tc main_arg27) = m ((c : Thread nD τ).loc main_arg27) :=
  calc W12 m ρ c (Proc.devRef .tc main_arg27)
    _ = W11 m ρ c (Proc.devRef .tc main_arg27) := (W12_arr m ρ c 4).trans (((dat3 (V11 m ρ) c).arrAt_in 4 rfl _).trans (A_eq3 (V11 m ρ) c 4))
    _ = W10 m ρ c (Proc.devRef .tc main_arg27) := after_of_writes_eq hostOps3_4 _ hostOps3_4_writes (by decide)
    _ = W9 m ρ c (Proc.devRef .tc main_arg27) := after_of_writes_eq hostOps3_3 _ hostOps3_3_writes (by decide)
    _ = W8 m ρ c (Proc.devRef .tc main_arg27) := after_of_writes_eq hostOps3_2 _ hostOps3_2_writes (by decide)
    _ = W7 m ρ c (Proc.devRef .tc main_arg27) := after_of_writes_eq hostOps3_1 _ hostOps3_1_writes (by decide)
    _ = W6 m ρ c (Proc.devRef .tc main_arg27) := after_of_writes_eq hostOps3 _ hostOps3_writes (by decide)
    _ = W5 m ρ c (Proc.devRef .tc main_arg27) := W6_of_ne m ρ c main_arg27 (by decide)
    _ = W4 m ρ c (Proc.devRef .tc main_arg27) := after_of_writes_eq hostOps2 _ hostOps2_writes (by decide)
    _ = W3 m ρ c (Proc.devRef .tc main_arg27) := W4_of_ne m ρ c main_arg27 (by decide)
    _ = W2 m ρ c (Proc.devRef .tc main_arg27) := after_of_writes_eq hostOps1 _ hostOps1_writes (by decide)
    _ = W1 m ρ c (Proc.devRef .tc main_arg27) := W2_of_ne m ρ c main_arg27 (by decide)
    _ = W0 m ρ c (Proc.devRef .tc main_arg27) := after_of_writes_eq hostOps0 _ hostOps0_writes (by decide)
    _ = m ((c : Thread nD τ).loc main_arg27) := rfl

theorem W12_main_arg28 (c : Dev nD) : W12 m ρ c (Proc.devRef .tc main_arg28) = m ((c : Thread nD τ).loc main_arg28) :=
  calc W12 m ρ c (Proc.devRef .tc main_arg28)
    _ = W11 m ρ c (Proc.devRef .tc main_arg28) := W12_of_ne m ρ c main_arg28 (by decide)
    _ = W10 m ρ c (Proc.devRef .tc main_arg28) := after_of_writes_eq hostOps3_4 _ hostOps3_4_writes (by decide)
    _ = W9 m ρ c (Proc.devRef .tc main_arg28) := after_of_writes_eq hostOps3_3 _ hostOps3_3_writes (by decide)
    _ = W8 m ρ c (Proc.devRef .tc main_arg28) := after_of_writes_eq hostOps3_2 _ hostOps3_2_writes (by decide)
    _ = W7 m ρ c (Proc.devRef .tc main_arg28) := after_of_writes_eq hostOps3_1 _ hostOps3_1_writes (by decide)
    _ = W6 m ρ c (Proc.devRef .tc main_arg28) := after_of_writes_eq hostOps3 _ hostOps3_writes (by decide)
    _ = W5 m ρ c (Proc.devRef .tc main_arg28) := W6_of_ne m ρ c main_arg28 (by decide)
    _ = W4 m ρ c (Proc.devRef .tc main_arg28) := after_of_writes_eq hostOps2 _ hostOps2_writes (by decide)
    _ = W3 m ρ c (Proc.devRef .tc main_arg28) := W4_of_ne m ρ c main_arg28 (by decide)
    _ = W2 m ρ c (Proc.devRef .tc main_arg28) := after_of_writes_eq hostOps1 _ hostOps1_writes (by decide)
    _ = W1 m ρ c (Proc.devRef .tc main_arg28) := W2_of_ne m ρ c main_arg28 (by decide)
    _ = W0 m ρ c (Proc.devRef .tc main_arg28) := after_of_writes_eq hostOps0 _ hostOps0_writes (by decide)
    _ = m ((c : Thread nD τ).loc main_arg28) := rfl

end Cert.KernelIdeal.Fr

end
-- ==== Proof.KI.Frame.lean ====
import proofs.«174758_j6468220748546_1_alg».proof.Proof.KI.Run
import proofs.«174758_j6468220748546_1_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame of @main: every argument array ends as launched -/

/-- At the compiled mesh, from any memory with zero counters, every weakly fair execution of @main on the TensorCores
    terminates, nothing faulting, and every final state has the 29 argument arrays as launched: the run leaves every
    unscoped buffer at the last boundary's contents, and those contents, read at an argument, are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c),
      (h c _ (mem_uc main_arg14 (by decide))).trans (W12_main_arg14 m ρ c),
      (h c _ (mem_uc main_arg15 (by decide))).trans (W12_main_arg15 m ρ c),
      (h c _ (mem_uc main_arg16 (by decide))).trans (W12_main_arg16 m ρ c),
      (h c _ (mem_uc main_arg17 (by decide))).trans (W12_main_arg17 m ρ c),
      (h c _ (mem_uc main_arg18 (by decide))).trans (W12_main_arg18 m ρ c),
      (h c _ (mem_uc main_arg19 (by decide))).trans (W12_main_arg19 m ρ c),
      (h c _ (mem_uc main_arg20 (by decide))).trans (W12_main_arg20 m ρ c),
      (h c _ (mem_uc main_arg21 (by decide))).trans (W12_main_arg21 m ρ c),
      (h c _ (mem_uc main_arg22 (by decide))).trans (W12_main_arg22 m ρ c),
      (h c _ (mem_uc main_arg23 (by decide))).trans (W12_main_arg23 m ρ c),
      (h c _ (mem_uc main_arg24 (by decide))).trans (W12_main_arg24 m ρ c),
      (h c _ (mem_uc main_arg25 (by decide))).trans (W12_main_arg25 m ρ c),
      (h c _ (mem_uc main_arg26 (by decide))).trans (W12_main_arg26 m ρ c),
      (h c _ (mem_uc main_arg27 (by decide))).trans (W12_main_arg27 m ρ c),
      (h c _ (mem_uc main_arg28 (by decide))).trans (W12_main_arg28 m ρ c)⟩) (run_main m ρ)

end Cert.KernelIdeal.Fr

end
-- ==== Proof.Val.Pay0.lean ====
import proofs.«174758_j6468220748546_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! # The node projection's block, entry by entry

One block of the node projection is a block of feature rows times the concatenated weight matrix plus the
concatenated bias row; read on the extended reals the two roundings to sixteen bits are the identity and the
product into a zero accumulator is the plain sum over the 128 shared coordinates. -/

/-! ### The contraction `[2000, 128] × [128, 512]` read at an entry -/

theorem mm0_lhs0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem mm0_lhs1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem mm0_rhs0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem mm0_rhs1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Into the zero accumulator, entry `(p, q)` of the product is the sum over the shared axis of the row of the left
    factor against the column of the right one. -/
theorem mm0_apply (a : FVec Ideal S2000x128 .bf16) (b : FVec Ideal S128x512 .bf16) (p : Fin 2000) (q : Fin 512) :
    (matmul dot_S2000x128_S128x512_S2000x512_1_0_0_1_n_n none a b (constant S2000x512 .f32 0x00000000#32) : FVec Ideal S2000x512 .f32) (ix2 p q)
      = ∑ k : Fin 128, a (ix2 p k) * b (ix2 k q) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun x => Fin.ext (by
    match x with
    | ⟨0, _⟩ => exact mm0_lhs0 _ _
    | ⟨1, _⟩ => exact (mm0_lhs1 _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun x => Fin.ext (by
    match x with
    | ⟨0, _⟩ => exact (mm0_rhs0 _ _).trans hk
    | ⟨1, _⟩ => exact mm0_rhs1 _ _)
  rw [el, er]

/-- Entry `(p, q)` of the block: row `p` of the feature block against column `q` of the weights, plus the bias at `q`. -/
theorem k0_pay1_apply (v0 : Vec Ideal S2000x128 .f32) (v2 : Vec Ideal S128x512 .f32) (v6 : Vec Ideal S1x512 .f32)
    (p : Fin 2000) (q : Fin 512) :
    k0_pay1 v0 v2 v6 (ix2 p q) = (∑ k : Fin 128, v0 (ix2 p k) * v2 (ix2 k q)) + v6 (ix2 (0 : Fin 1) q) := by
  have h1 := mm0_apply (truncf .bf16 v0 bitsLt_bf16_f32) (truncf .bf16 v2 bitsLt_bf16_f32) p q
  have h2 := broadcastTo_1b_ab_apply v6 broadcasts_S1x512_S2000x512 p q
  unfold k0_pay1
  simp only [shapeCast_self]
  exact congrArg₂ (· + ·) h1 h2

end Cert.KernelIdeal.Val

end
-- ==== Proof.Val.Arr0.lean ====
import proofs.«174758_j6468220748546_1_alg».proof.Proof.KI.D0
import proofs.«174758_j6468220748546_1_alg».proof.Proof.Val.Pay0
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- the TensorCore's buffer contents when the region is entered, read on the extended reals
variable (V : (c : Dev nD) → (b : Ref sig .tc) → Buf (Elt Ideal) ((c : Thread nD τ).loc b))

/-! # The node projection's array, entry by entry

Region 0 writes the 50000 × 512 array block by block, 25 blocks of 2000 rows. Each block is the matching 2000 feature
rows times the whole weight matrix plus the bias row, so the array as a whole is the feature array times the weight
matrix plus the bias row: entry `(n, j)` is `∑ k, feat (n, k) · w (k, j) + b (0, j)`. -/

theorem hz0 : (![0, 0] : Fin 2 → Nat) = fun _ => 0 := funext fun a => by fin_cases a <;> rfl

/-- The projected array as one function of the three arrays the region reads. -/
def G0_3 (feat : S50000x128.Idx → Elt Ideal .f32) (wcat : S128x512.Idx → Elt Ideal .f32) (bcat : S1x512.Idx → Elt Ideal .f32) :
    S50000x512.Idx → Elt Ideal .f32 := fun i =>
  (∑ k : Fin 128, feat (ix2 (⟨(i 0).val, idx2_lt0 i⟩ : Fin 50000) k) * wcat (ix2 k (⟨(i 1).val, idx2_lt1 i⟩ : Fin 512)))
    + bcat (ix2 (0 : Fin 1) (⟨(i 1).val, idx2_lt1 i⟩ : Fin 512))

/-- A block entry is the array's entry, once each loaded block is known to be the part of its array the entry needs:
    row `p` of the feature block is row `i 0` of the features, the weight and bias blocks are the whole arrays. -/
theorem blk0_3 (feat : S50000x128.Idx → Elt Ideal .f32) (wcat : S128x512.Idx → Elt Ideal .f32) (bcat : S1x512.Idx → Elt Ideal .f32)
    (x0 : Vec Ideal S2000x128 .f32) (x1 : Vec Ideal S128x512 .f32) (x2 : Vec Ideal S1x512 .f32)
    (p : Fin 2000) (q : Fin 512) (i : S50000x512.Idx)
    (h0 : ∀ k : Fin 128, x0 (ix2 p k) = feat (ix2 (⟨(i 0).val, idx2_lt0 i⟩ : Fin 50000) k))
    (h1 : ∀ k : Fin 128, x1 (ix2 k q) = wcat (ix2 k (⟨(i 1).val, idx2_lt1 i⟩ : Fin 512)))
    (h2 : x2 (ix2 (0 : Fin 1) q) = bcat (ix2 (0 : Fin 1) (⟨(i 1).val, idx2_lt1 i⟩ : Fin 512))) :
    k0_pay1 x0 x1 x2 (ix2 p q) = G0_3 feat wcat bcat i := by
  rw [k0_pay1_apply, h2]
  unfold G0_3
  exact congrArg (· + bcat (ix2 (0 : Fin 1) (⟨(i 1).val, idx2_lt1 i⟩ : Fin 512)))
    (Finset.sum_congr rfl fun k _ => by rw [h0 k, h1 k])

/-- The index maps, decided over the 25 points: the feature block and the output block sit at block row `t`, the
    weights and the bias at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projected array. -/
theorem flushed0_3 (c : Dev nD) (t : Fin cfg0.N) :
    (dat0 V c).flushed 3 t = ((cfg0.win 3).blk t).view.read (Elt Ideal)
      (G0_3 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x512) hz0, View.ld_unit_zero (S := S1x512) hz0]
  obtain ⟨e00, e01, e10, e11, e20, e21, e30, e31⟩ := idx0 t
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (ix2 p q)
    = G0_3 (V c (Pipeline.arrRef spec0 0)) (V c (Pipeline.arrRef spec0 1)) (V c (Pipeline.arrRef spec0 2))
        (((cfg0.win 3).blk t).view.emb (ix2 p q))
  refine blk0_3 (V c (Pipeline.arrRef spec0 0)) (V c (Pipeline.arrRef spec0 1)) (V c (Pipeline.arrRef spec0 2))
    (iblk0 V c 0 t) (iblk0 V c 1 t) (iblk0 V c 2 t) p q (((cfg0.win 3).blk t).view.emb (ix2 p q)) ?_ ?_ ?_
  · intro k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 2000 + 1 * p.val = win0_3.index t (0 : Fin 2) * 2000 + 1 * p.val; rw [e00, e30]
    | ⟨1, _⟩ => show win0_0.index t (1 : Fin 2) * 128 + 1 * k.val = k.val; rw [e01]; omega
  · intro k
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; rw [e10]; omega
    | ⟨1, _⟩ => show win0_1.index t (1 : Fin 2) * 512 + 1 * q.val = win0_3.index t (1 : Fin 2) * 512 + 1 * q.val; rw [e11, e31]
  · show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; rw [e20]
    | ⟨1, _⟩ => show win0_2.index t (1 : Fin 2) * 512 + 1 * q.val = win0_3.index t (1 : Fin 2) * 512 + 1 * q.val; rw [e21, e31]

/-- An index of the array is in point `t`'s block iff each coordinate is in the block's range on its axis. -/
theorem mem_blk0_3 (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v7).slice (win0_3.rect t)).set ↔ _
  rw [View.set_slice_whole, Rect.mem_set_unit]
  exact Iff.rfl

/-- Every row of the array is in the block of the point `row / 2000`. -/
theorem covered0_3 (i : S50000x512.Idx) :
    ∃ t : Fin cfg0.N, (cfg0.win 3).flush t = true ∧ i ∈ ((cfg0.win 3).blk t).view.set := by
  have h0 : (i 0).val < 50000 := idx2_lt0 i
  have h1 : (i 1).val < 512 := idx2_lt1 i
  have hN : cfg0.N = 25 := N_0
  have ht : (i 0).val / 2000 < cfg0.N := by rw [hN]; omega
  obtain ⟨-, -, -, -, -, -, e30, e31⟩ := idx0 ⟨(i 0).val / 2000, ht⟩
  refine ⟨⟨(i 0).val / 2000, ht⟩, flush0_3 _, ?_⟩
  rw [mem_blk0_3]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 512 ≤ (i 1).val
      ∧ (i 1).val < win0_3.index ⟨(i 0).val / 2000, ht⟩ (1 : Fin 2) * 512 + 512
    rw [e31]; omega

/-- After region 0 the output array holds the projection of the arrays the region found. -/
theorem final0_3 (c : Dev nD) :
    (dat0 V c).arrAt 3 cfg0.N
      = G0_3 (V c (Pipeline.arrRef spec0 0)) (V c (Pipeline.arrRef spec0 1)) (V c (Pipeline.arrRef spec0 2)) :=
  (dat0 V c).arrAt_eq_of_cover 3 _ (fun t _ => flushed0_3 V c t) covered0_3

end Cert.KernelIdeal.Val

end
-- ==== Proof.Val.Pay1.lean ====
import proofs.«174758_j6468220748546_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! # The edge projection's two blocks, entry by entry

The first block is a block of noise rows times the edge-embedding weights plus its bias row; the second is that
first block times the projection weights plus the projection bias row. On the extended reals the roundings to
sixteen bits are the identity and each product into a zero accumulator is the plain sum over the shared axis. -/

/-! ### The contraction `[8000, 64] × [64, 128]` read at an entry -/

theorem mm1a_lhs0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem mm1a_lhs1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem mm1a_rhs0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem mm1a_rhs1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Into the zero accumulator, entry `(p, q)` of the product is the sum over the shared axis of the row of the left
    factor against the column of the right one. -/
theorem mm1a_apply (a : FVec Ideal S8000x64 .bf16) (b : FVec Ideal S64x128 .bf16) (p : Fin 8000) (q : Fin 128) :
    (matmul dot_S8000x64_S64x128_S8000x128_1_0_0_1_n_n none a b (constant S8000x128 .f32 0x00000000#32) : FVec Ideal S8000x128 .f32) (ix2 p q)
      = ∑ k : Fin 64, a (ix2 p k) * b (ix2 k q) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p q) ((contrEquiv1 dot_S8000x64_S64x128_S8000x128_1_0_0_1_n_n 64 rfl rfl).symm k) = ix2 p k := funext fun x => Fin.ext (by
    match x with
    | ⟨0, _⟩ => exact mm1a_lhs0 _ _
    | ⟨1, _⟩ => exact (mm1a_lhs1 _ _).trans hk)
  have er : dot_S8000x64_S64x128_S8000x128_1_0_0_1_n_n.rhsIdx (ix2 p q) ((contrEquiv1 dot_S8000x64_S64x128_S8000x128_1_0_0_1_n_n 64 rfl rfl).symm k) = ix2 k q := funext fun x => Fin.ext (by
    match x with
    | ⟨0, _⟩ => exact (mm1a_rhs0 _ _).trans hk
    | ⟨1, _⟩ => exact mm1a_rhs1 _ _)
  rw [el, er]

/-! ### The contraction `[8000, 128] × [128, 128]` read at an entry -/

theorem mm1b_lhs0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem mm1b_lhs1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem mm1b_rhs0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem mm1b_rhs1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Into the zero accumulator, entry `(p, q)` of the product is the sum over the shared axis of the row of the left
    factor against the column of the right one. -/
theorem mm1b_apply (a : FVec Ideal S8000x128 .bf16) (b : FVec Ideal S128x128 .bf16) (p : Fin 8000) (q : Fin 128) :
    (matmul dot_S8000x128_S128x128_S8000x128_1_0_0_1_n_n none a b (constant S8000x128 .f32 0x00000000#32) : FVec Ideal S8000x128 .f32) (ix2 p q)
      = ∑ k : Fin 128, a (ix2 p k) * b (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun x => Fin.ext (by
    match x with
    | ⟨0, _⟩ => exact mm1b_lhs0 _ _
    | ⟨1, _⟩ => exact (mm1b_lhs1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun x => Fin.ext (by
    match x with
    | ⟨0, _⟩ => exact (mm1b_rhs0 _ _).trans hk
    | ⟨1, _⟩ => exact mm1b_rhs1 _ _)
  rw [el, er]

/-- Entry `(p, q)` of the first block: row `p` of the noise block against column `q` of the embedding weights, plus
    the bias at `q`. -/
theorem k1_pay1_apply (v0 : Vec Ideal S8000x64 .f32) (v2 : Vec Ideal S64x128 .f32) (v5 : Vec Ideal S1x128 .f32)
    (p : Fin 8000) (q : Fin 128) :
    k1_pay1 v0 v2 v5 (ix2 p q) = (∑ l : Fin 64, v0 (ix2 p l) * v2 (ix2 l q)) + v5 (ix2 (0 : Fin 1) q) := by
  have h1 := mm1a_apply (truncf .bf16 v0 bitsLt_bf16_f32) (truncf .bf16 v2 bitsLt_bf16_f32) p q
  have h2 := broadcastTo_1b_ab_apply v5 broadcasts_S1x128_S8000x128 p q
  unfold k1_pay1
  simp only [shapeCast_self]
  exact congrArg₂ (· + ·) h1 h2

/-- Entry `(p, q)` of the second block: row `p` of the FIRST block against column `q` of the projection weights, plus
    the projection bias at `q`. -/
theorem k1_pay2_apply' (v0 : Vec Ideal S8000x64 .f32) (v2 : Vec Ideal S64x128 .f32) (v5 : Vec Ideal S1x128 .f32)
    (v10 : Vec Ideal S128x128 .f32) (v14 : Vec Ideal S1x128 .f32) (p : Fin 8000) (q : Fin 128) :
    k1_pay2 v0 v2 v5 v10 v14 (ix2 p q)
      = (∑ k : Fin 128, k1_pay1 v0 v2 v5 (ix2 p k) * v10 (ix2 k q)) + v14 (ix2 (0 : Fin 1) q) := by
  have h1 := mm1b_apply (truncf .bf16 (k1_pay1 v0 v2 v5) bitsLt_bf16_f32) (truncf .bf16 v10 bitsLt_bf16_f32) p q
  have h2 := broadcastTo_1b_ab_apply v14 broadcasts_S1x128_S8000x128 p q
  unfold k1_pay2
  simp only [shapeCast_self]
  exact congrArg₂ (· + ·) h1 h2

/-- The same with the first block's entries written out. -/
theorem k1_pay2_apply (v0 : Vec Ideal S8000x64 .f32) (v2 : Vec Ideal S64x128 .f32) (v5 : Vec Ideal S1x128 .f32)
    (v10 : Vec Ideal S128x128 .f32) (v14 : Vec Ideal S1x128 .f32) (p : Fin 8000) (q : Fin 128) :
    k1_pay2 v0 v2 v5 v10 v14 (ix2 p q)
      = (∑ k : Fin 128, ((∑ l : Fin 64, v0 (ix2 p l) * v2 (ix2 l k)) + v5 (ix2 (0 : Fin 1) k)) * v10 (ix2 k q))
          + v14 (ix2 (0 : Fin 1) q) := by
  rw [k1_pay2_apply']
  exact congrArg (· + v14 (ix2 (0 : Fin 1) q)) (Finset.sum_congr rfl fun k _ => by rw [k1_pay1_apply])

end Cert.KernelIdeal.Val

end
-- ==== Proof.Val.Arr1.lean ====
import proofs.«174758_j6468220748546_1_alg».proof.Proof.KI.D1
import proofs.«174758_j6468220748546_1_alg».proof.Proof.Val.Pay1
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- the TensorCore's buffer contents when the region is entered, read on the extended reals
variable (V : (c : Dev nD) → (b : Ref sig .tc) → Buf (Elt Ideal) ((c : Thread nD τ).loc b))

/-! # The edge projection's two arrays, entry by entry

Region 1 writes two 400000 × 128 arrays block by block, 50 blocks of 8000 rows. A block of the first is the matching
8000 noise rows times the embedding weights plus their bias row; a block of the second is that block of the first
times the projection weights plus the projection bias row. So the first array is the noise array times the
embedding weights plus the bias, `nme (e, k) = ∑ l, noise (e, l) · We (l, k) + be (0, k)`, and the second is the first
times the projection weights plus the projection bias, `ep (e, j) = ∑ k, nme (e, k) · Wp (k, j) + bp (0, j)`. -/

theorem hz1 : (![0, 0] : Fin 2 → Nat) = fun _ => 0 := funext fun a => by fin_cases a <;> rfl

/-- The first array as one function of the three arrays it depends on. -/
def G1_5 (noise : S400000x64.Idx → Elt Ideal .f32) (we : S64x128.Idx → Elt Ideal .f32) (be : S1x128.Idx → Elt Ideal .f32) :
    S400000x128.Idx → Elt Ideal .f32 := fun i =>
  (∑ l : Fin 64, noise (ix2 (⟨(i 0).val, idx2_lt0 i⟩ : Fin 400000) l) * we (ix2 l (⟨(i 1).val, idx2_lt1 i⟩ : Fin 128)))
    + be (ix2 (0 : Fin 1) (⟨(i 1).val, idx2_lt1 i⟩ : Fin 128))

/-- The second array: the first one, times the projection weights, plus the projection bias. -/
def G1_6 (noise : S400000x64.Idx → Elt Ideal .f32) (we : S64x128.Idx → Elt Ideal .f32) (be : S1x128.Idx → Elt Ideal .f32)
    (wp : S128x128.Idx → Elt Ideal .f32) (bp : S1x128.Idx → Elt Ideal .f32) : S400000x128.Idx → Elt Ideal .f32 := fun i =>
  (∑ k : Fin 128, G1_5 noise we be (ix2 (⟨(i 0).val, idx2_lt0 i⟩ : Fin 400000) k) * wp (ix2 k (⟨(i 1).val, idx2_lt1 i⟩ : Fin 128)))
    + bp (ix2 (0 : Fin 1) (⟨(i 1).val, idx2_lt1 i⟩ : Fin 128))

/-- An entry of a block of the first array is the array's entry, once each loaded block is known to be the part of
    its array the entry needs. -/
theorem blk1_5 (noise : S400000x64.Idx → Elt Ideal .f32) (we : S64x128.Idx → Elt Ideal .f32) (be : S1x128.Idx → Elt Ideal .f32)
    (x0 : Vec Ideal S8000x64 .f32) (x1 : Vec Ideal S64x128 .f32) (x2 : Vec Ideal S1x128 .f32)
    (p : Fin 8000) (q : Fin 128) (i : S400000x128.Idx)
    (h0 : ∀ l : Fin 64, x0 (ix2 p l) = noise (ix2 (⟨(i 0).val, idx2_lt0 i⟩ : Fin 400000) l))
    (h1 : ∀ l : Fin 64, x1 (ix2 l q) = we (ix2 l (⟨(i 1).val, idx2_lt1 i⟩ : Fin 128)))
    (h2 : x2 (ix2 (0 : Fin 1) q) = be (ix2 (0 : Fin 1) (⟨(i 1).val, idx2_lt1 i⟩ : Fin 128))) :
    k1_pay1 x0 x1 x2 (ix2 p q) = G1_5 noise we be i := by
  rw [k1_pay1_apply, h2]
  unfold G1_5
  exact congrArg (· + be (ix2 (0 : Fin 1) (⟨(i 1).val, idx2_lt1 i⟩ : Fin 128)))
    (Finset.sum_congr rfl fun l _ => by rw [h0 l, h1 l])

/-- The same for the second array: its block's entry goes through row `p` of the first array's block, which is row
    `i 0` of the first array whatever the column. -/
theorem blk1_6 (noise : S400000x64.Idx → Elt Ideal .f32) (we : S64x128.Idx → Elt Ideal .f32) (be : S1x128.Idx → Elt Ideal .f32)
    (wp : S128x128.Idx → Elt Ideal .f32) (bp : S1x128.Idx → Elt Ideal .f32)
    (x0 : Vec Ideal S8000x64 .f32) (x1 : Vec Ideal S64x128 .f32) (x2 : Vec Ideal S1x128 .f32)
    (x3 : Vec Ideal S128x128 .f32) (x4 : Vec Ideal S1x128 .f32)
    (p : Fin 8000) (q : Fin 128) (i : S400000x128.Idx)
    (h0 : ∀ l : Fin 64, x0 (ix2 p l) = noise (ix2 (⟨(i 0).val, idx2_lt0 i⟩ : Fin 400000) l))
    (h1 : ∀ (l : Fin 64) (k : Fin 128), x1 (ix2 l k) = we (ix2 l k))
    (h2 : ∀ k : Fin 128, x2 (ix2 (0 : Fin 1) k) = be (ix2 (0 : Fin 1) k))
    (h3 : ∀ k : Fin 128, x3 (ix2 k q) = wp (ix2 k (⟨(i 1).val, idx2_lt1 i⟩ : Fin 128)))
    (h4 : x4 (ix2 (0 : Fin 1) q) = bp (ix2 (0 : Fin 1) (⟨(i 1).val, idx2_lt1 i⟩ : Fin 128))) :
    k1_pay2 x0 x1 x2 x3 x4 (ix2 p q) = G1_6 noise we be wp bp i := by
  rw [k1_pay2_apply', h4]
  unfold G1_6
  refine congrArg (· + bp (ix2 (0 : Fin 1) (⟨(i 1).val, idx2_lt1 i⟩ : Fin 128))) (Finset.sum_congr rfl fun k _ => ?_)
  rw [h3 k]
  exact congrArg (· * wp (ix2 k (⟨(i 1).val, idx2_lt1 i⟩ : Fin 128)))
    (blk1_5 noise we be x0 x1 x2 p k (ix2 (⟨(i 0).val, idx2_lt0 i⟩ : Fin 400000) k) h0 (fun l => h1 l k) (h2 k))

/-- The index maps, decided over the 50 points: the noise block and both output blocks sit at block row `t`, the
    two weight matrices and the two bias rows at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## Each input window's block, read off its array -/

/-- Row `p` of the noise block at point `t` is row `8000 t + p` of the noise array. -/
theorem rd1_0 (c : Dev nD) (t : Fin cfg1.N) (p : Fin 8000) (l : Fin 64) (n : Fin 400000) (hn : n.val = t.val * 8000 + p.val) :
    (iblk1 V c 0 t : Vec Ideal S8000x64 .f32) (ix2 p l) = V c (Pipeline.arrRef spec1 0) (ix2 n l) := by
  obtain ⟨e00, e01, -⟩ := idx1 t
  show V c (Pipeline.arrRef spec1 0) (((cfg1.win 0).blk t).view.emb (ix2 p l)) = _
  refine congrArg (V c (Pipeline.arrRef spec1 0)) (funext fun a => Fin.ext ?_)
  match a with
  | ⟨0, _⟩ => show win1_0.index t (0 : Fin 2) * 8000 + 1 * p.val = n.val; rw [e00, hn]; omega
  | ⟨1, _⟩ => show win1_0.index t (1 : Fin 2) * 64 + 1 * l.val = l.val; rw [e01]; omega

/-- The embedding weights' block is the whole matrix at every point. -/
theorem rd1_1 (c : Dev nD) (t : Fin cfg1.N) (l : Fin 64) (k : Fin 128) :
    (iblk1 V c 1 t : Vec Ideal S64x128 .f32) (ix2 l k) = V c (Pipeline.arrRef spec1 1) (ix2 l k) := by
  obtain ⟨-, -, e10, e11, -⟩ := idx1 t
  show V c (Pipeline.arrRef spec1 1) (((cfg1.win 1).blk t).view.emb (ix2 l k)) = _
  refine congrArg (V c (Pipeline.arrRef spec1 1)) (funext fun a => Fin.ext ?_)
  match a with
  | ⟨0, _⟩ => show win1_1.index t (0 : Fin 2) * 64 + 1 * l.val = l.val; rw [e10]; omega
  | ⟨1, _⟩ => show win1_1.index t (1 : Fin 2) * 128 + 1 * k.val = k.val; rw [e11]; omega

/-- The embedding bias row's block is the whole row at every point. -/
theorem rd1_2 (c : Dev nD) (t : Fin cfg1.N) (k : Fin 128) :
    (iblk1 V c 2 t : Vec Ideal S1x128 .f32) (ix2 (0 : Fin 1) k) = V c (Pipeline.arrRef spec1 2) (ix2 (0 : Fin 1) k) := by
  obtain ⟨-, -, -, -, e20, e21, -⟩ := idx1 t
  show V c (Pipeline.arrRef spec1 2) (((cfg1.win 2).blk t).view.emb (ix2 (0 : Fin 1) k)) = _
  refine congrArg (V c (Pipeline.arrRef spec1 2)) (funext fun a => Fin.ext ?_)
  match a with
  | ⟨0, _⟩ => show win1_2.index t (0 : Fin 2) * 1 + 1 * 0 = 0; rw [e20]
  | ⟨1, _⟩ => show win1_2.index t (1 : Fin 2) * 128 + 1 * k.val = k.val; rw [e21]; omega

/-- The projection weights' block is the whole matrix at every point. -/
theorem rd1_3 (c : Dev nD) (t : Fin cfg1.N) (k : Fin 128) (q : Fin 128) :
    (iblk1 V c 3 t : Vec Ideal S128x128 .f32) (ix2 k q) = V c (Pipeline.arrRef spec1 3) (ix2 k q) := by
  obtain ⟨-, -, -, -, -, -, e30, e31, -⟩ := idx1 t
  show V c (Pipeline.arrRef spec1 3) (((cfg1.win 3).blk t).view.emb (ix2 k q)) = _
  refine congrArg (V c (Pipeline.arrRef spec1 3)) (funext fun a => Fin.ext ?_)
  match a with
  | ⟨0, _⟩ => show win1_3.index t (0 : Fin 2) * 128 + 1 * k.val = k.val; rw [e30]; omega
  | ⟨1, _⟩ => show win1_3.index t (1 : Fin 2) * 128 + 1 * q.val = q.val; rw [e31]; omega

/-- The projection bias row's block is the whole row at every point. -/
theorem rd1_4 (c : Dev nD) (t : Fin cfg1.N) (q : Fin 128) :
    (iblk1 V c 4 t : Vec Ideal S1x128 .f32) (ix2 (0 : Fin 1) q) = V c (Pipeline.arrRef spec1 4) (ix2 (0 : Fin 1) q) := by
  obtain ⟨-, -, -, -, -, -, -, -, e40, e41, -⟩ := idx1 t
  show V c (Pipeline.arrRef spec1 4) (((cfg1.win 4).blk t).view.emb (ix2 (0 : Fin 1) q)) = _
  refine congrArg (V c (Pipeline.arrRef spec1 4)) (funext fun a => Fin.ext ?_)
  match a with
  | ⟨0, _⟩ => show win1_4.index t (0 : Fin 2) * 1 + 1 * 0 = 0; rw [e40]
  | ⟨1, _⟩ => show win1_4.index t (1 : Fin 2) * 128 + 1 * q.val = q.val; rw [e41]; omega

/-! ## What each point writes back -/

/-- What point `t` writes back through window 5 is block `t` of the first array. -/
theorem flushed1_5 (c : Dev nD) (t : Fin cfg1.N) :
    (dat1 V c).flushed 5 t = ((cfg1.win 5).blk t).view.read (Elt Ideal)
      (G1_5 (V c (Pipeline.arrRef spec1 0)) (V c (Pipeline.arrRef spec1 1)) (V c (Pipeline.arrRef spec1 2))) := by
  show (cfg1.win 5).cut (grid1.coords t) ((dat1 V c).after 5 t) = _
  rw [after1_5]
  unfold out1_5
  rw [View.canon_unit_zero hz1]
  simp only [View.ld_unit_zero (S := S8000x64) hz1, View.ld_unit_zero (S := S64x128) hz1, View.ld_unit_zero (S := S1x128) hz1]
  obtain ⟨-, -, -, -, -, -, -, -, -, -, e50, e51, -⟩ := idx1 t
  funext j
  obtain ⟨p, q, rfl⟩ : ∃ (p : Fin 8000) (q : Fin 128), j = ix2 p q := ⟨j 0, j 1, eq_ix2 j⟩
  show k1_pay1 (iblk1 V c 0 t) (iblk1 V c 1 t) (iblk1 V c 2 t) (ix2 p q)
    = G1_5 (V c (Pipeline.arrRef spec1 0)) (V c (Pipeline.arrRef spec1 1)) (V c (Pipeline.arrRef spec1 2))
        (((cfg1.win 5).blk t).view.emb (ix2 p q))
  have hq : ((((cfg1.win 5).blk t).view.emb (ix2 p q)) 1).val = q.val := by
    show win1_5.index t (1 : Fin 2) * 128 + 1 * q.val = q.val; rw [e51]; omega
  refine blk1_5 (V c (Pipeline.arrRef spec1 0)) (V c (Pipeline.arrRef spec1 1)) (V c (Pipeline.arrRef spec1 2))
    (iblk1 V c 0 t) (iblk1 V c 1 t) (iblk1 V c 2 t) p q (((cfg1.win 5).blk t).view.emb (ix2 p q)) ?_ ?_ ?_
  · intro l
    exact rd1_0 V c t p l _ (by show win1_5.index t (0 : Fin 2) * 8000 + 1 * p.val = t.val * 8000 + p.val; rw [e50]; omega)
  · intro l
    exact (rd1_1 V c t l q).trans (congrArg (fun x => V c (Pipeline.arrRef spec1 1) (ix2 l x)) (Fin.ext hq.symm))
  · exact (rd1_2 V c t q).trans (congrArg (fun x => V c (Pipeline.arrRef spec1 2) (ix2 (0 : Fin 1) x)) (Fin.ext hq.symm))

/-- What point `t` writes back through window 6 is block `t` of the second array. -/
theorem flushed1_6 (c : Dev nD) (t : Fin cfg1.N) :
    (dat1 V c).flushed 6 t = ((cfg1.win 6).blk t).view.read (Elt Ideal)
      (G1_6 (V c (Pipeline.arrRef spec1 0)) (V c (Pipeline.arrRef spec1 1)) (V c (Pipeline.arrRef spec1 2))
        (V c (Pipeline.arrRef spec1 3)) (V c (Pipeline.arrRef spec1 4))) := by
  show (cfg1.win 6).cut (grid1.coords t) ((dat1 V c).after 6 t) = _
  rw [after1_6]
  unfold out1_6
  rw [View.canon_unit_zero hz1]
  simp only [View.ld_unit_zero (S := S8000x64) hz1, View.ld_unit_zero (S := S64x128) hz1, View.ld_unit_zero (S := S1x128) hz1,
    View.ld_unit_zero (S := S128x128) hz1]
  obtain ⟨-, -, -, -, -, -, -, -, -, -, -, -, e60, e61⟩ := idx1 t
  funext j
  obtain ⟨p, q, rfl⟩ : ∃ (p : Fin 8000) (q : Fin 128), j = ix2 p q := ⟨j 0, j 1, eq_ix2 j⟩
  show k1_pay2 (iblk1 V c 0 t) (iblk1 V c 1 t) (iblk1 V c 2 t) (iblk1 V c 3 t) (iblk1 V c 4 t) (ix2 p q)
    = G1_6 (V c (Pipeline.arrRef spec1 0)) (V c (Pipeline.arrRef spec1 1)) (V c (Pipeline.arrRef spec1 2))
        (V c (Pipeline.arrRef spec1 3)) (V c (Pipeline.arrRef spec1 4)) (((cfg1.win 6).blk t).view.emb (ix2 p q))
  have hq : ((((cfg1.win 6).blk t).view.emb (ix2 p q)) 1).val = q.val := by
    show win1_6.index t (1 : Fin 2) * 128 + 1 * q.val = q.val; rw [e61]; omega
  refine blk1_6 (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) p q
    (((cfg1.win 6).blk t).view.emb (ix2 p q)) ?_ ?_ ?_ ?_ ?_
  · intro l
    exact rd1_0 V c t p l _ (by show win1_6.index t (0 : Fin 2) * 8000 + 1 * p.val = t.val * 8000 + p.val; rw [e60]; omega)
  · intro l k
    exact rd1_1 V c t l k
  · intro k
    exact rd1_2 V c t k
  · intro k
    exact (rd1_3 V c t k q).trans (congrArg (fun x => V c (Pipeline.arrRef spec1 3) (ix2 k x)) (Fin.ext hq.symm))
  · exact (rd1_4 V c t q).trans (congrArg (fun x => V c (Pipeline.arrRef spec1 4) (ix2 (0 : Fin 1) x)) (Fin.ext hq.symm))

/-! ## From the blocks to the arrays -/

/-- An index of the array is in point `t`'s block of window 5 iff each coordinate is in the block's range on its axis. -/
theorem mem_blk1_5 (t : Fin cfg1.N) (i : S400000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v14_0).slice (win1_5.rect t)).set ↔ _
  rw [View.set_slice_whole, Rect.mem_set_unit]
  exact Iff.rfl

/-- Every row of the array is in window 5's block of the point `row / 8000`. -/
theorem covered1_5 (i : S400000x128.Idx) :
    ∃ t : Fin cfg1.N, (cfg1.win 5).flush t = true ∧ i ∈ ((cfg1.win 5).blk t).view.set := by
  have h0 : (i 0).val < 400000 := idx2_lt0 i
  have h1 : (i 1).val < 128 := idx2_lt1 i
  have hN : cfg1.N = 50 := N_1
  have ht : (i 0).val / 8000 < cfg1.N := by rw [hN]; omega
  obtain ⟨-, -, -, -, -, -, -, -, -, -, e50, e51, e60, e61⟩ := idx1 ⟨(i 0).val / 8000, ht⟩
  refine ⟨⟨(i 0).val / 8000, ht⟩, flush1_5 _, ?_⟩
  rw [mem_blk1_5]
  intro a
  match a with
  | ⟨0, _⟩ =>
    show win1_5.index ⟨(i 0).val / 8000, ht⟩ (0 : Fin 2) * 8000 ≤ (i 0).val
      ∧ (i 0).val < win1_5.index ⟨(i 0).val / 8000, ht⟩ (0 : Fin 2) * 8000 + 8000
    rw [e50]; show (i 0).val / 8000 * 8000 ≤ (i 0).val ∧ (i 0).val < (i 0).val / 8000 * 8000 + 8000; omega
  | ⟨1, _⟩ =>
    show win1_5.index ⟨(i 0).val / 8000, ht⟩ (1 : Fin 2) * 128 ≤ (i 1).val
      ∧ (i 1).val < win1_5.index ⟨(i 0).val / 8000, ht⟩ (1 : Fin 2) * 128 + 128
    rw [e51]; omega

/-- After region 1 window 5's array is `G1_5` of the arrays the region found. -/
theorem final1_5 (c : Dev nD) :
    (dat1 V c).arrAt 5 cfg1.N
      = G1_5 (V c (Pipeline.arrRef spec1 0)) (V c (Pipeline.arrRef spec1 1)) (V c (Pipeline.arrRef spec1 2)) :=
  (dat1 V c).arrAt_eq_of_cover 5 _ (fun t _ => flushed1_5 V c t) covered1_5

/-- An index of the array is in point `t`'s block of window 6 iff each coordinate is in the block's range on its axis. -/
theorem mem_blk1_6 (t : Fin cfg1.N) (i : S400000x128.Idx) :
    i ∈ ((cfg1.win 6).blk t).view.set ↔ ∀ a : Fin 2, win1_6.index t a * S8000x128.size a ≤ (i a).val
      ∧ (i a).val < win1_6.index t a * S8000x128.size a + S8000x128.size a := by
  show i ∈ ((View.whole main_v14_1).slice (win1_6.rect t)).set ↔ _
  rw [View.set_slice_whole, Rect.mem_set_unit]
  exact Iff.rfl

/-- Every row of the array is in window 6's block of the point `row / 8000`. -/
theorem covered1_6 (i : S400000x128.Idx) :
    ∃ t : Fin cfg1.N, (cfg1.win 6).flush t = true ∧ i ∈ ((cfg1.win 6).blk t).view.set := by
  have h0 : (i 0).val < 400000 := idx2_lt0 i
  have h1 : (i 1).val < 128 := idx2_lt1 i
  have hN : cfg1.N = 50 := N_1
  have ht : (i 0).val / 8000 < cfg1.N := by rw [hN]; omega
  obtain ⟨-, -, -, -, -, -, -, -, -, -, e50, e51, e60, e61⟩ := idx1 ⟨(i 0).val / 8000, ht⟩
  refine ⟨⟨(i 0).val / 8000, ht⟩, flush1_6 _, ?_⟩
  rw [mem_blk1_6]
  intro a
  match a with
  | ⟨0, _⟩ =>
    show win1_6.index ⟨(i 0).val / 8000, ht⟩ (0 : Fin 2) * 8000 ≤ (i 0).val
      ∧ (i 0).val < win1_6.index ⟨(i 0).val / 8000, ht⟩ (0 : Fin 2) * 8000 + 8000
    rw [e60]; show (i 0).val / 8000 * 8000 ≤ (i 0).val ∧ (i 0).val < (i 0).val / 8000 * 8000 + 8000; omega
  | ⟨1, _⟩ =>
    show win1_6.index ⟨(i 0).val / 8000, ht⟩ (1 : Fin 2) * 128 ≤ (i 1).val
      ∧ (i 1).val < win1_6.index ⟨(i 0).val / 8000, ht⟩ (1 : Fin 2) * 128 + 128
    rw [e61]; omega

/-- After region 1 window 6's array is `G1_6` of the arrays the region found. -/
theorem final1_6 (c : Dev nD) :
    (dat1 V c).arrAt 6 cfg1.N
      = G1_6 (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 6 _ (fun t _ => flushed1_6 V c t) covered1_6

end Cert.KernelIdeal.Val

end
-- ==== Proof.Val.Pay2.lean ====
/-
  Region 2 (the edge-wise elementwise kernel), read at one element at the ideal values. The body has two stores over
  four loaded blocks `ep`, `hq`, `hr`, `hv` of one shape. The first stores the edge pre-activation
  `(ep + hq) + hr`; the second stores the gated value `hv · σ((ep + hq) + hr)`, with `σ` the logistic function of the
  extended reals, kept as one function (never opened into exponentials). Both are pointwise: the value at an index
  depends on the four blocks at that same index only, so the lemmas hold at every index of the block.
-/
import proofs.«174758_j6468220748546_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-- The first store of region 2 at an index: the sum of the three loaded blocks there, grouped `(ep + hq) + hr`. -/
theorem k2_pay1_apply (ep hq hr : FVec Ideal S4000x128 .f32) (j : S4000x128.Idx) :
    k2_pay1 ep hq hr j = ep j + hq j + hr j := by
  unfold k2_pay1
  simp only [shapeCast_self]
  rfl

/-- The second store of region 2 at an index: `hv` there times the logistic function of the first store's value. -/
theorem k2_pay2_apply (ep hq hr hv : FVec Ideal S4000x128 .f32) (j : S4000x128.Idx) :
    k2_pay2 ep hq hr hv j = hv j * Ideal.logistic (ep j + hq j + hr j) := by
  unfold k2_pay2
  simp only [shapeCast_self]
  show hv j * Ideal.logistic (k2_pay1 (F := Ideal) ep hq hr j) = _
  rw [k2_pay1_apply]

end Cert.KernelIdeal.Val

end
-- ==== Proof.Val.Arr2.lean ====
/-
  Region 2 (the edge-wise elementwise kernel): what its two output arrays hold after the region, as whole-array
  functions of the four input arrays as the region finds them. The grid has 100 points; at point `t` every window's
  block is rows `4000·t … 4000·t + 3999` of its 400000 × 128 array, all 128 lanes. The body is pointwise, so what point
  `t` writes back is block `t` of one whole-array function, and the 100 blocks tile the array: row `r` lies in the
  block of point `r / 4000`.
-/
import proofs.«174758_j6468220748546_1_alg».proof.Proof.KI.D2
import proofs.«174758_j6468220748546_1_alg».proof.Proof.Val.Pay2
import Idealize.ShloMosaic.Lib.Pipeline.Value

noncomputable section

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The edge pre-activation array: the sum of the projected edge features and the two gathered node projections,
    index by index, grouped `(ep + hq) + hr`. -/
abbrev G2_4 (ep hq hr : FVec Ideal S400000x128 .f32) : FVec Ideal S400000x128 .f32 :=
  fun i => ep i + hq i + hr i

/-- The gated value array: the gathered value projection times the logistic function of the pre-activation, index by
    index. -/
abbrev G2_5 (ep hq hr hv : FVec Ideal S400000x128 .f32) : FVec Ideal S400000x128 .f32 :=
  fun i => hv i * Ideal.logistic (ep i + hq i + hr i)

private theorem zero2 : (![0, 0] : Fin 2 → Nat) = fun _ => 0 := funext fun a => by fin_cases a <;> rfl

/-- One stored element of the first store is the pre-activation at an array index `i`, when each loaded block at
    `j` is its array at `i`. -/
theorem block2_4_eq (x0 x1 x2 : FVec Ideal S4000x128 .f32) (ep hq hr : FVec Ideal S400000x128 .f32)
    (j : S4000x128.Idx) (i : S400000x128.Idx) (h0 : x0 j = ep i) (h1 : x1 j = hq i) (h2 : x2 j = hr i) :
    k2_pay1 (F := Ideal) x0 x1 x2 j = G2_4 ep hq hr i := by
  rw [k2_pay1_apply, h0, h1, h2]

/-- One stored element of the second store is the gated value at an array index `i`, likewise. -/
theorem block2_5_eq (x0 x1 x2 x3 : FVec Ideal S4000x128 .f32) (ep hq hr hv : FVec Ideal S400000x128 .f32)
    (j : S4000x128.Idx) (i : S400000x128.Idx) (h0 : x0 j = ep i) (h1 : x1 j = hq i) (h2 : x2 j = hr i) (h3 : x3 j = hv i) :
    k2_pay2 (F := Ideal) x0 x1 x2 x3 j = G2_5 ep hq hr hv i := by
  rw [k2_pay2_apply, h0, h1, h2, h3]

/-- The printed index maps over the grid: at point `t` every window of region 2 is at block row `t`, block
    column 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The input blocks, read where an output block lies -/

/-- Window 0's block at point `t` reads its array where window 4's block does. -/
theorem iblk2_0_at4 (c : Dev nD) (t : Fin cfg2.N) (j : S4000x128.Idx) :
    iblk2 V c 0 t j = V c (Pipeline.arrRef spec2 0) (((cfg2.win 4).blk t).view.emb j) := by
  obtain ⟨e00, e01, e10, e11, e20, e21, e30, e31, e40, e41, e50, e51⟩ := idx2 t
  show V c (Pipeline.arrRef spec2 0) (((cfg2.win 0).blk t).view.emb j) = V c (Pipeline.arrRef spec2 0) (((cfg2.win 4).blk t).view.emb j)
  refine congrArg (V c (Pipeline.arrRef spec2 0)) (funext fun a => Fin.ext ?_)
  match a with
  | ⟨0, _⟩ => show win2_0.index t (0 : Fin 2) * 4000 + 1 * (j 0).val = win2_4.index t (0 : Fin 2) * 4000 + 1 * (j 0).val; omega
  | ⟨1, _⟩ => show win2_0.index t (1 : Fin 2) * 128 + 1 * (j 1).val = win2_4.index t (1 : Fin 2) * 128 + 1 * (j 1).val; omega

/-- Window 1's block at point `t` reads its array where window 4's block does. -/
theorem iblk2_1_at4 (c : Dev nD) (t : Fin cfg2.N) (j : S4000x128.Idx) :
    iblk2 V c 1 t j = V c (Pipeline.arrRef spec2 1) (((cfg2.win 4).blk t).view.emb j) := by
  obtain ⟨e00, e01, e10, e11, e20, e21, e30, e31, e40, e41, e50, e51⟩ := idx2 t
  show V c (Pipeline.arrRef spec2 1) (((cfg2.win 1).blk t).view.emb j) = V c (Pipeline.arrRef spec2 1) (((cfg2.win 4).blk t).view.emb j)
  refine congrArg (V c (Pipeline.arrRef spec2 1)) (funext fun a => Fin.ext ?_)
  match a with
  | ⟨0, _⟩ => show win2_1.index t (0 : Fin 2) * 4000 + 1 * (j 0).val = win2_4.index t (0 : Fin 2) * 4000 + 1 * (j 0).val; omega
  | ⟨1, _⟩ => show win2_1.index t (1 : Fin 2) * 128 + 1 * (j 1).val = win2_4.index t (1 : Fin 2) * 128 + 1 * (j 1).val; omega

/-- Window 2's block at point `t` reads its array where window 4's block does. -/
theorem iblk2_2_at4 (c : Dev nD) (t : Fin cfg2.N) (j : S4000x128.Idx) :
    iblk2 V c 2 t j = V c (Pipeline.arrRef spec2 2) (((cfg2.win 4).blk t).view.emb j) := by
  obtain ⟨e00, e01, e10, e11, e20, e21, e30, e31, e40, e41, e50, e51⟩ := idx2 t
  show V c (Pipeline.arrRef spec2 2) (((cfg2.win 2).blk t).view.emb j) = V c (Pipeline.arrRef spec2 2) (((cfg2.win 4).blk t).view.emb j)
  refine congrArg (V c (Pipeline.arrRef spec2 2)) (funext fun a => Fin.ext ?_)
  match a with
  | ⟨0, _⟩ => show win2_2.index t (0 : Fin 2) * 4000 + 1 * (j 0).val = win2_4.index t (0 : Fin 2) * 4000 + 1 * (j 0).val; omega
  | ⟨1, _⟩ => show win2_2.index t (1 : Fin 2) * 128 + 1 * (j 1).val = win2_4.index t (1 : Fin 2) * 128 + 1 * (j 1).val; omega

/-- Window 0's block at point `t` reads its array where window 5's block does. -/
theorem iblk2_0_at5 (c : Dev nD) (t : Fin cfg2.N) (j : S4000x128.Idx) :
    iblk2 V c 0 t j = V c (Pipeline.arrRef spec2 0) (((cfg2.win 5).blk t).view.emb j) := by
  obtain ⟨e00, e01, e10, e11, e20, e21, e30, e31, e40, e41, e50, e51⟩ := idx2 t
  show V c (Pipeline.arrRef spec2 0) (((cfg2.win 0).blk t).view.emb j) = V c (Pipeline.arrRef spec2 0) (((cfg2.win 5).blk t).view.emb j)
  refine congrArg (V c (Pipeline.arrRef spec2 0)) (funext fun a => Fin.ext ?_)
  match a with
  | ⟨0, _⟩ => show win2_0.index t (0 : Fin 2) * 4000 + 1 * (j 0).val = win2_5.index t (0 : Fin 2) * 4000 + 1 * (j 0).val; omega
  | ⟨1, _⟩ => show win2_0.index t (1 : Fin 2) * 128 + 1 * (j 1).val = win2_5.index t (1 : Fin 2) * 128 + 1 * (j 1).val; omega

/-- Window 1's block at point `t` reads its array where window 5's block does. -/
theorem iblk2_1_at5 (c : Dev nD) (t : Fin cfg2.N) (j : S4000x128.Idx) :
    iblk2 V c 1 t j = V c (Pipeline.arrRef spec2 1) (((cfg2.win 5).blk t).view.emb j) := by
  obtain ⟨e00, e01, e10, e11, e20, e21, e30, e31, e40, e41, e50, e51⟩ := idx2 t
  show V c (Pipeline.arrRef spec2 1) (((cfg2.win 1).blk t).view.emb j) = V c (Pipeline.arrRef spec2 1) (((cfg2.win 5).blk t).view.emb j)
  refine congrArg (V c (Pipeline.arrRef spec2 1)) (funext fun a => Fin.ext ?_)
  match a with
  | ⟨0, _⟩ => show win2_1.index t (0 : Fin 2) * 4000 + 1 * (j 0).val = win2_5.index t (0 : Fin 2) * 4000 + 1 * (j 0).val; omega
  | ⟨1, _⟩ => show win2_1.index t (1 : Fin 2) * 128 + 1 * (j 1).val = win2_5.index t (1 : Fin 2) * 128 + 1 * (j 1).val; omega

/-- Window 2's block at point `t` reads its array where window 5's block does. -/
theorem iblk2_2_at5 (c : Dev nD) (t : Fin cfg2.N) (j : S4000x128.Idx) :
    iblk2 V c 2 t j = V c (Pipeline.arrRef spec2 2) (((cfg2.win 5).blk t).view.emb j) := by
  obtain ⟨e00, e01, e10, e11, e20, e21, e30, e31, e40, e41, e50, e51⟩ := idx2 t
  show V c (Pipeline.arrRef spec2 2) (((cfg2.win 2).blk t).view.emb j) = V c (Pipeline.arrRef spec2 2) (((cfg2.win 5).blk t).view.emb j)
  refine congrArg (V c (Pipeline.arrRef spec2 2)) (funext fun a => Fin.ext ?_)
  match a with
  | ⟨0, _⟩ => show win2_2.index t (0 : Fin 2) * 4000 + 1 * (j 0).val = win2_5.index t (0 : Fin 2) * 4000 + 1 * (j 0).val; omega
  | ⟨1, _⟩ => show win2_2.index t (1 : Fin 2) * 128 + 1 * (j 1).val = win2_5.index t (1 : Fin 2) * 128 + 1 * (j 1).val; omega

/-- Window 3's block at point `t` reads its array where window 5's block does. -/
theorem iblk2_3_at5 (c : Dev nD) (t : Fin cfg2.N) (j : S4000x128.Idx) :
    iblk2 V c 3 t j = V c (Pipeline.arrRef spec2 3) (((cfg2.win 5).blk t).view.emb j) := by
  obtain ⟨e00, e01, e10, e11, e20, e21, e30, e31, e40, e41, e50, e51⟩ := idx2 t
  show V c (Pipeline.arrRef spec2 3) (((cfg2.win 3).blk t).view.emb j) = V c (Pipeline.arrRef spec2 3) (((cfg2.win 5).blk t).view.emb j)
  refine congrArg (V c (Pipeline.arrRef spec2 3)) (funext fun a => Fin.ext ?_)
  match a with
  | ⟨0, _⟩ => show win2_3.index t (0 : Fin 2) * 4000 + 1 * (j 0).val = win2_5.index t (0 : Fin 2) * 4000 + 1 * (j 0).val; omega
  | ⟨1, _⟩ => show win2_3.index t (1 : Fin 2) * 128 + 1 * (j 1).val = win2_5.index t (1 : Fin 2) * 128 + 1 * (j 1).val; omega

/-! ## Output window 4: the pre-activation -/

/-- What point `t` writes back to window 4's array is block `t` of `G2_4` of the three input arrays. -/
theorem flushed2_4_eq (c : Dev nD) (t : Fin cfg2.N) :
    (dat2 V c).flushed 4 t
      = ((cfg2.win 4).blk t).view.read (Elt Ideal) (G2_4 (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero zero2]
  simp only [View.ld_unit_zero (S := S4000x128) zero2]
  funext j
  exact block2_4_eq (iblk2 V c 0 t) (iblk2 V c 1 t) (iblk2 V c 2 t) (V c (Pipeline.arrRef spec2 0)) (V c (Pipeline.arrRef spec2 1)) (V c (Pipeline.arrRef spec2 2)) j
    (((cfg2.win 4).blk t).view.emb j) (iblk2_0_at4 V c t j) (iblk2_1_at4 V c t j) (iblk2_2_at4 V c t j)

/-- An index of the array is in point `t`'s block of window 4 iff each coordinate is in the block's range. -/
theorem mem_blk2_4 (t : Fin cfg2.N) (i : S400000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v36_0).slice (win2_4.rect t)).set ↔ _
  rw [View.set_slice_whole, Rect.mem_set_unit]
  exact Iff.rfl

/-- Every index of window 4's array is in the block of the point `row / 4000`. -/
theorem covered2_4 (i : S400000x128.Idx) :
    ∃ t : Fin cfg2.N, (cfg2.win 4).flush t = true ∧ i ∈ ((cfg2.win 4).blk t).view.set := by
  have hi0 : (i 0).val < 400000 := (i 0).isLt
  have hi1 : (i 1).val < 128 := (i 1).isLt
  have h100 : cfg2.N = 100 := N_2
  obtain ⟨e00, e01, e10, e11, e20, e21, e30, e31, e40, e41, e50, e51⟩ := idx2 ⟨(i 0).val / 4000, by omega⟩
  refine ⟨⟨(i 0).val / 4000, by omega⟩, flush2_4 _, ?_⟩
  rw [mem_blk2_4]
  intro a
  match a with
  | ⟨0, _⟩ =>
    show win2_4.index ⟨(i 0).val / 4000, _⟩ (0 : Fin 2) * 4000 ≤ (i 0).val ∧ (i 0).val < win2_4.index ⟨(i 0).val / 4000, _⟩ (0 : Fin 2) * 4000 + 4000
    rw [e40]; show (i 0).val / 4000 * 4000 ≤ (i 0).val ∧ (i 0).val < (i 0).val / 4000 * 4000 + 4000; omega
  | ⟨1, _⟩ =>
    show win2_4.index ⟨(i 0).val / 4000, _⟩ (1 : Fin 2) * 128 ≤ (i 1).val ∧ (i 1).val < win2_4.index ⟨(i 0).val / 4000, _⟩ (1 : Fin 2) * 128 + 128
    rw [e41]; omega

/-- Window 4's array after the region: the pre-activation of the three input arrays as the region finds them. -/
theorem final2_4 (c : Dev nD) :
    (dat2 V c).arrAt 4 cfg2.N = G2_4 (V c (Pipeline.arrRef spec2 0)) (V c (Pipeline.arrRef spec2 1)) (V c (Pipeline.arrRef spec2 2)) :=
  (dat2 V c).arrAt_eq_of_cover 4 _ (fun t _ => flushed2_4_eq V c t) covered2_4

/-! ## Output window 5: the gated value -/

/-- What point `t` writes back to window 5's array is block `t` of `G2_5` of the four input arrays. -/
theorem flushed2_5_eq (c : Dev nD) (t : Fin cfg2.N) :
    (dat2 V c).flushed 5 t
      = ((cfg2.win 5).blk t).view.read (Elt Ideal) (G2_5 (V c (Pipeline.arrRef spec2 0)) (V c (Pipeline.arrRef spec2 1)) (V c (Pipeline.arrRef spec2 2)) (V c (Pipeline.arrRef spec2 3))) := by
  show (cfg2.win 5).cut (grid2.coords t) ((dat2 V c).after 5 t) = _
  rw [after2_5]
  unfold out2_5
  rw [View.canon_unit_zero zero2]
  simp only [View.ld_unit_zero (S := S4000x128) zero2]
  funext j
  exact block2_5_eq (iblk2 V c 0 t) (iblk2 V c 1 t) (iblk2 V c 2 t) (iblk2 V c 3 t) (V c (Pipeline.arrRef spec2 0)) (V c (Pipeline.arrRef spec2 1)) (V c (Pipeline.arrRef spec2 2)) (V c (Pipeline.arrRef spec2 3)) j
    (((cfg2.win 5).blk t).view.emb j) (iblk2_0_at5 V c t j) (iblk2_1_at5 V c t j) (iblk2_2_at5 V c t j) (iblk2_3_at5 V c t j)

/-- An index of the array is in point `t`'s block of window 5 iff each coordinate is in the block's range. -/
theorem mem_blk2_5 (t : Fin cfg2.N) (i : S400000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v36_1).slice (win2_5.rect t)).set ↔ _
  rw [View.set_slice_whole, Rect.mem_set_unit]
  exact Iff.rfl

/-- Every index of window 5's array is in the block of the point `row / 4000`. -/
theorem covered2_5 (i : S400000x128.Idx) :
    ∃ t : Fin cfg2.N, (cfg2.win 5).flush t = true ∧ i ∈ ((cfg2.win 5).blk t).view.set := by
  have hi0 : (i 0).val < 400000 := (i 0).isLt
  have hi1 : (i 1).val < 128 := (i 1).isLt
  have h100 : cfg2.N = 100 := N_2
  obtain ⟨e00, e01, e10, e11, e20, e21, e30, e31, e40, e41, e50, e51⟩ := idx2 ⟨(i 0).val / 4000, by omega⟩
  refine ⟨⟨(i 0).val / 4000, by omega⟩, flush2_5 _, ?_⟩
  rw [mem_blk2_5]
  intro a
  match a with
  | ⟨0, _⟩ =>
    show win2_5.index ⟨(i 0).val / 4000, _⟩ (0 : Fin 2) * 4000 ≤ (i 0).val ∧ (i 0).val < win2_5.index ⟨(i 0).val / 4000, _⟩ (0 : Fin 2) * 4000 + 4000
    rw [e50]; show (i 0).val / 4000 * 4000 ≤ (i 0).val ∧ (i 0).val < (i 0).val / 4000 * 4000 + 4000; omega
  | ⟨1, _⟩ =>
    show win2_5.index ⟨(i 0).val / 4000, _⟩ (1 : Fin 2) * 128 ≤ (i 1).val ∧ (i 1).val < win2_5.index ⟨(i 0).val / 4000, _⟩ (1 : Fin 2) * 128 + 128
    rw [e51]; omega

/-- Window 5's array after the region: the gated value of the four input arrays as the region finds them. -/
theorem final2_5 (c : Dev nD) :
    (dat2 V c).arrAt 5 cfg2.N = G2_5 (V c (Pipeline.arrRef spec2 0)) (V c (Pipeline.arrRef spec2 1)) (V c (Pipeline.arrRef spec2 2)) (V c (Pipeline.arrRef spec2 3)) :=
  (dat2 V c).arrAt_eq_of_cover 5 _ (fun t _ => flushed2_5_eq V c t) covered2_5

end Cert.KernelIdeal.Val

end
-- ==== Proof.Val.Pay3.lean ====
/-
  Region 3 (the output layer), read at one element at the ideal values. For a row `e` of 128 lanes the body computes
  the mean `mu = (∑ e) / 128`, the centred row `d = e − mu`, the variance `(∑ d·d) / 128`, the normalised row
  `ln = d · rsqrt(var + ε) · w + b` (`w`, `b` the layer norm's scale and shift, one row of 128 each), the activation
  `s = ln · σ(ln)` (`σ` the logistic function, kept whole), and stores `(n + ∑ₖ s k · Wo k j) + bo j`: the residual
  entry `n`, the product of the activated row with column `j` of the 128 × 128 matrix `Wo`, and the bias. A change of
  float format is the identity on extended reals and the matrix product accumulates into zero, so nothing else is left.
  The two literals (128 as `0x43000000`, ε as `0x3727C5AC`) stay words: they are never evaluated.

  The row functions `mu3`, `var3`, `ln3`, `s3`, `res3` are stated over one row `Fin 128 → EReal`, so that the same
  functions describe a block of 5000 rows and the whole array of 400000 rows.
-/
import proofs.«174758_j6468220748546_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The row functions -/

/-- The mean of a row of 128 lanes: the lane sum divided by the word for 128. -/
def mu3 (e : Fin 128 → EReal) : EReal := Ideal.div (∑ k : Fin 128, e k) (Ideal.ofBits .f32 0x43000000#32)

/-- The variance of a row: the mean of the squared deviations from the row's mean. -/
def var3 (e : Fin 128 → EReal) : EReal := mu3 fun k => (e k - mu3 e) * (e k - mu3 e)

/-- The layer norm of a row at lane `k`, with scale row `w` and shift row `b`. -/
def ln3 (e w b : Fin 128 → EReal) (k : Fin 128) : EReal :=
  (e k - mu3 e) * Ideal.rsqrt (var3 e + Ideal.ofBits .f32 0x3727C5AC#32) * w k + b k

/-- The activation of the normalised row at lane `k`: `ln · σ(ln)`. -/
def s3 (e w b : Fin 128 → EReal) (k : Fin 128) : EReal := ln3 e w b k * Ideal.logistic (ln3 e w b k)

/-- One stored element: the residual entry, plus the activated row against one column of the output matrix, plus the
    bias entry. -/
def res3 (e : Fin 128 → EReal) (n : EReal) (w b wo : Fin 128 → EReal) (bo : EReal) : EReal :=
  (n + ∑ k : Fin 128, s3 e w b k * wo k) + bo

/-! ## Layout operations of the body, read at an index -/

variable {α : Type}

/-- A `[a]` array cast to a column `[a, 1]` reads, at `(i, u)`, the operand at `i`. -/
theorem shapeCast_col3_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_col3_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[5000, 128]` vector at row `r`: the sum over that row's 128 lanes. -/
theorem rowSum3_apply (src : FVec Ideal S5000x128 .f32) (h : S5000x128.Reduces [1] S5000) (hφ : FKind.Formats .f32)
    (hacc : (0x00000000#32 : BitVec 32) = 0x00000000#32) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  show ∑ k : Fin 128, src (h.lift (ix1 r) k) = _
  refine Finset.sum_congr rfl fun k _ => congrArg src (funext fun ax => Fin.ext ?_)
  match ax with
  | ⟨0, _⟩ => rfl
  | ⟨1, _⟩ => rfl

/-! ## The matrix product of the body, read at an index -/

theorem lhs3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into the zero accumulator at `(p, q)`: row `p` of the left operand against column `q`
    of the right one. -/
theorem matmul3_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs3_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl _ _).trans hk
    | ⟨1, _⟩ => exact rhs3_1 _ _)
  rw [el, er]

/-! ## The body's stages, as vectors over a block -/

/-- The column of row means of a block: lane sum, cast to a column, divided by the splat of the word for 128. -/
def colMean3 (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits (F := Ideal) .f32 0x43000000#32))

/-- The block with each row's mean subtracted. -/
def centered3 (x : FVec Ideal S5000x128 .f32) : FVec Ideal S5000x128 .f32 :=
  subf x (broadcastTo S5000x128 (colMean3 x) broadcasts_S5000x1_S5000x128)

/-- The layer norm of a block with scale row `w` and shift row `b`. -/
def lnV3 (x : FVec Ideal S5000x128 .f32) (w b : FVec Ideal S1x128 .f32) : FVec Ideal S5000x128 .f32 :=
  addf (mulf (mulf (centered3 x)
      (broadcastTo S5000x128 (rsqrt (addf (colMean3 (mulf (centered3 x) (centered3 x)))
        (broadcast S5000x1 (Scalar.ofBits (F := Ideal) .f32 0x3727C5AC#32)))) broadcasts_S5000x1_S5000x128))
      (broadcastTo S5000x128 w broadcasts_S1x128_S5000x128))
    (broadcastTo S5000x128 b broadcasts_S1x128_S5000x128)

/-- The printed payload is these stages composed: the residual block plus the product of the activated layer norm
    with the output matrix. -/
theorem k3_pay2_eq (x0 : FVec Ideal S5000x128 .f32) (x22 x26 : FVec Ideal S1x128 .f32) (x32 : FVec Ideal S128x128 .f32)
    (x36 : FVec Ideal S5000x128 .f32) :
    k3_pay2 x0 x22 x26 x32 x36
      = addf (shapeCast S5000x128 x36 shapeCasts_S5000x128_S5000x128)
          (matmul dot_S5000x128_S128x128_S5000x128_1_0_0_1_n_n none
            (truncf .bf16 (mulf
              (lnV3 (shapeCast S5000x128 x0 shapeCasts_S5000x128_S5000x128) (shapeCast S1x128 x22 shapeCasts_S1x128_S1x128) (shapeCast S1x128 x26 shapeCasts_S1x128_S1x128))
              (logistic (lnV3 (shapeCast S5000x128 x0 shapeCasts_S5000x128_S5000x128) (shapeCast S1x128 x22 shapeCasts_S1x128_S1x128) (shapeCast S1x128 x26 shapeCasts_S1x128_S1x128))))
              bitsLt_bf16_f32)
            (truncf .bf16 x32 bitsLt_bf16_f32) (constant S5000x128 .f32 0x00000000#32)) := rfl

/-! ## The stages at an index -/

theorem colMean3_apply (x : FVec Ideal S5000x128 .f32) (p : Fin 5000) (u : Fin 1) :
    colMean3 x (ix2 p u) = mu3 fun k => x (ix2 p k) := by
  show Ideal.div (shapeCast S5000x1 (multiReduction .add [1] S5000 x 0x00000000#32 reduces_S5000x128_S5000 (.inl rfl) rfl) shapeCasts_S5000_S5000x1 (ix2 p u))
    (Ideal.ofBits .f32 0x43000000#32) = _
  rw [shapeCast_col3_apply, rowSum3_apply]
  rfl

theorem centered3_apply (x : FVec Ideal S5000x128 .f32) (p : Fin 5000) (q : Fin 128) :
    centered3 x (ix2 p q) = x (ix2 p q) - mu3 fun k => x (ix2 p k) := by
  show x (ix2 p q) - broadcastTo S5000x128 (colMean3 x) broadcasts_S5000x1_S5000x128 (ix2 p q) = _
  rw [broadcastTo_col3_apply, colMean3_apply]

theorem lnV3_apply (x : FVec Ideal S5000x128 .f32) (w b : FVec Ideal S1x128 .f32) (p : Fin 5000) (q : Fin 128) :
    lnV3 x w b (ix2 p q) = ln3 (fun k => x (ix2 p k)) (fun k => w (ix2 (0 : Fin 1) k)) (fun k => b (ix2 (0 : Fin 1) k)) q := by
  show centered3 x (ix2 p q)
      * broadcastTo S5000x128 (rsqrt (addf (colMean3 (mulf (centered3 x) (centered3 x)))
          (broadcast S5000x1 (Scalar.ofBits (F := Ideal) .f32 0x3727C5AC#32)))) broadcasts_S5000x1_S5000x128 (ix2 p q)
      * broadcastTo S5000x128 w broadcasts_S1x128_S5000x128 (ix2 p q)
    + broadcastTo S5000x128 b broadcasts_S1x128_S5000x128 (ix2 p q) = _
  rw [broadcastTo_col3_apply, broadcastTo_1b_ab_apply, broadcastTo_1b_ab_apply, centered3_apply]
  show (x (ix2 p q) - mu3 fun k => x (ix2 p k))
      * Ideal.rsqrt (colMean3 (mulf (centered3 x) (centered3 x)) (ix2 p (0 : Fin 1)) + Ideal.ofBits .f32 0x3727C5AC#32)
      * w (ix2 (0 : Fin 1) q) + b (ix2 (0 : Fin 1) q) = _
  rw [colMean3_apply]
  have hv : (fun k : Fin 128 => mulf (centered3 x) (centered3 x) (ix2 p k))
      = fun k : Fin 128 => (x (ix2 p k) - mu3 fun k' => x (ix2 p k')) * (x (ix2 p k) - mu3 fun k' => x (ix2 p k')) :=
    funext fun k => by
      show centered3 x (ix2 p k) * centered3 x (ix2 p k) = _
      rw [centered3_apply]
  rw [hv]
  rfl

/-- The first payload of the body's part at `(p, q)`: the residual entry plus the activated row `p` against column
    `q` of the output matrix. -/
theorem k3_pay2_apply (x0 : FVec Ideal S5000x128 .f32) (x22 x26 : FVec Ideal S1x128 .f32) (x32 : FVec Ideal S128x128 .f32)
    (x36 : FVec Ideal S5000x128 .f32) (p : Fin 5000) (q : Fin 128) :
    k3_pay2 x0 x22 x26 x32 x36 (ix2 p q)
      = x36 (ix2 p q) + ∑ k : Fin 128, s3 (fun k' => x0 (ix2 p k')) (fun k' => x22 (ix2 (0 : Fin 1) k')) (fun k' => x26 (ix2 (0 : Fin 1) k')) k * x32 (ix2 k q) := by
  rw [k3_pay2_eq]
  simp only [shapeCast_self]
  show x36 (ix2 p q) + matmul dot_S5000x128_S128x128_S5000x128_1_0_0_1_n_n none (truncf .bf16 (mulf (lnV3 x0 x22 x26) (logistic (lnV3 x0 x22 x26))) bitsLt_bf16_f32)
      (truncf .bf16 x32 bitsLt_bf16_f32) (constant S5000x128 .f32 0x00000000#32) (ix2 p q) = _
  rw [matmul3_apply]
  refine congrArg (x36 (ix2 p q) + ·) (Finset.sum_congr rfl fun k _ => ?_)
  show lnV3 x0 x22 x26 (ix2 p k) * Ideal.logistic (lnV3 x0 x22 x26 (ix2 p k)) * x32 (ix2 k q) = _
  rw [lnV3_apply]
  rfl

/-- The stored value of region 3 at `(p, q)` of a block, from the six loaded blocks in window order: the row
    functions of row `p` of the first block. -/
theorem pay3_apply (x0 x1 : FVec Ideal S5000x128 .f32) (x2 x3 : FVec Ideal S1x128 .f32) (x4 : FVec Ideal S128x128 .f32)
    (x5 : FVec Ideal S1x128 .f32) (p : Fin 5000) (q : Fin 128) :
    k3_pay1 (F := Ideal) (k3_pay2 x0 x2 x3 x4 x1) (k3_pay3 x5) (ix2 p q)
      = res3 (fun k => x0 (ix2 p k)) (x1 (ix2 p q)) (fun k => x2 (ix2 (0 : Fin 1) k)) (fun k => x3 (ix2 (0 : Fin 1) k))
          (fun k => x4 (ix2 k q)) (x5 (ix2 (0 : Fin 1) q)) := by
  unfold k3_pay1 k3_pay3
  show k3_pay2 (F := Ideal) x0 x2 x3 x4 x1 (ix2 p q)
      + broadcastTo S5000x128 (shapeCast S1x128 x5 shapeCasts_S1x128_S1x128) broadcasts_S1x128_S5000x128 (ix2 p q) = _
  rw [broadcastTo_1b_ab_apply, shapeCast_self, k3_pay2_apply]
  rfl

end Cert.KernelIdeal.Val

end
-- ==== Proof.LibEReal.lean ====
/-
  General laws on the extended reals, as the idealized float operations read them (Mathlib and the operations' definitions
  only; no program): a product with the reciprocal square root is the quotient by the square root whenever the argument is
  positive, the infinity included (`mul_rsqrt_eq_div_sqrt`: a kernel's `x * rsqrt v` against a reference's `x / sqrt v`);
  a square, and a finite sum of squares, is nonnegative, the infinities included (`mul_self_nonneg`, `sum_mul_self_nonneg`);
  a nonnegative extended real divided by a positive real is nonnegative, and plus a positive real is positive
  (`div_coe_nonneg`, `add_coe_pos`: a variance plus its offset); the logistic function is `1 / (1 + e^(-x))` (`logistic_eq`).
-/
import Idealize.ShloMosaic.PureOps.Ideal
import Idealize.ShloMosaic.PureOps.Ideal.Laws
import Mathlib

noncomputable section

namespace Cert.Bridge.Laws

open Idealize.ShloMosaic

/-- For a positive extended real `v` (a positive real, or `+∞`), `x · v^(-1/2) = x / √v` for every `x`:
    at `+∞` both sides are `x · 0`; at a positive real the quotient is the product with the inverse. -/
theorem mul_rsqrt_eq_div_sqrt (x v : EReal) (hv : 0 < v) : x * Ideal.rsqrt v = Ideal.div x (Ideal.sqrt v) := by
  induction v using EReal.rec with
  | bot => exact absurd hv (by simp)
  | top =>
    have h1 : Ideal.rsqrt ⊤ = 0 := rfl
    have h2 : Ideal.sqrt ⊤ = ⊤ := rfl
    rw [h1, h2]; unfold Ideal.div
    rw [if_neg EReal.top_ne_zero, EReal.inv_top]
  | coe r =>
    have hr : 0 < r := by exact_mod_cast hv
    have hs : 0 < Real.sqrt r := Real.sqrt_pos.mpr hr
    have hs' : ((Real.sqrt r : ℝ) : EReal) ≠ 0 := by exact_mod_cast hs.ne'
    have h1 : Ideal.rsqrt (r : EReal) = if r < 0 then ⊥ else if r = 0 then ⊤ else (((Real.sqrt r)⁻¹ : ℝ) : EReal) := rfl
    have h2 : Ideal.sqrt (r : EReal) = if r < 0 then ⊥ else ((Real.sqrt r : ℝ) : EReal) := rfl
    rw [h1, h2, if_neg (not_lt.mpr hr.le), if_neg hr.ne', if_neg (not_lt.mpr hr.le)]
    unfold Ideal.div
    rw [if_neg hs', EReal.coe_inv]

/-- A square is nonnegative on the extended reals (the square of an infinity is `+∞`). -/
theorem mul_self_nonneg (x : EReal) : 0 ≤ x * x := by
  induction x using EReal.rec with
  | bot => simp
  | top => simp
  | coe r => rw [← EReal.coe_mul]; exact_mod_cast _root_.mul_self_nonneg r

/-- A finite sum of squares is nonnegative. -/
theorem sum_mul_self_nonneg {ι : Type*} (s : Finset ι) (f : ι → EReal) : 0 ≤ ∑ k ∈ s, f k * f k :=
  Finset.sum_nonneg fun k _ => mul_self_nonneg (f k)

/-- The quotient of a nonnegative extended real by a positive real is nonnegative. -/
theorem div_coe_nonneg {s : EReal} (hs : 0 ≤ s) {y : ℝ} (hy : 0 < y) : 0 ≤ Ideal.div s (y : EReal) := by
  rw [Ideal.div_coe hy.ne']
  exact mul_nonneg hs (by exact_mod_cast (one_div_pos.mpr hy).le)

/-- A nonnegative extended real plus a positive real is positive. -/
theorem add_coe_pos {a : EReal} (ha : 0 ≤ a) {e : ℝ} (he : 0 < e) : 0 < a + (e : EReal) := by
  have : (0 : EReal) < (e : EReal) := by exact_mod_cast he
  calc (0 : EReal) < (e : EReal) := this
    _ = 0 + (e : EReal) := (zero_add _).symm
    _ ≤ a + (e : EReal) := add_le_add ha le_rfl

/-- The logistic function is its expansion `1 / (1 + e^(-x))`, the ones being the literal `1.0`. -/
theorem logistic_eq (x one : EReal) (h1 : one = 1) : Ideal.logistic x = Ideal.div one (one + Ideal.exp (-x)) := by
  subst h1; rfl

end Cert.Bridge.Laws

end
-- ==== Proof.Br.Consts.lean ====
/-
  The three float literals the comparison of the two layer-norm forms meets, as the extended reals their
  patterns denote: 1.0, 128.0, and the variance offset (a positive real, whose value is never needed).
-/
import Idealize.ShloMosaic.PureOps.Ideal
import Mathlib

noncomputable section

namespace Cert.Bridge.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `128.0` denotes the real `128`. -/
theorem ofBits_128 : Ideal.ofBits .f32 0x43000000#32 = ((128 : ℝ) : EReal) := by
  simp [Ideal.ofBits, Ideal.ieee, -EReal.coe_mul]; norm_num

/-- The variance offset's pattern denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Bridge.Consts

end
-- ==== Proof.Br.LN.lean ====
/-
  The last stage of both programs, row by row: with `e` a row of 128 entries,
    mu = (∑ e) / 128,  d = e - mu,  var = (∑ d·d) / 128,
  the kernel forms  ln = d · (var + eps)^(-1/2) · w + b  and  s = ln · logistic ln,
  the reference     ln = d / √(var + eps) · w + b        and  s = ln · (1 / (1 + e^(-ln))),
  and both end with  out = (nme + s · Wo) + bo.
  The two agree on ALL extended reals: `var + eps` is positive whatever the row holds (a sum of squares is
  nonnegative, the infinities included, and eps is a positive real), and for a positive argument the product
  with the reciprocal square root is the quotient by the square root; the logistic function is its expansion.
-/
import proofs.«174758_j6468220748546_1_alg».proof.Proof.LibEReal
import proofs.«174758_j6468220748546_1_alg».proof.Proof.Br.Consts

noncomputable section

namespace Cert.Bridge.LN

open Idealize.ShloMosaic

/-- The literals `128.0`, the variance offset, and `1.0`, kept as their patterns. -/
abbrev c128 : EReal := Ideal.ofBits .f32 0x43000000#32
abbrev eps : EReal := Ideal.ofBits .f32 0x3727C5AC#32
abbrev one : EReal := Ideal.ofBits .f32 0x3F800000#32

variable (E : Fin 400000 → Fin 128 → EReal) (lnw lnb bo : Fin 128 → EReal) (Wo : Fin 128 → Fin 128 → EReal)
  (nme : Fin 400000 → Fin 128 → EReal)

/-- The mean of row `r`. -/
def mu (r : Fin 400000) : EReal := Ideal.div (∑ k : Fin 128, E r k) c128
/-- The deviation of entry `k` of row `r` from the row's mean. -/
def dev (r : Fin 400000) (k : Fin 128) : EReal := E r k - mu E r
/-- The variance of row `r`. -/
def var (r : Fin 400000) : EReal := Ideal.div (∑ k : Fin 128, dev E r k * dev E r k) c128
/-- The normalised entry, by the reciprocal square root (the kernel's form). -/
def lnK (r : Fin 400000) (k : Fin 128) : EReal := dev E r k * Ideal.rsqrt (var E r + eps) * lnw k + lnb k
/-- The normalised entry, by the quotient (the reference's form). -/
def lnR (r : Fin 400000) (k : Fin 128) : EReal := Ideal.div (dev E r k) (Ideal.sqrt (var E r + eps)) * lnw k + lnb k
/-- The result entry, kernel's form. -/
def outK (r : Fin 400000) (j : Fin 128) : EReal :=
  (nme r j + ∑ k : Fin 128, (lnK E lnw lnb r k * Ideal.logistic (lnK E lnw lnb r k)) * Wo k j) + bo j
/-- The result entry, reference's form. -/
def outR (r : Fin 400000) (j : Fin 128) : EReal :=
  (nme r j + ∑ k : Fin 128, (lnR E lnw lnb r k * Ideal.div one (one + Ideal.exp (-(lnR E lnw lnb r k)))) * Wo k j) + bo j

/-- The argument of the square root is positive, whatever the row holds. -/
theorem var_add_eps_pos (r : Fin 400000) : 0 < var E r + eps := by
  obtain ⟨e, he, hE⟩ := Consts.ofBits_eps_pos
  unfold var
  rw [show eps = (e : EReal) from hE, show c128 = ((128 : ℝ) : EReal) from Consts.ofBits_128]
  exact Laws.add_coe_pos (Laws.div_coe_nonneg (Laws.sum_mul_self_nonneg _ _) (by norm_num)) he

/-- The two normalised forms are one function. -/
theorem lnK_eq_lnR (r : Fin 400000) (k : Fin 128) : lnK E lnw lnb r k = lnR E lnw lnb r k := by
  unfold lnK lnR
  rw [Laws.mul_rsqrt_eq_div_sqrt _ _ (var_add_eps_pos E r)]

/-- The two result forms are one function. -/
theorem outK_eq_outR (r : Fin 400000) (j : Fin 128) :
    outK E lnw lnb bo Wo nme r j = outR E lnw lnb bo Wo nme r j := by
  unfold outK outR
  simp only [lnK_eq_lnR, Laws.logistic_eq _ one Consts.ofBits_one]

end Cert.Bridge.LN

end
-- ==== Proof.Val.Arr3.lean ====
/-
  Region 3 (the output layer): what its output array holds after the region, as a whole-array function of the six
  input arrays as the region finds them. The grid has 80 points; at point `t` the two row-blocked windows and the
  output window are rows `5000·t … 5000·t + 4999` of their 400000 × 128 arrays, and the four small windows (the layer
  norm's scale and shift, the output matrix, the bias) are their whole arrays at every point. Every stored element
  depends on ONE row of the first array (its mean, variance, normalisation and activation), on the same entry of the
  residual array, and on the small arrays; so what point `t` writes back is block `t` of one whole-array function, and
  the 80 blocks tile the array: row `r` lies in the block of point `r / 5000`.
-/
import proofs.«174758_j6468220748546_1_alg».proof.Proof.KI.D3
import proofs.«174758_j6468220748546_1_alg».proof.Proof.Val.Pay3
import proofs.«174758_j6468220748546_1_alg».proof.Proof.Br.LN
import Idealize.ShloMosaic.Lib.Pipeline.Value

noncomputable section

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The output layer's result array from its six input arrays, in window order: the aggregated messages `e` (whose
    rows are normalised and activated), the residual `nme`, the layer norm's scale `lnw` and shift `lnb`, the output
    matrix `wo` and the bias `bo`. Entry `(r, j)` is `res3` of row `r` of `e`, the residual entry, the two layer-norm
    rows, column `j` of the matrix and entry `j` of the bias (the row functions `mu3`, `var3`, `ln3`, `s3` are the
    stages). -/
def G3_6 (e nme : FVec Ideal S400000x128 .f32) (lnw lnb : FVec Ideal S1x128 .f32) (wo : FVec Ideal S128x128 .f32)
    (bo : FVec Ideal S1x128 .f32) : FVec Ideal S400000x128 .f32 :=
  fun i => res3 (fun k => e (ix2 (n0 := 400000) (n1 := 128) (i 0) k)) (nme i)
    (fun k => lnw (ix2 (0 : Fin 1) k)) (fun k => lnb (ix2 (0 : Fin 1) k))
    (fun k => wo (ix2 (n0 := 128) (n1 := 128) k (i 1))) (bo (ix2 (n0 := 1) (n1 := 128) (0 : Fin 1) (i 1)))

/-- `G3_6` at an index given by its coordinates. -/
theorem G3_6_apply (e nme : FVec Ideal S400000x128 .f32) (lnw lnb : FVec Ideal S1x128 .f32) (wo : FVec Ideal S128x128 .f32)
    (bo : FVec Ideal S1x128 .f32) (r : Fin 400000) (j : Fin 128) :
    G3_6 e nme lnw lnb wo bo (ix2 r j)
      = res3 (fun k => e (ix2 r k)) (nme (ix2 r j)) (fun k => lnw (ix2 (0 : Fin 1) k)) (fun k => lnb (ix2 (0 : Fin 1) k))
          (fun k => wo (ix2 k j)) (bo (ix2 (0 : Fin 1) j)) := rfl

private theorem zero3 : (![0, 0] : Fin 2 → Nat) = fun _ => 0 := funext fun a => by fin_cases a <;> rfl

/-- One stored element of a block is the result function at an array index `i`, when the block's row is row `i 0` of
    the first array, the residual entries agree, the lanes agree, and the four small blocks are their arrays. -/
theorem block3_eq (x0 x1 : FVec Ideal S5000x128 .f32) (x2 x3 : FVec Ideal S1x128 .f32) (x4 : FVec Ideal S128x128 .f32)
    (x5 : FVec Ideal S1x128 .f32) (e nme : FVec Ideal S400000x128 .f32) (lnw lnb : FVec Ideal S1x128 .f32)
    (wo : FVec Ideal S128x128 .f32) (bo : FVec Ideal S1x128 .f32) (j : S5000x128.Idx) (i : S400000x128.Idx)
    (h0 : ∀ k : Fin 128, x0 (ix2 (n0 := 5000) (n1 := 128) (j 0) k) = e (ix2 (n0 := 400000) (n1 := 128) (i 0) k))
    (h1 : x1 j = nme i) (hq : (j 1).val = (i 1).val)
    (h2 : x2 = lnw) (h3 : x3 = lnb) (h4 : x4 = wo) (h5 : x5 = bo) :
    k3_pay1 (F := Ideal) (k3_pay2 x0 x2 x3 x4 x1) (k3_pay3 x5) j = G3_6 e nme lnw lnb wo bo i := by
  subst h2 h3 h4 h5
  obtain ⟨p, q, rfl⟩ : ∃ (p : Fin 5000) (q : Fin 128), j = ix2 p q := ⟨j 0, j 1, eq_ix2 j⟩
  obtain ⟨r, s, rfl⟩ : ∃ (r : Fin 400000) (s : Fin 128), i = ix2 r s := ⟨i 0, i 1, eq_ix2 i⟩
  obtain rfl : q = s := Fin.ext hq
  rw [pay3_apply, G3_6_apply, h1, show (fun k => x0 (ix2 p k)) = fun k => e (ix2 r k) from funext h0]

/-- The printed index maps over the grid: at point `t` the row-blocked windows 0, 1 and 6 are at block row `t`, and
    the four small windows stay at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## The input blocks, read where the output block lies -/

/-- Row `j 0` of window 0's block at point `t` is the row of its array that the output block's index `j` lies in. -/
theorem iblk3_0_row (c : Dev nD) (t : Fin cfg3.N) (j : S5000x128.Idx) (k : Fin 128) :
    iblk3 V c 0 t (ix2 (n0 := 5000) (n1 := 128) (j 0) k)
      = V c (Pipeline.arrRef spec3 0) (ix2 (n0 := 400000) (n1 := 128) ((((cfg3.win 6).blk t).view.emb j) 0) k) := by
  obtain ⟨e00, e01, e10, e11, e20, e21, e30, e31, e40, e41, e50, e51, e60, e61⟩ := idx3 t
  show V c (Pipeline.arrRef spec3 0) (((cfg3.win 0).blk t).view.emb (ix2 (n0 := 5000) (n1 := 128) (j 0) k))
    = V c (Pipeline.arrRef spec3 0) (ix2 (n0 := 400000) (n1 := 128) ((((cfg3.win 6).blk t).view.emb j) 0) k)
  refine congrArg (V c (Pipeline.arrRef spec3 0)) (funext fun a => Fin.ext ?_)
  match a with
  | ⟨0, _⟩ => show win3_0.index t (0 : Fin 2) * 5000 + 1 * (j 0).val = win3_6.index t (0 : Fin 2) * 5000 + 1 * (j 0).val; omega
  | ⟨1, _⟩ => show win3_0.index t (1 : Fin 2) * 128 + 1 * k.val = k.val; omega

/-- Window 1's block at point `t` reads its array where the output block does. -/
theorem iblk3_1_at6 (c : Dev nD) (t : Fin cfg3.N) (j : S5000x128.Idx) :
    iblk3 V c 1 t j = V c (Pipeline.arrRef spec3 1) (((cfg3.win 6).blk t).view.emb j) := by
  obtain ⟨e00, e01, e10, e11, e20, e21, e30, e31, e40, e41, e50, e51, e60, e61⟩ := idx3 t
  show V c (Pipeline.arrRef spec3 1) (((cfg3.win 1).blk t).view.emb j) = V c (Pipeline.arrRef spec3 1) (((cfg3.win 6).blk t).view.emb j)
  refine congrArg (V c (Pipeline.arrRef spec3 1)) (funext fun a => Fin.ext ?_)
  match a with
  | ⟨0, _⟩ => show win3_1.index t (0 : Fin 2) * 5000 + 1 * (j 0).val = win3_6.index t (0 : Fin 2) * 5000 + 1 * (j 0).val; omega
  | ⟨1, _⟩ => show win3_1.index t (1 : Fin 2) * 128 + 1 * (j 1).val = win3_6.index t (1 : Fin 2) * 128 + 1 * (j 1).val; omega

/-- The lane of an index of the output block is the lane of its place in the array. -/
theorem lane3_6 (t : Fin cfg3.N) (j : S5000x128.Idx) : (j 1).val = ((((cfg3.win 6).blk t).view.emb j) 1).val := by
  obtain ⟨e00, e01, e10, e11, e20, e21, e30, e31, e40, e41, e50, e51, e60, e61⟩ := idx3 t
  show (j 1).val = win3_6.index t (1 : Fin 2) * 128 + 1 * (j 1).val
  omega

/-- Window 2 holds its whole array at every point. -/
theorem iblk3_2_whole (c : Dev nD) (t : Fin cfg3.N) : iblk3 V c 2 t = V c (Pipeline.arrRef spec3 2) := by
  obtain ⟨e00, e01, e10, e11, e20, e21, e30, e31, e40, e41, e50, e51, e60, e61⟩ := idx3 t
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3 holds its whole array at every point. -/
theorem iblk3_3_whole (c : Dev nD) (t : Fin cfg3.N) : iblk3 V c 3 t = V c (Pipeline.arrRef spec3 3) := by
  obtain ⟨e00, e01, e10, e11, e20, e21, e30, e31, e40, e41, e50, e51, e60, e61⟩ := idx3 t
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4 holds its whole array at every point. -/
theorem iblk3_4_whole (c : Dev nD) (t : Fin cfg3.N) : iblk3 V c 4 t = V c (Pipeline.arrRef spec3 4) := by
  obtain ⟨e00, e01, e10, e11, e20, e21, e30, e31, e40, e41, e50, e51, e60, e61⟩ := idx3 t
  funext y
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5 holds its whole array at every point. -/
theorem iblk3_5_whole (c : Dev nD) (t : Fin cfg3.N) : iblk3 V c 5 t = V c (Pipeline.arrRef spec3 5) := by
  obtain ⟨e00, e01, e10, e11, e20, e21, e30, e31, e40, e41, e50, e51, e60, e61⟩ := idx3 t
  funext y
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- What point `t` writes back to the output window's array is block `t` of `G3_6` of the six input arrays. -/
theorem flushed3_6_eq (c : Dev nD) (t : Fin cfg3.N) :
    (dat3 V c).flushed 6 t
      = ((cfg3.win 6).blk t).view.read (Elt Ideal) (G3_6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zero3]
  simp only [View.ld_unit_zero (S := S5000x128) zero3, View.ld_unit_zero (S := S1x128) zero3, View.ld_unit_zero (S := S128x128) zero3]
  funext j
  exact block3_eq (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) j (((cfg3.win 6).blk t).view.emb j)
    (iblk3_0_row V c t j) (iblk3_1_at6 V c t j) (lane3_6 t j)
    (iblk3_2_whole V c t) (iblk3_3_whole V c t) (iblk3_4_whole V c t) (iblk3_5_whole V c t)

/-- An index of the array is in point `t`'s block of the output window iff each coordinate is in the block's range. -/
theorem mem_blk3_6 (t : Fin cfg3.N) (i : S400000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v161).slice (win3_6.rect t)).set ↔ _
  rw [View.set_slice_whole, Rect.mem_set_unit]
  exact Iff.rfl

/-- Every index of the output array is in the block of the point `row / 5000`. -/
theorem covered3_6 (i : S400000x128.Idx) :
    ∃ t : Fin cfg3.N, (cfg3.win 6).flush t = true ∧ i ∈ ((cfg3.win 6).blk t).view.set := by
  have hi0 : (i 0).val < 400000 := (i 0).isLt
  have hi1 : (i 1).val < 128 := (i 1).isLt
  have h80 : cfg3.N = 80 := N_3
  obtain ⟨e00, e01, e10, e11, e20, e21, e30, e31, e40, e41, e50, e51, e60, e61⟩ := idx3 ⟨(i 0).val / 5000, by omega⟩
  refine ⟨⟨(i 0).val / 5000, by omega⟩, flush3_6 _, ?_⟩
  rw [mem_blk3_6]
  intro a
  match a with
  | ⟨0, _⟩ =>
    show win3_6.index ⟨(i 0).val / 5000, _⟩ (0 : Fin 2) * 5000 ≤ (i 0).val ∧ (i 0).val < win3_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, _⟩ (1 : Fin 2) * 128 ≤ (i 1).val ∧ (i 1).val < win3_6.index ⟨(i 0).val / 5000, _⟩ (1 : Fin 2) * 128 + 128
    rw [e61]; omega

/-- The output array after the region, through the row functions of this module. -/
theorem final3_6_res (c : Dev nD) :
    (dat3 V c).arrAt 6 cfg3.N = G3_6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed3_6_eq V c t) covered3_6

/-- The result function is the row-by-row form over curried arrays: the same mean, deviation, variance, normalised
    entry and activation, with the row `fun k => e (r, k)` in place of the row variable. -/
theorem G3_6_eq_outK (e nme : FVec Ideal S400000x128 .f32) (lnw lnb : FVec Ideal S1x128 .f32) (wo : FVec Ideal S128x128 .f32)
    (bo : FVec Ideal S1x128 .f32) :
    G3_6 e nme lnw lnb wo bo
      = fun i : S400000x128.Idx => Cert.Bridge.LN.outK (fun r k => e (ix2 r k)) (fun k => lnw (ix2 (0 : Fin 1) k)) (fun k => lnb (ix2 (0 : Fin 1) k))
          (fun k => bo (ix2 (0 : Fin 1) k)) (fun k j => wo (ix2 k j)) (fun r j => nme (ix2 r j)) (i 0) (i 1) := by
  funext i
  obtain ⟨r, j, rfl⟩ : ∃ (r : Fin 400000) (j : Fin 128), i = ix2 r j := ⟨i 0, i 1, eq_ix2 i⟩
  rw [G3_6_apply]
  rfl

/-- The output array after the region: entry `(r, j)` is the output layer's result for row `r` of the aggregated
    messages, the residual entry, the layer norm's two rows, column `j` of the output matrix and entry `j` of the
    bias, all read off the six input arrays as the region finds them. -/
theorem final3_6 (c : Dev nD) :
    (dat3 V c).arrAt 6 cfg3.N
      = fun i : S400000x128.Idx => Cert.Bridge.LN.outK (fun r k => (V c (Pipeline.arrRef spec3 0)) (ix2 r k)) (fun k => (V c (Pipeline.arrRef spec3 2)) (ix2 (0 : Fin 1) k))
          (fun k => (V c (Pipeline.arrRef spec3 3)) (ix2 (0 : Fin 1) k)) (fun k => (V c (Pipeline.arrRef spec3 5)) (ix2 (0 : Fin 1) k)) (fun k j => (V c (Pipeline.arrRef spec3 4)) (ix2 k j))
          (fun r j => (V c (Pipeline.arrRef spec3 1)) (ix2 r j)) (i 0) (i 1) :=
  (final3_6_res V c).trans (G3_6_eq_outK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))

end Cert.KernelIdeal.Val

end
-- ==== Proof.Br.H0.lean ====
/-
The first stretch of host operations of the kernel's program splits the edge list into its two rows, as the reference does: what it leaves in those two buffers is the reference's stage of the same argument.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v1` holds the reference's stage `main_v1` of the same arguments, given that each buffer the stretch reads holds its own. -/
theorem hostOps0_main_v1 (V : Valuation τ sig (Elt Ideal)) (x1 : (⟨S2x400000, .i32⟩ : BufTy).Contents (Elt Ideal))
    (h_main_arg1 : V (Proc.devRef .tc main_arg1) = x1)
    : StableHlo.after (hostOps0 (F := Ideal)) V (Proc.devRef .tc main_v1) = Cert.ReferenceIdeal.ReadP.val_main_v1 (F := Ideal) x1 := by
  after_results_simp
  simp only [h_main_arg1]
  rfl

set_option maxHeartbeats 0 in
/-- After the stretch, `main_v3` holds the reference's stage `main_v3` of the same arguments, given that each buffer the stretch reads holds its own. -/
theorem hostOps0_main_v3 (V : Valuation τ sig (Elt Ideal)) (x1 : (⟨S2x400000, .i32⟩ : BufTy).Contents (Elt Ideal))
    (h_main_arg1 : V (Proc.devRef .tc main_arg1) = x1)
    : StableHlo.after (hostOps0 (F := Ideal)) V (Proc.devRef .tc main_v3) = Cert.ReferenceIdeal.ReadP.val_main_v3 (F := Ideal) x1 := by
  after_results_simp
  simp only [h_main_arg1]
  rfl

end Cert.Bridge.Host

end
-- ==== Proof.Br.H2.lean ====
/-
The stretch before the third region gathers rows of the three node projections by the edge endpoints (negative indices wrapped, as jnp indexing does): the same operations as the reference's, so each gathered buffer holds the reference's stage once the projections and the endpoint rows do.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v21` holds the reference's stage `main_v22` of the same arguments, given that each buffer the stretch reads holds its own. -/
theorem hostOps2_main_v21 (V : Valuation τ sig (Elt Ideal)) (x0 : (⟨S50000x128, .f32⟩ : BufTy).Contents (Elt Ideal)) (x1 : (⟨S2x400000, .i32⟩ : BufTy).Contents (Elt Ideal)) (x9 : (⟨S128x128, .f32⟩ : BufTy).Contents (Elt Ideal)) (x10 : (⟨S128, .f32⟩ : BufTy).Contents (Elt Ideal))
    (h_main_v1 : V (Proc.devRef .tc main_v1) = Cert.ReferenceIdeal.ReadP.val_main_v1 (F := Ideal) x1)
    (h_main_v8 : V (Proc.devRef .tc main_v8) = Cert.ReferenceIdeal.ReadP.val_main_v15 (F := Ideal) x0 x9 x10)
    : StableHlo.after (hostOps2 (F := Ideal)) V (Proc.devRef .tc main_v21) = Cert.ReferenceIdeal.ReadP.val_main_v22 (F := Ideal) x0 x1 x9 x10 := by
  after_results_simp
  simp only [h_main_v1, h_main_v8]
  rfl

set_option maxHeartbeats 0 in
/-- After the stretch, `main_v28` holds the reference's stage `main_v34` of the same arguments, given that each buffer the stretch reads holds its own. -/
theorem hostOps2_main_v28 (V : Valuation τ sig (Elt Ideal)) (x0 : (⟨S50000x128, .f32⟩ : BufTy).Contents (Elt Ideal)) (x1 : (⟨S2x400000, .i32⟩ : BufTy).Contents (Elt Ideal)) (x11 : (⟨S128x128, .f32⟩ : BufTy).Contents (Elt Ideal)) (x12 : (⟨S128, .f32⟩ : BufTy).Contents (Elt Ideal))
    (h_main_v3 : V (Proc.devRef .tc main_v3) = Cert.ReferenceIdeal.ReadP.val_main_v3 (F := Ideal) x1)
    (h_main_v9 : V (Proc.devRef .tc main_v9) = Cert.ReferenceIdeal.ReadP.val_main_v27 (F := Ideal) x0 x11 x12)
    : StableHlo.after (hostOps2 (F := Ideal)) V (Proc.devRef .tc main_v28) = Cert.ReferenceIdeal.ReadP.val_main_v34 (F := Ideal) x0 x1 x11 x12 := by
  after_results_simp
  simp only [h_main_v3, h_main_v9]
  rfl

set_option maxHeartbeats 0 in
/-- After the stretch, `main_v35` holds the reference's stage `main_v52` of the same arguments, given that each buffer the stretch reads holds its own. -/
theorem hostOps2_main_v35 (V : Valuation τ sig (Elt Ideal)) (x0 : (⟨S50000x128, .f32⟩ : BufTy).Contents (Elt Ideal)) (x1 : (⟨S2x400000, .i32⟩ : BufTy).Contents (Elt Ideal)) (x15 : (⟨S128x128, .f32⟩ : BufTy).Contents (Elt Ideal)) (x16 : (⟨S128, .f32⟩ : BufTy).Contents (Elt Ideal))
    (h_main_v11 : V (Proc.devRef .tc main_v11) = Cert.ReferenceIdeal.ReadP.val_main_v45 (F := Ideal) x0 x15 x16)
    (h_main_v3 : V (Proc.devRef .tc main_v3) = Cert.ReferenceIdeal.ReadP.val_main_v3 (F := Ideal) x1)
    : StableHlo.after (hostOps2 (F := Ideal)) V (Proc.devRef .tc main_v35) = Cert.ReferenceIdeal.ReadP.val_main_v52 (F := Ideal) x0 x1 x15 x16 := by
  after_results_simp
  simp only [h_main_v11, h_main_v3]
  rfl

end Cert.Bridge.Host

end
-- ==== Proof.Br.H3a.lean ====
/-
The long stretch after the third region, at the buffer of the edges' graph numbers (the node-to-graph table gathered by the source endpoints, negative indices wrapped): the reference's stage of the same arguments.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v47` holds the reference's stage `main_v115` of the same arguments, given that each buffer the stretch reads holds its own. -/
theorem hostOps3_main_v47 (V : Valuation τ sig (Elt Ideal)) (x1 : (⟨S2x400000, .i32⟩ : BufTy).Contents (Elt Ideal)) (x4 : (⟨S50000, .i32⟩ : BufTy).Contents (Elt Ideal))
    (h_main_arg4 : V (Proc.devRef .tc main_arg4) = x4)
    (h_main_v1 : V (Proc.devRef .tc main_v1) = Cert.ReferenceIdeal.ReadP.val_main_v1 (F := Ideal) x1)
    : StableHlo.after (hostOps3 (F := Ideal)) V (Proc.devRef .tc main_v47) = Cert.ReferenceIdeal.ReadP.val_main_v115 (F := Ideal) x1 x4 := by
  after_results_simp
  simp only [h_main_arg4, h_main_v1]
  rfl

end Cert.Bridge.Host

end
-- ==== Proof.Br.H3b.lean ====
/-
The long stretch after the third region, at the normalised edge features: per graph (the edges' graph numbers), the count, the mean and the variance by scatter-adds, gathered back per edge; shifted, scaled and offset by the three learnt vectors; operation for operation the reference's, so the buffer holds the reference's stage once the pre-activation and the endpoint row hold theirs.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v141` holds the reference's stage `main_v162` of the same arguments, given that each buffer the stretch reads holds its own. -/
theorem hostOps3_main_v141 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal))
    (h_main_arg20 : V (Proc.devRef .tc main_arg20) = x20)
    (h_main_arg21 : V (Proc.devRef .tc main_arg21) = x21)
    (h_main_arg22 : V (Proc.devRef .tc main_arg22) = x22)
    (h_main_arg4 : V (Proc.devRef .tc main_arg4) = x4)
    (h_main_v1 : V (Proc.devRef .tc main_v1) = Cert.ReferenceIdeal.ReadP.val_main_v1 (F := Ideal) x1)
    (h_main_v36_0 : V (Proc.devRef .tc main_v36_0) = Cert.ReferenceIdeal.ReadP.val_main_v35 (F := Ideal) x0 x1 x2 x5 x6 x7 x8 x9 x10 x11 x12)
    : StableHlo.after (hostOps3 (F := Ideal)) V (Proc.devRef .tc main_v141) = Cert.ReferenceIdeal.ReadP.val_main_v162 (F := Ideal) x0 x1 x2 x4 x5 x6 x7 x8 x9 x10 x11 x12 x20 x21 x22 := by
  after_results_simp
  simp only [h_main_arg20, h_main_arg21, h_main_arg22, h_main_arg4, h_main_v1, h_main_v36_0]
  rfl

end Cert.Bridge.Host

end
-- ==== Proof.Br.H3c.lean ====
/-
The long stretch after the third region, at the normalised node features: the gated values scatter-added over source nodes onto the third node projection, then the per-graph normalisation (counts, means, variances by scatter-adds over the node-to-graph table, gathered back), operation for operation the reference's.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v94` holds the reference's stage `main_v108` of the same arguments, given that each buffer the stretch reads holds its own. -/
theorem hostOps3_main_v94 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal))
    (h_main_arg17 : V (Proc.devRef .tc main_arg17) = x17)
    (h_main_arg18 : V (Proc.devRef .tc main_arg18) = x18)
    (h_main_arg19 : V (Proc.devRef .tc main_arg19) = x19)
    (h_main_arg4 : V (Proc.devRef .tc main_arg4) = x4)
    (h_main_v1 : V (Proc.devRef .tc main_v1) = Cert.ReferenceIdeal.ReadP.val_main_v1 (F := Ideal) x1)
    (h_main_v10 : V (Proc.devRef .tc main_v10) = Cert.ReferenceIdeal.ReadP.val_main_v60 (F := Ideal) x0 x13 x14)
    (h_main_v36_1 : V (Proc.devRef .tc main_v36_1) = Cert.ReferenceIdeal.ReadP.val_main_v53 (F := Ideal) x0 x1 x2 x5 x6 x7 x8 x9 x10 x11 x12 x15 x16)
    : StableHlo.after (hostOps3 (F := Ideal)) V (Proc.devRef .tc main_v94) = Cert.ReferenceIdeal.ReadP.val_main_v108 (F := Ideal) x0 x1 x2 x4 x5 x6 x7 x8 x9 x10 x11 x12 x13 x14 x15 x16 x17 x18 x19 := by
  after_results_simp
  simp only [h_main_arg17, h_main_arg18, h_main_arg19, h_main_arg4, h_main_v1, h_main_v10, h_main_v36_1]
  rfl

end Cert.Bridge.Host

end
-- ==== Proof.Br.H31.lean ====
/-
The rectifier on the normalised node features, as the reference applies it.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v142` holds the reference's stage `main_v163` of the same arguments, given that each buffer the stretch reads holds its own. -/
theorem hostOps3_1_main_v142 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal))
    (h_main_v94 : V (Proc.devRef .tc main_v94) = Cert.ReferenceIdeal.ReadP.val_main_v108 (F := Ideal) x0 x1 x2 x4 x5 x6 x7 x8 x9 x10 x11 x12 x13 x14 x15 x16 x17 x18 x19)
    : StableHlo.after (hostOps3_1 (F := Ideal)) V (Proc.devRef .tc main_v142) = Cert.ReferenceIdeal.ReadP.val_main_v163 (F := Ideal) x0 x1 x2 x4 x5 x6 x7 x8 x9 x10 x11 x12 x13 x14 x15 x16 x17 x18 x19 := by
  after_results_simp
  simp only [h_main_v94]
  rfl

end Cert.Bridge.Host

end
-- ==== Proof.Br.H32.lean ====
/-
The rectifier on the normalised edge features, as the reference applies it.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v143` holds the reference's stage `main_v164` of the same arguments, given that each buffer the stretch reads holds its own. -/
theorem hostOps3_2_main_v143 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal))
    (h_main_v141 : V (Proc.devRef .tc main_v141) = Cert.ReferenceIdeal.ReadP.val_main_v162 (F := Ideal) x0 x1 x2 x4 x5 x6 x7 x8 x9 x10 x11 x12 x20 x21 x22)
    : StableHlo.after (hostOps3_2 (F := Ideal)) V (Proc.devRef .tc main_v143) = Cert.ReferenceIdeal.ReadP.val_main_v164 (F := Ideal) x0 x1 x2 x4 x5 x6 x7 x8 x9 x10 x11 x12 x20 x21 x22 := by
  after_results_simp
  simp only [h_main_v141]
  rfl

end Cert.Bridge.Host

end
-- ==== Proof.Br.H33.lean ====
/-
The rectifier on the time embedding, as the reference applies it.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v144` holds the reference's stage `main_v165` of the same arguments, given that each buffer the stretch reads holds its own. -/
theorem hostOps3_3_main_v144 (V : Valuation τ sig (Elt Ideal)) (x3 : (⟨S16x128, .f32⟩ : BufTy).Contents (Elt Ideal))
    (h_main_arg3 : V (Proc.devRef .tc main_arg3) = x3)
    : StableHlo.after (hostOps3_3 (F := Ideal)) V (Proc.devRef .tc main_v144) = Cert.ReferenceIdeal.ReadP.val_main_v165 (F := Ideal) x3 := by
  after_results_simp
  simp only [h_main_arg3]
  rfl

end Cert.Bridge.Host

end
-- ==== Proof.Br.H34.lean ====
/-
The last stretch: the time term (a small matrix product and bias) gathered per edge and added to the edge features, and the residual on the node features: the first result and the last region's first operand hold the reference's stages.
-/
import proofs.«174758_j6468220748546_1_alg».proof.Proof.Gen.KernelIdeal.Launch
import proofs.«174758_j6468220748546_1_alg».proof.Proof.RefRead
import Idealize.ShloMosaic.Lib.StableHlo.Run

noncomputable section

namespace Cert.Bridge.Host

open Cert.KernelIdeal Cert.KernelIdeal.Gen Idealize.ShloMosaic Idealize.ShloMosaic.TcCoe Idealize.SL.Sem Idealize.ShloMosaic.StableHlo

set_option maxHeartbeats 0 in
/-- After the stretch, `main_v156` holds the reference's stage `main_v177` of the same arguments, given that each buffer the stretch reads holds its own. -/
theorem hostOps3_4_main_v156 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 : (⟨S16x128, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
    (h_main_arg23 : V (Proc.devRef .tc main_arg23) = x23)
    (h_main_arg24 : V (Proc.devRef .tc main_arg24) = x24)
    (h_main_v143 : V (Proc.devRef .tc main_v143) = Cert.ReferenceIdeal.ReadP.val_main_v164 (F := Ideal) x0 x1 x2 x4 x5 x6 x7 x8 x9 x10 x11 x12 x20 x21 x22)
    (h_main_v144 : V (Proc.devRef .tc main_v144) = Cert.ReferenceIdeal.ReadP.val_main_v165 (F := Ideal) x3)
    (h_main_v47 : V (Proc.devRef .tc main_v47) = Cert.ReferenceIdeal.ReadP.val_main_v115 (F := Ideal) x1 x4)
    : StableHlo.after (hostOps3_4 (F := Ideal)) V (Proc.devRef .tc main_v156) = Cert.ReferenceIdeal.ReadP.val_main_v177 (F := Ideal) x0 x1 x2 x3 x4 x5 x6 x7 x8 x9 x10 x11 x12 x20 x21 x22 x23 x24 := by
  after_results_simp
  simp only [h_main_arg23, h_main_arg24, h_main_v143, h_main_v144, h_main_v47]
  rfl

set_option maxHeartbeats 0 in
/-- After the stretch, `main_v157` holds the reference's stage `main_v178` of the same arguments, given that each buffer the stretch reads holds its own. -/
theorem hostOps3_4_main_v157 (V : Valuation τ sig (Elt Ideal)) (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal))
    (h_main_arg0 : V (Proc.devRef .tc main_arg0) = x0)
    (h_main_v142 : V (Proc.devRef .tc main_v142) = Cert.ReferenceIdeal.ReadP.val_main_v163 (F := Ideal) x0 x1 x2 x4 x5 x6 x7 x8 x9 x10 x11 x12 x13 x14 x15 x16 x17 x18 x19)
    : StableHlo.after (hostOps3_4 (F := Ideal)) V (Proc.devRef .tc main_v157) = Cert.ReferenceIdeal.ReadP.val_main_v178 (F := Ideal) x0 x1 x2 x4 x5 x6 x7 x8 x9 x10 x11 x12 x13 x14 x15 x16 x17 x18 x19 := by
  after_results_simp
  simp only [h_main_arg0, h_main_v142]
  rfl

end Cert.Bridge.Host

end
-- ==== Proof.Br.SeedProj.lean ====
import proofs.«174758_j6468220748546_1_alg».proof.Proof.Gen.KernelIdeal
import proofs.«174758_j6468220748546_1_alg».proof.Proof.RefRead
import Idealize.ShloMosaic.Lib.Pipeline.Value
import Idealize.ShloMosaic.Lib.ValueIdx

noncomputable section

namespace Cert.Bridge.Seed

open Cert.KernelIdeal Cert.KernelIdeal.Gen Idealize.ShloMosaic Idealize.ShloMosaic.ValueIdx

/-! # The four node projections as column blocks of one product

The kernel multiplies the node features once by the 128 × 512 matrix `[Wq | Wr | Wu | Wv]`, adds the concatenated
bias row, and cuts the result into four blocks of 128 columns; the reference multiplies four times. Entry
`(p, 128·c + q)` of the single product is `∑ k, feat (p, k) · W_c (k, q) + b_c q`, which is entry `(p, q)` of the
`c`-th product of the reference: no algebra beyond reading the concatenations at an index.

## The concatenated weights and bias read at an index -/

/-- Column `0 + q` of the side-by-side weights is column `q` of `Wq`. -/
theorem wcat_at_q (Wq Wr Wu Wv : (⟨S128x128, .f32⟩ : BufTy).Contents (Elt Ideal)) (k : Fin 128) (q : Fin 128) (hq : 0 + q.val < 512) :
    (concatenate S128x512 1 [⟨S128x128, Wq⟩, ⟨S128x128, Wr⟩, ⟨S128x128, Wu⟩, ⟨S128x128, Wv⟩] concatenates_S128x128_S128x128_S128x128_S128x128_S128x512_d1) (ix2 k ⟨0 + q.val, hq⟩) = Wq (ix2 k q) :=
  concatenate_apply_piece (t := S128x512) 1 [⟨S128x128, Wq⟩, ⟨S128x128, Wr⟩, ⟨S128x128, Wu⟩, ⟨S128x128, Wv⟩]
    concatenates_S128x128_S128x128_S128x128_S128x128_S128x512_d1 (ix2 k ⟨0 + q.val, hq⟩) 0 (by show 0 < 4; omega) S128x128 Wq rfl rfl 0 (by rfl)
    (ix2 k q) (fun b hb => match b with | ⟨0, _⟩ => rfl | ⟨1, _⟩ => absurd rfl hb) rfl

/-- Entry `0 + q` of the end-to-end bias row is entry `q` of `bq`. -/
theorem bcat_at_q (bq br bu bv : (⟨S128, .f32⟩ : BufTy).Contents (Elt Ideal)) (q : Fin 128) (hq : 0 + q.val < 512) :
    (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) ⟨0 + q.val, hq⟩) = bq (ix1 q) := by
  refine (shapeCast_apply (concatenate S512 0 [⟨S128, bq⟩, ⟨S128, br⟩, ⟨S128, bu⟩, ⟨S128, bv⟩] concatenates_S128_S128_S128_S128_S512_d0) shapeCasts_S512_S1x512
    (ix2 (0 : Fin 1) ⟨0 + q.val, hq⟩) (ix1 ⟨0 + q.val, hq⟩) ?_).trans ?_
  · rw [Shape.rowMajor_val_one, Shape.rowMajor_val_two]
    show 0 + q.val = 0 * 512 + (0 + q.val)
    omega
  · exact concatenate_apply_piece (t := S512) 0 [⟨S128, bq⟩, ⟨S128, br⟩, ⟨S128, bu⟩, ⟨S128, bv⟩]
      concatenates_S128_S128_S128_S128_S512_d0 (ix1 ⟨0 + q.val, hq⟩) 0 (by show 0 < 4; omega) S128 bq rfl rfl 0 (by rfl)
      (ix1 q) (fun b hb => match b with | ⟨0, _⟩ => absurd rfl hb) rfl

/-- Column `128 + q` of the side-by-side weights is column `q` of `Wr`. -/
theorem wcat_at_r (Wq Wr Wu Wv : (⟨S128x128, .f32⟩ : BufTy).Contents (Elt Ideal)) (k : Fin 128) (q : Fin 128) (hq : 128 + q.val < 512) :
    (concatenate S128x512 1 [⟨S128x128, Wq⟩, ⟨S128x128, Wr⟩, ⟨S128x128, Wu⟩, ⟨S128x128, Wv⟩] concatenates_S128x128_S128x128_S128x128_S128x128_S128x512_d1) (ix2 k ⟨128 + q.val, hq⟩) = Wr (ix2 k q) :=
  concatenate_apply_piece (t := S128x512) 1 [⟨S128x128, Wq⟩, ⟨S128x128, Wr⟩, ⟨S128x128, Wu⟩, ⟨S128x128, Wv⟩]
    concatenates_S128x128_S128x128_S128x128_S128x128_S128x512_d1 (ix2 k ⟨128 + q.val, hq⟩) 1 (by show 1 < 4; omega) S128x128 Wr rfl rfl 128 (by rfl)
    (ix2 k q) (fun b hb => match b with | ⟨0, _⟩ => rfl | ⟨1, _⟩ => absurd rfl hb) rfl

/-- Entry `128 + q` of the end-to-end bias row is entry `q` of `br`. -/
theorem bcat_at_r (bq br bu bv : (⟨S128, .f32⟩ : BufTy).Contents (Elt Ideal)) (q : Fin 128) (hq : 128 + q.val < 512) :
    (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) ⟨128 + q.val, hq⟩) = br (ix1 q) := by
  refine (shapeCast_apply (concatenate S512 0 [⟨S128, bq⟩, ⟨S128, br⟩, ⟨S128, bu⟩, ⟨S128, bv⟩] concatenates_S128_S128_S128_S128_S512_d0) shapeCasts_S512_S1x512
    (ix2 (0 : Fin 1) ⟨128 + q.val, hq⟩) (ix1 ⟨128 + q.val, hq⟩) ?_).trans ?_
  · rw [Shape.rowMajor_val_one, Shape.rowMajor_val_two]
    show 128 + q.val = 0 * 512 + (128 + q.val)
    omega
  · exact concatenate_apply_piece (t := S512) 0 [⟨S128, bq⟩, ⟨S128, br⟩, ⟨S128, bu⟩, ⟨S128, bv⟩]
      concatenates_S128_S128_S128_S128_S512_d0 (ix1 ⟨128 + q.val, hq⟩) 1 (by show 1 < 4; omega) S128 br rfl rfl 128 (by rfl)
      (ix1 q) (fun b hb => match b with | ⟨0, _⟩ => absurd rfl hb) rfl

/-- Column `256 + q` of the side-by-side weights is column `q` of `Wu`. -/
theorem wcat_at_u (Wq Wr Wu Wv : (⟨S128x128, .f32⟩ : BufTy).Contents (Elt Ideal)) (k : Fin 128) (q : Fin 128) (hq : 256 + q.val < 512) :
    (concatenate S128x512 1 [⟨S128x128, Wq⟩, ⟨S128x128, Wr⟩, ⟨S128x128, Wu⟩, ⟨S128x128, Wv⟩] concatenates_S128x128_S128x128_S128x128_S128x128_S128x512_d1) (ix2 k ⟨256 + q.val, hq⟩) = Wu (ix2 k q) :=
  concatenate_apply_piece (t := S128x512) 1 [⟨S128x128, Wq⟩, ⟨S128x128, Wr⟩, ⟨S128x128, Wu⟩, ⟨S128x128, Wv⟩]
    concatenates_S128x128_S128x128_S128x128_S128x128_S128x512_d1 (ix2 k ⟨256 + q.val, hq⟩) 2 (by show 2 < 4; omega) S128x128 Wu rfl rfl 256 (by rfl)
    (ix2 k q) (fun b hb => match b with | ⟨0, _⟩ => rfl | ⟨1, _⟩ => absurd rfl hb) rfl

/-- Entry `256 + q` of the end-to-end bias row is entry `q` of `bu`. -/
theorem bcat_at_u (bq br bu bv : (⟨S128, .f32⟩ : BufTy).Contents (Elt Ideal)) (q : Fin 128) (hq : 256 + q.val < 512) :
    (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) ⟨256 + q.val, hq⟩) = bu (ix1 q) := by
  refine (shapeCast_apply (concatenate S512 0 [⟨S128, bq⟩, ⟨S128, br⟩, ⟨S128, bu⟩, ⟨S128, bv⟩] concatenates_S128_S128_S128_S128_S512_d0) shapeCasts_S512_S1x512
    (ix2 (0 : Fin 1) ⟨256 + q.val, hq⟩) (ix1 ⟨256 + q.val, hq⟩) ?_).trans ?_
  · rw [Shape.rowMajor_val_one, Shape.rowMajor_val_two]
    show 256 + q.val = 0 * 512 + (256 + q.val)
    omega
  · exact concatenate_apply_piece (t := S512) 0 [⟨S128, bq⟩, ⟨S128, br⟩, ⟨S128, bu⟩, ⟨S128, bv⟩]
      concatenates_S128_S128_S128_S128_S512_d0 (ix1 ⟨256 + q.val, hq⟩) 2 (by show 2 < 4; omega) S128 bu rfl rfl 256 (by rfl)
      (ix1 q) (fun b hb => match b with | ⟨0, _⟩ => absurd rfl hb) rfl

/-- Column `384 + q` of the side-by-side weights is column `q` of `Wv`. -/
theorem wcat_at_v (Wq Wr Wu Wv : (⟨S128x128, .f32⟩ : BufTy).Contents (Elt Ideal)) (k : Fin 128) (q : Fin 128) (hq : 384 + q.val < 512) :
    (concatenate S128x512 1 [⟨S128x128, Wq⟩, ⟨S128x128, Wr⟩, ⟨S128x128, Wu⟩, ⟨S128x128, Wv⟩] concatenates_S128x128_S128x128_S128x128_S128x128_S128x512_d1) (ix2 k ⟨384 + q.val, hq⟩) = Wv (ix2 k q) :=
  concatenate_apply_piece (t := S128x512) 1 [⟨S128x128, Wq⟩, ⟨S128x128, Wr⟩, ⟨S128x128, Wu⟩, ⟨S128x128, Wv⟩]
    concatenates_S128x128_S128x128_S128x128_S128x128_S128x512_d1 (ix2 k ⟨384 + q.val, hq⟩) 3 (by show 3 < 4; omega) S128x128 Wv rfl rfl 384 (by rfl)
    (ix2 k q) (fun b hb => match b with | ⟨0, _⟩ => rfl | ⟨1, _⟩ => absurd rfl hb) rfl

/-- Entry `384 + q` of the end-to-end bias row is entry `q` of `bv`. -/
theorem bcat_at_v (bq br bu bv : (⟨S128, .f32⟩ : BufTy).Contents (Elt Ideal)) (q : Fin 128) (hq : 384 + q.val < 512) :
    (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) ⟨384 + q.val, hq⟩) = bv (ix1 q) := by
  refine (shapeCast_apply (concatenate S512 0 [⟨S128, bq⟩, ⟨S128, br⟩, ⟨S128, bu⟩, ⟨S128, bv⟩] concatenates_S128_S128_S128_S128_S512_d0) shapeCasts_S512_S1x512
    (ix2 (0 : Fin 1) ⟨384 + q.val, hq⟩) (ix1 ⟨384 + q.val, hq⟩) ?_).trans ?_
  · rw [Shape.rowMajor_val_one, Shape.rowMajor_val_two]
    show 384 + q.val = 0 * 512 + (384 + q.val)
    omega
  · exact concatenate_apply_piece (t := S512) 0 [⟨S128, bq⟩, ⟨S128, br⟩, ⟨S128, bu⟩, ⟨S128, bv⟩]
      concatenates_S128_S128_S128_S128_S512_d0 (ix1 ⟨384 + q.val, hq⟩) 3 (by show 3 < 4; omega) S128 bv rfl rfl 384 (by rfl)
      (ix1 q) (fun b hb => match b with | ⟨0, _⟩ => absurd rfl hb) rfl

/-! ## One projection of the reference read at an index -/

/-- A projection of the reference, `feat · W + b` with the bias broadcast along the rows, at entry `(p, q)`. -/
theorem ref_proj_at (feat : (⟨S50000x128, .f32⟩ : BufTy).Contents (Elt Ideal)) (W : (⟨S128x128, .f32⟩ : BufTy).Contents (Elt Ideal))
    (b : (⟨S128, .f32⟩ : BufTy).Contents (Elt Ideal)) (p : Fin 50000) (q : Fin 128) :
    Cert.ReferenceIdeal.ReadP.val_main_v15 (F := Ideal) feat W b (ix2 p q)
      = (∑ k : Fin 128, feat (ix2 p k) * W (ix2 k q)) + b (ix1 q) := by
  rw [Cert.ReferenceIdeal.ReadP.val_main_v15_apply, Cert.ReferenceIdeal.ReadP.val_main_v12_apply,
    Cert.ReferenceIdeal.ReadP.val_main_v14_apply, Cert.ReferenceIdeal.ReadP.val_main_v13_apply, Ideal.addf_def]
  refine congrArg₂ (· + ·) (Finset.sum_congr rfl fun k _ => congrArg₂ (· * ·) (congrArg feat ?_) (congrArg W ?_)) (congrArg b ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-! ## The four column blocks -/

/-- Columns 0–127 of the single product are the reference's projection by `Wq`, `bq`. -/
theorem proj_q (feat : (⟨S50000x128, .f32⟩ : BufTy).Contents (Elt Ideal)) (Wq Wr Wu Wv : (⟨S128x128, .f32⟩ : BufTy).Contents (Elt Ideal)) (bq br bu bv : (⟨S128, .f32⟩ : BufTy).Contents (Elt Ideal))
    (Y : S50000x512.Idx → EReal)
    (hY : ∀ (p : Fin 50000) (q : Fin 512), Y (ix2 p q) =
      (∑ k : Fin 128, feat (ix2 p k) * (concatenate S128x512 1 [⟨S128x128, Wq⟩, ⟨S128x128, Wr⟩, ⟨S128x128, Wu⟩, ⟨S128x128, Wv⟩] concatenates_S128x128_S128x128_S128x128_S128x128_S128x512_d1) (ix2 k q))
        + (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) q)) :
    extractStridedSlice S50000x128 ![0, 0] Y slices_S50000x512_S50000x128_0_0
      = Cert.ReferenceIdeal.ReadP.val_main_v15 (F := Ideal) feat Wq bq := by
  funext i
  obtain ⟨p, q, rfl⟩ : ∃ (p : Fin 50000) (q : Fin 128), i = ix2 p q := ⟨i 0, i 1, eq_ix2 i⟩
  have hq : 0 + q.val < 512 := by have := q.isLt; omega
  refine (extractStridedSlice_apply ![0, 0] Y slices_S50000x512_S50000x128_0_0 (ix2 p q) (ix2 p ⟨0 + q.val, hq⟩)
    (fun a => match a with
      | ⟨0, _⟩ => by show p.val = 0 + p.val; omega
      | ⟨1, _⟩ => by show 0 + q.val = 0 + q.val; rfl)).trans ?_
  refine (hY p ⟨0 + q.val, hq⟩).trans ?_
  refine Eq.trans ?_ (ref_proj_at feat Wq bq p q).symm
  refine congrArg₂ (· + ·) (Finset.sum_congr rfl fun k _ => congrArg (feat (ix2 p k) * ·) ?_) ?_
  · exact wcat_at_q Wq Wr Wu Wv k q hq
  · exact bcat_at_q bq br bu bv q hq

/-- Columns 128–255 of the single product are the reference's projection by `Wr`, `br`. -/
theorem proj_r (feat : (⟨S50000x128, .f32⟩ : BufTy).Contents (Elt Ideal)) (Wq Wr Wu Wv : (⟨S128x128, .f32⟩ : BufTy).Contents (Elt Ideal)) (bq br bu bv : (⟨S128, .f32⟩ : BufTy).Contents (Elt Ideal))
    (Y : S50000x512.Idx → EReal)
    (hY : ∀ (p : Fin 50000) (q : Fin 512), Y (ix2 p q) =
      (∑ k : Fin 128, feat (ix2 p k) * (concatenate S128x512 1 [⟨S128x128, Wq⟩, ⟨S128x128, Wr⟩, ⟨S128x128, Wu⟩, ⟨S128x128, Wv⟩] concatenates_S128x128_S128x128_S128x128_S128x128_S128x512_d1) (ix2 k q))
        + (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) q)) :
    extractStridedSlice S50000x128 ![0, 128] Y slices_S50000x512_S50000x128_0_128
      = Cert.ReferenceIdeal.ReadP.val_main_v27 (F := Ideal) feat Wr br := by
  funext i
  obtain ⟨p, q, rfl⟩ : ∃ (p : Fin 50000) (q : Fin 128), i = ix2 p q := ⟨i 0, i 1, eq_ix2 i⟩
  have hq : 128 + q.val < 512 := by have := q.isLt; omega
  refine (extractStridedSlice_apply ![0, 128] Y slices_S50000x512_S50000x128_0_128 (ix2 p q) (ix2 p ⟨128 + q.val, hq⟩)
    (fun a => match a with
      | ⟨0, _⟩ => by show p.val = 0 + p.val; omega
      | ⟨1, _⟩ => by show 128 + q.val = 128 + q.val; rfl)).trans ?_
  refine (hY p ⟨128 + q.val, hq⟩).trans ?_
  refine Eq.trans ?_ (ref_proj_at feat Wr br p q).symm
  refine congrArg₂ (· + ·) (Finset.sum_congr rfl fun k _ => congrArg (feat (ix2 p k) * ·) ?_) ?_
  · exact wcat_at_r Wq Wr Wu Wv k q hq
  · exact bcat_at_r bq br bu bv q hq

/-- Columns 256–383 of the single product are the reference's projection by `Wu`, `bu`. -/
theorem proj_u (feat : (⟨S50000x128, .f32⟩ : BufTy).Contents (Elt Ideal)) (Wq Wr Wu Wv : (⟨S128x128, .f32⟩ : BufTy).Contents (Elt Ideal)) (bq br bu bv : (⟨S128, .f32⟩ : BufTy).Contents (Elt Ideal))
    (Y : S50000x512.Idx → EReal)
    (hY : ∀ (p : Fin 50000) (q : Fin 512), Y (ix2 p q) =
      (∑ k : Fin 128, feat (ix2 p k) * (concatenate S128x512 1 [⟨S128x128, Wq⟩, ⟨S128x128, Wr⟩, ⟨S128x128, Wu⟩, ⟨S128x128, Wv⟩] concatenates_S128x128_S128x128_S128x128_S128x128_S128x512_d1) (ix2 k q))
        + (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) q)) :
    extractStridedSlice S50000x128 ![0, 256] Y slices_S50000x512_S50000x128_0_256
      = Cert.ReferenceIdeal.ReadP.val_main_v60 (F := Ideal) feat Wu bu := by
  funext i
  obtain ⟨p, q, rfl⟩ : ∃ (p : Fin 50000) (q : Fin 128), i = ix2 p q := ⟨i 0, i 1, eq_ix2 i⟩
  have hq : 256 + q.val < 512 := by have := q.isLt; omega
  refine (extractStridedSlice_apply ![0, 256] Y slices_S50000x512_S50000x128_0_256 (ix2 p q) (ix2 p ⟨256 + q.val, hq⟩)
    (fun a => match a with
      | ⟨0, _⟩ => by show p.val = 0 + p.val; omega
      | ⟨1, _⟩ => by show 256 + q.val = 256 + q.val; rfl)).trans ?_
  refine (hY p ⟨256 + q.val, hq⟩).trans ?_
  refine Eq.trans ?_ (ref_proj_at feat Wu bu p q).symm
  refine congrArg₂ (· + ·) (Finset.sum_congr rfl fun k _ => congrArg (feat (ix2 p k) * ·) ?_) ?_
  · exact wcat_at_u Wq Wr Wu Wv k q hq
  · exact bcat_at_u bq br bu bv q hq

/-- Columns 384–511 of the single product are the reference's projection by `Wv`, `bv`. -/
theorem proj_v (feat : (⟨S50000x128, .f32⟩ : BufTy).Contents (Elt Ideal)) (Wq Wr Wu Wv : (⟨S128x128, .f32⟩ : BufTy).Contents (Elt Ideal)) (bq br bu bv : (⟨S128, .f32⟩ : BufTy).Contents (Elt Ideal))
    (Y : S50000x512.Idx → EReal)
    (hY : ∀ (p : Fin 50000) (q : Fin 512), Y (ix2 p q) =
      (∑ k : Fin 128, feat (ix2 p k) * (concatenate S128x512 1 [⟨S128x128, Wq⟩, ⟨S128x128, Wr⟩, ⟨S128x128, Wu⟩, ⟨S128x128, Wv⟩] concatenates_S128x128_S128x128_S128x128_S128x128_S128x512_d1) (ix2 k q))
        + (shapeCast S1x512 (concatenate S512 0 [⟨S128, bq⟩, ⟨S128, br⟩, ⟨S128, bu⟩, ⟨S128, bv⟩] concatenates_S128_S128_S128_S128_S512_d0) shapeCasts_S512_S1x512) (ix2 (0 : Fin 1) q)) :
    extractStridedSlice S50000x128 ![0, 384] Y slices_S50000x512_S50000x128_0_384
      = Cert.ReferenceIdeal.ReadP.val_main_v45 (F := Ideal) feat Wv bv := by
  funext i
  obtain ⟨p, q, rfl⟩ : ∃ (p : Fin 50000) (q : Fin 128), i = ix2 p q := ⟨i 0, i 1, eq_ix2 i⟩
  have hq : 384 + q.val < 512 := by have := q.isLt; omega
  refine (extractStridedSlice_apply ![0, 384] Y slices_S50000x512_S50000x128_0_384 (ix2 p q) (ix2 p ⟨384 + q.val, hq⟩)
    (fun a => match a with
      | ⟨0, _⟩ => by show p.val = 0 + p.val; omega
      | ⟨1, _⟩ => by show 384 + q.val = 384 + q.val; rfl)).trans ?_
  refine (hY p ⟨384 + q.val, hq⟩).trans ?_
  refine Eq.trans ?_ (ref_proj_at feat Wv bv p q).symm
  refine congrArg₂ (· + ·) (Finset.sum_congr rfl fun k _ => congrArg (feat (ix2 p k) * ·) ?_) ?_
  · exact wcat_at_v Wq Wr Wu Wv k q hq
  · exact bcat_at_v bq br bu bv q hq

end Cert.Bridge.Seed

end
-- ==== Proof.Br.SeedEdge.lean ====
import proofs.«174758_j6468220748546_1_alg».proof.Proof.Gen.KernelIdeal
import proofs.«174758_j6468220748546_1_alg».proof.Proof.RefRead
import Idealize.ShloMosaic.Lib.Pipeline.Value
import Idealize.ShloMosaic.Lib.ValueIdx

noncomputable section

namespace Cert.Bridge.Seed

open Cert.KernelIdeal Cert.KernelIdeal.Gen Idealize.ShloMosaic Idealize.ShloMosaic.ValueIdx

/-! # The two edge projections

The kernel computes `nme = noise · We + be` and `ep = nme · Wp + bp` block by block, with the bias vectors reshaped
to one row; the reference computes the same two products with the biases broadcast along the rows. Entry by entry the
two are the same sums: the only thing to read is the reshape of a bias vector to a row.

## A bias vector as a row -/

/-- A 128-vector reshaped to a 1 × 128 row, read at column `q`. -/
theorem row_at (b : (⟨S128, .f32⟩ : BufTy).Contents (Elt Ideal)) (q : Fin 128) :
    (shapeCast S1x128 b shapeCasts_S128_S1x128) (ix2 (0 : Fin 1) q) = b (ix1 q) := by
  refine shapeCast_apply b shapeCasts_S128_S1x128 (ix2 (0 : Fin 1) q) (ix1 q) ?_
  rw [Shape.rowMajor_val_one, Shape.rowMajor_val_two]
  show q.val = 0 * 128 + q.val
  omega

/-! ## The reference's first projection read at an index -/

/-- `noise · We + be` of the reference at entry `(p, q)`. -/
theorem ref_nme_at (noise : (⟨S400000x64, .f32⟩ : BufTy).Contents (Elt Ideal)) (We : (⟨S64x128, .f32⟩ : BufTy).Contents (Elt Ideal)) (be : (⟨S128, .f32⟩ : BufTy).Contents (Elt Ideal)) (p : Fin 400000) (q : Fin 128) :
    Cert.ReferenceIdeal.ReadP.val_main_v7 (F := Ideal) noise We be (ix2 p q)
      = (∑ l : Fin 64, noise (ix2 p l) * We (ix2 l q)) + be (ix1 q) := by
  rw [Cert.ReferenceIdeal.ReadP.val_main_v7_apply, Cert.ReferenceIdeal.ReadP.val_main_v4_apply,
    Cert.ReferenceIdeal.ReadP.val_main_v6_apply, Cert.ReferenceIdeal.ReadP.val_main_v5_apply, Ideal.addf_def]
  refine congrArg₂ (· + ·) (Finset.sum_congr rfl fun l _ => congrArg₂ (· * ·) (congrArg noise ?_) (congrArg We ?_)) (congrArg be ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-! ## The two results -/

/-- The first projection: an array with the kernel's entries is the reference's `noise · We + be`. -/
theorem edge_nme (noise : (⟨S400000x64, .f32⟩ : BufTy).Contents (Elt Ideal)) (We : (⟨S64x128, .f32⟩ : BufTy).Contents (Elt Ideal)) (be : (⟨S128, .f32⟩ : BufTy).Contents (Elt Ideal))
    (Y : S400000x128.Idx → EReal)
    (hY : ∀ (p : Fin 400000) (q : Fin 128), Y (ix2 p q) =
      (∑ l : Fin 64, noise (ix2 p l) * We (ix2 l q)) + (shapeCast S1x128 be shapeCasts_S128_S1x128) (ix2 (0 : Fin 1) q)) :
    Y = Cert.ReferenceIdeal.ReadP.val_main_v7 (F := Ideal) noise We be := by
  funext i
  obtain ⟨p, q, rfl⟩ : ∃ (p : Fin 400000) (q : Fin 128), i = ix2 p q := ⟨i 0, i 1, eq_ix2 i⟩
  refine (hY p q).trans ?_
  refine Eq.trans ?_ (ref_nme_at noise We be p q).symm
  exact congrArg ((∑ l : Fin 64, noise (ix2 p l) * We (ix2 l q)) + ·) (row_at be q)

/-- The second projection: an array with the kernel's entries — the first projection recomputed inside the sum — is
    the reference's `(noise · We + be) · Wp + bp`. -/
theorem edge_ep (noise : (⟨S400000x64, .f32⟩ : BufTy).Contents (Elt Ideal)) (We : (⟨S64x128, .f32⟩ : BufTy).Contents (Elt Ideal)) (be : (⟨S128, .f32⟩ : BufTy).Contents (Elt Ideal)) (Wp : (⟨S128x128, .f32⟩ : BufTy).Contents (Elt Ideal)) (bp : (⟨S128, .f32⟩ : BufTy).Contents (Elt Ideal))
    (Z : S400000x128.Idx → EReal)
    (hZ : ∀ (p : Fin 400000) (q : Fin 128), Z (ix2 p q) =
      (∑ k : Fin 128, ((∑ l : Fin 64, noise (ix2 p l) * We (ix2 l k)) + (shapeCast S1x128 be shapeCasts_S128_S1x128) (ix2 (0 : Fin 1) k)) * Wp (ix2 k q))
        + (shapeCast S1x128 bp shapeCasts_S128_S1x128) (ix2 (0 : Fin 1) q)) :
    Z = Cert.ReferenceIdeal.ReadP.val_main_v11 (F := Ideal) noise We be Wp bp := by
  funext i
  obtain ⟨p, q, rfl⟩ : ∃ (p : Fin 400000) (q : Fin 128), i = ix2 p q := ⟨i 0, i 1, eq_ix2 i⟩
  refine (hZ p q).trans ?_
  rw [Cert.ReferenceIdeal.ReadP.val_main_v11_apply, Cert.ReferenceIdeal.ReadP.val_main_v8_apply,
    Cert.ReferenceIdeal.ReadP.val_main_v10_apply, Cert.ReferenceIdeal.ReadP.val_main_v9_apply, Ideal.addf_def]
  refine congrArg₂ (· + ·) (Finset.sum_congr rfl fun k _ => congrArg₂ (· * ·) ?_ (congrArg Wp ?_)) ?_
  · have e : Cert.ReferenceIdeal.ReadP.lidx_main_v8 (ix2 p q) k = ix2 p k := funext fun a => Fin.ext (by match a with | ⟨0, _⟩ => rfl | ⟨1, _⟩ => rfl)
    rw [e, ref_nme_at noise We be p k, row_at be k]
  · exact funext fun a => Fin.ext (by match a with | ⟨0, _⟩ => rfl | ⟨1, _⟩ => rfl)
  · exact (row_at bp q).trans (congrArg bp (funext fun a => Fin.ext (by match a with | ⟨0, _⟩ => rfl)))

end Cert.Bridge.Seed

end
-- ==== Proof.Br.SeedGate.lean ====
/-
  The third region's two results against the reference's stages, as whole arrays: the sum of the edge projection and the
  two gathered node projections IS the reference's pre-activation (the same two additions in the same order), and the
  gathered value projection times the logistic function of it is the reference's gated value, the reference spelling
  the logistic function as 1 / (1 + e^(-x)).
-/
import proofs.«174758_j6468220748546_1_alg».proof.Proof.RefRead
import proofs.«174758_j6468220748546_1_alg».proof.Proof.LibEReal
import proofs.«174758_j6468220748546_1_alg».proof.Proof.Br.Consts

noncomputable section

namespace Cert.Bridge.Seed

open Idealize.ShloMosaic Cert.ReferenceIdeal Cert.ReferenceIdeal.Gen Cert.ReferenceIdeal.ReadP

/-- The pre-activation: (edge projection + source-node projection) + target-node projection. -/
theorem ehat_eq (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    (fun i => (val_main_v11 (F := Ideal) x2 x5 x6 x7 x8 i + val_main_v22 (F := Ideal) x0 x1 x9 x10 i) + val_main_v34 (F := Ideal) x0 x1 x11 x12 i)
      = val_main_v35 (F := Ideal) x0 x1 x2 x5 x6 x7 x8 x9 x10 x11 x12 := rfl

/-- The gated value: the gathered value projection times the logistic function of the pre-activation. -/
theorem gate_eq (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x15 : (⟨S128x128, .f32⟩ : BufTy).Contents (Elt Ideal)) (x16 : (⟨S128, .f32⟩ : BufTy).Contents (Elt Ideal)) :
    (fun i => val_main_v52 (F := Ideal) x0 x1 x15 x16 i * Ideal.logistic (val_main_v35 (F := Ideal) x0 x1 x2 x5 x6 x7 x8 x9 x10 x11 x12 i))
      = val_main_v53 (F := Ideal) x0 x1 x2 x5 x6 x7 x8 x9 x10 x11 x12 x15 x16 := by
  funext i
  rw [val_main_v53_apply, val_main_v41_apply, val_main_v39_apply, val_main_v37_apply, val_main_v36_apply,
    val_main_v40_apply, val_main_v38_apply, val_main_cst_3_apply, val_main_cst_apply]
  simp only [Ideal.mulf_def, Ideal.hostDivf_def, Ideal.addf_def, Ideal.hostUnary_exp_def, Ideal.hostNegf_def, Ideal.negf_def,
    Ideal.ofBits_def]
  rw [Laws.logistic_eq _ _ Consts.ofBits_one]

end Cert.Bridge.Seed

end
-- ==== Proof.Br.SeedTail.lean ====
/-
  The reference's last stage read entry by entry.  With `e` the rows of edge features the stage starts from, the
  reference computes, per row, the mean and the variance over the 128 lanes, divides each deviation by the square
  root of the variance plus a small constant, scales and shifts it lane-wise, applies  x ↦ x · (1 / (1 + exp (-x))),
  multiplies the row by the 128x128 output weight, and adds the noise projection and the output bias.  Each
  operation is read at an index; the index maps of the row sums, the lane broadcasts and the product are
  identified with the plain coordinates (row, lane), and what is left is the closed form `LN.outR`.
-/
import proofs.«174758_j6468220748546_1_alg».proof.Proof.RefRead
import proofs.«174758_j6468220748546_1_alg».proof.Proof.Br.LN
import Idealize.ShloMosaic.Lib.ValueIdx
import Idealize.ShloMosaic.PureOps.Ideal.Laws

noncomputable section

namespace Cert.Bridge.Seed

open Idealize.ShloMosaic Idealize.ShloMosaic.ValueIdx Cert.ReferenceIdeal Cert.ReferenceIdeal.Gen Cert.ReferenceIdeal.ReadP
open Cert.Bridge

section Tail

/-! ## The index maps, at plain coordinates -/

/-- A row sum's `k`-th summand sits at (row, k): through the column broadcast and the keep-dims broadcast. -/
theorem idx_sum1 (r : Fin 400000) (k k' : Fin 128) :
    idx_main_v179 (idx_main_v180 (idx_main_v183 (ix2 r k))) k' = ix2 r k' :=
  funext fun a => match a with | ⟨0, _⟩ => rfl | ⟨1, _⟩ => rfl
theorem idx_sum1' (r : Fin 400000) (k k' : Fin 128) :
    idx_main_v179 (idx_main_v180 (idx_main_v190 (ix2 r k))) k' = ix2 r k' :=
  funext fun a => match a with | ⟨0, _⟩ => rfl | ⟨1, _⟩ => rfl
theorem idx_sum2 (r : Fin 400000) (k k' : Fin 128) :
    idx_main_v186 (idx_main_v187 (idx_main_v195 (ix2 r k))) k' = ix2 r k' :=
  funext fun a => match a with | ⟨0, _⟩ => rfl | ⟨1, _⟩ => rfl
/-- A lane vector broadcast over the rows is read at the lane. -/
theorem idx_lane_w (r : Fin 400000) (k : Fin 128) : idx_main_v197 (idx_main_v198 (ix2 r k)) = ix1 k :=
  funext fun a => match a with | ⟨0, _⟩ => rfl
theorem idx_lane_b (r : Fin 400000) (k : Fin 128) : idx_main_v200 (idx_main_v201 (ix2 r k)) = ix1 k :=
  funext fun a => match a with | ⟨0, _⟩ => rfl
theorem idx_lane_o (r : Fin 400000) (j : Fin 128) : idx_main_v206 (idx_main_v207 (ix2 r j)) = ix1 j :=
  funext fun a => match a with | ⟨0, _⟩ => rfl
/-- The product's `k`-th summand: left factor at (row, k), right factor at (k, lane). -/
theorem idx_dot_l (r : Fin 400000) (j k : Fin 128) : lidx_main_v204 (ix2 r j) k = ix2 r k :=
  funext fun a => match a with | ⟨0, _⟩ => rfl | ⟨1, _⟩ => rfl
theorem idx_dot_r (r : Fin 400000) (j k : Fin 128) : ridx_main_v204 (ix2 r j) k = ix2 k j :=
  funext fun a => match a with | ⟨0, _⟩ => rfl | ⟨1, _⟩ => rfl

variable (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 : (⟨S16x128, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))

/-! ## The row statistics -/

/-- The broadcast row mean (first copy). -/
theorem mean_at (r : Fin 400000) (k : Fin 128) :
    val_main_v183 (F := Ideal) x0 x1 x2 x3 x4 x5 x6 x7 x8 x9 x10 x11 x12 x20 x21 x22 x23 x24 (ix2 r k) = LN.mu (fun r k => val_main_v177 (F := Ideal) x0 x1 x2 x3 x4 x5 x6 x7 x8 x9 x10 x11 x12 x20 x21 x22 x23 x24 (ix2 r k)) r := by
  rw [val_main_v183_apply, val_main_v182_apply, val_main_v180_apply, val_main_v179_apply, val_main_v181_apply,
    val_main_cst_32_apply, val_main_cst_31_apply]
  simp only [Ideal.hostDivf_def, Ideal.ofBits_def, Ideal.ofBits_zero_f32, zero_add]
  unfold LN.mu
  refine congrArg (fun s => Ideal.div s LN.c128) (Finset.sum_congr rfl fun k' _ => ?_)
  exact congrArg (val_main_v177 (F := Ideal) x0 x1 x2 x3 x4 x5 x6 x7 x8 x9 x10 x11 x12 x20 x21 x22 x23 x24) (idx_sum1 r k k')

/-- The broadcast row mean (second copy, the one the quotient uses). -/
theorem mean_at' (r : Fin 400000) (k : Fin 128) :
    val_main_v190 (F := Ideal) x0 x1 x2 x3 x4 x5 x6 x7 x8 x9 x10 x11 x12 x20 x21 x22 x23 x24 (ix2 r k) = LN.mu (fun r k => val_main_v177 (F := Ideal) x0 x1 x2 x3 x4 x5 x6 x7 x8 x9 x10 x11 x12 x20 x21 x22 x23 x24 (ix2 r k)) r := by
  rw [val_main_v190_apply, val_main_v182_apply, val_main_v180_apply, val_main_v179_apply, val_main_v181_apply,
    val_main_cst_32_apply, val_main_cst_31_apply]
  simp only [Ideal.hostDivf_def, Ideal.ofBits_def, Ideal.ofBits_zero_f32, zero_add]
  unfold LN.mu
  refine congrArg (fun s => Ideal.div s LN.c128) (Finset.sum_congr rfl fun k' _ => ?_)
  exact congrArg (val_main_v177 (F := Ideal) x0 x1 x2 x3 x4 x5 x6 x7 x8 x9 x10 x11 x12 x20 x21 x22 x23 x24) (idx_sum1' r k k')

/-- The deviation from the mean (the copy that is squared). -/
theorem dev_at (r : Fin 400000) (k : Fin 128) :
    val_main_v184 (F := Ideal) x0 x1 x2 x3 x4 x5 x6 x7 x8 x9 x10 x11 x12 x20 x21 x22 x23 x24 (ix2 r k) = LN.dev (fun r k => val_main_v177 (F := Ideal) x0 x1 x2 x3 x4 x5 x6 x7 x8 x9 x10 x11 x12 x20 x21 x22 x23 x24 (ix2 r k)) r k := by
  rw [val_main_v184_apply, mean_at]
  rfl

/-- The deviation from the mean (the copy that is divided). -/
theorem dev_at' (r : Fin 400000) (k : Fin 128) :
    val_main_v191 (F := Ideal) x0 x1 x2 x3 x4 x5 x6 x7 x8 x9 x10 x11 x12 x20 x21 x22 x23 x24 (ix2 r k) = LN.dev (fun r k => val_main_v177 (F := Ideal) x0 x1 x2 x3 x4 x5 x6 x7 x8 x9 x10 x11 x12 x20 x21 x22 x23 x24 (ix2 r k)) r k := by
  rw [val_main_v191_apply, mean_at']
  rfl

/-- The broadcast square root of the variance plus the offset. -/
theorem sd_at (r : Fin 400000) (k : Fin 128) :
    val_main_v195 (F := Ideal) x0 x1 x2 x3 x4 x5 x6 x7 x8 x9 x10 x11 x12 x20 x21 x22 x23 x24 (ix2 r k) = Ideal.sqrt (LN.var (fun r k => val_main_v177 (F := Ideal) x0 x1 x2 x3 x4 x5 x6 x7 x8 x9 x10 x11 x12 x20 x21 x22 x23 x24 (ix2 r k)) r + LN.eps) := by
  rw [val_main_v195_apply, val_main_v194_apply, val_main_v193_apply, val_main_v189_apply, val_main_v187_apply,
    val_main_v186_apply, val_main_v188_apply, val_main_cst_34_apply, val_main_v192_apply, val_main_cst_35_apply,
    val_main_cst_33_apply]
  simp only [Ideal.hostDivf_def, Ideal.hostUnary_sqrt_def, Ideal.addf_def, Ideal.ofBits_def, Ideal.ofBits_zero_f32, zero_add]
  unfold LN.var
  refine congrArg (fun s => Ideal.sqrt (Ideal.div s LN.c128 + LN.eps)) (Finset.sum_congr rfl fun k' _ => ?_)
  rw [idx_sum2 r k k', val_main_v185_apply, dev_at]
  rfl

/-- The normalised, scaled and shifted entry. -/
theorem ln_at (r : Fin 400000) (k : Fin 128) :
    val_main_v202 (F := Ideal) x0 x1 x2 x3 x4 x5 x6 x7 x8 x9 x10 x11 x12 x20 x21 x22 x23 x24 x25 x26 (ix2 r k) = LN.lnR (fun r k => val_main_v177 (F := Ideal) x0 x1 x2 x3 x4 x5 x6 x7 x8 x9 x10 x11 x12 x20 x21 x22 x23 x24 (ix2 r k)) (fun k => x25 (ix1 k)) (fun k => x26 (ix1 k)) r k := by
  rw [val_main_v202_apply, val_main_v199_apply, val_main_v196_apply, dev_at', sd_at, val_main_v198_apply, val_main_v197_apply,
    val_main_v201_apply, val_main_v200_apply, idx_lane_w, idx_lane_b]
  rfl

/-- The activated entry: x · (1 / (1 + exp (-x))). -/
theorem silu_at (r : Fin 400000) (k : Fin 128) :
    val_main_v203 (F := Ideal) x0 x1 x2 x3 x4 x5 x6 x7 x8 x9 x10 x11 x12 x20 x21 x22 x23 x24 x25 x26 (ix2 r k) =
      LN.lnR (fun r k => val_main_v177 (F := Ideal) x0 x1 x2 x3 x4 x5 x6 x7 x8 x9 x10 x11 x12 x20 x21 x22 x23 x24 (ix2 r k)) (fun k => x25 (ix1 k)) (fun k => x26 (ix1 k)) r k
        * Ideal.div LN.one (LN.one + Ideal.exp (-(LN.lnR (fun r k => val_main_v177 (F := Ideal) x0 x1 x2 x3 x4 x5 x6 x7 x8 x9 x10 x11 x12 x20 x21 x22 x23 x24 (ix2 r k)) (fun k => x25 (ix1 k)) (fun k => x26 (ix1 k)) r k))) := by
  rw [val_main_v203_apply, val_main_call3_v5_apply, val_main_call3_v4_apply, val_main_call3_cst_0_apply,
    val_main_call3_v3_apply, val_main_call3_v2_apply, val_main_call3_cst_apply, val_main_call3_v1_apply,
    val_main_call3_v0_apply, ln_at]
  rfl

end Tail

/-- The reference's result, entry (r, j): the closed form of the last stage over the edge rows, the layer-norm
    scale and shift, the output bias and weight, and the noise projection. -/
theorem tail_eq (x0 : (⟨S50000x128, .f32⟩ : BufTy).Contents (Elt Ideal)) (x1 : (⟨S2x400000, .i32⟩ : BufTy).Contents (Elt Ideal)) (x2 : (⟨S400000x64, .f32⟩ : BufTy).Contents (Elt Ideal)) (x3 : (⟨S16x128, .f32⟩ : BufTy).Contents (Elt Ideal)) (x4 : (⟨S50000, .i32⟩ : BufTy).Contents (Elt Ideal)) (x5 : (⟨S64x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal)) (r : Fin 400000) (j : Fin 128) :
    val_main_v208 (F := Ideal) x0 x1 x2 x3 x4 x5 x6 x7 x8 x9 x10 x11 x12 x20 x21 x22 x23 x24 x25 x26 x27 x28 (ix2 r j) =
      LN.outR (fun r k => val_main_v177 (F := Ideal) x0 x1 x2 x3 x4 x5 x6 x7 x8 x9 x10 x11 x12 x20 x21 x22 x23 x24 (ix2 r k)) (fun k => x25 (ix1 k)) (fun k => x26 (ix1 k)) (fun k => x28 (ix1 k)) (fun k j => x27 (ix2 k j)) (fun r j => val_main_v7 (F := Ideal) x2 x5 x6 (ix2 r j)) r j := by
  rw [val_main_v208_apply, val_main_v205_apply, val_main_v204_apply, val_main_v207_apply, val_main_v206_apply, idx_lane_o]
  unfold LN.outR
  simp only [Ideal.addf_def]
  refine congrArg (fun s => val_main_v7 (F := Ideal) x2 x5 x6 (ix2 r j) + s + x28 (ix1 j)) (Finset.sum_congr rfl fun k _ => ?_)
  rw [idx_dot_l, idx_dot_r, silu_at]

end Cert.Bridge.Seed

end
-- ==== Proof.Br.Cut.lean ====
/-
What the kernel's program holds, buffer by buffer, at each boundary between its segments (a stretch of host operations, or a
region), in terms of the launch contents of the arguments: an argument's buffer its launch contents; a buffer a region or a
stretch wrote, the reference's stage of the same arguments (the regions' results by the seed lemmas: the fused projection's
slices, the edge projections, the gate, the last stage; the stretches' by the operation-for-operation lemmas), or, for the few
buffers only a region reads (the concatenated weights, the reshaped biases), their own expression. Every other line carries a
buffer unchanged across a segment that does not write it. The last two lines are the two results.
-/
import proofs.«174758_j6468220748546_1_alg».proof.Proof.KI.Args
import proofs.«174758_j6468220748546_1_alg».proof.Proof.Val.Arr0
import proofs.«174758_j6468220748546_1_alg».proof.Proof.Val.Arr1
import proofs.«174758_j6468220748546_1_alg».proof.Proof.Val.Arr2
import proofs.«174758_j6468220748546_1_alg».proof.Proof.Val.Arr3
import proofs.«174758_j6468220748546_1_alg».proof.Proof.Br.H0
import proofs.«174758_j6468220748546_1_alg».proof.Proof.Br.H2
import proofs.«174758_j6468220748546_1_alg».proof.Proof.Br.H3a
import proofs.«174758_j6468220748546_1_alg».proof.Proof.Br.H3b
import proofs.«174758_j6468220748546_1_alg».proof.Proof.Br.H3c
import proofs.«174758_j6468220748546_1_alg».proof.Proof.Br.H31
import proofs.«174758_j6468220748546_1_alg».proof.Proof.Br.H32
import proofs.«174758_j6468220748546_1_alg».proof.Proof.Br.H33
import proofs.«174758_j6468220748546_1_alg».proof.Proof.Br.H34
import proofs.«174758_j6468220748546_1_alg».proof.Proof.Br.SeedProj
import proofs.«174758_j6468220748546_1_alg».proof.Proof.Br.SeedEdge
import proofs.«174758_j6468220748546_1_alg».proof.Proof.Br.SeedGate
import proofs.«174758_j6468220748546_1_alg».proof.Proof.Br.SeedTail
import proofs.«174758_j6468220748546_1_alg».proof.Proof.Br.LN
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Bridge.Cut

open Cert.KernelIdeal Cert.KernelIdeal.Gen Cert.KernelIdeal.Fr Cert.Bridge.Host
open Idealize.ShloMosaic Idealize.ShloMosaic.TcCoe Idealize.SL.Sem Idealize.ShloMosaic.StableHlo Idealize.ShloMosaic.ValueIdx

/-! ## The stretches' buffers that only a region reads, and the fused projection's slices, for any contents -/

section Raw
variable (V : Valuation τ sig (Elt Ideal))

theorem raw_v4 : StableHlo.after (hostOps0 (F := Ideal)) V (Proc.devRef .tc main_v4) = concatenate S128x512 1 [⟨S128x128, V (Proc.devRef .tc main_arg9)⟩, ⟨S128x128, V (Proc.devRef .tc main_arg11)⟩, ⟨S128x128, V (Proc.devRef .tc main_arg13)⟩, ⟨S128x128, V (Proc.devRef .tc main_arg15)⟩] concatenates_S128x128_S128x128_S128x128_S128x128_S128x512_d1 := by
  after_results <;> rfl
theorem raw_v6 : StableHlo.after (hostOps0 (F := Ideal)) V (Proc.devRef .tc main_v6) = shapeCast S1x512 (concatenate S512 0 [⟨S128, V (Proc.devRef .tc main_arg10)⟩, ⟨S128, V (Proc.devRef .tc main_arg12)⟩, ⟨S128, V (Proc.devRef .tc main_arg14)⟩, ⟨S128, V (Proc.devRef .tc main_arg16)⟩] concatenates_S128_S128_S128_S128_S512_d0) shapeCasts_S512_S1x512 := by
  after_results <;> rfl
theorem raw_v8 : StableHlo.after (hostOps1 (F := Ideal)) V (Proc.devRef .tc main_v8) = extractStridedSlice S50000x128 ![0, 0] (V (Proc.devRef .tc main_v7)) slices_S50000x512_S50000x128_0_0 := by
  after_results <;> rfl
theorem raw_v9 : StableHlo.after (hostOps1 (F := Ideal)) V (Proc.devRef .tc main_v9) = extractStridedSlice S50000x128 ![0, 128] (V (Proc.devRef .tc main_v7)) slices_S50000x512_S50000x128_0_128 := by
  after_results <;> rfl
theorem raw_v10 : StableHlo.after (hostOps1 (F := Ideal)) V (Proc.devRef .tc main_v10) = extractStridedSlice S50000x128 ![0, 256] (V (Proc.devRef .tc main_v7)) slices_S50000x512_S50000x128_0_256 := by
  after_results <;> rfl
theorem raw_v11 : StableHlo.after (hostOps1 (F := Ideal)) V (Proc.devRef .tc main_v11) = extractStridedSlice S50000x128 ![0, 384] (V (Proc.devRef .tc main_v7)) slices_S50000x512_S50000x128_0_384 := by
  after_results <;> rfl
theorem raw_v12 : StableHlo.after (hostOps1 (F := Ideal)) V (Proc.devRef .tc main_v12) = shapeCast S1x128 (V (Proc.devRef .tc main_arg6)) shapeCasts_S128_S1x128 := by
  after_results <;> rfl
theorem raw_v13 : StableHlo.after (hostOps1 (F := Ideal)) V (Proc.devRef .tc main_v13) = shapeCast S1x128 (V (Proc.devRef .tc main_arg8)) shapeCasts_S128_S1x128 := by
  after_results <;> rfl
theorem raw_v158 : StableHlo.after (hostOps3_4 (F := Ideal)) V (Proc.devRef .tc main_v158) = shapeCast S1x128 (V (Proc.devRef .tc main_arg25)) shapeCasts_S128_S1x128 := by
  after_results <;> rfl
theorem raw_v159 : StableHlo.after (hostOps3_4 (F := Ideal)) V (Proc.devRef .tc main_v159) = shapeCast S1x128 (V (Proc.devRef .tc main_arg26)) shapeCasts_S128_S1x128 := by
  after_results <;> rfl
theorem raw_v160 : StableHlo.after (hostOps3_4 (F := Ideal)) V (Proc.devRef .tc main_v160) = shapeCast S1x128 (V (Proc.devRef .tc main_arg28)) shapeCasts_S128_S1x128 := by
  after_results <;> rfl

end Raw

/-- A vector recast as a one-row matrix, read in that row. -/
theorem row_cast (x : (⟨S128, .f32⟩ : BufTy).Contents (Elt Ideal)) (k : Fin 128) :
    shapeCast S1x128 x shapeCasts_S128_S1x128 (ix2 (0 : Fin 1) k) = x (ix1 k) :=
  shapeCast_a_1a_apply x shapeCasts_S128_S1x128 (0 : Fin 1) k

variable (m : (ℓ : Loc nD τ sig) → Buf (Elt Ideal) ℓ) (ρ : Dev nD → PrngReg) (c : Dev nD)

/-! ## The arguments' launch contents, and the buffers only a region reads -/

abbrev A0 : (⟨S50000x128, .f32⟩ : BufTy).Contents (Elt Ideal) := m ((c : Thread nD τ).loc main_arg0)
abbrev A1 : (⟨S2x400000, .i32⟩ : BufTy).Contents (Elt Ideal) := m ((c : Thread nD τ).loc main_arg1)
abbrev A2 : (⟨S400000x64, .f32⟩ : BufTy).Contents (Elt Ideal) := m ((c : Thread nD τ).loc main_arg2)
abbrev A3 : (⟨S16x128, .f32⟩ : BufTy).Contents (Elt Ideal) := m ((c : Thread nD τ).loc main_arg3)
abbrev A4 : (⟨S50000, .i32⟩ : BufTy).Contents (Elt Ideal) := m ((c : Thread nD τ).loc main_arg4)
abbrev A5 : (⟨S64x128, .f32⟩ : BufTy).Contents (Elt Ideal) := m ((c : Thread nD τ).loc main_arg5)
abbrev A6 : (⟨S128, .f32⟩ : BufTy).Contents (Elt Ideal) := m ((c : Thread nD τ).loc main_arg6)
abbrev A7 : (⟨S128x128, .f32⟩ : BufTy).Contents (Elt Ideal) := m ((c : Thread nD τ).loc main_arg7)
abbrev A8 : (⟨S128, .f32⟩ : BufTy).Contents (Elt Ideal) := m ((c : Thread nD τ).loc main_arg8)
abbrev A9 : (⟨S128x128, .f32⟩ : BufTy).Contents (Elt Ideal) := m ((c : Thread nD τ).loc main_arg9)
abbrev A10 : (⟨S128, .f32⟩ : BufTy).Contents (Elt Ideal) := m ((c : Thread nD τ).loc main_arg10)
abbrev A11 : (⟨S128x128, .f32⟩ : BufTy).Contents (Elt Ideal) := m ((c : Thread nD τ).loc main_arg11)
abbrev A12 : (⟨S128, .f32⟩ : BufTy).Contents (Elt Ideal) := m ((c : Thread nD τ).loc main_arg12)
abbrev A13 : (⟨S128x128, .f32⟩ : BufTy).Contents (Elt Ideal) := m ((c : Thread nD τ).loc main_arg13)
abbrev A14 : (⟨S128, .f32⟩ : BufTy).Contents (Elt Ideal) := m ((c : Thread nD τ).loc main_arg14)
abbrev A15 : (⟨S128x128, .f32⟩ : BufTy).Contents (Elt Ideal) := m ((c : Thread nD τ).loc main_arg15)
abbrev A16 : (⟨S128, .f32⟩ : BufTy).Contents (Elt Ideal) := m ((c : Thread nD τ).loc main_arg16)
abbrev A17 : (⟨S128, .f32⟩ : BufTy).Contents (Elt Ideal) := m ((c : Thread nD τ).loc main_arg17)
abbrev A18 : (⟨S128, .f32⟩ : BufTy).Contents (Elt Ideal) := m ((c : Thread nD τ).loc main_arg18)
abbrev A19 : (⟨S128, .f32⟩ : BufTy).Contents (Elt Ideal) := m ((c : Thread nD τ).loc main_arg19)
abbrev A20 : (⟨S128, .f32⟩ : BufTy).Contents (Elt Ideal) := m ((c : Thread nD τ).loc main_arg20)
abbrev A21 : (⟨S128, .f32⟩ : BufTy).Contents (Elt Ideal) := m ((c : Thread nD τ).loc main_arg21)
abbrev A22 : (⟨S128, .f32⟩ : BufTy).Contents (Elt Ideal) := m ((c : Thread nD τ).loc main_arg22)
abbrev A23 : (⟨S128x128, .f32⟩ : BufTy).Contents (Elt Ideal) := m ((c : Thread nD τ).loc main_arg23)
abbrev A24 : (⟨S128, .f32⟩ : BufTy).Contents (Elt Ideal) := m ((c : Thread nD τ).loc main_arg24)
abbrev A25 : (⟨S128, .f32⟩ : BufTy).Contents (Elt Ideal) := m ((c : Thread nD τ).loc main_arg25)
abbrev A26 : (⟨S128, .f32⟩ : BufTy).Contents (Elt Ideal) := m ((c : Thread nD τ).loc main_arg26)
abbrev A27 : (⟨S128x128, .f32⟩ : BufTy).Contents (Elt Ideal) := m ((c : Thread nD τ).loc main_arg27)
abbrev A28 : (⟨S128, .f32⟩ : BufTy).Contents (Elt Ideal) := m ((c : Thread nD τ).loc main_arg28)
abbrev wcat : (⟨S128x512, .f32⟩ : BufTy).Contents (Elt Ideal) := concatenate S128x512 1 [⟨S128x128, A9 m c⟩, ⟨S128x128, A11 m c⟩, ⟨S128x128, A13 m c⟩, ⟨S128x128, A15 m c⟩] concatenates_S128x128_S128x128_S128x128_S128x128_S128x512_d1
abbrev bcat2 : (⟨S1x512, .f32⟩ : BufTy).Contents (Elt Ideal) := shapeCast S1x512 (concatenate S512 0 [⟨S128, A10 m c⟩, ⟨S128, A12 m c⟩, ⟨S128, A14 m c⟩, ⟨S128, A16 m c⟩] concatenates_S128_S128_S128_S128_S512_d0) shapeCasts_S512_S1x512
abbrev yproj : (⟨S50000x512, .f32⟩ : BufTy).Contents (Elt Ideal) := Cert.KernelIdeal.Val.G0_3 (A0 m c) (wcat m c) (bcat2 m c)
abbrev be2 : (⟨S1x128, .f32⟩ : BufTy).Contents (Elt Ideal) := shapeCast S1x128 (A6 m c) shapeCasts_S128_S1x128
abbrev bp2 : (⟨S1x128, .f32⟩ : BufTy).Contents (Elt Ideal) := shapeCast S1x128 (A8 m c) shapeCasts_S128_S1x128
abbrev lnw2 : (⟨S1x128, .f32⟩ : BufTy).Contents (Elt Ideal) := shapeCast S1x128 (A25 m c) shapeCasts_S128_S1x128
abbrev lnb2 : (⟨S1x128, .f32⟩ : BufTy).Contents (Elt Ideal) := shapeCast S1x128 (A26 m c) shapeCasts_S128_S1x128
abbrev bo2 : (⟨S1x128, .f32⟩ : BufTy).Contents (Elt Ideal) := shapeCast S1x128 (A28 m c) shapeCasts_S128_S1x128

/-! ## Boundary by boundary -/

/-! ### At launch -/

theorem rd_0_main_arg0 : W0 m ρ c (Proc.devRef .tc main_arg0) = (A0 m c) :=
  rfl
theorem rd_0_main_arg1 : W0 m ρ c (Proc.devRef .tc main_arg1) = (A1 m c) :=
  rfl
theorem rd_0_main_arg10 : W0 m ρ c (Proc.devRef .tc main_arg10) = (A10 m c) :=
  rfl
theorem rd_0_main_arg11 : W0 m ρ c (Proc.devRef .tc main_arg11) = (A11 m c) :=
  rfl
theorem rd_0_main_arg12 : W0 m ρ c (Proc.devRef .tc main_arg12) = (A12 m c) :=
  rfl
theorem rd_0_main_arg13 : W0 m ρ c (Proc.devRef .tc main_arg13) = (A13 m c) :=
  rfl
theorem rd_0_main_arg14 : W0 m ρ c (Proc.devRef .tc main_arg14) = (A14 m c) :=
  rfl
theorem rd_0_main_arg15 : W0 m ρ c (Proc.devRef .tc main_arg15) = (A15 m c) :=
  rfl
theorem rd_0_main_arg16 : W0 m ρ c (Proc.devRef .tc main_arg16) = (A16 m c) :=
  rfl
theorem rd_0_main_arg17 : W0 m ρ c (Proc.devRef .tc main_arg17) = (A17 m c) :=
  rfl
theorem rd_0_main_arg18 : W0 m ρ c (Proc.devRef .tc main_arg18) = (A18 m c) :=
  rfl
theorem rd_0_main_arg19 : W0 m ρ c (Proc.devRef .tc main_arg19) = (A19 m c) :=
  rfl
theorem rd_0_main_arg2 : W0 m ρ c (Proc.devRef .tc main_arg2) = (A2 m c) :=
  rfl
theorem rd_0_main_arg20 : W0 m ρ c (Proc.devRef .tc main_arg20) = (A20 m c) :=
  rfl
theorem rd_0_main_arg21 : W0 m ρ c (Proc.devRef .tc main_arg21) = (A21 m c) :=
  rfl
theorem rd_0_main_arg22 : W0 m ρ c (Proc.devRef .tc main_arg22) = (A22 m c) :=
  rfl
theorem rd_0_main_arg23 : W0 m ρ c (Proc.devRef .tc main_arg23) = (A23 m c) :=
  rfl
theorem rd_0_main_arg24 : W0 m ρ c (Proc.devRef .tc main_arg24) = (A24 m c) :=
  rfl
theorem rd_0_main_arg25 : W0 m ρ c (Proc.devRef .tc main_arg25) = (A25 m c) :=
  rfl
theorem rd_0_main_arg26 : W0 m ρ c (Proc.devRef .tc main_arg26) = (A26 m c) :=
  rfl
theorem rd_0_main_arg27 : W0 m ρ c (Proc.devRef .tc main_arg27) = (A27 m c) :=
  rfl
theorem rd_0_main_arg28 : W0 m ρ c (Proc.devRef .tc main_arg28) = (A28 m c) :=
  rfl
theorem rd_0_main_arg3 : W0 m ρ c (Proc.devRef .tc main_arg3) = (A3 m c) :=
  rfl
theorem rd_0_main_arg4 : W0 m ρ c (Proc.devRef .tc main_arg4) = (A4 m c) :=
  rfl
theorem rd_0_main_arg5 : W0 m ρ c (Proc.devRef .tc main_arg5) = (A5 m c) :=
  rfl
theorem rd_0_main_arg6 : W0 m ρ c (Proc.devRef .tc main_arg6) = (A6 m c) :=
  rfl
theorem rd_0_main_arg7 : W0 m ρ c (Proc.devRef .tc main_arg7) = (A7 m c) :=
  rfl
theorem rd_0_main_arg8 : W0 m ρ c (Proc.devRef .tc main_arg8) = (A8 m c) :=
  rfl
theorem rd_0_main_arg9 : W0 m ρ c (Proc.devRef .tc main_arg9) = (A9 m c) :=
  rfl

/-! ### After hostOps0 -/

theorem rd_1_main_arg0 : W1 m ρ c (Proc.devRef .tc main_arg0) = (A0 m c) :=
  (after_of_writes_eq hostOps0 _ hostOps0_writes (by decide)).trans (rd_0_main_arg0 m ρ c)
theorem rd_1_main_arg17 : W1 m ρ c (Proc.devRef .tc main_arg17) = (A17 m c) :=
  (after_of_writes_eq hostOps0 _ hostOps0_writes (by decide)).trans (rd_0_main_arg17 m ρ c)
theorem rd_1_main_arg18 : W1 m ρ c (Proc.devRef .tc main_arg18) = (A18 m c) :=
  (after_of_writes_eq hostOps0 _ hostOps0_writes (by decide)).trans (rd_0_main_arg18 m ρ c)
theorem rd_1_main_arg19 : W1 m ρ c (Proc.devRef .tc main_arg19) = (A19 m c) :=
  (after_of_writes_eq hostOps0 _ hostOps0_writes (by decide)).trans (rd_0_main_arg19 m ρ c)
theorem rd_1_main_arg2 : W1 m ρ c (Proc.devRef .tc main_arg2) = (A2 m c) :=
  (after_of_writes_eq hostOps0 _ hostOps0_writes (by decide)).trans (rd_0_main_arg2 m ρ c)
theorem rd_1_main_arg20 : W1 m ρ c (Proc.devRef .tc main_arg20) = (A20 m c) :=
  (after_of_writes_eq hostOps0 _ hostOps0_writes (by decide)).trans (rd_0_main_arg20 m ρ c)
theorem rd_1_main_arg21 : W1 m ρ c (Proc.devRef .tc main_arg21) = (A21 m c) :=
  (after_of_writes_eq hostOps0 _ hostOps0_writes (by decide)).trans (rd_0_main_arg21 m ρ c)
theorem rd_1_main_arg22 : W1 m ρ c (Proc.devRef .tc main_arg22) = (A22 m c) :=
  (after_of_writes_eq hostOps0 _ hostOps0_writes (by decide)).trans (rd_0_main_arg22 m ρ c)
theorem rd_1_main_arg23 : W1 m ρ c (Proc.devRef .tc main_arg23) = (A23 m c) :=
  (after_of_writes_eq hostOps0 _ hostOps0_writes (by decide)).trans (rd_0_main_arg23 m ρ c)
theorem rd_1_main_arg24 : W1 m ρ c (Proc.devRef .tc main_arg24) = (A24 m c) :=
  (after_of_writes_eq hostOps0 _ hostOps0_writes (by decide)).trans (rd_0_main_arg24 m ρ c)
theorem rd_1_main_arg25 : W1 m ρ c (Proc.devRef .tc main_arg25) = (A25 m c) :=
  (after_of_writes_eq hostOps0 _ hostOps0_writes (by decide)).trans (rd_0_main_arg25 m ρ c)
theorem rd_1_main_arg26 : W1 m ρ c (Proc.devRef .tc main_arg26) = (A26 m c) :=
  (after_of_writes_eq hostOps0 _ hostOps0_writes (by decide)).trans (rd_0_main_arg26 m ρ c)
theorem rd_1_main_arg27 : W1 m ρ c (Proc.devRef .tc main_arg27) = (A27 m c) :=
  (after_of_writes_eq hostOps0 _ hostOps0_writes (by decide)).trans (rd_0_main_arg27 m ρ c)
theorem rd_1_main_arg28 : W1 m ρ c (Proc.devRef .tc main_arg28) = (A28 m c) :=
  (after_of_writes_eq hostOps0 _ hostOps0_writes (by decide)).trans (rd_0_main_arg28 m ρ c)
theorem rd_1_main_arg3 : W1 m ρ c (Proc.devRef .tc main_arg3) = (A3 m c) :=
  (after_of_writes_eq hostOps0 _ hostOps0_writes (by decide)).trans (rd_0_main_arg3 m ρ c)
theorem rd_1_main_arg4 : W1 m ρ c (Proc.devRef .tc main_arg4) = (A4 m c) :=
  (after_of_writes_eq hostOps0 _ hostOps0_writes (by decide)).trans (rd_0_main_arg4 m ρ c)
theorem rd_1_main_arg5 : W1 m ρ c (Proc.devRef .tc main_arg5) = (A5 m c) :=
  (after_of_writes_eq hostOps0 _ hostOps0_writes (by decide)).trans (rd_0_main_arg5 m ρ c)
theorem rd_1_main_arg6 : W1 m ρ c (Proc.devRef .tc main_arg6) = (A6 m c) :=
  (after_of_writes_eq hostOps0 _ hostOps0_writes (by decide)).trans (rd_0_main_arg6 m ρ c)
theorem rd_1_main_arg7 : W1 m ρ c (Proc.devRef .tc main_arg7) = (A7 m c) :=
  (after_of_writes_eq hostOps0 _ hostOps0_writes (by decide)).trans (rd_0_main_arg7 m ρ c)
theorem rd_1_main_arg8 : W1 m ρ c (Proc.devRef .tc main_arg8) = (A8 m c) :=
  (after_of_writes_eq hostOps0 _ hostOps0_writes (by decide)).trans (rd_0_main_arg8 m ρ c)
theorem rd_1_main_v1 : W1 m ρ c (Proc.devRef .tc main_v1) = Cert.ReferenceIdeal.ReadP.val_main_v1 (F := Ideal) (A1 m c) :=
  hostOps0_main_v1 (W0 m ρ c) (A1 m c) (rd_0_main_arg1 m ρ c)
theorem rd_1_main_v3 : W1 m ρ c (Proc.devRef .tc main_v3) = Cert.ReferenceIdeal.ReadP.val_main_v3 (F := Ideal) (A1 m c) :=
  hostOps0_main_v3 (W0 m ρ c) (A1 m c) (rd_0_main_arg1 m ρ c)
theorem rd_1_main_v4 : W1 m ρ c (Proc.devRef .tc main_v4) = wcat m c :=
  (raw_v4 (W0 m ρ c)).trans (by rw [rd_0_main_arg9 m ρ c, rd_0_main_arg11 m ρ c, rd_0_main_arg13 m ρ c, rd_0_main_arg15 m ρ c])
theorem rd_1_main_v6 : W1 m ρ c (Proc.devRef .tc main_v6) = bcat2 m c :=
  (raw_v6 (W0 m ρ c)).trans (by rw [rd_0_main_arg10 m ρ c, rd_0_main_arg12 m ρ c, rd_0_main_arg14 m ρ c, rd_0_main_arg16 m ρ c])

/-! ### After R0 -/

theorem rd_2_main_arg0 : W2 m ρ c (Proc.devRef .tc main_arg0) = (A0 m c) :=
  ((W2_arr m ρ c 0).trans (((dat0 (V1 m ρ) c).arrAt_in 0 rfl _).trans (A_eq0 (V1 m ρ) c 0))).trans (rd_1_main_arg0 m ρ c)
theorem rd_2_main_arg17 : W2 m ρ c (Proc.devRef .tc main_arg17) = (A17 m c) :=
  (W2_of_ne m ρ c main_arg17 (by decide)).trans (rd_1_main_arg17 m ρ c)
theorem rd_2_main_arg18 : W2 m ρ c (Proc.devRef .tc main_arg18) = (A18 m c) :=
  (W2_of_ne m ρ c main_arg18 (by decide)).trans (rd_1_main_arg18 m ρ c)
theorem rd_2_main_arg19 : W2 m ρ c (Proc.devRef .tc main_arg19) = (A19 m c) :=
  (W2_of_ne m ρ c main_arg19 (by decide)).trans (rd_1_main_arg19 m ρ c)
theorem rd_2_main_arg2 : W2 m ρ c (Proc.devRef .tc main_arg2) = (A2 m c) :=
  (W2_of_ne m ρ c main_arg2 (by decide)).trans (rd_1_main_arg2 m ρ c)
theorem rd_2_main_arg20 : W2 m ρ c (Proc.devRef .tc main_arg20) = (A20 m c) :=
  (W2_of_ne m ρ c main_arg20 (by decide)).trans (rd_1_main_arg20 m ρ c)
theorem rd_2_main_arg21 : W2 m ρ c (Proc.devRef .tc main_arg21) = (A21 m c) :=
  (W2_of_ne m ρ c main_arg21 (by decide)).trans (rd_1_main_arg21 m ρ c)
theorem rd_2_main_arg22 : W2 m ρ c (Proc.devRef .tc main_arg22) = (A22 m c) :=
  (W2_of_ne m ρ c main_arg22 (by decide)).trans (rd_1_main_arg22 m ρ c)
theorem rd_2_main_arg23 : W2 m ρ c (Proc.devRef .tc main_arg23) = (A23 m c) :=
  (W2_of_ne m ρ c main_arg23 (by decide)).trans (rd_1_main_arg23 m ρ c)
theorem rd_2_main_arg24 : W2 m ρ c (Proc.devRef .tc main_arg24) = (A24 m c) :=
  (W2_of_ne m ρ c main_arg24 (by decide)).trans (rd_1_main_arg24 m ρ c)
theorem rd_2_main_arg25 : W2 m ρ c (Proc.devRef .tc main_arg25) = (A25 m c) :=
  (W2_of_ne m ρ c main_arg25 (by decide)).trans (rd_1_main_arg25 m ρ c)
theorem rd_2_main_arg26 : W2 m ρ c (Proc.devRef .tc main_arg26) = (A26 m c) :=
  (W2_of_ne m ρ c main_arg26 (by decide)).trans (rd_1_main_arg26 m ρ c)
theorem rd_2_main_arg27 : W2 m ρ c (Proc.devRef .tc main_arg27) = (A27 m c) :=
  (W2_of_ne m ρ c main_arg27 (by decide)).trans (rd_1_main_arg27 m ρ c)
theorem rd_2_main_arg28 : W2 m ρ c (Proc.devRef .tc main_arg28) = (A28 m c) :=
  (W2_of_ne m ρ c main_arg28 (by decide)).trans (rd_1_main_arg28 m ρ c)
theorem rd_2_main_arg3 : W2 m ρ c (Proc.devRef .tc main_arg3) = (A3 m c) :=
  (W2_of_ne m ρ c main_arg3 (by decide)).trans (rd_1_main_arg3 m ρ c)
theorem rd_2_main_arg4 : W2 m ρ c (Proc.devRef .tc main_arg4) = (A4 m c) :=
  (W2_of_ne m ρ c main_arg4 (by decide)).trans (rd_1_main_arg4 m ρ c)
theorem rd_2_main_arg5 : W2 m ρ c (Proc.devRef .tc main_arg5) = (A5 m c) :=
  (W2_of_ne m ρ c main_arg5 (by decide)).trans (rd_1_main_arg5 m ρ c)
theorem rd_2_main_arg6 : W2 m ρ c (Proc.devRef .tc main_arg6) = (A6 m c) :=
  (W2_of_ne m ρ c main_arg6 (by decide)).trans (rd_1_main_arg6 m ρ c)
theorem rd_2_main_arg7 : W2 m ρ c (Proc.devRef .tc main_arg7) = (A7 m c) :=
  (W2_of_ne m ρ c main_arg7 (by decide)).trans (rd_1_main_arg7 m ρ c)
theorem rd_2_main_arg8 : W2 m ρ c (Proc.devRef .tc main_arg8) = (A8 m c) :=
  (W2_of_ne m ρ c main_arg8 (by decide)).trans (rd_1_main_arg8 m ρ c)
theorem rd_2_main_v1 : W2 m ρ c (Proc.devRef .tc main_v1) = Cert.ReferenceIdeal.ReadP.val_main_v1 (F := Ideal) (A1 m c) :=
  (W2_of_ne m ρ c main_v1 (by decide)).trans (rd_1_main_v1 m ρ c)
theorem rd_2_main_v3 : W2 m ρ c (Proc.devRef .tc main_v3) = Cert.ReferenceIdeal.ReadP.val_main_v3 (F := Ideal) (A1 m c) :=
  (W2_of_ne m ρ c main_v3 (by decide)).trans (rd_1_main_v3 m ρ c)
theorem rd_2_main_v7 : W2 m ρ c (Proc.devRef .tc main_v7) = yproj m c :=
  (W2_arr m ρ c 3).trans ((Cert.KernelIdeal.Val.final0_3 (V1 m ρ) c).trans (by
    show Cert.KernelIdeal.Val.G0_3 (W1 m ρ c (Proc.devRef .tc main_arg0)) (W1 m ρ c (Proc.devRef .tc main_v4)) (W1 m ρ c (Proc.devRef .tc main_v6)) = _
    rw [rd_1_main_arg0 m ρ c, rd_1_main_v4 m ρ c, rd_1_main_v6 m ρ c]))

/-! ### After hostOps1 -/

theorem rd_3_main_arg0 : W3 m ρ c (Proc.devRef .tc main_arg0) = (A0 m c) :=
  (after_of_writes_eq hostOps1 _ hostOps1_writes (by decide)).trans (rd_2_main_arg0 m ρ c)
theorem rd_3_main_arg17 : W3 m ρ c (Proc.devRef .tc main_arg17) = (A17 m c) :=
  (after_of_writes_eq hostOps1 _ hostOps1_writes (by decide)).trans (rd_2_main_arg17 m ρ c)
theorem rd_3_main_arg18 : W3 m ρ c (Proc.devRef .tc main_arg18) = (A18 m c) :=
  (after_of_writes_eq hostOps1 _ hostOps1_writes (by decide)).trans (rd_2_main_arg18 m ρ c)
theorem rd_3_main_arg19 : W3 m ρ c (Proc.devRef .tc main_arg19) = (A19 m c) :=
  (after_of_writes_eq hostOps1 _ hostOps1_writes (by decide)).trans (rd_2_main_arg19 m ρ c)
theorem rd_3_main_arg2 : W3 m ρ c (Proc.devRef .tc main_arg2) = (A2 m c) :=
  (after_of_writes_eq hostOps1 _ hostOps1_writes (by decide)).trans (rd_2_main_arg2 m ρ c)
theorem rd_3_main_arg20 : W3 m ρ c (Proc.devRef .tc main_arg20) = (A20 m c) :=
  (after_of_writes_eq hostOps1 _ hostOps1_writes (by decide)).trans (rd_2_main_arg20 m ρ c)
theorem rd_3_main_arg21 : W3 m ρ c (Proc.devRef .tc main_arg21) = (A21 m c) :=
  (after_of_writes_eq hostOps1 _ hostOps1_writes (by decide)).trans (rd_2_main_arg21 m ρ c)
theorem rd_3_main_arg22 : W3 m ρ c (Proc.devRef .tc main_arg22) = (A22 m c) :=
  (after_of_writes_eq hostOps1 _ hostOps1_writes (by decide)).trans (rd_2_main_arg22 m ρ c)
theorem rd_3_main_arg23 : W3 m ρ c (Proc.devRef .tc main_arg23) = (A23 m c) :=
  (after_of_writes_eq hostOps1 _ hostOps1_writes (by decide)).trans (rd_2_main_arg23 m ρ c)
theorem rd_3_main_arg24 : W3 m ρ c (Proc.devRef .tc main_arg24) = (A24 m c) :=
  (after_of_writes_eq hostOps1 _ hostOps1_writes (by decide)).trans (rd_2_main_arg24 m ρ c)
theorem rd_3_main_arg25 : W3 m ρ c (Proc.devRef .tc main_arg25) = (A25 m c) :=
  (after_of_writes_eq hostOps1 _ hostOps1_writes (by decide)).trans (rd_2_main_arg25 m ρ c)
theorem rd_3_main_arg26 : W3 m ρ c (Proc.devRef .tc main_arg26) = (A26 m c) :=
  (after_of_writes_eq hostOps1 _ hostOps1_writes (by decide)).trans (rd_2_main_arg26 m ρ c)
theorem rd_3_main_arg27 : W3 m ρ c (Proc.devRef .tc main_arg27) = (A27 m c) :=
  (after_of_writes_eq hostOps1 _ hostOps1_writes (by decide)).trans (rd_2_main_arg27 m ρ c)
theorem rd_3_main_arg28 : W3 m ρ c (Proc.devRef .tc main_arg28) = (A28 m c) :=
  (after_of_writes_eq hostOps1 _ hostOps1_writes (by decide)).trans (rd_2_main_arg28 m ρ c)
theorem rd_3_main_arg3 : W3 m ρ c (Proc.devRef .tc main_arg3) = (A3 m c) :=
  (after_of_writes_eq hostOps1 _ hostOps1_writes (by decide)).trans (rd_2_main_arg3 m ρ c)
theorem rd_3_main_arg4 : W3 m ρ c (Proc.devRef .tc main_arg4) = (A4 m c) :=
  (after_of_writes_eq hostOps1 _ hostOps1_writes (by decide)).trans (rd_2_main_arg4 m ρ c)
theorem rd_3_main_arg5 : W3 m ρ c (Proc.devRef .tc main_arg5) = (A5 m c) :=
  (after_of_writes_eq hostOps1 _ hostOps1_writes (by decide)).trans (rd_2_main_arg5 m ρ c)
theorem rd_3_main_arg7 : W3 m ρ c (Proc.devRef .tc main_arg7) = (A7 m c) :=
  (after_of_writes_eq hostOps1 _ hostOps1_writes (by decide)).trans (rd_2_main_arg7 m ρ c)
theorem rd_3_main_v1 : W3 m ρ c (Proc.devRef .tc main_v1) = Cert.ReferenceIdeal.ReadP.val_main_v1 (F := Ideal) (A1 m c) :=
  (after_of_writes_eq hostOps1 _ hostOps1_writes (by decide)).trans (rd_2_main_v1 m ρ c)
theorem rd_3_main_v10 : W3 m ρ c (Proc.devRef .tc main_v10) = Cert.ReferenceIdeal.ReadP.val_main_v60 (F := Ideal) (A0 m c) (A13 m c) (A14 m c) :=
  (raw_v10 (W2 m ρ c)).trans (by
    rw [rd_2_main_v7 m ρ c]
    exact Cert.Bridge.Seed.proj_u (A0 m c) (A9 m c) (A11 m c) (A13 m c) (A15 m c) (A10 m c) (A12 m c) (A14 m c) (A16 m c) _ (fun p q => rfl))
theorem rd_3_main_v11 : W3 m ρ c (Proc.devRef .tc main_v11) = Cert.ReferenceIdeal.ReadP.val_main_v45 (F := Ideal) (A0 m c) (A15 m c) (A16 m c) :=
  (raw_v11 (W2 m ρ c)).trans (by
    rw [rd_2_main_v7 m ρ c]
    exact Cert.Bridge.Seed.proj_v (A0 m c) (A9 m c) (A11 m c) (A13 m c) (A15 m c) (A10 m c) (A12 m c) (A14 m c) (A16 m c) _ (fun p q => rfl))
theorem rd_3_main_v12 : W3 m ρ c (Proc.devRef .tc main_v12) = be2 m c :=
  (raw_v12 (W2 m ρ c)).trans (by rw [rd_2_main_arg6 m ρ c])
theorem rd_3_main_v13 : W3 m ρ c (Proc.devRef .tc main_v13) = bp2 m c :=
  (raw_v13 (W2 m ρ c)).trans (by rw [rd_2_main_arg8 m ρ c])
theorem rd_3_main_v3 : W3 m ρ c (Proc.devRef .tc main_v3) = Cert.ReferenceIdeal.ReadP.val_main_v3 (F := Ideal) (A1 m c) :=
  (after_of_writes_eq hostOps1 _ hostOps1_writes (by decide)).trans (rd_2_main_v3 m ρ c)
theorem rd_3_main_v8 : W3 m ρ c (Proc.devRef .tc main_v8) = Cert.ReferenceIdeal.ReadP.val_main_v15 (F := Ideal) (A0 m c) (A9 m c) (A10 m c) :=
  (raw_v8 (W2 m ρ c)).trans (by
    rw [rd_2_main_v7 m ρ c]
    exact Cert.Bridge.Seed.proj_q (A0 m c) (A9 m c) (A11 m c) (A13 m c) (A15 m c) (A10 m c) (A12 m c) (A14 m c) (A16 m c) _ (fun p q => rfl))
theorem rd_3_main_v9 : W3 m ρ c (Proc.devRef .tc main_v9) = Cert.ReferenceIdeal.ReadP.val_main_v27 (F := Ideal) (A0 m c) (A11 m c) (A12 m c) :=
  (raw_v9 (W2 m ρ c)).trans (by
    rw [rd_2_main_v7 m ρ c]
    exact Cert.Bridge.Seed.proj_r (A0 m c) (A9 m c) (A11 m c) (A13 m c) (A15 m c) (A10 m c) (A12 m c) (A14 m c) (A16 m c) _ (fun p q => rfl))

/-! ### After R1 -/

theorem rd_4_main_arg0 : W4 m ρ c (Proc.devRef .tc main_arg0) = (A0 m c) :=
  (W4_of_ne m ρ c main_arg0 (by decide)).trans (rd_3_main_arg0 m ρ c)
theorem rd_4_main_arg17 : W4 m ρ c (Proc.devRef .tc main_arg17) = (A17 m c) :=
  (W4_of_ne m ρ c main_arg17 (by decide)).trans (rd_3_main_arg17 m ρ c)
theorem rd_4_main_arg18 : W4 m ρ c (Proc.devRef .tc main_arg18) = (A18 m c) :=
  (W4_of_ne m ρ c main_arg18 (by decide)).trans (rd_3_main_arg18 m ρ c)
theorem rd_4_main_arg19 : W4 m ρ c (Proc.devRef .tc main_arg19) = (A19 m c) :=
  (W4_of_ne m ρ c main_arg19 (by decide)).trans (rd_3_main_arg19 m ρ c)
theorem rd_4_main_arg20 : W4 m ρ c (Proc.devRef .tc main_arg20) = (A20 m c) :=
  (W4_of_ne m ρ c main_arg20 (by decide)).trans (rd_3_main_arg20 m ρ c)
theorem rd_4_main_arg21 : W4 m ρ c (Proc.devRef .tc main_arg21) = (A21 m c) :=
  (W4_of_ne m ρ c main_arg21 (by decide)).trans (rd_3_main_arg21 m ρ c)
theorem rd_4_main_arg22 : W4 m ρ c (Proc.devRef .tc main_arg22) = (A22 m c) :=
  (W4_of_ne m ρ c main_arg22 (by decide)).trans (rd_3_main_arg22 m ρ c)
theorem rd_4_main_arg23 : W4 m ρ c (Proc.devRef .tc main_arg23) = (A23 m c) :=
  (W4_of_ne m ρ c main_arg23 (by decide)).trans (rd_3_main_arg23 m ρ c)
theorem rd_4_main_arg24 : W4 m ρ c (Proc.devRef .tc main_arg24) = (A24 m c) :=
  (W4_of_ne m ρ c main_arg24 (by decide)).trans (rd_3_main_arg24 m ρ c)
theorem rd_4_main_arg25 : W4 m ρ c (Proc.devRef .tc main_arg25) = (A25 m c) :=
  (W4_of_ne m ρ c main_arg25 (by decide)).trans (rd_3_main_arg25 m ρ c)
theorem rd_4_main_arg26 : W4 m ρ c (Proc.devRef .tc main_arg26) = (A26 m c) :=
  (W4_of_ne m ρ c main_arg26 (by decide)).trans (rd_3_main_arg26 m ρ c)
theorem rd_4_main_arg27 : W4 m ρ c (Proc.devRef .tc main_arg27) = (A27 m c) :=
  (W4_of_ne m ρ c main_arg27 (by decide)).trans (rd_3_main_arg27 m ρ c)
theorem rd_4_main_arg28 : W4 m ρ c (Proc.devRef .tc main_arg28) = (A28 m c) :=
  (W4_of_ne m ρ c main_arg28 (by decide)).trans (rd_3_main_arg28 m ρ c)
theorem rd_4_main_arg3 : W4 m ρ c (Proc.devRef .tc main_arg3) = (A3 m c) :=
  (W4_of_ne m ρ c main_arg3 (by decide)).trans (rd_3_main_arg3 m ρ c)
theorem rd_4_main_arg4 : W4 m ρ c (Proc.devRef .tc main_arg4) = (A4 m c) :=
  (W4_of_ne m ρ c main_arg4 (by decide)).trans (rd_3_main_arg4 m ρ c)
theorem rd_4_main_v1 : W4 m ρ c (Proc.devRef .tc main_v1) = Cert.ReferenceIdeal.ReadP.val_main_v1 (F := Ideal) (A1 m c) :=
  (W4_of_ne m ρ c main_v1 (by decide)).trans (rd_3_main_v1 m ρ c)
theorem rd_4_main_v10 : W4 m ρ c (Proc.devRef .tc main_v10) = Cert.ReferenceIdeal.ReadP.val_main_v60 (F := Ideal) (A0 m c) (A13 m c) (A14 m c) :=
  (W4_of_ne m ρ c main_v10 (by decide)).trans (rd_3_main_v10 m ρ c)
theorem rd_4_main_v11 : W4 m ρ c (Proc.devRef .tc main_v11) = Cert.ReferenceIdeal.ReadP.val_main_v45 (F := Ideal) (A0 m c) (A15 m c) (A16 m c) :=
  (W4_of_ne m ρ c main_v11 (by decide)).trans (rd_3_main_v11 m ρ c)
theorem rd_4_main_v14_0 : W4 m ρ c (Proc.devRef .tc main_v14_0) = Cert.ReferenceIdeal.ReadP.val_main_v7 (F := Ideal) (A2 m c) (A5 m c) (A6 m c) :=
  (W4_arr m ρ c 5).trans ((Cert.KernelIdeal.Val.final1_5 (V3 m ρ) c).trans (by
    show Cert.KernelIdeal.Val.G1_5 (W3 m ρ c (Proc.devRef .tc main_arg2)) (W3 m ρ c (Proc.devRef .tc main_arg5)) (W3 m ρ c (Proc.devRef .tc main_v12)) = _
    rw [rd_3_main_arg2 m ρ c, rd_3_main_arg5 m ρ c, rd_3_main_v12 m ρ c]
    exact Cert.Bridge.Seed.edge_nme (A2 m c) (A5 m c) (A6 m c) _ (fun p q => rfl)))
theorem rd_4_main_v14_1 : W4 m ρ c (Proc.devRef .tc main_v14_1) = Cert.ReferenceIdeal.ReadP.val_main_v11 (F := Ideal) (A2 m c) (A5 m c) (A6 m c) (A7 m c) (A8 m c) :=
  (W4_arr m ρ c 6).trans ((Cert.KernelIdeal.Val.final1_6 (V3 m ρ) c).trans (by
    show Cert.KernelIdeal.Val.G1_6 (W3 m ρ c (Proc.devRef .tc main_arg2)) (W3 m ρ c (Proc.devRef .tc main_arg5)) (W3 m ρ c (Proc.devRef .tc main_v12)) (W3 m ρ c (Proc.devRef .tc main_arg7)) (W3 m ρ c (Proc.devRef .tc main_v13)) = _
    rw [rd_3_main_arg2 m ρ c, rd_3_main_arg5 m ρ c, rd_3_main_v12 m ρ c, rd_3_main_arg7 m ρ c, rd_3_main_v13 m ρ c]
    exact Cert.Bridge.Seed.edge_ep (A2 m c) (A5 m c) (A6 m c) (A7 m c) (A8 m c) _ (fun p q => rfl)))
theorem rd_4_main_v3 : W4 m ρ c (Proc.devRef .tc main_v3) = Cert.ReferenceIdeal.ReadP.val_main_v3 (F := Ideal) (A1 m c) :=
  (W4_of_ne m ρ c main_v3 (by decide)).trans (rd_3_main_v3 m ρ c)
theorem rd_4_main_v8 : W4 m ρ c (Proc.devRef .tc main_v8) = Cert.ReferenceIdeal.ReadP.val_main_v15 (F := Ideal) (A0 m c) (A9 m c) (A10 m c) :=
  (W4_of_ne m ρ c main_v8 (by decide)).trans (rd_3_main_v8 m ρ c)
theorem rd_4_main_v9 : W4 m ρ c (Proc.devRef .tc main_v9) = Cert.ReferenceIdeal.ReadP.val_main_v27 (F := Ideal) (A0 m c) (A11 m c) (A12 m c) :=
  (W4_of_ne m ρ c main_v9 (by decide)).trans (rd_3_main_v9 m ρ c)

/-! ### After hostOps2 -/

theorem rd_5_main_arg0 : W5 m ρ c (Proc.devRef .tc main_arg0) = (A0 m c) :=
  (after_of_writes_eq hostOps2 _ hostOps2_writes (by decide)).trans (rd_4_main_arg0 m ρ c)
theorem rd_5_main_arg17 : W5 m ρ c (Proc.devRef .tc main_arg17) = (A17 m c) :=
  (after_of_writes_eq hostOps2 _ hostOps2_writes (by decide)).trans (rd_4_main_arg17 m ρ c)
theorem rd_5_main_arg18 : W5 m ρ c (Proc.devRef .tc main_arg18) = (A18 m c) :=
  (after_of_writes_eq hostOps2 _ hostOps2_writes (by decide)).trans (rd_4_main_arg18 m ρ c)
theorem rd_5_main_arg19 : W5 m ρ c (Proc.devRef .tc main_arg19) = (A19 m c) :=
  (after_of_writes_eq hostOps2 _ hostOps2_writes (by decide)).trans (rd_4_main_arg19 m ρ c)
theorem rd_5_main_arg20 : W5 m ρ c (Proc.devRef .tc main_arg20) = (A20 m c) :=
  (after_of_writes_eq hostOps2 _ hostOps2_writes (by decide)).trans (rd_4_main_arg20 m ρ c)
theorem rd_5_main_arg21 : W5 m ρ c (Proc.devRef .tc main_arg21) = (A21 m c) :=
  (after_of_writes_eq hostOps2 _ hostOps2_writes (by decide)).trans (rd_4_main_arg21 m ρ c)
theorem rd_5_main_arg22 : W5 m ρ c (Proc.devRef .tc main_arg22) = (A22 m c) :=
  (after_of_writes_eq hostOps2 _ hostOps2_writes (by decide)).trans (rd_4_main_arg22 m ρ c)
theorem rd_5_main_arg23 : W5 m ρ c (Proc.devRef .tc main_arg23) = (A23 m c) :=
  (after_of_writes_eq hostOps2 _ hostOps2_writes (by decide)).trans (rd_4_main_arg23 m ρ c)
theorem rd_5_main_arg24 : W5 m ρ c (Proc.devRef .tc main_arg24) = (A24 m c) :=
  (after_of_writes_eq hostOps2 _ hostOps2_writes (by decide)).trans (rd_4_main_arg24 m ρ c)
theorem rd_5_main_arg25 : W5 m ρ c (Proc.devRef .tc main_arg25) = (A25 m c) :=
  (after_of_writes_eq hostOps2 _ hostOps2_writes (by decide)).trans (rd_4_main_arg25 m ρ c)
theorem rd_5_main_arg26 : W5 m ρ c (Proc.devRef .tc main_arg26) = (A26 m c) :=
  (after_of_writes_eq hostOps2 _ hostOps2_writes (by decide)).trans (rd_4_main_arg26 m ρ c)
theorem rd_5_main_arg27 : W5 m ρ c (Proc.devRef .tc main_arg27) = (A27 m c) :=
  (after_of_writes_eq hostOps2 _ hostOps2_writes (by decide)).trans (rd_4_main_arg27 m ρ c)
theorem rd_5_main_arg28 : W5 m ρ c (Proc.devRef .tc main_arg28) = (A28 m c) :=
  (after_of_writes_eq hostOps2 _ hostOps2_writes (by decide)).trans (rd_4_main_arg28 m ρ c)
theorem rd_5_main_arg3 : W5 m ρ c (Proc.devRef .tc main_arg3) = (A3 m c) :=
  (after_of_writes_eq hostOps2 _ hostOps2_writes (by decide)).trans (rd_4_main_arg3 m ρ c)
theorem rd_5_main_arg4 : W5 m ρ c (Proc.devRef .tc main_arg4) = (A4 m c) :=
  (after_of_writes_eq hostOps2 _ hostOps2_writes (by decide)).trans (rd_4_main_arg4 m ρ c)
theorem rd_5_main_v1 : W5 m ρ c (Proc.devRef .tc main_v1) = Cert.ReferenceIdeal.ReadP.val_main_v1 (F := Ideal) (A1 m c) :=
  (after_of_writes_eq hostOps2 _ hostOps2_writes (by decide)).trans (rd_4_main_v1 m ρ c)
theorem rd_5_main_v10 : W5 m ρ c (Proc.devRef .tc main_v10) = Cert.ReferenceIdeal.ReadP.val_main_v60 (F := Ideal) (A0 m c) (A13 m c) (A14 m c) :=
  (after_of_writes_eq hostOps2 _ hostOps2_writes (by decide)).trans (rd_4_main_v10 m ρ c)
theorem rd_5_main_v14_0 : W5 m ρ c (Proc.devRef .tc main_v14_0) = Cert.ReferenceIdeal.ReadP.val_main_v7 (F := Ideal) (A2 m c) (A5 m c) (A6 m c) :=
  (after_of_writes_eq hostOps2 _ hostOps2_writes (by decide)).trans (rd_4_main_v14_0 m ρ c)
theorem rd_5_main_v14_1 : W5 m ρ c (Proc.devRef .tc main_v14_1) = Cert.ReferenceIdeal.ReadP.val_main_v11 (F := Ideal) (A2 m c) (A5 m c) (A6 m c) (A7 m c) (A8 m c) :=
  (after_of_writes_eq hostOps2 _ hostOps2_writes (by decide)).trans (rd_4_main_v14_1 m ρ c)
theorem rd_5_main_v21 : W5 m ρ c (Proc.devRef .tc main_v21) = Cert.ReferenceIdeal.ReadP.val_main_v22 (F := Ideal) (A0 m c) (A1 m c) (A9 m c) (A10 m c) :=
  hostOps2_main_v21 (W4 m ρ c) (A0 m c) (A1 m c) (A9 m c) (A10 m c) (rd_4_main_v1 m ρ c) (rd_4_main_v8 m ρ c)
theorem rd_5_main_v28 : W5 m ρ c (Proc.devRef .tc main_v28) = Cert.ReferenceIdeal.ReadP.val_main_v34 (F := Ideal) (A0 m c) (A1 m c) (A11 m c) (A12 m c) :=
  hostOps2_main_v28 (W4 m ρ c) (A0 m c) (A1 m c) (A11 m c) (A12 m c) (rd_4_main_v3 m ρ c) (rd_4_main_v9 m ρ c)
theorem rd_5_main_v35 : W5 m ρ c (Proc.devRef .tc main_v35) = Cert.ReferenceIdeal.ReadP.val_main_v52 (F := Ideal) (A0 m c) (A1 m c) (A15 m c) (A16 m c) :=
  hostOps2_main_v35 (W4 m ρ c) (A0 m c) (A1 m c) (A15 m c) (A16 m c) (rd_4_main_v11 m ρ c) (rd_4_main_v3 m ρ c)

/-! ### After R2 -/

theorem rd_6_main_arg0 : W6 m ρ c (Proc.devRef .tc main_arg0) = (A0 m c) :=
  (W6_of_ne m ρ c main_arg0 (by decide)).trans (rd_5_main_arg0 m ρ c)
theorem rd_6_main_arg17 : W6 m ρ c (Proc.devRef .tc main_arg17) = (A17 m c) :=
  (W6_of_ne m ρ c main_arg17 (by decide)).trans (rd_5_main_arg17 m ρ c)
theorem rd_6_main_arg18 : W6 m ρ c (Proc.devRef .tc main_arg18) = (A18 m c) :=
  (W6_of_ne m ρ c main_arg18 (by decide)).trans (rd_5_main_arg18 m ρ c)
theorem rd_6_main_arg19 : W6 m ρ c (Proc.devRef .tc main_arg19) = (A19 m c) :=
  (W6_of_ne m ρ c main_arg19 (by decide)).trans (rd_5_main_arg19 m ρ c)
theorem rd_6_main_arg20 : W6 m ρ c (Proc.devRef .tc main_arg20) = (A20 m c) :=
  (W6_of_ne m ρ c main_arg20 (by decide)).trans (rd_5_main_arg20 m ρ c)
theorem rd_6_main_arg21 : W6 m ρ c (Proc.devRef .tc main_arg21) = (A21 m c) :=
  (W6_of_ne m ρ c main_arg21 (by decide)).trans (rd_5_main_arg21 m ρ c)
theorem rd_6_main_arg22 : W6 m ρ c (Proc.devRef .tc main_arg22) = (A22 m c) :=
  (W6_of_ne m ρ c main_arg22 (by decide)).trans (rd_5_main_arg22 m ρ c)
theorem rd_6_main_arg23 : W6 m ρ c (Proc.devRef .tc main_arg23) = (A23 m c) :=
  (W6_of_ne m ρ c main_arg23 (by decide)).trans (rd_5_main_arg23 m ρ c)
theorem rd_6_main_arg24 : W6 m ρ c (Proc.devRef .tc main_arg24) = (A24 m c) :=
  (W6_of_ne m ρ c main_arg24 (by decide)).trans (rd_5_main_arg24 m ρ c)
theorem rd_6_main_arg25 : W6 m ρ c (Proc.devRef .tc main_arg25) = (A25 m c) :=
  (W6_of_ne m ρ c main_arg25 (by decide)).trans (rd_5_main_arg25 m ρ c)
theorem rd_6_main_arg26 : W6 m ρ c (Proc.devRef .tc main_arg26) = (A26 m c) :=
  (W6_of_ne m ρ c main_arg26 (by decide)).trans (rd_5_main_arg26 m ρ c)
theorem rd_6_main_arg27 : W6 m ρ c (Proc.devRef .tc main_arg27) = (A27 m c) :=
  (W6_of_ne m ρ c main_arg27 (by decide)).trans (rd_5_main_arg27 m ρ c)
theorem rd_6_main_arg28 : W6 m ρ c (Proc.devRef .tc main_arg28) = (A28 m c) :=
  (W6_of_ne m ρ c main_arg28 (by decide)).trans (rd_5_main_arg28 m ρ c)
theorem rd_6_main_arg3 : W6 m ρ c (Proc.devRef .tc main_arg3) = (A3 m c) :=
  (W6_of_ne m ρ c main_arg3 (by decide)).trans (rd_5_main_arg3 m ρ c)
theorem rd_6_main_arg4 : W6 m ρ c (Proc.devRef .tc main_arg4) = (A4 m c) :=
  (W6_of_ne m ρ c main_arg4 (by decide)).trans (rd_5_main_arg4 m ρ c)
theorem rd_6_main_v1 : W6 m ρ c (Proc.devRef .tc main_v1) = Cert.ReferenceIdeal.ReadP.val_main_v1 (F := Ideal) (A1 m c) :=
  (W6_of_ne m ρ c main_v1 (by decide)).trans (rd_5_main_v1 m ρ c)
theorem rd_6_main_v10 : W6 m ρ c (Proc.devRef .tc main_v10) = Cert.ReferenceIdeal.ReadP.val_main_v60 (F := Ideal) (A0 m c) (A13 m c) (A14 m c) :=
  (W6_of_ne m ρ c main_v10 (by decide)).trans (rd_5_main_v10 m ρ c)
theorem rd_6_main_v14_0 : W6 m ρ c (Proc.devRef .tc main_v14_0) = Cert.ReferenceIdeal.ReadP.val_main_v7 (F := Ideal) (A2 m c) (A5 m c) (A6 m c) :=
  (W6_of_ne m ρ c main_v14_0 (by decide)).trans (rd_5_main_v14_0 m ρ c)
theorem rd_6_main_v36_0 : W6 m ρ c (Proc.devRef .tc main_v36_0) = Cert.ReferenceIdeal.ReadP.val_main_v35 (F := Ideal) (A0 m c) (A1 m c) (A2 m c) (A5 m c) (A6 m c) (A7 m c) (A8 m c) (A9 m c) (A10 m c) (A11 m c) (A12 m c) :=
  (W6_arr m ρ c 4).trans ((Cert.KernelIdeal.Val.final2_4 (V5 m ρ) c).trans (by
    have e0 : V5 m ρ c (Pipeline.arrRef spec2 0) = Cert.ReferenceIdeal.ReadP.val_main_v11 (F := Ideal) (A2 m c) (A5 m c) (A6 m c) (A7 m c) (A8 m c) := rd_5_main_v14_1 m ρ c
    have e1 : V5 m ρ c (Pipeline.arrRef spec2 1) = Cert.ReferenceIdeal.ReadP.val_main_v22 (F := Ideal) (A0 m c) (A1 m c) (A9 m c) (A10 m c) := rd_5_main_v21 m ρ c
    have e2 : V5 m ρ c (Pipeline.arrRef spec2 2) = Cert.ReferenceIdeal.ReadP.val_main_v34 (F := Ideal) (A0 m c) (A1 m c) (A11 m c) (A12 m c) := rd_5_main_v28 m ρ c
    rw [e0, e1, e2]
    exact Cert.Bridge.Seed.ehat_eq (A0 m c) (A1 m c) (A2 m c) (A5 m c) (A6 m c) (A7 m c) (A8 m c) (A9 m c) (A10 m c) (A11 m c) (A12 m c)))
theorem rd_6_main_v36_1 : W6 m ρ c (Proc.devRef .tc main_v36_1) = Cert.ReferenceIdeal.ReadP.val_main_v53 (F := Ideal) (A0 m c) (A1 m c) (A2 m c) (A5 m c) (A6 m c) (A7 m c) (A8 m c) (A9 m c) (A10 m c) (A11 m c) (A12 m c) (A15 m c) (A16 m c) :=
  (W6_arr m ρ c 5).trans ((Cert.KernelIdeal.Val.final2_5 (V5 m ρ) c).trans (by
    have e0 : V5 m ρ c (Pipeline.arrRef spec2 0) = Cert.ReferenceIdeal.ReadP.val_main_v11 (F := Ideal) (A2 m c) (A5 m c) (A6 m c) (A7 m c) (A8 m c) := rd_5_main_v14_1 m ρ c
    have e1 : V5 m ρ c (Pipeline.arrRef spec2 1) = Cert.ReferenceIdeal.ReadP.val_main_v22 (F := Ideal) (A0 m c) (A1 m c) (A9 m c) (A10 m c) := rd_5_main_v21 m ρ c
    have e2 : V5 m ρ c (Pipeline.arrRef spec2 2) = Cert.ReferenceIdeal.ReadP.val_main_v34 (F := Ideal) (A0 m c) (A1 m c) (A11 m c) (A12 m c) := rd_5_main_v28 m ρ c
    have e3 : V5 m ρ c (Pipeline.arrRef spec2 3) = Cert.ReferenceIdeal.ReadP.val_main_v52 (F := Ideal) (A0 m c) (A1 m c) (A15 m c) (A16 m c) := rd_5_main_v35 m ρ c
    rw [e0, e1, e2, e3]
    exact (congrArg (fun e => fun i => Cert.ReferenceIdeal.ReadP.val_main_v52 (F := Ideal) (A0 m c) (A1 m c) (A15 m c) (A16 m c) i * Ideal.logistic (e i)) (Cert.Bridge.Seed.ehat_eq (A0 m c) (A1 m c) (A2 m c) (A5 m c) (A6 m c) (A7 m c) (A8 m c) (A9 m c) (A10 m c) (A11 m c) (A12 m c))).trans (Cert.Bridge.Seed.gate_eq (A0 m c) (A1 m c) (A2 m c) (A5 m c) (A6 m c) (A7 m c) (A8 m c) (A9 m c) (A10 m c) (A11 m c) (A12 m c) (A15 m c) (A16 m c))))

/-! ### After hostOps3 -/

theorem rd_7_main_arg0 : W7 m ρ c (Proc.devRef .tc main_arg0) = (A0 m c) :=
  (after_of_writes_eq hostOps3 _ hostOps3_writes (by decide)).trans (rd_6_main_arg0 m ρ c)
theorem rd_7_main_arg23 : W7 m ρ c (Proc.devRef .tc main_arg23) = (A23 m c) :=
  (after_of_writes_eq hostOps3 _ hostOps3_writes (by decide)).trans (rd_6_main_arg23 m ρ c)
theorem rd_7_main_arg24 : W7 m ρ c (Proc.devRef .tc main_arg24) = (A24 m c) :=
  (after_of_writes_eq hostOps3 _ hostOps3_writes (by decide)).trans (rd_6_main_arg24 m ρ c)
theorem rd_7_main_arg25 : W7 m ρ c (Proc.devRef .tc main_arg25) = (A25 m c) :=
  (after_of_writes_eq hostOps3 _ hostOps3_writes (by decide)).trans (rd_6_main_arg25 m ρ c)
theorem rd_7_main_arg26 : W7 m ρ c (Proc.devRef .tc main_arg26) = (A26 m c) :=
  (after_of_writes_eq hostOps3 _ hostOps3_writes (by decide)).trans (rd_6_main_arg26 m ρ c)
theorem rd_7_main_arg27 : W7 m ρ c (Proc.devRef .tc main_arg27) = (A27 m c) :=
  (after_of_writes_eq hostOps3 _ hostOps3_writes (by decide)).trans (rd_6_main_arg27 m ρ c)
theorem rd_7_main_arg28 : W7 m ρ c (Proc.devRef .tc main_arg28) = (A28 m c) :=
  (after_of_writes_eq hostOps3 _ hostOps3_writes (by decide)).trans (rd_6_main_arg28 m ρ c)
theorem rd_7_main_arg3 : W7 m ρ c (Proc.devRef .tc main_arg3) = (A3 m c) :=
  (after_of_writes_eq hostOps3 _ hostOps3_writes (by decide)).trans (rd_6_main_arg3 m ρ c)
theorem rd_7_main_v141 : W7 m ρ c (Proc.devRef .tc main_v141) = Cert.ReferenceIdeal.ReadP.val_main_v162 (F := Ideal) (A0 m c) (A1 m c) (A2 m c) (A4 m c) (A5 m c) (A6 m c) (A7 m c) (A8 m c) (A9 m c) (A10 m c) (A11 m c) (A12 m c) (A20 m c) (A21 m c) (A22 m c) :=
  hostOps3_main_v141 (W6 m ρ c) (A0 m c) (A1 m c) (A2 m c) (A4 m c) (A5 m c) (A6 m c) (A7 m c) (A8 m c) (A9 m c) (A10 m c) (A11 m c) (A12 m c) (A20 m c) (A21 m c) (A22 m c) (rd_6_main_arg20 m ρ c) (rd_6_main_arg21 m ρ c) (rd_6_main_arg22 m ρ c) (rd_6_main_arg4 m ρ c) (rd_6_main_v1 m ρ c) (rd_6_main_v36_0 m ρ c)
theorem rd_7_main_v14_0 : W7 m ρ c (Proc.devRef .tc main_v14_0) = Cert.ReferenceIdeal.ReadP.val_main_v7 (F := Ideal) (A2 m c) (A5 m c) (A6 m c) :=
  (after_of_writes_eq hostOps3 _ hostOps3_writes (by decide)).trans (rd_6_main_v14_0 m ρ c)
theorem rd_7_main_v47 : W7 m ρ c (Proc.devRef .tc main_v47) = Cert.ReferenceIdeal.ReadP.val_main_v115 (F := Ideal) (A1 m c) (A4 m c) :=
  hostOps3_main_v47 (W6 m ρ c) (A1 m c) (A4 m c) (rd_6_main_arg4 m ρ c) (rd_6_main_v1 m ρ c)
theorem rd_7_main_v94 : W7 m ρ c (Proc.devRef .tc main_v94) = Cert.ReferenceIdeal.ReadP.val_main_v108 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  hostOps3_main_v94 (W6 m ρ c) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) (rd_6_main_arg17 m ρ c) (rd_6_main_arg18 m ρ c) (rd_6_main_arg19 m ρ c) (rd_6_main_arg4 m ρ c) (rd_6_main_v1 m ρ c) (rd_6_main_v10 m ρ c) (rd_6_main_v36_1 m ρ c)

/-! ### After hostOps3_1 -/

theorem rd_8_main_arg0 : W8 m ρ c (Proc.devRef .tc main_arg0) = (A0 m c) :=
  (after_of_writes_eq hostOps3_1 _ hostOps3_1_writes (by decide)).trans (rd_7_main_arg0 m ρ c)
theorem rd_8_main_arg23 : W8 m ρ c (Proc.devRef .tc main_arg23) = (A23 m c) :=
  (after_of_writes_eq hostOps3_1 _ hostOps3_1_writes (by decide)).trans (rd_7_main_arg23 m ρ c)
theorem rd_8_main_arg24 : W8 m ρ c (Proc.devRef .tc main_arg24) = (A24 m c) :=
  (after_of_writes_eq hostOps3_1 _ hostOps3_1_writes (by decide)).trans (rd_7_main_arg24 m ρ c)
theorem rd_8_main_arg25 : W8 m ρ c (Proc.devRef .tc main_arg25) = (A25 m c) :=
  (after_of_writes_eq hostOps3_1 _ hostOps3_1_writes (by decide)).trans (rd_7_main_arg25 m ρ c)
theorem rd_8_main_arg26 : W8 m ρ c (Proc.devRef .tc main_arg26) = (A26 m c) :=
  (after_of_writes_eq hostOps3_1 _ hostOps3_1_writes (by decide)).trans (rd_7_main_arg26 m ρ c)
theorem rd_8_main_arg27 : W8 m ρ c (Proc.devRef .tc main_arg27) = (A27 m c) :=
  (after_of_writes_eq hostOps3_1 _ hostOps3_1_writes (by decide)).trans (rd_7_main_arg27 m ρ c)
theorem rd_8_main_arg28 : W8 m ρ c (Proc.devRef .tc main_arg28) = (A28 m c) :=
  (after_of_writes_eq hostOps3_1 _ hostOps3_1_writes (by decide)).trans (rd_7_main_arg28 m ρ c)
theorem rd_8_main_arg3 : W8 m ρ c (Proc.devRef .tc main_arg3) = (A3 m c) :=
  (after_of_writes_eq hostOps3_1 _ hostOps3_1_writes (by decide)).trans (rd_7_main_arg3 m ρ c)
theorem rd_8_main_v141 : W8 m ρ c (Proc.devRef .tc main_v141) = Cert.ReferenceIdeal.ReadP.val_main_v162 (F := Ideal) (A0 m c) (A1 m c) (A2 m c) (A4 m c) (A5 m c) (A6 m c) (A7 m c) (A8 m c) (A9 m c) (A10 m c) (A11 m c) (A12 m c) (A20 m c) (A21 m c) (A22 m c) :=
  (after_of_writes_eq hostOps3_1 _ hostOps3_1_writes (by decide)).trans (rd_7_main_v141 m ρ c)
theorem rd_8_main_v142 : W8 m ρ c (Proc.devRef .tc main_v142) = Cert.ReferenceIdeal.ReadP.val_main_v163 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  hostOps3_1_main_v142 (W7 m ρ c) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) (rd_7_main_v94 m ρ c)
theorem rd_8_main_v14_0 : W8 m ρ c (Proc.devRef .tc main_v14_0) = Cert.ReferenceIdeal.ReadP.val_main_v7 (F := Ideal) (A2 m c) (A5 m c) (A6 m c) :=
  (after_of_writes_eq hostOps3_1 _ hostOps3_1_writes (by decide)).trans (rd_7_main_v14_0 m ρ c)
theorem rd_8_main_v47 : W8 m ρ c (Proc.devRef .tc main_v47) = Cert.ReferenceIdeal.ReadP.val_main_v115 (F := Ideal) (A1 m c) (A4 m c) :=
  (after_of_writes_eq hostOps3_1 _ hostOps3_1_writes (by decide)).trans (rd_7_main_v47 m ρ c)

/-! ### After hostOps3_2 -/

theorem rd_9_main_arg0 : W9 m ρ c (Proc.devRef .tc main_arg0) = (A0 m c) :=
  (after_of_writes_eq hostOps3_2 _ hostOps3_2_writes (by decide)).trans (rd_8_main_arg0 m ρ c)
theorem rd_9_main_arg23 : W9 m ρ c (Proc.devRef .tc main_arg23) = (A23 m c) :=
  (after_of_writes_eq hostOps3_2 _ hostOps3_2_writes (by decide)).trans (rd_8_main_arg23 m ρ c)
theorem rd_9_main_arg24 : W9 m ρ c (Proc.devRef .tc main_arg24) = (A24 m c) :=
  (after_of_writes_eq hostOps3_2 _ hostOps3_2_writes (by decide)).trans (rd_8_main_arg24 m ρ c)
theorem rd_9_main_arg25 : W9 m ρ c (Proc.devRef .tc main_arg25) = (A25 m c) :=
  (after_of_writes_eq hostOps3_2 _ hostOps3_2_writes (by decide)).trans (rd_8_main_arg25 m ρ c)
theorem rd_9_main_arg26 : W9 m ρ c (Proc.devRef .tc main_arg26) = (A26 m c) :=
  (after_of_writes_eq hostOps3_2 _ hostOps3_2_writes (by decide)).trans (rd_8_main_arg26 m ρ c)
theorem rd_9_main_arg27 : W9 m ρ c (Proc.devRef .tc main_arg27) = (A27 m c) :=
  (after_of_writes_eq hostOps3_2 _ hostOps3_2_writes (by decide)).trans (rd_8_main_arg27 m ρ c)
theorem rd_9_main_arg28 : W9 m ρ c (Proc.devRef .tc main_arg28) = (A28 m c) :=
  (after_of_writes_eq hostOps3_2 _ hostOps3_2_writes (by decide)).trans (rd_8_main_arg28 m ρ c)
theorem rd_9_main_arg3 : W9 m ρ c (Proc.devRef .tc main_arg3) = (A3 m c) :=
  (after_of_writes_eq hostOps3_2 _ hostOps3_2_writes (by decide)).trans (rd_8_main_arg3 m ρ c)
theorem rd_9_main_v142 : W9 m ρ c (Proc.devRef .tc main_v142) = Cert.ReferenceIdeal.ReadP.val_main_v163 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  (after_of_writes_eq hostOps3_2 _ hostOps3_2_writes (by decide)).trans (rd_8_main_v142 m ρ c)
theorem rd_9_main_v143 : W9 m ρ c (Proc.devRef .tc main_v143) = Cert.ReferenceIdeal.ReadP.val_main_v164 (F := Ideal) (A0 m c) (A1 m c) (A2 m c) (A4 m c) (A5 m c) (A6 m c) (A7 m c) (A8 m c) (A9 m c) (A10 m c) (A11 m c) (A12 m c) (A20 m c) (A21 m c) (A22 m c) :=
  hostOps3_2_main_v143 (W8 m ρ c) (A0 m c) (A1 m c) (A2 m c) (A4 m c) (A5 m c) (A6 m c) (A7 m c) (A8 m c) (A9 m c) (A10 m c) (A11 m c) (A12 m c) (A20 m c) (A21 m c) (A22 m c) (rd_8_main_v141 m ρ c)
theorem rd_9_main_v14_0 : W9 m ρ c (Proc.devRef .tc main_v14_0) = Cert.ReferenceIdeal.ReadP.val_main_v7 (F := Ideal) (A2 m c) (A5 m c) (A6 m c) :=
  (after_of_writes_eq hostOps3_2 _ hostOps3_2_writes (by decide)).trans (rd_8_main_v14_0 m ρ c)
theorem rd_9_main_v47 : W9 m ρ c (Proc.devRef .tc main_v47) = Cert.ReferenceIdeal.ReadP.val_main_v115 (F := Ideal) (A1 m c) (A4 m c) :=
  (after_of_writes_eq hostOps3_2 _ hostOps3_2_writes (by decide)).trans (rd_8_main_v47 m ρ c)

/-! ### After hostOps3_3 -/

theorem rd_10_main_arg0 : W10 m ρ c (Proc.devRef .tc main_arg0) = (A0 m c) :=
  (after_of_writes_eq hostOps3_3 _ hostOps3_3_writes (by decide)).trans (rd_9_main_arg0 m ρ c)
theorem rd_10_main_arg23 : W10 m ρ c (Proc.devRef .tc main_arg23) = (A23 m c) :=
  (after_of_writes_eq hostOps3_3 _ hostOps3_3_writes (by decide)).trans (rd_9_main_arg23 m ρ c)
theorem rd_10_main_arg24 : W10 m ρ c (Proc.devRef .tc main_arg24) = (A24 m c) :=
  (after_of_writes_eq hostOps3_3 _ hostOps3_3_writes (by decide)).trans (rd_9_main_arg24 m ρ c)
theorem rd_10_main_arg25 : W10 m ρ c (Proc.devRef .tc main_arg25) = (A25 m c) :=
  (after_of_writes_eq hostOps3_3 _ hostOps3_3_writes (by decide)).trans (rd_9_main_arg25 m ρ c)
theorem rd_10_main_arg26 : W10 m ρ c (Proc.devRef .tc main_arg26) = (A26 m c) :=
  (after_of_writes_eq hostOps3_3 _ hostOps3_3_writes (by decide)).trans (rd_9_main_arg26 m ρ c)
theorem rd_10_main_arg27 : W10 m ρ c (Proc.devRef .tc main_arg27) = (A27 m c) :=
  (after_of_writes_eq hostOps3_3 _ hostOps3_3_writes (by decide)).trans (rd_9_main_arg27 m ρ c)
theorem rd_10_main_arg28 : W10 m ρ c (Proc.devRef .tc main_arg28) = (A28 m c) :=
  (after_of_writes_eq hostOps3_3 _ hostOps3_3_writes (by decide)).trans (rd_9_main_arg28 m ρ c)
theorem rd_10_main_v142 : W10 m ρ c (Proc.devRef .tc main_v142) = Cert.ReferenceIdeal.ReadP.val_main_v163 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  (after_of_writes_eq hostOps3_3 _ hostOps3_3_writes (by decide)).trans (rd_9_main_v142 m ρ c)
theorem rd_10_main_v143 : W10 m ρ c (Proc.devRef .tc main_v143) = Cert.ReferenceIdeal.ReadP.val_main_v164 (F := Ideal) (A0 m c) (A1 m c) (A2 m c) (A4 m c) (A5 m c) (A6 m c) (A7 m c) (A8 m c) (A9 m c) (A10 m c) (A11 m c) (A12 m c) (A20 m c) (A21 m c) (A22 m c) :=
  (after_of_writes_eq hostOps3_3 _ hostOps3_3_writes (by decide)).trans (rd_9_main_v143 m ρ c)
theorem rd_10_main_v144 : W10 m ρ c (Proc.devRef .tc main_v144) = Cert.ReferenceIdeal.ReadP.val_main_v165 (F := Ideal) (A3 m c) :=
  hostOps3_3_main_v144 (W9 m ρ c) (A3 m c) (rd_9_main_arg3 m ρ c)
theorem rd_10_main_v14_0 : W10 m ρ c (Proc.devRef .tc main_v14_0) = Cert.ReferenceIdeal.ReadP.val_main_v7 (F := Ideal) (A2 m c) (A5 m c) (A6 m c) :=
  (after_of_writes_eq hostOps3_3 _ hostOps3_3_writes (by decide)).trans (rd_9_main_v14_0 m ρ c)
theorem rd_10_main_v47 : W10 m ρ c (Proc.devRef .tc main_v47) = Cert.ReferenceIdeal.ReadP.val_main_v115 (F := Ideal) (A1 m c) (A4 m c) :=
  (after_of_writes_eq hostOps3_3 _ hostOps3_3_writes (by decide)).trans (rd_9_main_v47 m ρ c)

/-! ### After hostOps3_4 -/

theorem rd_11_main_arg27 : W11 m ρ c (Proc.devRef .tc main_arg27) = (A27 m c) :=
  (after_of_writes_eq hostOps3_4 _ hostOps3_4_writes (by decide)).trans (rd_10_main_arg27 m ρ c)
theorem rd_11_main_v14_0 : W11 m ρ c (Proc.devRef .tc main_v14_0) = Cert.ReferenceIdeal.ReadP.val_main_v7 (F := Ideal) (A2 m c) (A5 m c) (A6 m c) :=
  (after_of_writes_eq hostOps3_4 _ hostOps3_4_writes (by decide)).trans (rd_10_main_v14_0 m ρ c)
theorem rd_11_main_v156 : W11 m ρ c (Proc.devRef .tc main_v156) = Cert.ReferenceIdeal.ReadP.val_main_v177 (F := Ideal) (A0 m c) (A1 m c) (A2 m c) (A3 m c) (A4 m c) (A5 m c) (A6 m c) (A7 m c) (A8 m c) (A9 m c) (A10 m c) (A11 m c) (A12 m c) (A20 m c) (A21 m c) (A22 m c) (A23 m c) (A24 m c) :=
  hostOps3_4_main_v156 (W10 m ρ c) (A0 m c) (A1 m c) (A2 m c) (A3 m c) (A4 m c) (A5 m c) (A6 m c) (A7 m c) (A8 m c) (A9 m c) (A10 m c) (A11 m c) (A12 m c) (A20 m c) (A21 m c) (A22 m c) (A23 m c) (A24 m c) (rd_10_main_arg23 m ρ c) (rd_10_main_arg24 m ρ c) (rd_10_main_v143 m ρ c) (rd_10_main_v144 m ρ c) (rd_10_main_v47 m ρ c)
theorem rd_11_main_v157 : W11 m ρ c (Proc.devRef .tc main_v157) = Cert.ReferenceIdeal.ReadP.val_main_v178 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  hostOps3_4_main_v157 (W10 m ρ c) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) (rd_10_main_arg0 m ρ c) (rd_10_main_v142 m ρ c)
theorem rd_11_main_v158 : W11 m ρ c (Proc.devRef .tc main_v158) = lnw2 m c :=
  (raw_v158 (W10 m ρ c)).trans (by rw [rd_10_main_arg25 m ρ c])
theorem rd_11_main_v159 : W11 m ρ c (Proc.devRef .tc main_v159) = lnb2 m c :=
  (raw_v159 (W10 m ρ c)).trans (by rw [rd_10_main_arg26 m ρ c])
theorem rd_11_main_v160 : W11 m ρ c (Proc.devRef .tc main_v160) = bo2 m c :=
  (raw_v160 (W10 m ρ c)).trans (by rw [rd_10_main_arg28 m ρ c])

/-! ### After R3 -/

theorem rd_12_main_v157 : W12 m ρ c (Proc.devRef .tc main_v157) = Cert.ReferenceIdeal.ReadP.val_main_v178 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) :=
  (W12_of_ne m ρ c main_v157 (by decide)).trans (rd_11_main_v157 m ρ c)
set_option maxHeartbeats 4000000 in
theorem rd_12_main_v161 : W12 m ρ c (Proc.devRef .tc main_v161) = Cert.ReferenceIdeal.ReadP.val_main_v208 (F := Ideal) (A0 m c) (A1 m c) (A2 m c) (A3 m c) (A4 m c) (A5 m c) (A6 m c) (A7 m c) (A8 m c) (A9 m c) (A10 m c) (A11 m c) (A12 m c) (A20 m c) (A21 m c) (A22 m c) (A23 m c) (A24 m c) (A25 m c) (A26 m c) (A27 m c) (A28 m c) :=
  (W12_arr m ρ c 6).trans ((Cert.KernelIdeal.Val.final3_6 (V11 m ρ) c).trans (by
    have e0 : V11 m ρ c (Pipeline.arrRef spec3 0) = Cert.ReferenceIdeal.ReadP.val_main_v177 (F := Ideal) (A0 m c) (A1 m c) (A2 m c) (A3 m c) (A4 m c) (A5 m c) (A6 m c) (A7 m c) (A8 m c) (A9 m c) (A10 m c) (A11 m c) (A12 m c) (A20 m c) (A21 m c) (A22 m c) (A23 m c) (A24 m c) := rd_11_main_v156 m ρ c
    have e1 : V11 m ρ c (Pipeline.arrRef spec3 1) = Cert.ReferenceIdeal.ReadP.val_main_v7 (F := Ideal) (A2 m c) (A5 m c) (A6 m c) := rd_11_main_v14_0 m ρ c
    have e2 : V11 m ρ c (Pipeline.arrRef spec3 2) = lnw2 m c := rd_11_main_v158 m ρ c
    have e3 : V11 m ρ c (Pipeline.arrRef spec3 3) = lnb2 m c := rd_11_main_v159 m ρ c
    have e4 : V11 m ρ c (Pipeline.arrRef spec3 4) = (A27 m c) := rd_11_main_arg27 m ρ c
    have e5 : V11 m ρ c (Pipeline.arrRef spec3 5) = bo2 m c := rd_11_main_v160 m ρ c
    rw [e0, e1, e2, e3, e4, e5]
    have hw : (fun k : Fin 128 => (lnw2 m c) (ix2 (0 : Fin 1) k)) = (fun k => (A25 m c) (ix1 k)) := funext fun k => row_cast _ k
    have hb : (fun k : Fin 128 => (lnb2 m c) (ix2 (0 : Fin 1) k)) = (fun k => (A26 m c) (ix1 k)) := funext fun k => row_cast _ k
    have ho : (fun k : Fin 128 => (bo2 m c) (ix2 (0 : Fin 1) k)) = (fun k => (A28 m c) (ix1 k)) := funext fun k => row_cast _ k
    rw [hw, hb, ho]
    funext i
    obtain ⟨r, j, rfl⟩ : ∃ (r : Fin 400000) (j : Fin 128), i = ix2 r j := ⟨i 0, i 1, eq_ix2 i⟩
    exact (Cert.Bridge.LN.outK_eq_outR _ _ _ _ _ _ r j).trans (Cert.Bridge.Seed.tail_eq (A0 m c) (A1 m c) (A2 m c) (A3 m c) (A4 m c) (A5 m c) (A6 m c) (A7 m c) (A8 m c) (A9 m c) (A10 m c) (A11 m c) (A12 m c) (A20 m c) (A21 m c) (A22 m c) (A23 m c) (A24 m c) (A25 m c) (A26 m c) (A27 m c) (A28 m c) r j).symm))

end Cert.Bridge.Cut

end
-- ==== Proof.Br.KRun.lean ====
import proofs.«174758_j6468220748546_1_alg».proof.Proof.KI.Run
import proofs.«174758_j6468220748546_1_alg».proof.Proof.KI.Args
import Idealize.ShloMosaic.PureOps.Ideal

set_option maxRecDepth 16384

noncomputable section

namespace Cert.Bridge

open Cert.KernelIdeal Cert.KernelIdeal.Gen Cert.KernelIdeal.Fr
open Idealize.ShloMosaic Idealize.ShloMosaic.TcCoe
open Idealize.SL Idealize.SL.Sem

/-- The idealized kernel's run, with its two results named: from any memory with zero counters every weakly fair
    execution of @main terminates, nothing faulting; the node output and the edge output end at the last boundary's
    contents of their buffers (the fold `W12` read there), and the 29 argument arrays end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v157) = W12 m ρ c (Proc.devRef .tc main_v157)
      ∧ r.2.mem ((c.tc : Thread nD τ).loc main_v161) = W12 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run (defs (F := Ideal)) _ _).mono (fun r h c =>
    ⟨h c _ (mem_uc main_v157 (by decide)), h c _ (mem_uc main_v161 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c),
      (h c _ (mem_uc main_arg14 (by decide))).trans (W12_main_arg14 m ρ c),
      (h c _ (mem_uc main_arg15 (by decide))).trans (W12_main_arg15 m ρ c),
      (h c _ (mem_uc main_arg16 (by decide))).trans (W12_main_arg16 m ρ c),
      (h c _ (mem_uc main_arg17 (by decide))).trans (W12_main_arg17 m ρ c),
      (h c _ (mem_uc main_arg18 (by decide))).trans (W12_main_arg18 m ρ c),
      (h c _ (mem_uc main_arg19 (by decide))).trans (W12_main_arg19 m ρ c),
      (h c _ (mem_uc main_arg20 (by decide))).trans (W12_main_arg20 m ρ c),
      (h c _ (mem_uc main_arg21 (by decide))).trans (W12_main_arg21 m ρ c),
      (h c _ (mem_uc main_arg22 (by decide))).trans (W12_main_arg22 m ρ c),
      (h c _ (mem_uc main_arg23 (by decide))).trans (W12_main_arg23 m ρ c),
      (h c _ (mem_uc main_arg24 (by decide))).trans (W12_main_arg24 m ρ c),
      (h c _ (mem_uc main_arg25 (by decide))).trans (W12_main_arg25 m ρ c),
      (h c _ (mem_uc main_arg26 (by decide))).trans (W12_main_arg26 m ρ c),
      (h c _ (mem_uc main_arg27 (by decide))).trans (W12_main_arg27 m ρ c),
      (h c _ (mem_uc main_arg28 (by decide))).trans (W12_main_arg28 m ρ c)⟩) (run_main (F := Ideal) m ρ)

end Cert.Bridge

end
-- ==== Proof.lean ====
/-
  The certificate of the graph-network layer: four pipelined kernels (the fused node projections; the two edge projections;
  the gate and the gated value; the layer norm, silu, linear map and residual) among host gathers and scatter-adds, against a
  reference written with plain matrix products.

  Frames: each of the kernel's two printed programs (word level, idealized) runs its host stretches and its four regions to
  the end from any memory, nothing faulting, the arguments unchanged (Proof/K, Proof/KI: per region what each window's
  buffer holds after the body and the body's run; then the contents at every boundary, and the launch over the segments);
  the reference's frame is its run with the results dropped.

  Values, over the extended reals: the contents at the last boundary, read at the two result buffers, are the reference's
  last two stages of the same arguments (Proof/Br/Cut: boundary by boundary; the regions' results by the seed lemmas, the
  host stretches operation for operation), the one algebraic step being that a product with the reciprocal square root is
  the quotient by the square root wherever the argument is positive, which the variance plus its offset always is.
-/
import proofs.«174758_j6468220748546_1_alg».proof.Defs
import proofs.«174758_j6468220748546_1_alg».proof.Proof.Gen.Kernel
import proofs.«174758_j6468220748546_1_alg».proof.Proof.Gen.KernelIdeal
import proofs.«174758_j6468220748546_1_alg».proof.Proof.Gen.ReferenceIdeal
import proofs.«174758_j6468220748546_1_alg».proof.Proof.RefRun
import proofs.«174758_j6468220748546_1_alg».proof.Proof.Gen.Pre_finite_inputs
import proofs.«174758_j6468220748546_1_alg».proof.Proof.K.Frame
import proofs.«174758_j6468220748546_1_alg».proof.Proof.KI.Frame
import proofs.«174758_j6468220748546_1_alg».proof.Proof.Br.Cut
import proofs.«174758_j6468220748546_1_alg».proof.Proof.Br.KRun
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Fr.frame (F := Bits) m ρ

/-- The idealized program's frame. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RunH.run m ρ)

/-- The ideal pass rewrote nothing. -/
theorem preserves : Cert.preserves_Kernel_KernelIdeal := trivial

open Cert.KernelIdeal Cert.KernelIdeal.Gen Cert.KernelIdeal.Fr in
/-- Both idealized programs end with the same two result arrays: the kernel's are the contents at its last boundary, and
    those are the reference's last stages of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W12 m ρ c (Proc.devRef .tc main_v157), fun c => W12 m ρ c (Proc.devRef .tc main_v161), ?_, ?_⟩
  · exact Cert.Bridge.kernel_run m ρ
  · refine (θ_run Cert.ReferenceIdeal.defs _ _).mono (fun r h c => ⟨(h c).1.trans ?_, (h c).2.1.trans ?_, (h c).2.2⟩)
      (Cert.ReferenceIdeal.RunH.run m' ρ')
    · rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1]
      exact (Cert.Bridge.Cut.rd_12_main_v157 m ρ c).symm
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2]
      exact (Cert.Bridge.Cut.rd_12_main_v161 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
